-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3200x512 : Shape := ⟨3, ![1, 3200, 512]⟩
abbrev S512x1024 : Shape := ⟨2, ![512, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S_ : Shape := ⟨0, ![]⟩

class Facts : Prop where
  bcast_S_S1x3200x512 : S_.BroadcastsInDim S1x3200x512 (![] : Fin 0 → Fin S1x3200x512.rank)
  reducesTo_S1x3200x512_S_d0_1_2 : S1x3200x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x2048 .f32) (main_arg5 : FVec F S2048 .f32) (main_arg6 : FVec F S2048x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_v33

def fn {F : FTy → Type} [FloatOps F] (main_arg0 : FVec F S1x3200x512 .f32) (main_arg1 : FVec F S1x3200x512 .f32) (main_arg2 : FVec F S512x1024 .f32) (main_arg3 : FVec F S1024 .f32) (main_arg4 : FVec F S1024x2048 .f32) (main_arg5 : FVec F S2048 .f32) (main_arg6 : FVec F S2048x1024 .f32) (main_arg7 : FVec F S1024 .f32) : IVec S_ 1 :=
  let main_v0 : FVec F S1x3200x512 .f32 := Host.absf main_arg0
  let main_cst : FVec F S_ .f32 := constant S_ .f32 0x7F800000#32
  let main_v1 : FVec F S1x3200x512 .f32 := broadcastInDim S1x3200x512 ![] bcast_S_S1x3200x512 main_cst
  let main_v2 : IVec S1x3200x512 1 := cmpf .olt main_v0 main_v1
  let main_c : IVec S_ 1 := constantI S_ 1 1#1
  let main_v3 : IVec S_ 1 := (fun x v => Host.reduce IntOp.andi x v reducesTo_S1x3200x512_S_d0_1_2 h_S_) main_v2 main_c
  let main_v4 : FVec F S1x3200x512 .f32 := Host.absf main_arg1
  let main_cst_0 : FVec F S_ .f32 := constant S_ .f32 0x7F800000#32
  let main_v5 : FVec F S1x3200x512 .f32 := broadcastInDim S1x3200x512 ![] bcast_S_S1x3200x512 main_cst_0
  let main_v6 : IVec S1x3200x512 1 := cmpf .olt main_v4 main_v5
  let main_c_1 : IVec S_ 1 := constantI S_ 1 1#1
  let main_v7 : IVec S_ 1 := (fun x v => Host.reduce IntOp.andi x v reducesTo_S1x3200x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S1x3200x512 : Shape := ⟨3, ![1, 3200, 512]⟩
abbrev S512x1024 : Shape := ⟨2, ![512, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S3200x512 : Shape := ⟨2, ![3200, 512]⟩
abbrev S3200x8x64 : Shape := ⟨3, ![3200, 8, 64]⟩
abbrev S8x3200x64 : Shape := ⟨3, ![8, 3200, 64]⟩
abbrev S3200x1024 : Shape := ⟨2, ![3200, 1024]⟩
abbrev S3200x3200 : Shape := ⟨2, ![3200, 3200]⟩
abbrev S8x320x64 : Shape := ⟨3, ![8, 320, 64]⟩
abbrev S320x512 : Shape := ⟨2, ![320, 512]⟩
abbrev S320x1024 : Shape := ⟨2, ![320, 1024]⟩
abbrev S320x3200 : Shape := ⟨2, ![320, 3200]⟩
abbrev S1x320x64 : Shape := ⟨3, ![1, 320, 64]⟩
abbrev S320x64 : Shape := ⟨2, ![320, 64]⟩
abbrev S1x3200x64 : Shape := ⟨3, ![1, 3200, 64]⟩
abbrev S3200x64 : Shape := ⟨2, ![3200, 64]⟩
abbrev S320 : Shape := ⟨1, ![320]⟩
abbrev S320x1 : Shape := ⟨2, ![320, 1]⟩
abbrev S3200 : Shape := ⟨1, ![3200]⟩
abbrev S3200x1 : Shape := ⟨2, ![3200, 1]⟩
abbrev S64x3200 : Shape := ⟨2, ![64, 3200]⟩
abbrev S1x3200x1024 : Shape := ⟨3, ![1, 3200, 1024]⟩

abbrev nBuf : Space → Nat
  | .hbm => 14
  | .vmem => 9
  | .smem => 0
  | _ => 0

abbrev bufTy : (tb : Table) → Fin (tcTables nBuf tb) → BufTy
  | .hbm, ⟨0, _⟩ => ⟨S1x3200x512, .f32⟩
  | .hbm, ⟨1, _⟩ => ⟨S1x3200x512, .f32⟩
  | .hbm, ⟨2, _⟩ => ⟨S512x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S3200x512, .f32⟩
  | .hbm, ⟨9, _⟩ => ⟨S3200x8x64, .f32⟩
  | .hbm, ⟨10, _⟩ => ⟨S8x3200x64, .f32⟩
  | .hbm, ⟨11, _⟩ => ⟨S3200x1024, .f32⟩
  | .hbm, ⟨12, _⟩ => ⟨S3200x3200, .f32⟩
  | .hbm, ⟨13, _⟩ => ⟨S1x3200x1024, .f32⟩
  | .local _ .vmem, ⟨0, _⟩ => ⟨S8x320x64, .f32⟩
  | .local _ .vmem, ⟨1, _⟩ => ⟨S8x320x64, .f32⟩
  | .local _ .vmem, ⟨2, _⟩ => ⟨S8x3200x64, .f32⟩
  | .local _ .vmem, ⟨3, _⟩ => ⟨S320x512, .f32⟩
  | .local _ .vmem, ⟨4, _⟩ => ⟨S320x512, .f32⟩
  | .local _ .vmem, ⟨5, _⟩ => ⟨S320x1024, .f32⟩
  | .local _ .vmem, ⟨6, _⟩ => ⟨S320x1024, .f32⟩
  | .local _ .vmem, ⟨7, _⟩ => ⟨S320x3200, .f32⟩
  | .local _ .vmem, ⟨8, _⟩ => ⟨S320x3200, .f32⟩
  | _, _ => ⟨S1x3200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x320x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3200x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x3200x512_S3200x512 : S1x3200x512.ShapeCasts S3200x512
  shapeCasts_S3200x512_S3200x8x64 : S3200x512.ShapeCasts S3200x8x64
  transposes_S3200x8x64_S8x3200x64_1_0_2 : S3200x8x64.Transposes [1, 0, 2] S8x3200x64
  iota_S320x3200_d0_w32 : S320x3200.Iotas .tc 32 [0]
  iota_S320x3200_d1_w32 : S320x3200.Iotas .tc 32 [1]
  natLt_1_32 : 1 < 32
  inb_S8x320x64_S1x320x64_0_0_0 : ∀ a, (![0, 0, 0] : Fin 3 → Nat) a + S1x320x64.size a ≤ S8x320x64.size a
  h_S1x320x64 : 0 < S1x320x64.numel
  shapeCasts_S1x320x64_S320x64 : S1x320x64.ShapeCasts S320x64
  inb_S8x3200x64_S1x3200x64_0_0_0 : ∀ a, (![0, 0, 0] : Fin 3 → Nat) a + S1x3200x64.size a ≤ S8x3200x64.size a
  h_S1x3200x64 : 0 < S1x3200x64.numel
  shapeCasts_S1x3200x64_S3200x64 : S1x3200x64.ShapeCasts S3200x64
  reduces_S320x64_S320 : S320x64.Reduces [1] S320
  shapeCasts_S320_S320x1 : S320.ShapeCasts S320x1
  reduces_S3200x64_S3200 : S3200x64.Reduces [1] S3200
  shapeCasts_S3200_S3200x1 : S3200.ShapeCasts S3200x1
  broadcasts_S320x1_S320x64 : S320x1.Broadcasts S320x64
  broadcasts_S3200x1_S3200x64 : S3200x1.Broadcasts S3200x64
  transposes_S3200x64_p1_0_S64x3200 : S3200x64.Transposes [1, 0] S64x3200
  bitsLt_bf16_f32 : FTy.bits .bf16 < FTy.bits .f32
  inb_S320x1024_S320x64_0_0 : ∀ a, (![0, 0] : Fin 2 → Nat) a + S320x64.size a ≤ S320x1024.size a
  h_S320x64 : 0 < S320x64.numel
  inb_S8x320x64_S1x320x64_1_0_0 : ∀ a, (![1, 0, 0] : Fin 3 → Nat) a + S1x320x64.size a ≤ S8x320x64.size a
  inb_S8x3200x64_S1x3200x64_1_0_0 : ∀ a, (![1, 0, 0] : Fin 3 → Nat) a + S1x3200x64.size a ≤ S8x3200x64.size a
  inb_S320x1024_S320x64_0_64 : ∀ a, (![0, 64] : Fin 2 → Nat) a + S320x64.size a ≤ S320x1024.size a
  inb_S8x320x64_S1x320x64_2_0_0 : ∀ a, (![2, 0, 0] : Fin 3 → Nat) a + S1x320x64.size a ≤ S8x320x64.size a
  inb_S8x3200x64_S1x3200x64_2_0_0 : ∀ a, (![2, 0, 0] : Fin 3 → Nat) a + S1x3200x64.size a ≤ S8x3200x64.size a
  inb_S320x1024_S320x64_0_128 : ∀ a, (![0, 128] : Fin 2 → Nat) a + S320x64.size a ≤ S320x1024.size a
  inb_S8x320x64_S1x320x64_3_0_0 : ∀ a, (![3, 0, 0] : Fin 3 → Nat) a + S1x320x64.size a ≤ S8x320x64.size a
  inb_S8x3200x64_S1x3200x64_3_0_0 : ∀ a, (![3, 0, 0] : Fin 3 → Nat) a + S1x3200x64.size a ≤ S8x3200x64.size a
  inb_S320x1024_S320x64_0_192 : ∀ a, (![0, 192] : Fin 2 → Nat) a + S320x64.size a ≤ S320x1024.size a
  inb_S8x320x64_S1x320x64_4_0_0 : ∀ a, (![4, 0, 0] : Fin 3 → Nat) a + S1x320x64.size a ≤ S8x320x64.size a
  inb_S8x3200x64_S1x3200x64_4_0_0 : ∀ a, (![4, 0, 0] : Fin 3 → Nat) a + S1x3200x64.size a ≤ S8x3200x64.size a
  inb_S320x1024_S320x64_0_256 : ∀ a, (![0, 256] : Fin 2 → Nat) a + S320x64.size a ≤ S320x1024.size a
  inb_S8x320x64_S1x320x64_5_0_0 : ∀ a, (![5, 0, 0] : Fin 3 → Nat) a + S1x320x64.size a ≤ S8x320x64.size a
  inb_S8x3200x64_S1x3200x64_5_0_0 : ∀ a, (![5, 0, 0] : Fin 3 → Nat) a + S1x3200x64.size a ≤ S8x3200x64.size a
  inb_S320x1024_S320x64_0_320 : ∀ a, (![0, 320] : Fin 2 → Nat) a + S320x64.size a ≤ S320x1024.size a
  inb_S8x320x64_S1x320x64_6_0_0 : ∀ a, (![6, 0, 0] : Fin 3 → Nat) a + S1x320x64.size a ≤ S8x320x64.size a
  inb_S8x3200x64_S1x3200x64_6_0_0 : ∀ a, (![6, 0, 0] : Fin 3 → Nat) a + S1x3200x64.size a ≤ S8x3200x64.size a
  inb_S320x1024_S320x64_0_384 : ∀ a, (![0, 384] : Fin 2 → Nat) a + S320x64.size a ≤ S320x1024.size a
  inb_S8x320x64_S1x320x64_7_0_0 : ∀ a, (![7, 0, 0] : Fin 3 → Nat) a + S1x320x64.size a ≤ S8x320x64.size a
  inb_S8x3200x64_S1x3200x64_7_0_0 : ∀ a, (![7, 0, 0] : Fin 3 → Nat) a + S1x3200x64.size a ≤ S8x3200x64.size a
  inb_S320x1024_S320x64_0_448 : ∀ a, (![0, 448] : Fin 2 → Nat) a + S320x64.size a ≤ S320x1024.size a
  inb_S320x512_S320x512_0_0 : ∀ a, (![0, 0] : Fin 2 → Nat) a + S320x512.size a ≤ S320x512.size a
  h_S320x512 : 0 < S320x512.numel
  shapeCasts_S320x512_S320x512 : S320x512.ShapeCasts S320x512
  inb_S320x1024_S320x512_0_512 : ∀ a, (![0, 512] : Fin 2 → Nat) a + S320x512.size a ≤ S320x1024.size a
  reduces_S320x3200_S320 : S320x3200.Reduces [1] S320
  broadcasts_S320x1_S320x3200 : S320x1.Broadcasts S320x3200
  inb_S320x3200_S320x3200_0_0 : ∀ a, (![0, 0] : Fin 2 → Nat) a + S320x3200.size a ≤ S320x3200.size a
  h_S320x3200 : 0 < S320x3200.numel
  shapeCasts_S3200x1024_S1x3200x1024 : S3200x1024.ShapeCasts S1x3200x1024
  dot_S320x64_S64x3200_S320x3200_1_0_0_1_n_n_wf : DotDims.WF S320x64 S64x3200 S320x3200 [1] [0] [0] [1] [] []
  dot_S320x3200_S3200x64_S320x64_1_0_0_1_n_n_wf : DotDims.WF S320x3200 S3200x64 S320x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x320x64.size a ≤ S8x3200x64.size a
  hwx0_0 : ∀ i : grid0.Coords, EltTy.bits .f32 = 32 ∨ (Rect.block (s := S8x3200x64) S8x320x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3200x64.size a ≤ S8x3200x64.size a
  hwx0_1 : ∀ i : grid0.Coords, EltTy.bits .f32 = 32 ∨ (Rect.block (s := S8x3200x64) S8x3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S320x512.size a ≤ S3200x512.size a
  hwx0_2 : ∀ i : grid0.Coords, EltTy.bits .f32 = 32 ∨ (Rect.block (s := S3200x512) S320x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S320x1024.size a ≤ S3200x1024.size a
  hwx0_3 : ∀ i : grid0.Coords, EltTy.bits .f32 = 32 ∨ (Rect.block (s := S3200x1024) S320x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S320x3200.size a ≤ S3200x3200.size a
  hwx0_4 : ∀ i : grid0.Coords, EltTy.bits .f32 = 32 ∨ (Rect.block (s := S3200x3200) S320x3200.size (cc0_transform_4 i) (hinb0_4 i)).WholeWords (EltTy.packing .f32)

variable [Facts₀]

def dot_S320x64_S64x3200_S320x3200_1_0_0_1_n_n : DotDims S320x64 S64x3200 S320x3200 where
  lhsContracting := [1]
  rhsContracting := [0]
  lhsNonContracting := [0]
  rhsNonContracting := [1]
  lhsBatch := []
  rhsBatch := []
  wf := dot_S320x64_S64x3200_S320x3200_1_0_0_1_n_n_wf
def dot_S320x3200_S3200x64_S320x64_1_0_0_1_n_n : DotDims S320x3200 S3200x64 S320x64 where
  lhsContracting := [1]
  rhsContracting := [0]
  lhsNonContracting := [0]
  rhsNonContracting := [1]
  lhsBatch := []
  rhsBatch := []
  wf := dot_S320x3200_S3200x64_S320x64_1_0_0_1_n_n_wf

abbrev win0_0 : Pipeline.Window sig grid0 :=
  Pipeline.Window.ofSpec (Memref.whole main_v2) S8x320x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x3200x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S320x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S320x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S320x3200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x3200x512 : Shape := ⟨3, ![1, 3200, 512]⟩
abbrev S512x1024 : Shape := ⟨2, ![512, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1x3200x1024 : Shape := ⟨3, ![1, 3200, 1024]⟩
abbrev S1x1x1024 : Shape := ⟨3, ![1, 1, 1024]⟩
abbrev S_ : Shape := ⟨0, ![]⟩
abbrev S1x3200x2048 : Shape := ⟨3, ![1, 3200, 2048]⟩
abbrev S1x1x2048 : Shape := ⟨3, ![1, 1, 2048]⟩
abbrev S1x3200x2x8x64 : Shape := ⟨5, ![1, 3200, 2, 8, 64]⟩
abbrev S2x1x8x3200x64 : Shape := ⟨5, ![2, 1, 8, 3200, 64]⟩
abbrev S1x1x8x3200x64 : Shape := ⟨5, ![1, 1, 8, 3200, 64]⟩
abbrev S1x8x3200x64 : Shape := ⟨4, ![1, 8, 3200, 64]⟩
abbrev S1x3200x8x64 : Shape := ⟨4, ![1, 3200, 8, 64]⟩
abbrev S1x8x3200 : Shape := ⟨3, ![1, 8, 3200]⟩
abbrev S1x8x3200x1 : Shape := ⟨4, ![1, 8, 3200, 1]⟩
abbrev S1x8x3200x3200 : Shape := ⟨4, ![1, 8, 3200, 3200]⟩
abbrev S3200 : Shape := ⟨1, ![3200]⟩
abbrev S1x3200 : Shape := ⟨2, ![1, 3200]⟩
abbrev S3200x1 : Shape := ⟨2, ![3200, 1]⟩
abbrev S3200x3200 : Shape := ⟨2, ![3200, 3200]⟩
abbrev S1x1x3200x3200 : Shape := ⟨4, ![1, 1, 3200, 3200]⟩
abbrev S1x3200x3200 : Shape := ⟨3, ![1, 3200, 3200]⟩

abbrev nBuf : Space → Nat
  | .hbm => 177
  | .vmem => 0
  | .smem => 0
  | _ => 0

abbrev hbmTy0_0 (i : Nat) : BufTy := match i % 128 with
  | 0 => ⟨S1x3200x512, .f32⟩
  | 1 => ⟨S1x3200x512, .f32⟩
  | 2 => ⟨S512x1024, .f32⟩
  | 3 => ⟨S1024, .f32⟩
  | 4 => ⟨S1024x2048, .f32⟩
  | 5 => ⟨S2048, .f32⟩
  | 6 => ⟨S2048x1024, .f32⟩
  | 7 => ⟨S1024, .f32⟩
  | 8 => ⟨S1x3200x1024, .f32⟩
  | 9 => ⟨S1x1x1024, .f32⟩
  | 10 => ⟨S1x3200x1024, .f32⟩
  | 11 => ⟨S1x3200x1024, .f32⟩
  | 12 => ⟨S_, .f32⟩
  | 13 => ⟨S1x3200x1024, .f32⟩
  | 14 => ⟨S1x3200x1024, .f32⟩
  | 15 => ⟨S1x3200x2048, .f32⟩
  | 16 => ⟨S1x1x2048, .f32⟩
  | 17 => ⟨S1x3200x2048, .f32⟩
  | 18 => ⟨S1x3200x2048, .f32⟩
  | 19 => ⟨S_, .f32⟩
  | 20 => ⟨S1x3200x2048, .f32⟩
  | 21 => ⟨S1x3200x2048, .f32⟩
  | 22 => ⟨S1x3200x1024, .f32⟩
  | 23 => ⟨S1x1x1024, .f32⟩
  | 24 => ⟨S1x3200x1024, .f32⟩
  | 25 => ⟨S1x3200x1024, .f32⟩
  | 26 => ⟨S1x3200x2x8x64, .f32⟩
  | 27 => ⟨S2x1x8x3200x64, .f32⟩
  | 28 => ⟨S1x1x8x3200x64, .f32⟩
  | 29 => ⟨S1x8x3200x64, .f32⟩
  | 30 => ⟨S1x1x8x3200x64, .f32⟩
  | 31 => ⟨S1x8x3200x64, .f32⟩
  | 32 => ⟨S1x3200x8x64, .f32⟩
  | 33 => ⟨S1x8x3200x64, .f32⟩
  | 34 => ⟨S1x8x3200x64, .f32⟩
  | 35 => ⟨S_, .f32⟩
  | 36 => ⟨S1x8x3200, .f32⟩
  | 37 => ⟨S1x8x3200x1, .f32⟩
  | 38 => ⟨S1x8x3200x1, .f32⟩
  | 39 => ⟨S_, .f32⟩
  | 40 => ⟨S1x8x3200x1, .f32⟩
  | 41 => ⟨S1x8x3200x1, .f32⟩
  | 42 => ⟨S1x8x3200x64, .f32⟩
  | 43 => ⟨S1x8x3200x64, .f32⟩
  | 44 => ⟨S1x8x3200x64, .f32⟩
  | 45 => ⟨S_, .f32⟩
  | 46 => ⟨S1x8x3200, .f32⟩
  | 47 => ⟨S1x8x3200x1, .f32⟩
  | 48 => ⟨S1x8x3200x1, .f32⟩
  | 49 => ⟨S_, .f32⟩
  | 50 => ⟨S1x8x3200x1, .f32⟩
  | 51 => ⟨S1x8x3200x1, .f32⟩
  | 52 => ⟨S1x8x3200x64, .f32⟩
  | 53 => ⟨S1x8x3200x64, .f32⟩
  | 54 => ⟨S1x8x3200x64, .f32⟩
  | 55 => ⟨S_, .f32⟩
  | 56 => ⟨S1x8x3200, .f32⟩
  | 57 => ⟨S1x8x3200x1, .f32⟩
  | 58 => ⟨S1x8x3200x1, .f32⟩
  | 59 => ⟨S_, .f32⟩
  | 60 => ⟨S1x8x3200x1, .f32⟩
  | 61 => ⟨S1x8x3200x1, .f32⟩
  | 62 => ⟨S1x8x3200x64, .f32⟩
  | 63 => ⟨S1x8x3200x64, .f32⟩
  | 64 => ⟨S1x8x3200x3200, .f32⟩
  | 65 => ⟨S1x8x3200x3200, .f32⟩
  | 66 => ⟨S_, .f32⟩
  | 67 => ⟨S1x8x3200x3200, .f32⟩
  | 68 => ⟨S1x8x3200x3200, .f32⟩
  | 69 => ⟨S_, .f32⟩
  | 70 => ⟨S1x8x3200, .f32⟩
  | 71 => ⟨S_, .f32⟩
  | 72 => ⟨S1x8x3200, .f32⟩
  | 73 => ⟨S1x8x3200, .f32⟩
  | 74 => ⟨S1x8x3200x1, .f32⟩
  | 75 => ⟨S1x8x3200x3200, .f32⟩
  | 76 => ⟨S1x8x3200x3200, .f32⟩
  | 77 => ⟨S1x8x3200x3200, .f32⟩
  | 78 => ⟨S_, .f32⟩
  | 79 => ⟨S1x8x3200, .f32⟩
  | 80 => ⟨S1x8x3200x1, .f32⟩
  | 81 => ⟨S1x8x3200x3200, .f32⟩
  | 82 => ⟨S1x8x3200x3200, .f32⟩
  | 83 => ⟨S3200, .i32⟩
  | 84 => ⟨S3200, .i32⟩
  | 85 => ⟨S_, .i32⟩
  | 86 => ⟨S_, .i32⟩
  | 87 => ⟨S3200, .i32⟩
  | 88 => ⟨S3200, .i32⟩
  | 89 => ⟨S3200, .i32⟩
  | 90 => ⟨S_, .i32⟩
  | 91 => ⟨S3200, .i32⟩
  | 92 => ⟨S3200, .i1⟩
  | 93 => ⟨S3200, .i32⟩
  | 94 => ⟨S3200, .i32⟩
  | 95 => ⟨S_, .i32⟩
  | 96 => ⟨S3200, .i32⟩
  | 97 => ⟨S3200, .i1⟩
  | 98 => ⟨S3200, .i1⟩
  | 99 => ⟨S_, .i32⟩
  | 100 => ⟨S3200, .i32⟩
  | 101 => ⟨S3200, .i32⟩
  | 102 => ⟨S3200, .i32⟩
  | 103 => ⟨S_, .i32⟩
  | 104 => ⟨S3200, .i32⟩
  | 105 => ⟨S3200, .i32⟩
  | 106 => ⟨S1x3200, .i32⟩
  | 107 => ⟨S3200x1, .i32⟩
  | 108 => ⟨S3200x3200, .i32⟩
  | 109 => ⟨S3200x3200, .i32⟩
  | 110 => ⟨S3200x3200, .i1⟩
  | 111 => ⟨S1x3200, .i32⟩
  | 112 => ⟨S3200x1, .i32⟩
  | 113 => ⟨S_, .i32⟩
  | 114 => ⟨S3200x1, .i32⟩
  | 115 => ⟨S3200x1, .i32⟩
  | 116 => ⟨S3200x3200, .i32⟩
  | 117 => ⟨S3200x3200, .i32⟩
  | 118 => ⟨S3200x3200, .i1⟩
  | 119 => ⟨S3200x3200, .i1⟩
  | 120 => ⟨S3200x3200, .i1⟩
  | 121 => ⟨S1x3200, .i32⟩
  | 122 => ⟨S3200x1, .i32⟩
  | 123 => ⟨S3200x3200, .i32⟩
  | 124 => ⟨S3200x3200, .i32⟩
  | 125 => ⟨S3200x3200, .i1⟩
  | 126 => ⟨S3200x3200, .i1⟩
  | 127 => ⟨S3200x3200, .f32⟩
  | _ => ⟨S1x3200x512, .f32⟩

abbrev hbmTy0_1 (i : Nat) : BufTy := match i % 128 with
  | 0 => ⟨S1x1x3200x3200, .f32⟩
  | 1 => ⟨S1x8x3200x3200, .f32⟩
  | 2 => ⟨S1x8x3200x3200, .f32⟩
  | 3 => ⟨S1x8x3200x64, .f32⟩
  | 4 => ⟨S1x3200x8x64, .f32⟩
  | 5 => ⟨S1x3200x512, .f32⟩
  | 6 => ⟨S1x3200x8x64, .f32⟩
  | 7 => ⟨S1x3200x512, .f32⟩
  | 8 => ⟨S1x3200x1024, .f32⟩
  | 9 => ⟨S_, .f32⟩
  | 10 => ⟨S1x3200x3200, .f32⟩
  | 11 => ⟨S3200x3200, .f32⟩
  | 12 => ⟨S_, .f32⟩
  | 13 => ⟨S3200x3200, .f32⟩
  | 14 => ⟨S3200x3200, .f32⟩
  | 15 => ⟨S_, .f32⟩
  | 16 => ⟨S3200x3200, .f32⟩
  | 17 => ⟨S3200x3200, .i1⟩
  | 18 => ⟨S3200x3200, .f32⟩
  | 19 => ⟨S_, .f32⟩
  | 20 => ⟨S1x3200x3200, .f32⟩
  | 21 => ⟨S3200x3200, .f32⟩
  | 22 => ⟨S_, .f32⟩
  | 23 => ⟨S3200x3200, .f32⟩
  | 24 => ⟨S3200x3200, .f32⟩
  | 25 => ⟨S_, .f32⟩
  | 26 => ⟨S3200, .f32⟩
  | 27 => ⟨S_, .f32⟩
  | 28 => ⟨S3200, .f32⟩
  | 29 => ⟨S3200, .f32⟩
  | 30 => ⟨S3200x1, .f32⟩
  | 31 => ⟨S3200x3200, .f32⟩
  | 32 => ⟨S3200x3200, .f32⟩
  | 33 => ⟨S3200x3200, .f32⟩
  | 34 => ⟨S_, .f32⟩
  | 35 => ⟨S3200, .f32⟩
  | 36 => ⟨S3200x1, .f32⟩
  | 37 => ⟨S3200x3200, .f32⟩
  | 38 => ⟨S3200x3200, .f32⟩
  | 39 => ⟨S3200x3200, .f32⟩
  | 40 => ⟨S3200x3200, .f32⟩
  | 41 => ⟨S_, .f32⟩
  | 42 => ⟨S3200, .f32⟩
  | 43 => ⟨S3200x1, .f32⟩
  | 44 => ⟨S_, .f32⟩
  | 45 => ⟨S3200x1, .f32⟩
  | 46 => ⟨S3200x1, .f32⟩
  | 47 => ⟨S3200x3200, .f32⟩
  | 48 => ⟨S3200x3200, .f32⟩
  | _ => ⟨S1x3200x512, .f32⟩

abbrev hbmTy (i : Nat) : BufTy := match i / 128 with
  | 0 => hbmTy0_0 i
  | 1 => hbmTy0_1 i
  | _ => ⟨S1x3200x512, .f32⟩

abbrev bufTy : (tb : Table) → Fin (tcTables nBuf tb) → BufTy
  | .hbm, ⟨i, _⟩ => hbmTy i
  | _, _ => ⟨S1x3200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_call2_v2 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call3_v0 : Ref sig .tc := ⟨.hbm, 44, rfl⟩
abbrev main_call3_cst : Ref sig .tc := ⟨.hbm, 45, rfl⟩
abbrev main_call3_v1 : Ref sig .tc := ⟨.hbm, 46, rfl⟩
abbrev main_call3_v2 : Ref sig .tc := ⟨.hbm, 47, rfl⟩
abbrev main_v27 : Ref sig .tc := ⟨.hbm, 48, rfl⟩
abbrev main_cst_0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call4_v0 : Ref sig .tc := ⟨.hbm, 54, rfl⟩
abbrev main_call4_cst : Ref sig .tc := ⟨.hbm, 55, rfl⟩
abbrev main_call4_v1 : Ref sig .tc := ⟨.hbm, 56, rfl⟩
abbrev main_call4_v2 : Ref sig .tc := ⟨.hbm, 57, rfl⟩
abbrev main_v32 : Ref sig .tc := ⟨.hbm, 58, rfl⟩
abbrev main_cst_1 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_call5_v5 : Ref sig .tc := ⟨.hbm, 91, rfl⟩
abbrev main_call5_v6 : Ref sig .tc := ⟨.hbm, 92, rfl⟩
abbrev main_call5_v7 : Ref sig .tc := ⟨.hbm, 93, rfl⟩
abbrev main_call5_v8 : Ref sig .tc := ⟨.hbm, 94, rfl⟩
abbrev main_call5_c : Ref sig .tc := ⟨.hbm, 95, rfl⟩
abbrev main_call5_v9 : Ref sig .tc := ⟨.hbm, 96, rfl⟩
abbrev main_call5_v10 : Ref sig .tc := ⟨.hbm, 97, rfl⟩
abbrev main_call5_v11 : Ref sig .tc := ⟨.hbm, 98, rfl⟩
abbrev main_call5_c_0 : Ref sig .tc := ⟨.hbm, 99, rfl⟩
abbrev main_call5_v12 : Ref sig .tc := ⟨.hbm, 100, rfl⟩
abbrev main_call5_v13 : Ref sig .tc := ⟨.hbm, 101, rfl⟩
abbrev main_v54 : Ref sig .tc := ⟨.hbm, 102, rfl⟩
abbrev main_c_6 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_7 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_8 : Ref sig .tc := ⟨.hbm, 137, rfl⟩
abbrev main_v87 : Ref sig .tc := ⟨.hbm, 138, rfl⟩
abbrev main_v88 : Ref sig .tc := ⟨.hbm, 139, rfl⟩
abbrev main_cst_9 : Ref sig .tc := ⟨.hbm, 140, rfl⟩
abbrev main_v89 : Ref sig .tc := ⟨.hbm, 141, rfl⟩
abbrev main_v90 : Ref sig .tc := ⟨.hbm, 142, rfl⟩
abbrev main_cst_10 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_11 : Ref sig .tc := ⟨.hbm, 147, rfl⟩
abbrev main_v94 : Ref sig .tc := ⟨.hbm, 148, rfl⟩
abbrev main_v95 : Ref sig .tc := ⟨.hbm, 149, rfl⟩
abbrev main_cst_12 : Ref sig .tc := ⟨.hbm, 150, rfl⟩
abbrev main_v96 : Ref sig .tc := ⟨.hbm, 151, rfl⟩
abbrev main_v97 : Ref sig .tc := ⟨.hbm, 152, rfl⟩
abbrev main_cst_13 : Ref sig .tc := ⟨.hbm, 153, rfl⟩
abbrev main_v98 : Ref sig .tc := ⟨.hbm, 154, rfl⟩
abbrev main_cst_14 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_15 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_16 : Ref sig .tc := ⟨.hbm, 169, rfl⟩
abbrev main_v111 : Ref sig .tc := ⟨.hbm, 170, rfl⟩
abbrev main_v112 : Ref sig .tc := ⟨.hbm, 171, rfl⟩
abbrev main_cst_17 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S1x3200x1024_0_1_2 : S1x1x1024.BroadcastsInDim S1x3200x1024 (![0, 1, 2] : Fin 3 → Fin S1x3200x1024.rank)
  bcast_S_S1x3200x1024 : S_.BroadcastsInDim S1x3200x1024 (![] : Fin 0 → Fin S1x3200x1024.rank)
  bcast_S2048_S1x1x2048_2 : S2048.BroadcastsInDim S1x1x2048 (![2] : Fin 1 → Fin S1x1x2048.rank)
  bcast_S1x1x2048_S1x3200x2048_0_1_2 : S1x1x2048.BroadcastsInDim S1x3200x2048 (![0, 1, 2] : Fin 3 → Fin S1x3200x2048.rank)
  bcast_S_S1x3200x2048 : S_.BroadcastsInDim S1x3200x2048 (![] : Fin 0 → Fin S1x3200x2048.rank)
  shapeCasts_S1x3200x1024_S1x3200x2x8x64 : S1x3200x1024.ShapeCasts S1x3200x2x8x64
  transposes_S1x3200x2x8x64_S2x1x8x3200x64_2_0_3_1_4 : S1x3200x2x8x64.Transposes [2, 0, 3, 1, 4] S2x1x8x3200x64
  slices_S2x1x8x3200x64_S1x1x8x3200x64_0_0_0_0_0 : S2x1x8x3200x64.Slices ![0, 0, 0, 0, 0] S1x1x8x3200x64
  shapeCasts_S1x1x8x3200x64_S1x8x3200x64 : S1x1x8x3200x64.ShapeCasts S1x8x3200x64
  slices_S2x1x8x3200x64_S1x1x8x3200x64_1_0_0_0_0 : S2x1x8x3200x64.Slices ![1, 0, 0, 0, 0] S1x1x8x3200x64
  shapeCasts_S1x3200x512_S1x3200x8x64 : S1x3200x512.ShapeCasts S1x3200x8x64
  transposes_S1x3200x8x64_S1x8x3200x64_0_2_1_3 : S1x3200x8x64.Transposes [0, 2, 1, 3] S1x8x3200x64
  reducesTo_S1x8x3200x64_S1x8x3200_d3 : S1x8x3200x64.ReducesTo [3] S1x8x3200
  h_S_ : 0 < S_.numel
  bcast_S1x8x3200_S1x8x3200x1_0_1_2 : S1x8x3200.BroadcastsInDim S1x8x3200x1 (![0, 1, 2] : Fin 3 → Fin S1x8x3200x1.rank)
  bcast_S_S1x8x3200x1 : S_.BroadcastsInDim S1x8x3200x1 (![] : Fin 0 → Fin S1x8x3200x1.rank)
  bcast_S1x8x3200x1_S1x8x3200x64_0_1_2_3 : S1x8x3200x1.BroadcastsInDim S1x8x3200x64 (![0, 1, 2, 3] : Fin 4 → Fin S1x8x3200x64.rank)
  bcast_S_S1x8x3200x3200 : S_.BroadcastsInDim S1x8x3200x3200 (![] : Fin 0 → Fin S1x8x3200x3200.rank)
  reducesTo_S1x8x3200x3200_S1x8x3200_d3 : S1x8x3200x3200.ReducesTo [3] S1x8x3200
  bcast_S_S1x8x3200 : S_.BroadcastsInDim S1x8x3200 (![] : Fin 0 → Fin S1x8x3200.rank)
  bcast_S1x8x3200x1_S1x8x3200x3200_0_1_2_3 : S1x8x3200x1.BroadcastsInDim S1x8x3200x3200 (![0, 1, 2, 3] : Fin 4 → Fin S1x8x3200x3200.rank)
  bcast_S_S3200 : S_.BroadcastsInDim S3200 (![] : Fin 0 → Fin S3200.rank)
  bcast_S3200_S1x3200_1 : S3200.BroadcastsInDim S1x3200 (![1] : Fin 1 → Fin S1x3200.rank)
  bcast_S3200_S3200x1_0 : S3200.BroadcastsInDim S3200x1 (![0] : Fin 1 → Fin S3200x1.rank)
  bcast_S1x3200_S3200x3200_0_1 : S1x3200.BroadcastsInDim S3200x3200 (![0, 1] : Fin 2 → Fin S3200x3200.rank)
  bcast_S3200x1_S3200x3200_0_1 : S3200x1.BroadcastsInDim S3200x3200 (![0, 1] : Fin 2 → Fin S3200x3200.rank)
  bcast_S_S3200x1 : S_.BroadcastsInDim S3200x1 (![] : Fin 0 → Fin S3200x1.rank)
  bcast_S3200x3200_S1x1x3200x3200_2_3 : S3200x3200.BroadcastsInDim S1x1x3200x3200 (![2, 3] : Fin 2 → Fin S1x1x3200x3200.rank)
  bcast_S1x1x3200x3200_S1x8x3200x3200_0_1_2_3 : S1x1x3200x3200.BroadcastsInDim S1x8x3200x3200 (![0, 1, 2, 3] : Fin 4 → Fin S1x8x3200x3200.rank)
  transposes_S1x8x3200x64_S1x3200x8x64_0_2_1_3 : S1x8x3200x64.Transposes [0, 2, 1, 3] S1x3200x8x64
  shapeCasts_S1x3200x8x64_S1x3200x512 : S1x3200x8x64.ShapeCasts S1x3200x512
  concatenates_S1x3200x512_S1x3200x512_S1x3200x1024_d2 : Shape.Concatenates [S1x3200x512, S1x3200x512] S1x3200x1024 2
  reducesTo_S1x8x3200x3200_S1x3200x3200_d1 : S1x8x3200x3200.ReducesTo [1] S1x3200x3200
  shapeCasts_S1x3200x3200_S3200x3200 : S1x3200x3200.ShapeCasts S3200x3200
  bcast_S_S3200x3200 : S_.BroadcastsInDim S3200x3200 (![] : Fin 0 → Fin S3200x3200.rank)
  reducesTo_S3200x3200_S3200_d1 : S3200x3200.ReducesTo [1] S3200
  dot_S1x3200x512_S512x1024_S1x3200x1024_2_0_01_1_n_n_wf : DotDims.WF S1x3200x512 S512x1024 S1x3200x1024 [2] [0] [0, 1] [1] [] []
  dot_S1x3200x1024_S1024x2048_S1x3200x2048_2_0_01_1_n_n_wf : DotDims.WF S1x3200x1024 S1024x2048 S1x3200x2048 [2] [0] [0, 1] [1] [] []
  dot_S1x3200x2048_S2048x1024_S1x3200x1024_2_0_01_1_n_n_wf : DotDims.WF S1x3200x2048 S2048x1024 S1x3200x1024 [2] [0] [0, 1] [1] [] []
  dot_S1x8x3200x64_S1x8x3200x64_S1x8x3200x3200_3_3_2_2_01_01_wf : DotDims.WF S1x8x3200x64 S1x8x3200x64 S1x8x3200x3200 [3] [3] [2] [2] [0, 1] [0, 1]
  dot_S1x8x3200x3200_S1x8x3200x64_S1x8x3200x64_3_2_2_3_01_01_wf : DotDims.WF S1x8x3200x3200 S1x8x3200x64 S1x8x3200x64 [3] [2] [2] [3] [0, 1] [0, 1]

variable [Facts₀]

def dot_S1x3200x512_S512x1024_S1x3200x1024_2_0_01_1_n_n : DotDims S1x3200x512 S512x1024 S1x3200x1024 where
  lhsContracting := [2]
  rhsContracting := [0]
  lhsNonContracting := [0, 1]
  rhsNonContracting := [1]
  lhsBatch := []
  rhsBatch := []
  wf := dot_S1x3200x512_S512x1024_S1x3200x1024_2_0_01_1_n_n_wf
def dot_S1x3200x1024_S1024x2048_S1x3200x2048_2_0_01_1_n_n : DotDims S1x3200x1024 S1024x2048 S1x3200x2048 where
  lhsContracting := [2]
  rhsContracting := [0]
  lhsNonContracting := [0, 1]
  rhsNonContracting := [1]
  lhsBatch := []
  rhsBatch := []
  wf := dot_S1x3200x1024_S1024x2048_S1x3200x2048_2_0_01_1_n_n_wf
def dot_S1x3200x2048_S2048x1024_S1x3200x1024_2_0_01_1_n_n : DotDims S1x3200x2048 S2048x1024 S1x3200x1024 where
  lhsContracting := [2]
  rhsContracting := [0]
  lhsNonContracting := [0, 1]
  rhsNonContracting := [1]
  lhsBatch := []
  rhsBatch := []
  wf := dot_S1x3200x2048_S2048x1024_S1x3200x1024_2_0_01_1_n_n_wf
def dot_S1x8x3200x64_S1x8x3200x64_S1x8x3200x3200_3_3_2_2_01_01 : DotDims S1x8x3200x64 S1x8x3200x64 S1x8x3200x3200 where
  lhsContracting := [3]
  rhsContracting := [3]
  lhsNonContracting := [2]
  rhsNonContracting := [2]
  lhsBatch := [0, 1]
  rhsBatch := [0, 1]
  wf := dot_S1x8x3200x64_S1x8x3200x64_S1x8x3200x3200_3_3_2_2_01_01_wf
def dot_S1x8x3200x3200_S1x8x3200x64_S1x8x3200x64_3_2_2_3_01_01 : DotDims S1x8x3200x3200 S1x8x3200x64 S1x8x3200x64 where
  lhsContracting := [3]
  rhsContracting := [2]
  lhsNonContracting := [2]
  rhsNonContracting := [3]
  lhsBatch := [0, 1]
  rhsBatch := [0, 1]
  wf := dot_S1x8x3200x3200_S1x8x3200x64_S1x8x3200x64_3_2_2_3_01_01_wf

class Facts : Prop extends Facts₀ where

variable [Facts]
-- ==== Proof.KLaunchBitsSplit.lean ====
import proofs.«174083_j4664334483724_2_alg».proof.Proof.Gen.Kernel.Launch
import Idealize.ShloMosaic.Lib.Pipeline.Frame
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the five windows

Windows 0 and 1 read one array; the other three windows have an array each. -/

/-- The distinct arrays behind the windows. -/
theorem img_arr : (Finset.univ.image (Pipeline.arrRef spec0) : Finset (Ref sig .tc)) = {main_v2, main_v0, main_v3_0, main_v3_1} := by decide

theorem ar0 : Pipeline.arrRef spec0 (0 : Fin 5) = main_v2 := by decide
theorem ar1 : Pipeline.arrRef spec0 (1 : Fin 5) = main_v2 := by decide
theorem ar2 : Pipeline.arrRef spec0 (2 : Fin 5) = main_v0 := by decide
theorem ar3 : Pipeline.arrRef spec0 (3 : Fin 5) = main_v3_0 := by decide
theorem ar4 : Pipeline.arrRef spec0 (4 : Fin 5) = main_v3_1 := by decide

/-- An input window's array is held at the share the proof data name, -/
theorem share_in {c : Dev nD} (dat : Dat τ (Elt F) Unit ℕ (UR sig nD τ) ℕ cfg0 c) (w : Fin cfg0.W) (h : (cfg0.win w).isOut = false) : dat.share w = dat.q w := by
  unfold Dat.share; rw [h]; rfl
/-- an output window's at the full share. -/
theorem share_out {c : Dev nD} (dat : Dat τ (Elt F) Unit ℕ (UR sig nD τ) ℕ cfg0 c) (w : Fin cfg0.W) (h : (cfg0.win w).isOut = true) : dat.share w = fullShare := by
  unfold Dat.share; rw [h]; rfl

/-- A window's array is a whole buffer: its points-to over the array's elements is the buffer's points-to. -/
theorem arr_ptAt {c : Dev nD} (dat : Dat τ (Elt F) Unit ℕ (UR sig nD τ) ℕ cfg0 c) (n : Nat) (w : Fin cfg0.W) :
    (((cfg0.win w).arr.view.loc (c.tc : Thread nD τ)) ↦[(cfg0.win w).arr.view.set]{dat.share w} dat.arrAt w n : sProp 𝕄)
      = (((c.tc : Thread nD τ).loc (Pipeline.arrRef spec0 w)) ↦{dat.share w} dat.arrAt w n) := by
  rw [(arr_whole0 w).set_eq_univ]

/-- At the region's entry the array holds the entry contents. -/
theorem arr_pt {c : Dev nD} (dat : Dat τ (Elt F) Unit ℕ (UR sig nD τ) ℕ cfg0 c)
    (V : (b : Ref sig .tc) → Buf (Elt F) ((c.tc : Thread nD τ).loc b))
    (hA : ∀ w, dat.A w = V (Pipeline.arrRef spec0 w)) (w : Fin cfg0.W) :
    (((cfg0.win w).arr.view.loc (c.tc : Thread nD τ)) ↦[(cfg0.win w).arr.view.set]{dat.share w} dat.arrAt w 0 : sProp 𝕄)
      = (((c.tc : Thread nD τ).loc (Pipeline.arrRef spec0 w)) ↦{dat.share w} V (Pipeline.arrRef spec0 w)) := by
  rw [(arr_whole0 w).set_eq_univ, ← hA w]; rfl

/-- The four buffers behind the windows' arrays, each whole at the full share at the entry contents, make the proof
    data's arrays at entry: the array the first two windows both read is split into its two half shares, one for each. -/
theorem hsplit_of (c : Dev nD) (dat : Dat τ (Elt F) Unit ℕ (UR sig nD τ) ℕ cfg0 c)
    (V : (b : Ref sig .tc) → Buf (Elt F) ((c.tc : Thread nD τ).loc b))
    (hA : ∀ w, dat.A w = V (Pipeline.arrRef spec0 w))
    (hq0 : dat.q 0 = fullShare.left) (hq1 : dat.q 1 = fullShare.right) (hq2 : dat.q 2 = fullShare) :
    (Pipeline.arrBufs spec0 c V : sProp 𝕄) ⊢ dat.arrays (dat.arrAt · 0) := by
  unfold Pipeline.arrBufs Dat.arrays
  rw [img_arr, bigSep_W0]
  rw [arr_pt dat V hA 0, arr_pt dat V hA 1, arr_pt dat V hA 2, arr_pt dat V hA 3, arr_pt dat V hA 4]
  rw [share_in dat 0 rfl, share_in dat 1 rfl, share_in dat 2 rfl, share_out dat 3 rfl, share_out dat 4 rfl, hq0, hq1, hq2]
  rw [bigSep_insert (by decide), bigSep_insert (by decide), bigSep_insert (by decide), bigSep_singleton]
  rw [ar0, ar2, ar3, ar4]
  refine (show (iprop((((c.tc : Thread nD τ).loc main_v2) ↦{fullShare} V main_v2) ∗ (((c.tc : Thread nD τ).loc main_v0) ↦{fullShare} V main_v0)
      ∗ (((c.tc : Thread nD τ).loc main_v3_0) ↦{fullShare} V main_v3_0) ∗ (((c.tc : Thread nD τ).loc main_v3_1) ↦{fullShare} V main_v3_1)) : sProp 𝕄) ⊢ _ from ?_)
  iintro ⟨H2, H0, H3, H4⟩
  ihave H2 := (pointsTo_share (PosShare.mem_left_op_right fullShare)).1 $$ H2
  icases H2 with ⟨H2a, H2b⟩
  isplitl [H2a]; · iexact H2a
  isplitl [H2b]; · iexact H2b
  isplitl [H0]; · iexact H0
  isplitl [H3]; · iexact H3
  iexact H4

end Cert.Kernel.Hand

end
-- ==== Proof.KLaunchBitsTail.lean ====
import proofs.«174083_j4664334483724_2_alg».proof.Proof.KLaunchBitsSplit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered, as a valuation: the launch contents after the three host
    operations before the region (two reshapes and a transpose of the second argument). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one host operation after it: it reduces to the
    region continued by the later operation, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The operation after the region

It reshapes the first output array into the first result; it touches those two buffers and no other. -/

/-- The two buffers the operation after the region touches. -/
abbrev S34 : Finset (DevRef τ sig) := {Proc.devRef .tc main_v3_0, Proc.devRef .tc main_v4}

theorem held_S34 (c : Dev nD) (Wv : Valuation τ sig (Elt F)) :
    (StableHlo.held (c.tc : Thread nD τ) S34 Wv : sProp 𝕄)
      = iprop((((c.tc : Thread nD τ).loc main_v3_0) ↦{fullShare} Wv (Proc.devRef .tc main_v3_0))
          ∗ (((c.tc : Thread nD τ).loc main_v4) ↦{fullShare} Wv (Proc.devRef .tc main_v4))) := by
  unfold StableHlo.held
  rw [bigSep_insert (by rw [Finset.mem_singleton]; exact StableHlo.devRef_ne_of_ne (by decide)), bigSep_singleton]
  rfl

/-- Only the fourth window's array is the first output array. -/
theorem inj3 : ∀ w' : Fin 5, Pipeline.arrRef spec0 w' = Pipeline.arrRef spec0 (3 : Fin 5) → w' = 3 := by decide

/-- The region's exit contents at the first output array: what the proof data compute for the fourth window. -/
theorem withArrays_v3_0 (c : Dev nD) (Vv : Valuation τ sig (Elt F))
    (A : (w : Fin 5) → Buf (Elt F) ((spec0 w).arr.view.loc (c.tc : Thread nD τ))) :
    Pipeline.withArrays spec0 c Vv A (Proc.devRef .tc (Pipeline.arrRef spec0 (3 : Fin 5))) = A 3 := by
  unfold Pipeline.withArrays
  have h : ∃ w', Proc.devRef .tc (Pipeline.arrRef spec0 w') = Proc.devRef (τ := τ) .tc (Pipeline.arrRef spec0 (3 : Fin 5)) := ⟨3, rfl⟩
  rw [dif_pos h]
  suffices ∀ (w' : Fin 5) (e : Proc.devRef .tc (Pipeline.arrRef spec0 w') = Proc.devRef (τ := τ) .tc (Pipeline.arrRef spec0 (3 : Fin 5))),
      cast (congrArg (fun b' : DevRef τ sig => b'.ty.Contents (Elt F)) e) (A w') = A 3 from this _ h.choose_spec
  intro w' e
  obtain rfl : w' = 3 := inj3 w' (Proc.devRef_injective _ e)
  rfl

/-- The operation after the region writes the first result and nothing else. -/
theorem tail_writes (op : HloOp τ sig (Elt F)) (hop : op ∈ List.flatten [(hostOps1 : List (HloOp τ sig (Elt F)))]) :
    op.writes = {Proc.devRef .tc main_v4} := by
  simp only [hostOps1, List.flatten_cons, List.flatten_nil, List.append_nil, List.mem_cons, List.not_mem_nil, or_false] at hop
  subst hop
  exact StableHlo.reshape_writes ..

variable (dats : (p : Fin 1) → (c : Dev nD) → Dat τ (Elt F) Unit ℕ (UR sig nD τ) ℕ (cfgs p) c)

/-- A buffer that is no window's array and is not the first result holds, after the last operation, what it held when the
    region was entered. -/
theorem afterTail_ne (c : Dev nD) (b : Ref sig .tc) (hb : ∀ w, Pipeline.arrRef spec0 w ≠ b) (h4 : b ≠ main_v4) :
    Pipeline.afterTail₀ cfgs dats 0 (V0 m) [hostOps1] c b = V m c b := by
  unfold Pipeline.afterTail₀
  rw [StableHlo.after_of_forall_not_mem _ _ (fun op hop => by rw [tail_writes op hop, Finset.mem_singleton]; exact StableHlo.devRef_ne_of_ne h4),
    Pipeline.withArrays_of_ne _ c _ _ b hb]

/-- The first output array holds, after the last operation, what the proof data compute for the fourth window. -/
theorem afterW_v3_0 (c : Dev nD) :
    StableHlo.after (List.flatten [hostOps1]) (Pipeline.withArrays spec0 c (V0 m c) fun w => (dats 0 c).arrAt w cfg0.N) (Proc.devRef .tc main_v3_0)
      = (dats 0 c).arrAt 3 cfg0.N := by
  rw [StableHlo.after_of_forall_not_mem _ _ (fun op hop => by rw [tail_writes op hop, Finset.mem_singleton]; exact StableHlo.devRef_ne_of_ne (by decide))]
  exact withArrays_v3_0 c _ _

/-- Before the last operation the two buffers it touches hold the fourth window's final array and the entry contents of the
    first result, -/
theorem hW (c : Dev nD) :
    (StableHlo.held (c.tc : Thread nD τ) S34 (Pipeline.withArrays spec0 c (V0 m c) fun w => (dats 0 c).arrAt w cfg0.N) : sProp 𝕄)
      = iprop((((c.tc : Thread nD τ).loc main_v3_0) ↦{fullShare} (dats 0 c).arrAt 3 cfg0.N)
          ∗ (((c.tc : Thread nD τ).loc main_v4) ↦{fullShare} V m c main_v4)) := by
  rw [held_S34, show Pipeline.withArrays spec0 c (V0 m c) (fun w => (dats 0 c).arrAt w cfg0.N) (Proc.devRef .tc main_v3_0) = (dats 0 c).arrAt 3 cfg0.N
      from withArrays_v3_0 c _ _,
    Pipeline.withArrays_of_ne spec0 c (V0 m c) _ main_v4 (by decide)]

/-- and after it the same array and the first result at its final contents. -/
theorem hW' (c : Dev nD) :
    (StableHlo.held (c.tc : Thread nD τ) S34 (StableHlo.after (List.flatten [hostOps1]) (Pipeline.withArrays spec0 c (V0 m c) fun w => (dats 0 c).arrAt w cfg0.N)) : sProp 𝕄)
      = iprop((((c.tc : Thread nD τ).loc main_v3_0) ↦{fullShare} (dats 0 c).arrAt 3 cfg0.N)
          ∗ (((c.tc : Thread nD τ).loc main_v4) ↦{fullShare} Pipeline.afterTail₀ cfgs dats 0 (V0 m) [hostOps1] c main_v4)) := by
  rw [held_S34, afterW_v3_0]
  rfl

/-- The fourth window's final array, as the whole first output array at the full share. -/
theorem arr3_pt (c : Dev nD) (n : Nat) :
    (((cfg0.win 3).arr.view.loc (c.tc : Thread nD τ)) ↦[(cfg0.win 3).arr.view.set]{(dats 0 c).share 3} (dats 0 c).arrAt 3 n : sProp 𝕄)
      = (((c.tc : Thread nD τ).loc main_v3_0) ↦{fullShare} (dats 0 c).arrAt 3 n) := by
  rw [arr_ptAt (dats 0 c) n 3, share_out (dats 0 c) 3 rfl]

theorem sfx_sub34 : ∀ ops ∈ ([hostOps1] : List (List (HloOp τ sig (Elt F)))), ∀ op ∈ ops, op.bufs ⊆ S34 := by
  intro ops hops op hop
  simp only [List.mem_cons, List.not_mem_nil, or_false] at hops
  subst hops
  simp only [hostOps1, List.mem_cons, List.not_mem_nil, or_false] at hop
  subst hop
  rw [StableHlo.reshape_bufs]
theorem sfx_fresh : ∀ ops ∈ ([hostOps1] : List (List (HloOp τ sig (Elt F)))), ∀ op ∈ ops, op.fresh = ∅ := by
  intro ops hops op hop
  simp only [List.mem_cons, List.not_mem_nil, or_false] at hops
  subst hops
  exact (List.forall_iff_forall_mem.mp hostOps1_fresh) op hop

set_option backward.isDefEq.respectTransparency.types false in
/-- THE OPERATION AFTER THE REGION: from the region's exit — the boundary, the windows' arrays at their final contents (the
    shared input array still at its two half shares), the bypassing buffers at the entry contents — the reshape of the first
    output array into the first result runs, holding those two buffers whole, and hands everything back: the arrays as they
    were, the bypassing buffers at the contents after the operation (the first result rewritten, the others unchanged). -/
theorem htail_of (c : Dev nD) (Q' : PUnit → sProp 𝕄) :
    iprop((iprop((dats 0 c).arrays ((dats 0 c).arrAt · cfg0.N)
              ∗ (Pipeline.unscopedRest spec0 c (Pipeline.afterTail₀ cfgs dats 0 (V0 m) [hostOps1] c) : sProp 𝕄)) -∗ Q' ⟨⟩)
        ∗ boundary (c.tc : Thread nD τ) ∗ (dats 0 c).arrays ((dats 0 c).arrAt · cfg0.N)
        ∗ (Pipeline.unscopedRest spec0 c (V m c) : sProp 𝕄))
      ⊢ wp frame (wpE (Pipeline.defs (fun q => Cfg.toPCfg (Val := Elt F) (cfgs q)) (defs₀ (F := F))) (Variants.lift Variants.none) (c.tc : Thread nD τ) none) Set.univ
          (Pipeline.chain ([hostOps1].map StableHlo.seq)) Q' := by
  unfold Dat.arrays
  rw [bigSep_W0, arr3_pt dats c cfg0.N,
    unscopedRest0_eq c (V m c), unscopedRest0_eq c (Pipeline.afterTail₀ cfgs dats 0 (V0 m) [hostOps1] c),
    afterTail_ne m dats c main_arg0 (by decide) (by decide),
    afterTail_ne m dats c main_arg1 (by decide) (by decide),
    afterTail_ne m dats c main_arg2 (by decide) (by decide),
    afterTail_ne m dats c main_arg3 (by decide) (by decide),
    afterTail_ne m dats c main_arg4 (by decide) (by decide),
    afterTail_ne m dats c main_arg5 (by decide) (by decide),
    afterTail_ne m dats c main_arg6 (by decide) (by decide),
    afterTail_ne m dats c main_arg7 (by decide) (by decide),
    afterTail_ne m dats c main_v1 (by decide) (by decide)]
  have hstep := Pipeline.wp_seqs_then (Ix := Unit) (Name := ℕ) (U := UR sig nD τ) (Lvl := ℕ) (fun q => Cfg.toPCfg (Val := Elt F) (cfgs q)) (defs₀ (F := F))
      Variants.none c S34 [] (K := Q') [hostOps1] sfx_sub34 sfx_fresh
      (Pipeline.withArrays spec0 c (V0 m c) fun w => (dats 0 c).arrAt w cfg0.N)
  rw [hW, hW', List.append_nil, Pipeline.chain_nil, wp_pure] at hstep
  iintro ⟨Hk, Hb, ⟨A0, A1, A2, A3, A4⟩, ⟨a0, a1, a2, a3, a4, a5, a6, a7, v1, v4⟩⟩
  iapply hstep $$ [Hb A3 v4]
  · isplitl [Hb]; · iexact Hb
    isplitl [A3]; · iexact A3
    iexact v4
  iintro ⟨Hb, A3, v4⟩
  imodintro
  iapply Hk
  isplitl [A0 A1 A2 A3 A4]
  · isplitl [A0]; · iexact A0
    isplitl [A1]; · iexact A1
    isplitl [A2]; · iexact A2
    isplitl [A3]; · iexact A3
    iexact A4
  isplitl [a0]; · iexact a0
  isplitl [a1]; · iexact a1
  isplitl [a2]; · iexact a2
  isplitl [a3]; · iexact a3
  isplitl [a4]; · iexact a4
  isplitl [a5]; · iexact a5
  isplitl [a6]; · iexact a6
  isplitl [a7]; · iexact a7
  isplitl [v1]; · iexact v1
  iexact v4

end Cert.Kernel.Hand

end
-- ==== Proof.KLaunchBits.lean ====
import proofs.«174083_j4664334483724_2_alg».proof.Proof.KLaunchBitsTail

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-! ## The run of @main from the proof data and the body obligation -/

set_option backward.isDefEq.respectTransparency.types false in
/-- THE RUN: for ANY proof data whose arrays are the region-entry contents (`hA`), whose invariant is the class
    invariant (`hΦ`), which owe nothing (`howed`), which hold the array the first two windows both read at its two half
    shares and the third window's array whole (`hq0`, `hq1`, `hq2`), and whose body obligation holds (`hbody`): at the
    compiled mesh, from any memory with zero counters, every weakly fair execution of @main on the TensorCores terminates,
    and in every final state each window's array holds what the library computes from the proof data, and every other
    unscoped buffer what the operation after the region leaves of the region-entry contents. -/
theorem run_main_frame
    (hbody : ∀ c, BodyObligation (dats 0 c) (defs₀ (F := F)) Variants.none () Set.univ)
    (hA : ∀ c w, (dats 0 c).A w = V m c (Pipeline.arrRef spec0 w))
    (hΦ : ∀ c t, (dats 0 c).Φ t = Pipeline.ΦA spec0 c)
    (hq0 : ∀ c, (dats 0 c).q 0 = fullShare.left) (hq1 : ∀ c, (dats 0 c).q 1 = fullShare.right)
    (hq2 : ∀ c, (dats 0 c).q 2 = fullShare)
    (howed : ∀ c t, (dats 0 c).owed t = 0) :
    θ_run defs (onTc (τ := τ) (main (F := F))) ⟨m, fun _ => 0, ρ⟩
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of c (dats 0 c) (V m c) (hA c) (hq0 c) (hq1 c) (hq2 c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Pipeline.afterTail₀ cfgs dats 0 (V0 m) [hostOps1] c))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => htail_of m dats c Q')
    (QY := fun c s => ∀ b ∈ Pipeline.restRefs sig spec0, s.mem ((c.tc : Thread nD τ).loc b) = Pipeline.afterTail₀ cfgs dats 0 (V0 m) [hostOps1] c b)
    (hY := fun c s' => by
      iintro ⟨-, HU, HSI⟩
      unfold Pipeline.unscopedRest
      imodintro
      iapply (pointsTo_read_all (Pipeline.restRefs sig spec0) (fun b => (c.tc : Thread nD τ).loc b) (Pipeline.afterTail₀ cfgs dats 0 (V0 m) [hostOps1] c) s')
      isplitl [HU] <;> iassumption)
    (hQ := fun s h c => ⟨(h c).1, (h c).2.2⟩)

/-! ## What the final state holds -/

/-- The host operations before the region write only their own three results: every other buffer is as launched when the
    region is entered. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.unary_writes, StableHlo.reshape_writes, Finset.mem_singleton]
    exact ⟨StableHlo.devRef_ne_of_ne h0, StableHlo.devRef_ne_of_ne h1, StableHlo.devRef_ne_of_ne h2⟩))

/-- The first result from the first output array: the same elements, in row-major order, under a leading unit axis. -/
def res0 (c : Dev nD) (X : Buf (Elt F) ((c.tc : Thread nD τ).loc main_v3_0)) : Buf (Elt F) ((c.tc : Thread nD τ).loc main_v4) :=
  fun i => shapeCast S1x3200x1024 X shapeCasts_S3200x1024_S1x3200x1024 i

theorem withArrays_v3_0' (c : Dev nD) (Vv : Valuation τ sig (Elt F))
    (A : (w : Fin 5) → Buf (Elt F) ((spec0 w).arr.view.loc (c.tc : Thread nD τ))) :
    Pipeline.withArrays spec0 c Vv A (Proc.devRef .tc main_v3_0) = A 3 := withArrays_v3_0 c Vv A

/-- After the last operation the first result is the reshape of what the proof data compute for the fourth window. -/
theorem afterTail_v4 (c : Dev nD) :
    Pipeline.afterTail₀ cfgs dats 0 (V0 m) [hostOps1] c main_v4 = res0 c ((dats 0 c).arrAt 3 cfg0.N) := by
  unfold Pipeline.afterTail₀
  show StableHlo.after hostOps1 _ (Proc.devRef .tc main_v4) = _
  after_results
  rw [withArrays_v3_0']
  rfl

/-- THE RUN in the claims' form: the first result is the reshape of the fourth window's final array, the second result is the
    fifth window's final array, and the eight arguments are as launched. -/
theorem run_main_of
    (hbody : ∀ c, BodyObligation (dats 0 c) (defs₀ (F := F)) Variants.none () Set.univ)
    (hA : ∀ c w, (dats 0 c).A w = V m c (Pipeline.arrRef spec0 w))
    (hΦ : ∀ c t, (dats 0 c).Φ t = Pipeline.ΦA spec0 c)
    (hq0 : ∀ c, (dats 0 c).q 0 = fullShare.left) (hq1 : ∀ c, (dats 0 c).q 1 = fullShare.right)
    (hq2 : ∀ c, (dats 0 c).q 2 = fullShare)
    (howed : ∀ c t, (dats 0 c).owed t = 0) :
    θ_run defs (onTc (τ := τ) (main (F := F))) ⟨m, fun _ => 0, ρ⟩ (fun r => ∀ c : Dev nD,
      r.2.mem ((c.tc : Thread nD τ).loc main_v4) = res0 c ((dats 0 c).arrAt 3 cfg0.N)
      ∧ r.2.mem ((c.tc : Thread nD τ).loc main_v3_1) = (dats 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v4 (Pipeline.mem_restRefs_of main_v4 (by decide) (by decide))).trans (afterTail_v4 m dats c),
      (h c).1 4,
      ((h c).2 main_arg0 (Pipeline.mem_restRefs_of main_arg0 (by decide) (by decide))).trans ((afterTail_ne m dats c main_arg0 (by decide) (by decide)).trans (V_of_ne m c main_arg0 (by decide) (by decide) (by decide))),
      ((h c).2 main_arg1 (Pipeline.mem_restRefs_of main_arg1 (by decide) (by decide))).trans ((afterTail_ne m dats c main_arg1 (by decide) (by decide)).trans (V_of_ne m c main_arg1 (by decide) (by decide) (by decide))),
      ((h c).2 main_arg2 (Pipeline.mem_restRefs_of main_arg2 (by decide) (by decide))).trans ((afterTail_ne m dats c main_arg2 (by decide) (by decide)).trans (V_of_ne m c main_arg2 (by decide) (by decide) (by decide))),
      ((h c).2 main_arg3 (Pipeline.mem_restRefs_of main_arg3 (by decide) (by decide))).trans ((afterTail_ne m dats c main_arg3 (by decide) (by decide)).trans (V_of_ne m c main_arg3 (by decide) (by decide) (by decide))),
      ((h c).2 main_arg4 (Pipeline.mem_restRefs_of main_arg4 (by decide) (by decide))).trans ((afterTail_ne m dats c main_arg4 (by decide) (by decide)).trans (V_of_ne m c main_arg4 (by decide) (by decide) (by decide))),
      ((h c).2 main_arg5 (Pipeline.mem_restRefs_of main_arg5 (by decide) (by decide))).trans ((afterTail_ne m dats c main_arg5 (by decide) (by decide)).trans (V_of_ne m c main_arg5 (by decide) (by decide) (by decide))),
      ((h c).2 main_arg6 (Pipeline.mem_restRefs_of main_arg6 (by decide) (by decide))).trans ((afterTail_ne m dats c main_arg6 (by decide) (by decide)).trans (V_of_ne m c main_arg6 (by decide) (by decide) (by decide))),
      ((h c).2 main_arg7 (Pipeline.mem_restRefs_of main_arg7 (by decide) (by decide))).trans ((afterTail_ne m dats c main_arg7 (by decide) (by decide)).trans (V_of_ne m c main_arg7 (by decide) (by decide) (by decide)))⟩)
    (run_main_frame m ρ dats hbody hA hΦ hq0 hq1 hq2 howed)

end Cert.Kernel.Hand

end
-- ==== Proof.KBodyBits.lean ====
import proofs.«174083_j4664334483724_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

/-! What the attention body leaves in its two output blocks, as closed functions of the grid coordinate and of
the three input blocks: the eight per-head column slices and the passthrough columns of the first output, and the
single whole-block store of the second. Every value is a payload of the body's skeleton at the skeleton's own
arguments, so a reader can follow the data flow head by head. -/

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

/-! ## The body's accesses -/

/-- Head 0 of the query block. -/
abbrev rq0 : Rect S8x320x64 := Rect.unit (s := S8x320x64) ![0, 0, 0] S1x320x64.size inb_S8x320x64_S1x320x64_0_0_0
/-- Head 1 of the query block. -/
abbrev rq1 : Rect S8x320x64 := Rect.unit (s := S8x320x64) ![1, 0, 0] S1x320x64.size inb_S8x320x64_S1x320x64_1_0_0
/-- Head 2 of the query block. -/
abbrev rq2 : Rect S8x320x64 := Rect.unit (s := S8x320x64) ![2, 0, 0] S1x320x64.size inb_S8x320x64_S1x320x64_2_0_0
/-- Head 3 of the query block. -/
abbrev rq3 : Rect S8x320x64 := Rect.unit (s := S8x320x64) ![3, 0, 0] S1x320x64.size inb_S8x320x64_S1x320x64_3_0_0
/-- Head 4 of the query block. -/
abbrev rq4 : Rect S8x320x64 := Rect.unit (s := S8x320x64) ![4, 0, 0] S1x320x64.size inb_S8x320x64_S1x320x64_4_0_0
/-- Head 5 of the query block. -/
abbrev rq5 : Rect S8x320x64 := Rect.unit (s := S8x320x64) ![5, 0, 0] S1x320x64.size inb_S8x320x64_S1x320x64_5_0_0
/-- Head 6 of the query block. -/
abbrev rq6 : Rect S8x320x64 := Rect.unit (s := S8x320x64) ![6, 0, 0] S1x320x64.size inb_S8x320x64_S1x320x64_6_0_0
/-- Head 7 of the query block. -/
abbrev rq7 : Rect S8x320x64 := Rect.unit (s := S8x320x64) ![7, 0, 0] S1x320x64.size inb_S8x320x64_S1x320x64_7_0_0
/-- Head 0 of the whole key array. -/
abbrev rk0 : Rect S8x3200x64 := Rect.unit (s := S8x3200x64) ![0, 0, 0] S1x3200x64.size inb_S8x3200x64_S1x3200x64_0_0_0
/-- Head 1 of the whole key array. -/
abbrev rk1 : Rect S8x3200x64 := Rect.unit (s := S8x3200x64) ![1, 0, 0] S1x3200x64.size inb_S8x3200x64_S1x3200x64_1_0_0
/-- Head 2 of the whole key array. -/
abbrev rk2 : Rect S8x3200x64 := Rect.unit (s := S8x3200x64) ![2, 0, 0] S1x3200x64.size inb_S8x3200x64_S1x3200x64_2_0_0
/-- Head 3 of the whole key array. -/
abbrev rk3 : Rect S8x3200x64 := Rect.unit (s := S8x3200x64) ![3, 0, 0] S1x3200x64.size inb_S8x3200x64_S1x3200x64_3_0_0
/-- Head 4 of the whole key array. -/
abbrev rk4 : Rect S8x3200x64 := Rect.unit (s := S8x3200x64) ![4, 0, 0] S1x3200x64.size inb_S8x3200x64_S1x3200x64_4_0_0
/-- Head 5 of the whole key array. -/
abbrev rk5 : Rect S8x3200x64 := Rect.unit (s := S8x3200x64) ![5, 0, 0] S1x3200x64.size inb_S8x3200x64_S1x3200x64_5_0_0
/-- Head 6 of the whole key array. -/
abbrev rk6 : Rect S8x3200x64 := Rect.unit (s := S8x3200x64) ![6, 0, 0] S1x3200x64.size inb_S8x3200x64_S1x3200x64_6_0_0
/-- Head 7 of the whole key array. -/
abbrev rk7 : Rect S8x3200x64 := Rect.unit (s := S8x3200x64) ![7, 0, 0] S1x3200x64.size inb_S8x3200x64_S1x3200x64_7_0_0
/-- The whole passthrough block. -/
abbrev rx : Rect S320x512 := Rect.unit (s := S320x512) ![0, 0] S320x512.size inb_S320x512_S320x512_0_0
/-- Head 0's columns of the first output block. -/
abbrev ro0 : Rect S320x1024 := Rect.unit (s := S320x1024) ![0, 0] S320x64.size inb_S320x1024_S320x64_0_0
/-- Head 1's columns of the first output block. -/
abbrev ro1 : Rect S320x1024 := Rect.unit (s := S320x1024) ![0, 64] S320x64.size inb_S320x1024_S320x64_0_64
/-- Head 2's columns of the first output block. -/
abbrev ro2 : Rect S320x1024 := Rect.unit (s := S320x1024) ![0, 128] S320x64.size inb_S320x1024_S320x64_0_128
/-- Head 3's columns of the first output block. -/
abbrev ro3 : Rect S320x1024 := Rect.unit (s := S320x1024) ![0, 192] S320x64.size inb_S320x1024_S320x64_0_192
/-- Head 4's columns of the first output block. -/
abbrev ro4 : Rect S320x1024 := Rect.unit (s := S320x1024) ![0, 256] S320x64.size inb_S320x1024_S320x64_0_256
/-- Head 5's columns of the first output block. -/
abbrev ro5 : Rect S320x1024 := Rect.unit (s := S320x1024) ![0, 320] S320x64.size inb_S320x1024_S320x64_0_320
/-- Head 6's columns of the first output block. -/
abbrev ro6 : Rect S320x1024 := Rect.unit (s := S320x1024) ![0, 384] S320x64.size inb_S320x1024_S320x64_0_384
/-- Head 7's columns of the first output block. -/
abbrev ro7 : Rect S320x1024 := Rect.unit (s := S320x1024) ![0, 448] S320x64.size inb_S320x1024_S320x64_0_448
/-- The passthrough columns of the first output block. -/
abbrev rop : Rect S320x1024 := Rect.unit (s := S320x1024) ![0, 512] S320x512.size inb_S320x1024_S320x512_0_512
/-- The whole second output block. -/
abbrev rw4 : Rect S320x3200 := Rect.unit (s := S320x3200) ![0, 0] S320x3200.size inb_S320x3200_S320x3200_0_0

/-! ## The data flow, value by value

`x0` is the query block of the point (eight heads of 320 rows), `x1` the whole key array (eight heads of 3200
rows), `x2` the passthrough block. -/

variable (i : grid0.Coords) (x0 : Vec F S8x320x64 .f32) (x1 : Vec F S8x3200x64 .f32) (x2 : Vec F S320x512 .f32)

/-- The mask of the point's rows against all columns. -/
def v40 : FVec F S320x3200 .f32 := k0_pay2 (F := F) i
/-- The running sum's start. -/
def v41 : FVec F S320x3200 .f32 := k0_pay3 (F := F)
def v43 : FVec F S320x64 .f32 := k0_pay4 (View.ld x0 rq0)
/-- The running sum after head 0. -/
def v64 : FVec F S320x3200 .f32 := k0_pay7 (v41 (F := F)) (v43 x0) (View.ld x1 rk0)
def v71 : FVec F S320x64 .f32 := k0_pay9 (View.ld x0 rq1)
def v73 : FVec F S3200x64 .f32 := k0_pay10 (View.ld x1 rk1)
def v79 : FVec F S320x1 .f32 := k0_pay11 (View.ld x0 rq1)
def v82 : FVec F S3200x1 .f32 := k0_pay12 (View.ld x1 rk1)
/-- The running sum after heads 1 and 2. -/
def v120 : FVec F S320x3200 .f32 := k0_pay17 (v64 x0 x1) (v71 x0) (v73 x1) (v79 x0) (v82 x1) (View.ld x0 rq2) (View.ld x1 rk2)
/-- The running sum after head 3. -/
def v148 : FVec F S320x3200 .f32 := k0_pay21 (v120 x0 x1) (View.ld x0 rq3) (View.ld x1 rk3)
def v155 : FVec F S320x64 .f32 := k0_pay23 (View.ld x0 rq4)
def v157 : FVec F S3200x64 .f32 := k0_pay24 (View.ld x1 rk4)
def v159 : FVec F S320 .f32 := k0_pay25 (View.ld x0 rq4)
/-- The running sum after head 4. -/
def v176 : FVec F S320x3200 .f32 := k0_pay27 (v148 x0 x1) (v155 x0) (v157 x1) (v159 x0)
def v185 : FVec F S3200x64 .f32 := k0_pay29 (View.ld x1 rk5)
def v199 : FVec F S320x64 .f32 := k0_pay30 (View.ld x0 rq5)
def v201 : FVec F S3200x64 .f32 := k0_pay31 (View.ld x1 rk5)
/-- The running sum after heads 5 and 6. -/
def v232 : FVec F S320x3200 .f32 := k0_pay36 (v176 x0 x1) (v199 x0) (v201 x1) (View.ld x0 rq6) (View.ld x1 rk6)
/-- The numerator and the denominator of the second output. -/
def v274 : FVec F S320x3200 .f32 := k0_pay43 (v232 x0 x1) (View.ld x0 rq7) (View.ld x1 rk7)
def v278 : FVec F S320x3200 .f32 := k0_pay44 (v40 (F := F) i) (v232 x0 x1) (View.ld x0 rq7) (View.ld x1 rk7)

/-! ## The eight heads' output slices -/

def o0 : FVec F S320x64 .f32 := k0_pay8 (v40 (F := F) i) (v43 x0) (View.ld x1 rk0)
def o1 : FVec F S320x64 .f32 := k0_pay14 (v40 (F := F) i) (v71 x0) (v73 x1) (v79 x0) (v82 x1)
def o2 : FVec F S320x64 .f32 := k0_pay18 (v40 (F := F) i) (View.ld x0 rq2) (View.ld x1 rk2)
def o3 : FVec F S320x64 .f32 := k0_pay22 (v40 (F := F) i) (View.ld x0 rq3) (View.ld x1 rk3)
def o4 : FVec F S320x64 .f32 := k0_pay28 (v40 (F := F) i) (v155 x0) (v157 x1) (v159 x0)
def o5 : FVec F S320x64 .f32 := k0_pay33 (v40 (F := F) i) (v185 x1) (v199 x0) (v201 x1)
def o6 : FVec F S320x64 .f32 := k0_pay37 (v40 (F := F) i) (View.ld x0 rq6) (View.ld x1 rk6)
def o7 : FVec F S320x64 .f32 := k0_pay41 (v40 (F := F) i) (View.ld x0 rq7) (View.ld x1 rk7)
/-- The passthrough columns. -/
def op : FVec F S320x512 .f32 := k0_pay42 (View.ld x2 rx)
/-- The second output's block: numerator over denominator. -/
def w4 : FVec F S320x3200 .f32 := k0_pay1 (v274 x0 x1) (v278 i x0 x1)

/-! ## What the body leaves in each output block -/

/-- The first output's pieces, the last store first. -/
def pieces3 : List (View.Piece (Elt F) S320x1024 .f32) :=
  [⟨rop, op x2⟩, ⟨ro7, o7 i x0 x1⟩, ⟨ro6, o6 i x0 x1⟩, ⟨ro5, o5 i x0 x1⟩, ⟨ro4, o4 i x0 x1⟩,
   ⟨ro3, o3 i x0 x1⟩, ⟨ro2, o2 i x0 x1⟩, ⟨ro1, o1 i x0 x1⟩, ⟨ro0, o0 i x0 x1⟩]

/-- The first output block after the body: eight 320x64 column slices, one per head, at columns `64 * h`, and the
    320x512 passthrough at columns 512 to 1023. -/
def out3 : Vec F S320x1024 .f32 := View.canon (pieces3 i x0 x1 x2)

/-- The second output block after the body: one whole-block store. -/
def out4 : Vec F S320x3200 .f32 := View.canon [⟨rw4, w4 i x0 x1⟩]

/-- The nine stores of the first output cover its block: cut into 320x64 column blocks they tile it. -/
theorem cover3 (p8 : FVec F S320x512 .f32) (p7 p6 p5 p4 p3 p2 p1 p0 : FVec F S320x64 .f32) (y : S320x1024.Idx) :
    ∃ pc ∈ ([⟨rop, p8⟩, ⟨ro7, p7⟩, ⟨ro6, p6⟩, ⟨ro5, p5⟩, ⟨ro4, p4⟩, ⟨ro3, p3⟩, ⟨ro2, p2⟩, ⟨ro1, p1⟩, ⟨ro0, p0⟩] :
      List (View.Piece (Elt F) S320x1024 .f32)), y ∈ pc.1.set :=
  View.cover_of_tiledBy _ ![320, 64] (by sl_kernel_rfl) y

/-- The one store of the second output is its whole block. -/
theorem cover4 (p0 : FVec F S320x3200 .f32) (y : S320x3200.Idx) :
    ∃ pc ∈ ([⟨rw4, p0⟩] : List (View.Piece (Elt F) S320x3200 .f32)), y ∈ pc.1.set :=
  View.cover_of_tiled _ S320x3200.size (by rfl) y

/-- The second output block is the stored value itself. -/
theorem out4_eq : out4 i x0 x1 = w4 i x0 x1 :=
  View.canon_unit_zero (by funext a; fin_cases a <;> rfl) _ _

end Cert.Kernel.Hand

end
-- ==== Proof.KBodyBitsRun.lean ====
import proofs.«174083_j4664334483724_2_alg».proof.Proof.KBodyBits
import proofs.«174083_j4664334483724_2_alg».proof.Proof.Gen.Kernel.Launch
import proofs.«174083_j4664334483724_2_alg».proof.Proof.Gen.Kernel.Points

/-! The attention body's triple: on whole staging blocks, the three inputs at their read contents and the two
outputs at anything, the body runs to the continuation holding the inputs as they were and the outputs at the
closed forms `out3` and `out4` of the inputs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the inputs' contents are read and kept, each output block is overwritten
    by stores that cover it, so what it holds afterwards is the canonical contents of those stores. -/
theorem sound_kernel (c : Dev nD) (E : Set ℕ) (i : grid0.Coords)
    (arg1 : Memref sig .tc .vmem S8x320x64 .f32) (harg1 : arg1.IsWhole)
    (arg2 : Memref sig .tc .vmem S8x3200x64 .f32) (harg2 : arg2.IsWhole)
    (arg3 : Memref sig .tc .vmem S320x512 .f32) (harg3 : arg3.IsWhole)
    (arg4 : Memref sig .tc .vmem S320x1024 .f32) (harg4 : arg4.IsWhole)
    (arg5 : Memref sig .tc .vmem S320x3200 .f32) (harg5 : arg5.IsWhole)
    (x0 : Vec F S8x320x64 .f32) (x1 : Vec F S8x3200x64 .f32) (x2 : Vec F S320x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 i x0 x1 x2) ∗ owns (c : Thread nD τ) arg5 fullShare (out4 i x0 x1)) -∗ K ⟨⟩))
      ⊢ wp frame (wpE (defs₀ (F := F)) Variants.none c none) E (cc0_attn_kernel i arg1 harg1 arg2 harg2 arg3 harg3 arg4 harg4 arg5 harg5) K := by
  simp only [cc0_attn_kernel_eq_skeleton]; unfold cc0_attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    first
      | exact View.read_writes_eq_canon _ _ _ (cover3 _ _ _ _ _ _ _ _ _)
      | fail "out3 read-back"
  iexists _; isplitr
  swap; · iexact H4
  ipureintro
  sl_unfold_run_names
  first
    | exact View.read_writes_eq_canon _ _ _ (cover4 _)
    | fail "out4 read-back"

end Cert.Kernel.Hand

end
-- ==== Proof.KBodyBitsDat.lean ====
import proofs.«174083_j4664334483724_2_alg».proof.Proof.KBodyBitsRun
import Idealize.ShloMosaic.Lib.Pipeline.FrameBody

/-! The pipeline's proof data and the body obligation of the attention kernel, for any contents `V` of the
core's buffers at the region's entry and any shares `q` of the windows' arrays: after the body at a point each
input block is as fetched and each output block is `out3` / `out4` of the point's input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg0.W → PosShare TreeShare)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point
    `t` each input's buffer at its block and each output's at the closed form of the input blocks; the invariant
    the scoped rest and the generator register, untouched; nothing owed; the arrays' shares as given. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (grid0.coords t) (iblk V c 0 t) (iblk V c 1 t) (iblk V c 2 t)
    | ⟨4, _⟩ => out4 (grid0.coords t) (iblk V c 0 t) (iblk V c 1 t)
  Φ _ := Pipeline.ΦA spec0 c
  q := q
  owed _ := 0

theorem A_eq (c : Dev nD) (w : Fin cfg0.W) : (dats V q 0 c).A w = V c (Pipeline.arrRef spec0 w) := by
  dsimp only [dats]
theorem q_eq (c : Dev nD) (w : Fin cfg0.W) : (dats V q 0 c).q w = q w := by
  dsimp only [dats]
theorem Φ_eq (c : Dev nD) (t : Fin (cfg0.N + 1)) : (dats V q 0 c).Φ t = Pipeline.ΦA spec0 c := by
  dsimp only [dats]
theorem owed_eq (c : Dev nD) (t : Fin (cfg0.N + 1)) : (dats V q 0 c).owed t = 0 := by
  dsimp only [dats]

/-- What the body leaves, window by window. -/
theorem after0_0 (c : Dev nD) (t : Fin cfg0.N) : (dats V q 0 c).after 0 t = iblk V c 0 t := by dsimp only [dats]
theorem after0_1 (c : Dev nD) (t : Fin cfg0.N) : (dats V q 0 c).after 1 t = iblk V c 1 t := by dsimp only [dats]
theorem after0_2 (c : Dev nD) (t : Fin cfg0.N) : (dats V q 0 c).after 2 t = iblk V c 2 t := by dsimp only [dats]
theorem after0_3 (c : Dev nD) (t : Fin cfg0.N) :
    (dats V q 0 c).after 3 t = out3 (grid0.coords t) (iblk V c 0 t) (iblk V c 1 t) (iblk V c 2 t) := by dsimp only [dats]
theorem after0_4 (c : Dev nD) (t : Fin cfg0.N) :
    (dats V q 0 c).after 4 t = out4 (grid0.coords t) (iblk V c 0 t) (iblk V c 1 t) := by dsimp only [dats]

/-- Each input's current staging buffer holds its block at every point, fetched there or not. -/
theorem before0_0 (c : Dev nD) (t : Fin cfg0.N) (d) : (dats V q 0 c).before 0 t d = iblk V c 0 t :=
  before0_0_of V (dats V q 0 c) (A_eq V q c 0) (after0_0 V q c) t d
theorem before0_1 (c : Dev nD) (t : Fin cfg0.N) (d) : (dats V q 0 c).before 1 t d = iblk V c 1 t :=
  before0_1_of V (dats V q 0 c) (A_eq V q c 1) (after0_1 V q c) t d
theorem before0_2 (c : Dev nD) (t : Fin cfg0.N) (d) : (dats V q 0 c).before 2 t d = iblk V c 2 t :=
  before0_2_of V (dats V q 0 c) (A_eq V q c 2) (after0_2 V q c) t d

/-! ## The body obligation, at a generic point -/

/-- What the body is called with at point `t`, the windows one by one, -/
def bodyPre (c : Dev nD) (t : Fin cfg0.N) : sProp 𝕄 :=
  iprop((dats V q 0 c).Φ t.castSucc ∗ (dats V q 0 c).owesAt () t.castSucc
    ∗ (∃ d, owns (c : Thread nD τ) (st0_0 t) fullShare ((dats V q 0 c).before 0 t d))
    ∗ (∃ d, owns (c : Thread nD τ) (st0_1 t) fullShare ((dats V q 0 c).before 1 t d))
    ∗ (∃ d, owns (c : Thread nD τ) (st0_2 t) fullShare ((dats V q 0 c).before 2 t d))
    ∗ (∃ d, owns (c : Thread nD τ) (st0_3 t) fullShare ((dats V q 0 c).before 3 t d))
    ∗ (∃ d, owns (c : Thread nD τ) (st0_4 t) fullShare ((dats V q 0 c).before 4 t d)))

/-- and what it returns. -/
def bodyPost (c : Dev nD) (t : Fin cfg0.N) : sProp 𝕄 :=
  iprop((dats V q 0 c).Φ t.succ ∗ (dats V q 0 c).owesAt () t.succ
    ∗ owns (c : Thread nD τ) (st0_0 t) fullShare ((dats V q 0 c).after 0 t)
    ∗ owns (c : Thread nD τ) (st0_1 t) fullShare ((dats V q 0 c).after 1 t)
    ∗ owns (c : Thread nD τ) (st0_2 t) fullShare ((dats V q 0 c).after 2 t)
    ∗ owns (c : Thread nD τ) (st0_3 t) fullShare ((dats V q 0 c).after 3 t)
    ∗ owns (c : Thread nD τ) (st0_4 t) fullShare ((dats V q 0 c).after 4 t))

/-- The body at any point: the inputs' memrefs hold their blocks, so the body's triple applies; the invariant and
    what the core owes pass through unread. -/
theorem sound_body (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before0_0, before0_1, before0_2]
  rw [show (dats V q 0 c).Φ t.succ = (dats V q 0 c).Φ t.castSucc from rfl,
    show (dats V q 0 c).owesAt () t.succ = (dats V q 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) V q 0 c) (defs₀ (F := F)) Variants.none () Set.univ := fun t => by
  rw [bigSep_W0, bigSep_W0]
  exact sound_body V q c t

end Cert.Kernel.Hand

end
-- ==== Proof.KFrameBits.lean ====
/-
  The tiled program runs to the end, faults nowhere and leaves its eight inputs as they were.

  The two input windows that read one and the same array each hold half of that array's share (the left and the
  right half of the full share); every other window holds its array whole. With the body's effect on the five
  staging buffers established at every grid point, the launch of the region between the host operations before
  and after it gives the run, and the inputs' final contents are read off its end state.
-/
import proofs.«174083_j4664334483724_2_alg».proof.Proof.KLaunchBits
import proofs.«174083_j4664334483724_2_alg».proof.Proof.KBodyBitsDat

noncomputable section

namespace Cert.Kernel.Hand

open Cert.Kernel Cert.Kernel.Gen
open Idealize.ShloMosaic Idealize.ShloMosaic.TcCoe Idealize.SL Idealize.SL.RA Idealize.SL.Sem

variable {F : FTy → Type} [FloatOps F]

/-- The shares: the two windows on the shared array hold complementary halves, the others the full share. -/
abbrev qsh : Fin cfg0.W → PosShare TreeShare := ![fullShare.left, fullShare.right, fullShare, fullShare, fullShare]

/-- The run with both result arrays named through the proof data, and the inputs unchanged. -/
theorem run_named (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v4) = res0 c ((dats (V m) qsh 0 c).arrAt 3 cfg0.N)
      ∧ r.2.mem ((c.tc : Thread nD τ).loc main_v3_1) = (dats (V m) qsh 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_main_of m ρ (dats (V m) qsh) (fun c => body_obligation (V m) qsh c) (fun c w => A_eq (V m) qsh c w)
    (fun c t => Φ_eq (V m) qsh c t) (fun c => q_eq (V m) qsh c 0) (fun c => q_eq (V m) qsh c 1)
    (fun c => q_eq (V m) qsh c 2) (fun c t => owed_eq (V m) qsh c t)

/-- The frame: the run ends with the eight inputs unchanged. -/
theorem run_frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun _ h c => (h c).2.2) (run_named m ρ)

end Cert.Kernel.Hand

end
-- ==== Proof.KLaunchSplit.lean ====
import proofs.«174083_j4664334483724_2_alg».proof.Proof.Gen.KernelIdeal.Launch
import Idealize.ShloMosaic.Lib.Pipeline.Frame
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the five windows

Windows 0 and 1 read one array; the other three windows have an array each. -/

/-- The distinct arrays behind the windows. -/
theorem img_arr : (Finset.univ.image (Pipeline.arrRef spec0) : Finset (Ref sig .tc)) = {main_v2, main_v0, main_v3_0, main_v3_1} := by decide

theorem ar0 : Pipeline.arrRef spec0 (0 : Fin 5) = main_v2 := by decide
theorem ar1 : Pipeline.arrRef spec0 (1 : Fin 5) = main_v2 := by decide
theorem ar2 : Pipeline.arrRef spec0 (2 : Fin 5) = main_v0 := by decide
theorem ar3 : Pipeline.arrRef spec0 (3 : Fin 5) = main_v3_0 := by decide
theorem ar4 : Pipeline.arrRef spec0 (4 : Fin 5) = main_v3_1 := by decide

/-- An input window's array is held at the share the proof data name, -/
theorem share_in {c : Dev nD} (dat : Dat τ (Elt F) Unit ℕ (UR sig nD τ) ℕ cfg0 c) (w : Fin cfg0.W) (h : (cfg0.win w).isOut = false) : dat.share w = dat.q w := by
  unfold Dat.share; rw [h]; rfl
/-- an output window's at the full share. -/
theorem share_out {c : Dev nD} (dat : Dat τ (Elt F) Unit ℕ (UR sig nD τ) ℕ cfg0 c) (w : Fin cfg0.W) (h : (cfg0.win w).isOut = true) : dat.share w = fullShare := by
  unfold Dat.share; rw [h]; rfl

/-- A window's array is a whole buffer: its points-to over the array's elements is the buffer's points-to. -/
theorem arr_ptAt {c : Dev nD} (dat : Dat τ (Elt F) Unit ℕ (UR sig nD τ) ℕ cfg0 c) (n : Nat) (w : Fin cfg0.W) :
    (((cfg0.win w).arr.view.loc (c.tc : Thread nD τ)) ↦[(cfg0.win w).arr.view.set]{dat.share w} dat.arrAt w n : sProp 𝕄)
      = (((c.tc : Thread nD τ).loc (Pipeline.arrRef spec0 w)) ↦{dat.share w} dat.arrAt w n) := by
  rw [(arr_whole0 w).set_eq_univ]

/-- At the region's entry the array holds the entry contents. -/
theorem arr_pt {c : Dev nD} (dat : Dat τ (Elt F) Unit ℕ (UR sig nD τ) ℕ cfg0 c)
    (V : (b : Ref sig .tc) → Buf (Elt F) ((c.tc : Thread nD τ).loc b))
    (hA : ∀ w, dat.A w = V (Pipeline.arrRef spec0 w)) (w : Fin cfg0.W) :
    (((cfg0.win w).arr.view.loc (c.tc : Thread nD τ)) ↦[(cfg0.win w).arr.view.set]{dat.share w} dat.arrAt w 0 : sProp 𝕄)
      = (((c.tc : Thread nD τ).loc (Pipeline.arrRef spec0 w)) ↦{dat.share w} V (Pipeline.arrRef spec0 w)) := by
  rw [(arr_whole0 w).set_eq_univ, ← hA w]; rfl

/-- The four buffers behind the windows' arrays, each whole at the full share at the entry contents, make the proof
    data's arrays at entry: the array the first two windows both read is split into its two half shares, one for each. -/
theorem hsplit_of (c : Dev nD) (dat : Dat τ (Elt F) Unit ℕ (UR sig nD τ) ℕ cfg0 c)
    (V : (b : Ref sig .tc) → Buf (Elt F) ((c.tc : Thread nD τ).loc b))
    (hA : ∀ w, dat.A w = V (Pipeline.arrRef spec0 w))
    (hq0 : dat.q 0 = fullShare.left) (hq1 : dat.q 1 = fullShare.right) (hq2 : dat.q 2 = fullShare) :
    (Pipeline.arrBufs spec0 c V : sProp 𝕄) ⊢ dat.arrays (dat.arrAt · 0) := by
  unfold Pipeline.arrBufs Dat.arrays
  rw [img_arr, bigSep_W0]
  rw [arr_pt dat V hA 0, arr_pt dat V hA 1, arr_pt dat V hA 2, arr_pt dat V hA 3, arr_pt dat V hA 4]
  rw [share_in dat 0 rfl, share_in dat 1 rfl, share_in dat 2 rfl, share_out dat 3 rfl, share_out dat 4 rfl, hq0, hq1, hq2]
  rw [bigSep_insert (by decide), bigSep_insert (by decide), bigSep_insert (by decide), bigSep_singleton]
  rw [ar0, ar2, ar3, ar4]
  refine (show (iprop((((c.tc : Thread nD τ).loc main_v2) ↦{fullShare} V main_v2) ∗ (((c.tc : Thread nD τ).loc main_v0) ↦{fullShare} V main_v0)
      ∗ (((c.tc : Thread nD τ).loc main_v3_0) ↦{fullShare} V main_v3_0) ∗ (((c.tc : Thread nD τ).loc main_v3_1) ↦{fullShare} V main_v3_1)) : sProp 𝕄) ⊢ _ from ?_)
  iintro ⟨H2, H0, H3, H4⟩
  ihave H2 := (pointsTo_share (PosShare.mem_left_op_right fullShare)).1 $$ H2
  icases H2 with ⟨H2a, H2b⟩
  isplitl [H2a]; · iexact H2a
  isplitl [H2b]; · iexact H2b
  isplitl [H0]; · iexact H0
  isplitl [H3]; · iexact H3
  iexact H4

end Cert.KernelIdeal.Hand

end
-- ==== Proof.KLaunchTail.lean ====
import proofs.«174083_j4664334483724_2_alg».proof.Proof.KLaunchSplit

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered, as a valuation: the launch contents after the three host
    operations before the region (two reshapes and a transpose of the second argument). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one host operation after it: it reduces to the
    region continued by the later operation, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The operation after the region

It reshapes the first output array into the first result; it touches those two buffers and no other. -/

/-- The two buffers the operation after the region touches. -/
abbrev S34 : Finset (DevRef τ sig) := {Proc.devRef .tc main_v3_0, Proc.devRef .tc main_v4}

theorem held_S34 (c : Dev nD) (Wv : Valuation τ sig (Elt F)) :
    (StableHlo.held (c.tc : Thread nD τ) S34 Wv : sProp 𝕄)
      = iprop((((c.tc : Thread nD τ).loc main_v3_0) ↦{fullShare} Wv (Proc.devRef .tc main_v3_0))
          ∗ (((c.tc : Thread nD τ).loc main_v4) ↦{fullShare} Wv (Proc.devRef .tc main_v4))) := by
  unfold StableHlo.held
  rw [bigSep_insert (by rw [Finset.mem_singleton]; exact StableHlo.devRef_ne_of_ne (by decide)), bigSep_singleton]
  rfl

/-- Only the fourth window's array is the first output array. -/
theorem inj3 : ∀ w' : Fin 5, Pipeline.arrRef spec0 w' = Pipeline.arrRef spec0 (3 : Fin 5) → w' = 3 := by decide

/-- The region's exit contents at the first output array: what the proof data compute for the fourth window. -/
theorem withArrays_v3_0 (c : Dev nD) (Vv : Valuation τ sig (Elt F))
    (A : (w : Fin 5) → Buf (Elt F) ((spec0 w).arr.view.loc (c.tc : Thread nD τ))) :
    Pipeline.withArrays spec0 c Vv A (Proc.devRef .tc (Pipeline.arrRef spec0 (3 : Fin 5))) = A 3 := by
  unfold Pipeline.withArrays
  have h : ∃ w', Proc.devRef .tc (Pipeline.arrRef spec0 w') = Proc.devRef (τ := τ) .tc (Pipeline.arrRef spec0 (3 : Fin 5)) := ⟨3, rfl⟩
  rw [dif_pos h]
  suffices ∀ (w' : Fin 5) (e : Proc.devRef .tc (Pipeline.arrRef spec0 w') = Proc.devRef (τ := τ) .tc (Pipeline.arrRef spec0 (3 : Fin 5))),
      cast (congrArg (fun b' : DevRef τ sig => b'.ty.Contents (Elt F)) e) (A w') = A 3 from this _ h.choose_spec
  intro w' e
  obtain rfl : w' = 3 := inj3 w' (Proc.devRef_injective _ e)
  rfl

/-- The operation after the region writes the first result and nothing else. -/
theorem tail_writes (op : HloOp τ sig (Elt F)) (hop : op ∈ List.flatten [(hostOps1 : List (HloOp τ sig (Elt F)))]) :
    op.writes = {Proc.devRef .tc main_v4} := by
  simp only [hostOps1, List.flatten_cons, List.flatten_nil, List.append_nil, List.mem_cons, List.not_mem_nil, or_false] at hop
  subst hop
  exact StableHlo.reshape_writes ..

variable (dats : (p : Fin 1) → (c : Dev nD) → Dat τ (Elt F) Unit ℕ (UR sig nD τ) ℕ (cfgs p) c)

/-- A buffer that is no window's array and is not the first result holds, after the last operation, what it held when the
    region was entered. -/
theorem afterTail_ne (c : Dev nD) (b : Ref sig .tc) (hb : ∀ w, Pipeline.arrRef spec0 w ≠ b) (h4 : b ≠ main_v4) :
    Pipeline.afterTail₀ cfgs dats 0 (V0 m) [hostOps1] c b = V m c b := by
  unfold Pipeline.afterTail₀
  rw [StableHlo.after_of_forall_not_mem _ _ (fun op hop => by rw [tail_writes op hop, Finset.mem_singleton]; exact StableHlo.devRef_ne_of_ne h4),
    Pipeline.withArrays_of_ne _ c _ _ b hb]

/-- The first output array holds, after the last operation, what the proof data compute for the fourth window. -/
theorem afterW_v3_0 (c : Dev nD) :
    StableHlo.after (List.flatten [hostOps1]) (Pipeline.withArrays spec0 c (V0 m c) fun w => (dats 0 c).arrAt w cfg0.N) (Proc.devRef .tc main_v3_0)
      = (dats 0 c).arrAt 3 cfg0.N := by
  rw [StableHlo.after_of_forall_not_mem _ _ (fun op hop => by rw [tail_writes op hop, Finset.mem_singleton]; exact StableHlo.devRef_ne_of_ne (by decide))]
  exact withArrays_v3_0 c _ _

/-- Before the last operation the two buffers it touches hold the fourth window's final array and the entry contents of the
    first result, -/
theorem hW (c : Dev nD) :
    (StableHlo.held (c.tc : Thread nD τ) S34 (Pipeline.withArrays spec0 c (V0 m c) fun w => (dats 0 c).arrAt w cfg0.N) : sProp 𝕄)
      = iprop((((c.tc : Thread nD τ).loc main_v3_0) ↦{fullShare} (dats 0 c).arrAt 3 cfg0.N)
          ∗ (((c.tc : Thread nD τ).loc main_v4) ↦{fullShare} V m c main_v4)) := by
  rw [held_S34, show Pipeline.withArrays spec0 c (V0 m c) (fun w => (dats 0 c).arrAt w cfg0.N) (Proc.devRef .tc main_v3_0) = (dats 0 c).arrAt 3 cfg0.N
      from withArrays_v3_0 c _ _,
    Pipeline.withArrays_of_ne spec0 c (V0 m c) _ main_v4 (by decide)]

/-- and after it the same array and the first result at its final contents. -/
theorem hW' (c : Dev nD) :
    (StableHlo.held (c.tc : Thread nD τ) S34 (StableHlo.after (List.flatten [hostOps1]) (Pipeline.withArrays spec0 c (V0 m c) fun w => (dats 0 c).arrAt w cfg0.N)) : sProp 𝕄)
      = iprop((((c.tc : Thread nD τ).loc main_v3_0) ↦{fullShare} (dats 0 c).arrAt 3 cfg0.N)
          ∗ (((c.tc : Thread nD τ).loc main_v4) ↦{fullShare} Pipeline.afterTail₀ cfgs dats 0 (V0 m) [hostOps1] c main_v4)) := by
  rw [held_S34, afterW_v3_0]
  rfl

/-- The fourth window's final array, as the whole first output array at the full share. -/
theorem arr3_pt (c : Dev nD) (n : Nat) :
    (((cfg0.win 3).arr.view.loc (c.tc : Thread nD τ)) ↦[(cfg0.win 3).arr.view.set]{(dats 0 c).share 3} (dats 0 c).arrAt 3 n : sProp 𝕄)
      = (((c.tc : Thread nD τ).loc main_v3_0) ↦{fullShare} (dats 0 c).arrAt 3 n) := by
  rw [arr_ptAt (dats 0 c) n 3, share_out (dats 0 c) 3 rfl]

theorem sfx_sub34 : ∀ ops ∈ ([hostOps1] : List (List (HloOp τ sig (Elt F)))), ∀ op ∈ ops, op.bufs ⊆ S34 := by
  intro ops hops op hop
  simp only [List.mem_cons, List.not_mem_nil, or_false] at hops
  subst hops
  simp only [hostOps1, List.mem_cons, List.not_mem_nil, or_false] at hop
  subst hop
  rw [StableHlo.reshape_bufs]
theorem sfx_fresh : ∀ ops ∈ ([hostOps1] : List (List (HloOp τ sig (Elt F)))), ∀ op ∈ ops, op.fresh = ∅ := by
  intro ops hops op hop
  simp only [List.mem_cons, List.not_mem_nil, or_false] at hops
  subst hops
  exact (List.forall_iff_forall_mem.mp hostOps1_fresh) op hop

set_option backward.isDefEq.respectTransparency.types false in
/-- THE OPERATION AFTER THE REGION: from the region's exit — the boundary, the windows' arrays at their final contents (the
    shared input array still at its two half shares), the bypassing buffers at the entry contents — the reshape of the first
    output array into the first result runs, holding those two buffers whole, and hands everything back: the arrays as they
    were, the bypassing buffers at the contents after the operation (the first result rewritten, the others unchanged). -/
theorem htail_of (c : Dev nD) (Q' : PUnit → sProp 𝕄) :
    iprop((iprop((dats 0 c).arrays ((dats 0 c).arrAt · cfg0.N)
              ∗ (Pipeline.unscopedRest spec0 c (Pipeline.afterTail₀ cfgs dats 0 (V0 m) [hostOps1] c) : sProp 𝕄)) -∗ Q' ⟨⟩)
        ∗ boundary (c.tc : Thread nD τ) ∗ (dats 0 c).arrays ((dats 0 c).arrAt · cfg0.N)
        ∗ (Pipeline.unscopedRest spec0 c (V m c) : sProp 𝕄))
      ⊢ wp frame (wpE (Pipeline.defs (fun q => Cfg.toPCfg (Val := Elt F) (cfgs q)) (defs₀ (F := F))) (Variants.lift Variants.none) (c.tc : Thread nD τ) none) Set.univ
          (Pipeline.chain ([hostOps1].map StableHlo.seq)) Q' := by
  unfold Dat.arrays
  rw [bigSep_W0, arr3_pt dats c cfg0.N,
    unscopedRest0_eq c (V m c), unscopedRest0_eq c (Pipeline.afterTail₀ cfgs dats 0 (V0 m) [hostOps1] c),
    afterTail_ne m dats c main_arg0 (by decide) (by decide),
    afterTail_ne m dats c main_arg1 (by decide) (by decide),
    afterTail_ne m dats c main_arg2 (by decide) (by decide),
    afterTail_ne m dats c main_arg3 (by decide) (by decide),
    afterTail_ne m dats c main_arg4 (by decide) (by decide),
    afterTail_ne m dats c main_arg5 (by decide) (by decide),
    afterTail_ne m dats c main_arg6 (by decide) (by decide),
    afterTail_ne m dats c main_arg7 (by decide) (by decide),
    afterTail_ne m dats c main_v1 (by decide) (by decide)]
  have hstep := Pipeline.wp_seqs_then (Ix := Unit) (Name := ℕ) (U := UR sig nD τ) (Lvl := ℕ) (fun q => Cfg.toPCfg (Val := Elt F) (cfgs q)) (defs₀ (F := F))
      Variants.none c S34 [] (K := Q') [hostOps1] sfx_sub34 sfx_fresh
      (Pipeline.withArrays spec0 c (V0 m c) fun w => (dats 0 c).arrAt w cfg0.N)
  rw [hW, hW', List.append_nil, Pipeline.chain_nil, wp_pure] at hstep
  iintro ⟨Hk, Hb, ⟨A0, A1, A2, A3, A4⟩, ⟨a0, a1, a2, a3, a4, a5, a6, a7, v1, v4⟩⟩
  iapply hstep $$ [Hb A3 v4]
  · isplitl [Hb]; · iexact Hb
    isplitl [A3]; · iexact A3
    iexact v4
  iintro ⟨Hb, A3, v4⟩
  imodintro
  iapply Hk
  isplitl [A0 A1 A2 A3 A4]
  · isplitl [A0]; · iexact A0
    isplitl [A1]; · iexact A1
    isplitl [A2]; · iexact A2
    isplitl [A3]; · iexact A3
    iexact A4
  isplitl [a0]; · iexact a0
  isplitl [a1]; · iexact a1
  isplitl [a2]; · iexact a2
  isplitl [a3]; · iexact a3
  isplitl [a4]; · iexact a4
  isplitl [a5]; · iexact a5
  isplitl [a6]; · iexact a6
  isplitl [a7]; · iexact a7
  isplitl [v1]; · iexact v1
  iexact v4

end Cert.KernelIdeal.Hand

end
-- ==== Proof.KLaunch.lean ====
import proofs.«174083_j4664334483724_2_alg».proof.Proof.KLaunchTail

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-! ## The run of @main from the proof data and the body obligation -/

set_option backward.isDefEq.respectTransparency.types false in
/-- THE RUN: for ANY proof data whose arrays are the region-entry contents (`hA`), whose invariant is the class
    invariant (`hΦ`), which owe nothing (`howed`), which hold the array the first two windows both read at its two half
    shares and the third window's array whole (`hq0`, `hq1`, `hq2`), and whose body obligation holds (`hbody`): at the
    compiled mesh, from any memory with zero counters, every weakly fair execution of @main on the TensorCores terminates,
    and in every final state each window's array holds what the library computes from the proof data, and every other
    unscoped buffer what the operation after the region leaves of the region-entry contents. -/
theorem run_main_frame
    (hbody : ∀ c, BodyObligation (dats 0 c) (defs₀ (F := F)) Variants.none () Set.univ)
    (hA : ∀ c w, (dats 0 c).A w = V m c (Pipeline.arrRef spec0 w))
    (hΦ : ∀ c t, (dats 0 c).Φ t = Pipeline.ΦA spec0 c)
    (hq0 : ∀ c, (dats 0 c).q 0 = fullShare.left) (hq1 : ∀ c, (dats 0 c).q 1 = fullShare.right)
    (hq2 : ∀ c, (dats 0 c).q 2 = fullShare)
    (howed : ∀ c t, (dats 0 c).owed t = 0) :
    θ_run defs (onTc (τ := τ) (main (F := F))) ⟨m, fun _ => 0, ρ⟩
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of c (dats 0 c) (V m c) (hA c) (hq0 c) (hq1 c) (hq2 c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Pipeline.afterTail₀ cfgs dats 0 (V0 m) [hostOps1] c))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => htail_of m dats c Q')
    (QY := fun c s => ∀ b ∈ Pipeline.restRefs sig spec0, s.mem ((c.tc : Thread nD τ).loc b) = Pipeline.afterTail₀ cfgs dats 0 (V0 m) [hostOps1] c b)
    (hY := fun c s' => by
      iintro ⟨-, HU, HSI⟩
      unfold Pipeline.unscopedRest
      imodintro
      iapply (pointsTo_read_all (Pipeline.restRefs sig spec0) (fun b => (c.tc : Thread nD τ).loc b) (Pipeline.afterTail₀ cfgs dats 0 (V0 m) [hostOps1] c) s')
      isplitl [HU] <;> iassumption)
    (hQ := fun s h c => ⟨(h c).1, (h c).2.2⟩)

/-! ## What the final state holds -/

/-- The host operations before the region write only their own three results: every other buffer is as launched when the
    region is entered. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.unary_writes, StableHlo.reshape_writes, Finset.mem_singleton]
    exact ⟨StableHlo.devRef_ne_of_ne h0, StableHlo.devRef_ne_of_ne h1, StableHlo.devRef_ne_of_ne h2⟩))

/-- The first result from the first output array: the same elements, in row-major order, under a leading unit axis. -/
def res0 (c : Dev nD) (X : Buf (Elt F) ((c.tc : Thread nD τ).loc main_v3_0)) : Buf (Elt F) ((c.tc : Thread nD τ).loc main_v4) :=
  fun i => shapeCast S1x3200x1024 X shapeCasts_S3200x1024_S1x3200x1024 i

theorem withArrays_v3_0' (c : Dev nD) (Vv : Valuation τ sig (Elt F))
    (A : (w : Fin 5) → Buf (Elt F) ((spec0 w).arr.view.loc (c.tc : Thread nD τ))) :
    Pipeline.withArrays spec0 c Vv A (Proc.devRef .tc main_v3_0) = A 3 := withArrays_v3_0 c Vv A

/-- After the last operation the first result is the reshape of what the proof data compute for the fourth window. -/
theorem afterTail_v4 (c : Dev nD) :
    Pipeline.afterTail₀ cfgs dats 0 (V0 m) [hostOps1] c main_v4 = res0 c ((dats 0 c).arrAt 3 cfg0.N) := by
  unfold Pipeline.afterTail₀
  show StableHlo.after hostOps1 _ (Proc.devRef .tc main_v4) = _
  after_results
  rw [withArrays_v3_0']
  rfl

/-- THE RUN in the claims' form: the first result is the reshape of the fourth window's final array, the second result is the
    fifth window's final array, and the eight arguments are as launched. -/
theorem run_main_of
    (hbody : ∀ c, BodyObligation (dats 0 c) (defs₀ (F := F)) Variants.none () Set.univ)
    (hA : ∀ c w, (dats 0 c).A w = V m c (Pipeline.arrRef spec0 w))
    (hΦ : ∀ c t, (dats 0 c).Φ t = Pipeline.ΦA spec0 c)
    (hq0 : ∀ c, (dats 0 c).q 0 = fullShare.left) (hq1 : ∀ c, (dats 0 c).q 1 = fullShare.right)
    (hq2 : ∀ c, (dats 0 c).q 2 = fullShare)
    (howed : ∀ c t, (dats 0 c).owed t = 0) :
    θ_run defs (onTc (τ := τ) (main (F := F))) ⟨m, fun _ => 0, ρ⟩ (fun r => ∀ c : Dev nD,
      r.2.mem ((c.tc : Thread nD τ).loc main_v4) = res0 c ((dats 0 c).arrAt 3 cfg0.N)
      ∧ r.2.mem ((c.tc : Thread nD τ).loc main_v3_1) = (dats 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v4 (Pipeline.mem_restRefs_of main_v4 (by decide) (by decide))).trans (afterTail_v4 m dats c),
      (h c).1 4,
      ((h c).2 main_arg0 (Pipeline.mem_restRefs_of main_arg0 (by decide) (by decide))).trans ((afterTail_ne m dats c main_arg0 (by decide) (by decide)).trans (V_of_ne m c main_arg0 (by decide) (by decide) (by decide))),
      ((h c).2 main_arg1 (Pipeline.mem_restRefs_of main_arg1 (by decide) (by decide))).trans ((afterTail_ne m dats c main_arg1 (by decide) (by decide)).trans (V_of_ne m c main_arg1 (by decide) (by decide) (by decide))),
      ((h c).2 main_arg2 (Pipeline.mem_restRefs_of main_arg2 (by decide) (by decide))).trans ((afterTail_ne m dats c main_arg2 (by decide) (by decide)).trans (V_of_ne m c main_arg2 (by decide) (by decide) (by decide))),
      ((h c).2 main_arg3 (Pipeline.mem_restRefs_of main_arg3 (by decide) (by decide))).trans ((afterTail_ne m dats c main_arg3 (by decide) (by decide)).trans (V_of_ne m c main_arg3 (by decide) (by decide) (by decide))),
      ((h c).2 main_arg4 (Pipeline.mem_restRefs_of main_arg4 (by decide) (by decide))).trans ((afterTail_ne m dats c main_arg4 (by decide) (by decide)).trans (V_of_ne m c main_arg4 (by decide) (by decide) (by decide))),
      ((h c).2 main_arg5 (Pipeline.mem_restRefs_of main_arg5 (by decide) (by decide))).trans ((afterTail_ne m dats c main_arg5 (by decide) (by decide)).trans (V_of_ne m c main_arg5 (by decide) (by decide) (by decide))),
      ((h c).2 main_arg6 (Pipeline.mem_restRefs_of main_arg6 (by decide) (by decide))).trans ((afterTail_ne m dats c main_arg6 (by decide) (by decide)).trans (V_of_ne m c main_arg6 (by decide) (by decide) (by decide))),
      ((h c).2 main_arg7 (Pipeline.mem_restRefs_of main_arg7 (by decide) (by decide))).trans ((afterTail_ne m dats c main_arg7 (by decide) (by decide)).trans (V_of_ne m c main_arg7 (by decide) (by decide) (by decide)))⟩)
    (run_main_frame m ρ dats hbody hA hΦ hq0 hq1 hq2 howed)

end Cert.KernelIdeal.Hand

end
-- ==== Proof.KBody.lean ====
import proofs.«174083_j4664334483724_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

/-! What the attention body leaves in its two output blocks, as closed functions of the grid coordinate and of
the three input blocks: the eight per-head column slices and the passthrough columns of the first output, and the
single whole-block store of the second. Every value is a payload of the body's skeleton at the skeleton's own
arguments, so a reader can follow the data flow head by head. -/

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The body's accesses -/

/-- Head 0 of the query block. -/
abbrev rq0 : Rect S8x320x64 := Rect.unit (s := S8x320x64) ![0, 0, 0] S1x320x64.size inb_S8x320x64_S1x320x64_0_0_0
/-- Head 1 of the query block. -/
abbrev rq1 : Rect S8x320x64 := Rect.unit (s := S8x320x64) ![1, 0, 0] S1x320x64.size inb_S8x320x64_S1x320x64_1_0_0
/-- Head 2 of the query block. -/
abbrev rq2 : Rect S8x320x64 := Rect.unit (s := S8x320x64) ![2, 0, 0] S1x320x64.size inb_S8x320x64_S1x320x64_2_0_0
/-- Head 3 of the query block. -/
abbrev rq3 : Rect S8x320x64 := Rect.unit (s := S8x320x64) ![3, 0, 0] S1x320x64.size inb_S8x320x64_S1x320x64_3_0_0
/-- Head 4 of the query block. -/
abbrev rq4 : Rect S8x320x64 := Rect.unit (s := S8x320x64) ![4, 0, 0] S1x320x64.size inb_S8x320x64_S1x320x64_4_0_0
/-- Head 5 of the query block. -/
abbrev rq5 : Rect S8x320x64 := Rect.unit (s := S8x320x64) ![5, 0, 0] S1x320x64.size inb_S8x320x64_S1x320x64_5_0_0
/-- Head 6 of the query block. -/
abbrev rq6 : Rect S8x320x64 := Rect.unit (s := S8x320x64) ![6, 0, 0] S1x320x64.size inb_S8x320x64_S1x320x64_6_0_0
/-- Head 7 of the query block. -/
abbrev rq7 : Rect S8x320x64 := Rect.unit (s := S8x320x64) ![7, 0, 0] S1x320x64.size inb_S8x320x64_S1x320x64_7_0_0
/-- Head 0 of the whole key array. -/
abbrev rk0 : Rect S8x3200x64 := Rect.unit (s := S8x3200x64) ![0, 0, 0] S1x3200x64.size inb_S8x3200x64_S1x3200x64_0_0_0
/-- Head 1 of the whole key array. -/
abbrev rk1 : Rect S8x3200x64 := Rect.unit (s := S8x3200x64) ![1, 0, 0] S1x3200x64.size inb_S8x3200x64_S1x3200x64_1_0_0
/-- Head 2 of the whole key array. -/
abbrev rk2 : Rect S8x3200x64 := Rect.unit (s := S8x3200x64) ![2, 0, 0] S1x3200x64.size inb_S8x3200x64_S1x3200x64_2_0_0
/-- Head 3 of the whole key array. -/
abbrev rk3 : Rect S8x3200x64 := Rect.unit (s := S8x3200x64) ![3, 0, 0] S1x3200x64.size inb_S8x3200x64_S1x3200x64_3_0_0
/-- Head 4 of the whole key array. -/
abbrev rk4 : Rect S8x3200x64 := Rect.unit (s := S8x3200x64) ![4, 0, 0] S1x3200x64.size inb_S8x3200x64_S1x3200x64_4_0_0
/-- Head 5 of the whole key array. -/
abbrev rk5 : Rect S8x3200x64 := Rect.unit (s := S8x3200x64) ![5, 0, 0] S1x3200x64.size inb_S8x3200x64_S1x3200x64_5_0_0
/-- Head 6 of the whole key array. -/
abbrev rk6 : Rect S8x3200x64 := Rect.unit (s := S8x3200x64) ![6, 0, 0] S1x3200x64.size inb_S8x3200x64_S1x3200x64_6_0_0
/-- Head 7 of the whole key array. -/
abbrev rk7 : Rect S8x3200x64 := Rect.unit (s := S8x3200x64) ![7, 0, 0] S1x3200x64.size inb_S8x3200x64_S1x3200x64_7_0_0
/-- The whole passthrough block. -/
abbrev rx : Rect S320x512 := Rect.unit (s := S320x512) ![0, 0] S320x512.size inb_S320x512_S320x512_0_0
/-- Head 0's columns of the first output block. -/
abbrev ro0 : Rect S320x1024 := Rect.unit (s := S320x1024) ![0, 0] S320x64.size inb_S320x1024_S320x64_0_0
/-- Head 1's columns of the first output block. -/
abbrev ro1 : Rect S320x1024 := Rect.unit (s := S320x1024) ![0, 64] S320x64.size inb_S320x1024_S320x64_0_64
/-- Head 2's columns of the first output block. -/
abbrev ro2 : Rect S320x1024 := Rect.unit (s := S320x1024) ![0, 128] S320x64.size inb_S320x1024_S320x64_0_128
/-- Head 3's columns of the first output block. -/
abbrev ro3 : Rect S320x1024 := Rect.unit (s := S320x1024) ![0, 192] S320x64.size inb_S320x1024_S320x64_0_192
/-- Head 4's columns of the first output block. -/
abbrev ro4 : Rect S320x1024 := Rect.unit (s := S320x1024) ![0, 256] S320x64.size inb_S320x1024_S320x64_0_256
/-- Head 5's columns of the first output block. -/
abbrev ro5 : Rect S320x1024 := Rect.unit (s := S320x1024) ![0, 320] S320x64.size inb_S320x1024_S320x64_0_320
/-- Head 6's columns of the first output block. -/
abbrev ro6 : Rect S320x1024 := Rect.unit (s := S320x1024) ![0, 384] S320x64.size inb_S320x1024_S320x64_0_384
/-- Head 7's columns of the first output block. -/
abbrev ro7 : Rect S320x1024 := Rect.unit (s := S320x1024) ![0, 448] S320x64.size inb_S320x1024_S320x64_0_448
/-- The passthrough columns of the first output block. -/
abbrev rop : Rect S320x1024 := Rect.unit (s := S320x1024) ![0, 512] S320x512.size inb_S320x1024_S320x512_0_512
/-- The whole second output block. -/
abbrev rw4 : Rect S320x3200 := Rect.unit (s := S320x3200) ![0, 0] S320x3200.size inb_S320x3200_S320x3200_0_0

/-! ## The data flow, value by value

`x0` is the query block of the point (eight heads of 320 rows), `x1` the whole key array (eight heads of 3200
rows), `x2` the passthrough block. -/

variable (i : grid0.Coords) (x0 : Vec F S8x320x64 .f32) (x1 : Vec F S8x3200x64 .f32) (x2 : Vec F S320x512 .f32)

/-- The mask of the point's rows against all columns. -/
def v40 : FVec F S320x3200 .f32 := k0_pay2 (F := F) i
/-- The running sum's start. -/
def v41 : FVec F S320x3200 .f32 := k0_pay3 (F := F)
def v43 : FVec F S320x64 .f32 := k0_pay4 (View.ld x0 rq0)
/-- The running sum after head 0. -/
def v64 : FVec F S320x3200 .f32 := k0_pay7 (v41 (F := F)) (v43 x0) (View.ld x1 rk0)
def v71 : FVec F S320x64 .f32 := k0_pay9 (View.ld x0 rq1)
def v73 : FVec F S3200x64 .f32 := k0_pay10 (View.ld x1 rk1)
def v79 : FVec F S320x1 .f32 := k0_pay11 (View.ld x0 rq1)
def v82 : FVec F S3200x1 .f32 := k0_pay12 (View.ld x1 rk1)
/-- The running sum after heads 1 and 2. -/
def v120 : FVec F S320x3200 .f32 := k0_pay17 (v64 x0 x1) (v71 x0) (v73 x1) (v79 x0) (v82 x1) (View.ld x0 rq2) (View.ld x1 rk2)
/-- The running sum after head 3. -/
def v148 : FVec F S320x3200 .f32 := k0_pay21 (v120 x0 x1) (View.ld x0 rq3) (View.ld x1 rk3)
def v155 : FVec F S320x64 .f32 := k0_pay23 (View.ld x0 rq4)
def v157 : FVec F S3200x64 .f32 := k0_pay24 (View.ld x1 rk4)
def v159 : FVec F S320 .f32 := k0_pay25 (View.ld x0 rq4)
/-- The running sum after head 4. -/
def v176 : FVec F S320x3200 .f32 := k0_pay27 (v148 x0 x1) (v155 x0) (v157 x1) (v159 x0)
def v185 : FVec F S3200x64 .f32 := k0_pay29 (View.ld x1 rk5)
def v199 : FVec F S320x64 .f32 := k0_pay30 (View.ld x0 rq5)
def v201 : FVec F S3200x64 .f32 := k0_pay31 (View.ld x1 rk5)
/-- The running sum after heads 5 and 6. -/
def v232 : FVec F S320x3200 .f32 := k0_pay36 (v176 x0 x1) (v199 x0) (v201 x1) (View.ld x0 rq6) (View.ld x1 rk6)
/-- The numerator and the denominator of the second output. -/
def v274 : FVec F S320x3200 .f32 := k0_pay43 (v232 x0 x1) (View.ld x0 rq7) (View.ld x1 rk7)
def v278 : FVec F S320x3200 .f32 := k0_pay44 (v40 (F := F) i) (v232 x0 x1) (View.ld x0 rq7) (View.ld x1 rk7)

/-! ## The eight heads' output slices -/

def o0 : FVec F S320x64 .f32 := k0_pay8 (v40 (F := F) i) (v43 x0) (View.ld x1 rk0)
def o1 : FVec F S320x64 .f32 := k0_pay14 (v40 (F := F) i) (v71 x0) (v73 x1) (v79 x0) (v82 x1)
def o2 : FVec F S320x64 .f32 := k0_pay18 (v40 (F := F) i) (View.ld x0 rq2) (View.ld x1 rk2)
def o3 : FVec F S320x64 .f32 := k0_pay22 (v40 (F := F) i) (View.ld x0 rq3) (View.ld x1 rk3)
def o4 : FVec F S320x64 .f32 := k0_pay28 (v40 (F := F) i) (v155 x0) (v157 x1) (v159 x0)
def o5 : FVec F S320x64 .f32 := k0_pay33 (v40 (F := F) i) (v185 x1) (v199 x0) (v201 x1)
def o6 : FVec F S320x64 .f32 := k0_pay37 (v40 (F := F) i) (View.ld x0 rq6) (View.ld x1 rk6)
def o7 : FVec F S320x64 .f32 := k0_pay41 (v40 (F := F) i) (View.ld x0 rq7) (View.ld x1 rk7)
/-- The passthrough columns. -/
def op : FVec F S320x512 .f32 := k0_pay42 (View.ld x2 rx)
/-- The second output's block: numerator over denominator. -/
def w4 : FVec F S320x3200 .f32 := k0_pay1 (v274 x0 x1) (v278 i x0 x1)

/-! ## What the body leaves in each output block -/

/-- The first output's pieces, the last store first. -/
def pieces3 : List (View.Piece (Elt F) S320x1024 .f32) :=
  [⟨rop, op x2⟩, ⟨ro7, o7 i x0 x1⟩, ⟨ro6, o6 i x0 x1⟩, ⟨ro5, o5 i x0 x1⟩, ⟨ro4, o4 i x0 x1⟩,
   ⟨ro3, o3 i x0 x1⟩, ⟨ro2, o2 i x0 x1⟩, ⟨ro1, o1 i x0 x1⟩, ⟨ro0, o0 i x0 x1⟩]

/-- The first output block after the body: eight 320x64 column slices, one per head, at columns `64 * h`, and the
    320x512 passthrough at columns 512 to 1023. -/
def out3 : Vec F S320x1024 .f32 := View.canon (pieces3 i x0 x1 x2)

/-- The second output block after the body: one whole-block store. -/
def out4 : Vec F S320x3200 .f32 := View.canon [⟨rw4, w4 i x0 x1⟩]

/-- The nine stores of the first output cover its block: cut into 320x64 column blocks they tile it. -/
theorem cover3 (p8 : FVec F S320x512 .f32) (p7 p6 p5 p4 p3 p2 p1 p0 : FVec F S320x64 .f32) (y : S320x1024.Idx) :
    ∃ pc ∈ ([⟨rop, p8⟩, ⟨ro7, p7⟩, ⟨ro6, p6⟩, ⟨ro5, p5⟩, ⟨ro4, p4⟩, ⟨ro3, p3⟩, ⟨ro2, p2⟩, ⟨ro1, p1⟩, ⟨ro0, p0⟩] :
      List (View.Piece (Elt F) S320x1024 .f32)), y ∈ pc.1.set :=
  View.cover_of_tiledBy _ ![320, 64] (by sl_kernel_rfl) y

/-- The one store of the second output is its whole block. -/
theorem cover4 (p0 : FVec F S320x3200 .f32) (y : S320x3200.Idx) :
    ∃ pc ∈ ([⟨rw4, p0⟩] : List (View.Piece (Elt F) S320x3200 .f32)), y ∈ pc.1.set :=
  View.cover_of_tiled _ S320x3200.size (by rfl) y

/-- The second output block is the stored value itself. -/
theorem out4_eq : out4 i x0 x1 = w4 i x0 x1 :=
  View.canon_unit_zero (by funext a; fin_cases a <;> rfl) _ _

end Cert.KernelIdeal.Hand

end
-- ==== Proof.KBodyRun.lean ====
import proofs.«174083_j4664334483724_2_alg».proof.Proof.KBody
import proofs.«174083_j4664334483724_2_alg».proof.Proof.Gen.KernelIdeal.Launch
import proofs.«174083_j4664334483724_2_alg».proof.Proof.Gen.KernelIdeal.Points

/-! The attention body's triple: on whole staging blocks, the three inputs at their read contents and the two
outputs at anything, the body runs to the continuation holding the inputs as they were and the outputs at the
closed forms `out3` and `out4` of the inputs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the inputs' contents are read and kept, each output block is overwritten
    by stores that cover it, so what it holds afterwards is the canonical contents of those stores. -/
theorem sound_kernel (c : Dev nD) (E : Set ℕ) (i : grid0.Coords)
    (arg1 : Memref sig .tc .vmem S8x320x64 .f32) (harg1 : arg1.IsWhole)
    (arg2 : Memref sig .tc .vmem S8x3200x64 .f32) (harg2 : arg2.IsWhole)
    (arg3 : Memref sig .tc .vmem S320x512 .f32) (harg3 : arg3.IsWhole)
    (arg4 : Memref sig .tc .vmem S320x1024 .f32) (harg4 : arg4.IsWhole)
    (arg5 : Memref sig .tc .vmem S320x3200 .f32) (harg5 : arg5.IsWhole)
    (x0 : Vec F S8x320x64 .f32) (x1 : Vec F S8x3200x64 .f32) (x2 : Vec F S320x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 i x0 x1 x2) ∗ owns (c : Thread nD τ) arg5 fullShare (out4 i x0 x1)) -∗ K ⟨⟩))
      ⊢ wp frame (wpE (defs₀ (F := F)) Variants.none c none) E (cc0_attn_kernel i arg1 harg1 arg2 harg2 arg3 harg3 arg4 harg4 arg5 harg5) K := by
  simp only [cc0_attn_kernel_eq_skeleton]; unfold cc0_attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    first
      | exact View.read_writes_eq_canon _ _ _ (cover3 _ _ _ _ _ _ _ _ _)
      | fail "out3 read-back"
  iexists _; isplitr
  swap; · iexact H4
  ipureintro
  sl_unfold_run_names
  first
    | exact View.read_writes_eq_canon _ _ _ (cover4 _)
    | fail "out4 read-back"

end Cert.KernelIdeal.Hand

end
-- ==== Proof.KBodyDat.lean ====
import proofs.«174083_j4664334483724_2_alg».proof.Proof.KBodyRun
import Idealize.ShloMosaic.Lib.Pipeline.FrameBody

/-! The pipeline's proof data and the body obligation of the attention kernel, for any contents `V` of the
core's buffers at the region's entry and any shares `q` of the windows' arrays: after the body at a point each
input block is as fetched and each output block is `out3` / `out4` of the point's input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg0.W → PosShare TreeShare)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point
    `t` each input's buffer at its block and each output's at the closed form of the input blocks; the invariant
    the scoped rest and the generator register, untouched; nothing owed; the arrays' shares as given. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (grid0.coords t) (iblk V c 0 t) (iblk V c 1 t) (iblk V c 2 t)
    | ⟨4, _⟩ => out4 (grid0.coords t) (iblk V c 0 t) (iblk V c 1 t)
  Φ _ := Pipeline.ΦA spec0 c
  q := q
  owed _ := 0

theorem A_eq (c : Dev nD) (w : Fin cfg0.W) : (dats V q 0 c).A w = V c (Pipeline.arrRef spec0 w) := by
  dsimp only [dats]
theorem q_eq (c : Dev nD) (w : Fin cfg0.W) : (dats V q 0 c).q w = q w := by
  dsimp only [dats]
theorem Φ_eq (c : Dev nD) (t : Fin (cfg0.N + 1)) : (dats V q 0 c).Φ t = Pipeline.ΦA spec0 c := by
  dsimp only [dats]
theorem owed_eq (c : Dev nD) (t : Fin (cfg0.N + 1)) : (dats V q 0 c).owed t = 0 := by
  dsimp only [dats]

/-- What the body leaves, window by window. -/
theorem after0_0 (c : Dev nD) (t : Fin cfg0.N) : (dats V q 0 c).after 0 t = iblk V c 0 t := by dsimp only [dats]
theorem after0_1 (c : Dev nD) (t : Fin cfg0.N) : (dats V q 0 c).after 1 t = iblk V c 1 t := by dsimp only [dats]
theorem after0_2 (c : Dev nD) (t : Fin cfg0.N) : (dats V q 0 c).after 2 t = iblk V c 2 t := by dsimp only [dats]
theorem after0_3 (c : Dev nD) (t : Fin cfg0.N) :
    (dats V q 0 c).after 3 t = out3 (grid0.coords t) (iblk V c 0 t) (iblk V c 1 t) (iblk V c 2 t) := by dsimp only [dats]
theorem after0_4 (c : Dev nD) (t : Fin cfg0.N) :
    (dats V q 0 c).after 4 t = out4 (grid0.coords t) (iblk V c 0 t) (iblk V c 1 t) := by dsimp only [dats]

/-- Each input's current staging buffer holds its block at every point, fetched there or not. -/
theorem before0_0 (c : Dev nD) (t : Fin cfg0.N) (d) : (dats V q 0 c).before 0 t d = iblk V c 0 t :=
  before0_0_of V (dats V q 0 c) (A_eq V q c 0) (after0_0 V q c) t d
theorem before0_1 (c : Dev nD) (t : Fin cfg0.N) (d) : (dats V q 0 c).before 1 t d = iblk V c 1 t :=
  before0_1_of V (dats V q 0 c) (A_eq V q c 1) (after0_1 V q c) t d
theorem before0_2 (c : Dev nD) (t : Fin cfg0.N) (d) : (dats V q 0 c).before 2 t d = iblk V c 2 t :=
  before0_2_of V (dats V q 0 c) (A_eq V q c 2) (after0_2 V q c) t d

/-! ## The body obligation, at a generic point -/

/-- What the body is called with at point `t`, the windows one by one, -/
def bodyPre (c : Dev nD) (t : Fin cfg0.N) : sProp 𝕄 :=
  iprop((dats V q 0 c).Φ t.castSucc ∗ (dats V q 0 c).owesAt () t.castSucc
    ∗ (∃ d, owns (c : Thread nD τ) (st0_0 t) fullShare ((dats V q 0 c).before 0 t d))
    ∗ (∃ d, owns (c : Thread nD τ) (st0_1 t) fullShare ((dats V q 0 c).before 1 t d))
    ∗ (∃ d, owns (c : Thread nD τ) (st0_2 t) fullShare ((dats V q 0 c).before 2 t d))
    ∗ (∃ d, owns (c : Thread nD τ) (st0_3 t) fullShare ((dats V q 0 c).before 3 t d))
    ∗ (∃ d, owns (c : Thread nD τ) (st0_4 t) fullShare ((dats V q 0 c).before 4 t d)))

/-- and what it returns. -/
def bodyPost (c : Dev nD) (t : Fin cfg0.N) : sProp 𝕄 :=
  iprop((dats V q 0 c).Φ t.succ ∗ (dats V q 0 c).owesAt () t.succ
    ∗ owns (c : Thread nD τ) (st0_0 t) fullShare ((dats V q 0 c).after 0 t)
    ∗ owns (c : Thread nD τ) (st0_1 t) fullShare ((dats V q 0 c).after 1 t)
    ∗ owns (c : Thread nD τ) (st0_2 t) fullShare ((dats V q 0 c).after 2 t)
    ∗ owns (c : Thread nD τ) (st0_3 t) fullShare ((dats V q 0 c).after 3 t)
    ∗ owns (c : Thread nD τ) (st0_4 t) fullShare ((dats V q 0 c).after 4 t))

/-- The body at any point: the inputs' memrefs hold their blocks, so the body's triple applies; the invariant and
    what the core owes pass through unread. -/
theorem sound_body (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before0_0, before0_1, before0_2]
  rw [show (dats V q 0 c).Φ t.succ = (dats V q 0 c).Φ t.castSucc from rfl,
    show (dats V q 0 c).owesAt () t.succ = (dats V q 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) V q 0 c) (defs₀ (F := F)) Variants.none () Set.univ := fun t => by
  rw [bigSep_W0, bigSep_W0]
  exact sound_body V q c t

end Cert.KernelIdeal.Hand

end
-- ==== Proof.KFrame.lean ====
/-
  The tiled program runs to the end, faults nowhere and leaves its eight inputs as they were.

  The two input windows that read one and the same array each hold half of that array's share (the left and the
  right half of the full share); every other window holds its array whole. With the body's effect on the five
  staging buffers established at every grid point, the launch of the region between the host operations before
  and after it gives the run, and the inputs' final contents are read off its end state.
-/
import proofs.«174083_j4664334483724_2_alg».proof.Proof.KLaunch
import proofs.«174083_j4664334483724_2_alg».proof.Proof.KBodyDat

noncomputable section

namespace Cert.KernelIdeal.Hand

open Cert.KernelIdeal Cert.KernelIdeal.Gen
open Idealize.ShloMosaic Idealize.ShloMosaic.TcCoe Idealize.SL Idealize.SL.RA Idealize.SL.Sem

variable {F : FTy → Type} [FloatOps F]

/-- The shares: the two windows on the shared array hold complementary halves, the others the full share. -/
abbrev qsh : Fin cfg0.W → PosShare TreeShare := ![fullShare.left, fullShare.right, fullShare, fullShare, fullShare]

/-- The run with both result arrays named through the proof data, and the inputs unchanged. -/
theorem run_named (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v4) = res0 c ((dats (V m) qsh 0 c).arrAt 3 cfg0.N)
      ∧ r.2.mem ((c.tc : Thread nD τ).loc main_v3_1) = (dats (V m) qsh 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_main_of m ρ (dats (V m) qsh) (fun c => body_obligation (V m) qsh c) (fun c w => A_eq (V m) qsh c w)
    (fun c t => Φ_eq (V m) qsh c t) (fun c => q_eq (V m) qsh c 0) (fun c => q_eq (V m) qsh c 1)
    (fun c => q_eq (V m) qsh c 2) (fun c t => owed_eq (V m) qsh c t)

/-- The frame: the run ends with the eight inputs unchanged. -/
theorem run_frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun _ h c => (h c).2.2) (run_named m ρ)

end Cert.KernelIdeal.Hand

end
-- ==== Proof.KRow.lean ====
/-
  Row 320·i + r of the whole 3200-row array: row r of the block the grid point i works on.
-/
import proofs.«174083_j4664334483724_2_alg».proof.KernelIdeal

namespace Cert.KernelIdeal.HandValue

open Cert.KernelIdeal Idealize.ShloMosaic

/-- Row 320·i + r of the whole array, for row r of the block at grid point i. -/
def row (i : grid0.Coords) (r : Fin 320) : Fin 3200 :=
  ⟨320 * (i 0).val + r.val, by have h : (i 0).val < 10 := (i 0).isLt; have := r.isLt; omega⟩

theorem row_val (i : grid0.Coords) (r : Fin 320) : (row i r).val = 320 * (i 0).val + r.val := rfl

end Cert.KernelIdeal.HandValue
-- ==== Proof.Spec.lean ====
/-
  The mathematics both programs compute, written once, index by index, on the extended reals.

  The one live input is v : [1, 3200, 512], read head-major as x h n d = v[0, n, 64·h + d]
  (8 heads, 3200 rows, 64 lanes).  Every row of every head is scaled to (almost) unit length,
  u h n = x h n / (‖x h n‖ + ε); the cosine similarity of rows n and m in head h is
  raw h n m = Σ_d u h n d · u h m d; a fixed 0/1 mask removes, from row n, the first nine columns of
  its own block of ten except the diagonal.

  First result (3200 × 1024): columns 64·h + d < 512 hold Σ_m raw h n m · mask n m · x h m d, columns
  512 + j hold v[0, n, j] itself.

  Second result (3200 × 3200): a row-normalised, thresholded soft-max of the head-averaged masked
  similarities.  The two programs spell it differently, and both spellings are stated here:
    * the tiled program:   s·e / (Σ s·e + (Σ e)·ε),  e = exp(((Σ_h raw)·mask)·(1/8)),  s = [ (Σ_h raw)·(1/8) > 3/4 ];
    * the array program:   q / (Σ q + ε),  q = s'·p,  p = exp(a − max a) / Σ exp(a − max a),
                           a = (Σ_h raw·mask) / 8,  s' = [ (Σ_h raw) / 8 > 3/4 ].
  That the two agree for real (finite) entries is the algebra of another module; nothing here is proved.
-/
import Idealize.ShloMosaic.PureOps.Ideal
import Idealize.ShloMosaic.Lib.ValueIdx

noncomputable section

open scoped BigOperators

namespace Cert.Spec

open Idealize.ShloMosaic Idealize.ShloMosaic.ValueIdx

/-- The input read head-major: head, row, lane. -/
abbrev Heads : Type := Fin 8 → Fin 3200 → Fin 64 → EReal

/-- Lane d of head h sits at column 64·h + d of the 512 columns. -/
def col (h : Fin 8) (d : Fin 64) : Fin 512 := ⟨64 * h.val + d.val, by have := h.isLt; have := d.isLt; omega⟩

/-- The head-major reading of the [1, 3200, 512] array. -/
def heads (a : (⟨3, ![1, 3200, 512]⟩ : Shape).Idx → EReal) : Heads :=
  fun h n d => a (ix3 (0 : Fin 1) n (col h d))

/-- The small positive number added to every norm and to the last denominator (one binary word, the same in both programs). -/
def eps : EReal := Ideal.ofBits .f32 0x322BCC77#32
/-- The number of heads as the array program divides by it. -/
def eight : EReal := Ideal.ofBits .f32 0x41000000#32
/-- Its reciprocal as the tiled program multiplies by it. -/
def eighth : EReal := Ideal.ofBits .f32 0x3E000000#32
/-- The similarity threshold 3/4. -/
def thresh : EReal := Ideal.ofBits .f32 0x3F400000#32

/-- Length of row n of head h, plus ε. -/
def nrm (x : Heads) (h : Fin 8) (n : Fin 3200) : EReal := Ideal.sqrt (∑ d, x h n d * x h n d) + eps
/-- The row scaled by its length. -/
def unit (x : Heads) (h : Fin 8) (n : Fin 3200) (d : Fin 64) : EReal := Ideal.div (x h n d) (nrm x h n)
/-- Cosine similarity of rows n and m within head h. -/
def raw (x : Heads) (h : Fin 8) (n m : Fin 3200) : EReal := ∑ d, unit x h n d * unit x h m d

/-- Column m survives in row n: it is outside the first nine columns of n's block of ten, or it is the diagonal. -/
def keep (n m : Fin 3200) : Prop :=
  ¬ ((n.val / 10) * 10 ≤ m.val ∧ m.val < (n.val / 10) * 10 + 9) ∨ m.val = n.val
instance (n m : Fin 3200) : Decidable (keep n m) := by unfold keep; infer_instance
/-- The mask as a number. -/
def mask (n m : Fin 3200) : EReal := if keep n m then 1 else 0

/-- Masked similarity. -/
def att (x : Heads) (h : Fin 8) (n m : Fin 3200) : EReal := raw x h n m * mask n m
/-- Masked similarities applied to the rows themselves. -/
def ctx (x : Heads) (h : Fin 8) (n : Fin 3200) (d : Fin 64) : EReal := ∑ m, att x h n m * x h m d
/-- Similarities summed over the heads. -/
def rawsum (x : Heads) (n m : Fin 3200) : EReal := ∑ h, raw x h n m

/-- First result: the eight heads' contexts side by side, then the input row itself. -/
def xout (x : Heads) (n : Fin 3200) (j : Fin 1024) : EReal :=
  if hj : j.val < 512 then ctx x ⟨j.val / 64, by omega⟩ n ⟨j.val % 64, Nat.mod_lt _ (by norm_num)⟩
  else x ⟨(j.val - 512) / 64, by have := j.isLt; omega⟩ n ⟨(j.val - 512) % 64, Nat.mod_lt _ (by norm_num)⟩

/-! ## Second result, as the tiled program spells it -/

def kMean (x : Heads) (n m : Fin 3200) : EReal := rawsum x n m * eighth
def kSel (x : Heads) (n m : Fin 3200) : EReal := if thresh < kMean x n m then 1 else 0
def kLogit (x : Heads) (n m : Fin 3200) : EReal := (rawsum x n m * mask n m) * eighth
def kExp (x : Heads) (n m : Fin 3200) : EReal := Ideal.exp (kLogit x n m)
def kNum (x : Heads) (n m : Fin 3200) : EReal := kSel x n m * kExp x n m
def kDen (x : Heads) (n : Fin 3200) : EReal := (∑ m, kNum x n m) + (∑ m, kExp x n m) * eps
def kSim (x : Heads) (n m : Fin 3200) : EReal := Ideal.div (kNum x n m) (kDen x n)

/-! ## Second result, as the array program spells it -/

def rMean (x : Heads) (n m : Fin 3200) : EReal := Ideal.div (rawsum x n m) eight
def rSel (x : Heads) (n m : Fin 3200) : EReal := if thresh < rMean x n m then 1 else 0
def rLogit (x : Heads) (n m : Fin 3200) : EReal := Ideal.div (∑ h, att x h n m) eight
/-- The row's largest logit (the supremum over the 3200 columns; ⊥ is the neutral start). -/
def rMax (x : Heads) (n : Fin 3200) : EReal := Finset.univ.sup (fun m => rLogit x n m)
def rExp (x : Heads) (n m : Fin 3200) : EReal := Ideal.exp (rLogit x n m - rMax x n)
def rSoft (x : Heads) (n m : Fin 3200) : EReal := Ideal.div (rExp x n m) (∑ m', rExp x n m')
def rNum (x : Heads) (n m : Fin 3200) : EReal := rSel x n m * rSoft x n m
def rSim (x : Heads) (n m : Fin 3200) : EReal := Ideal.div (rNum x n m) ((∑ m', rNum x n m') + eps)

end Cert.Spec

end
-- ==== Proof.KFinal.lean ====
import proofs.«174083_j4664334483724_2_alg».proof.Proof.KBodyDat
import proofs.«174083_j4664334483724_2_alg».proof.Proof.KRow
import proofs.«174083_j4664334483724_2_alg».proof.Proof.Spec
import Idealize.ShloMosaic.Lib.Pipeline.Value
import Idealize.ShloMosaic.Lib.ValueIdx

/-! From blocks to the arrays, on the extended reals. Grid point t handles rows 320·t to 320·t + 319: its query
block is those rows of every head, its key block is the whole head-major array, its passthrough block is those rows
of the 512 columns, and what it writes back are those rows of the two results. Given that one block of each result
is the specification's rows of that block, the ten blocks tile the two result arrays, so each array ends at the
specification, index by index. -/

set_option maxRecDepth 16384

noncomputable section

namespace Cert.KernelIdeal.Hand

open Cert.KernelIdeal Cert.KernelIdeal.Gen Cert.KernelIdeal.HandValue
open Idealize.ShloMosaic Idealize.ShloMosaic.TcCoe Idealize.ShloMosaic.ValueIdx
open Idealize.SL Idealize.SL.RA
open Idealize.ShloMosaic.Pipeline (Dat Cfg Window)

variable (V : (c : Dev nD) → (b : Ref sig .tc) → Buf (Elt Ideal) ((c : Thread nD τ).loc b))
variable (q : Fin cfg0.W → PosShare TreeShare)
variable (X : Cert.Spec.Heads)

/-! ## Where each window's block sits at a point -/

/-- The printed index maps, decided over the grid: the query, passthrough and result blocks move with the point
    along the rows, the key block never moves, and the point's one coordinate is its number. -/
theorem blockIndex : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ (grid0.coords t (0 : Fin 1)).val = t.val :=
  (by decide +kernel : ∀ t : Fin grid0.N, _)

/-- Row r of point t's block is row 320·t + r of the array. -/
theorem row_point (t : Fin cfg0.N) (r : Fin 320) : (row (grid0.coords t) r).val = 320 * t.val + r.val := by
  rw [row_val, (blockIndex t).2.2.2.2.2.2.2.2.2.2.2.2]

/-! ## The input blocks, read where the point's rows are -/

/-- The query block at a point: the point's rows of every head. -/
theorem qblock_at (c : Dev nD) (t : Fin cfg0.N) (h : Fin 8) (r : Fin 320) (d : Fin 64) :
    (iblk V c 0 t : Vec Ideal S8x320x64 .f32) (ix3 h r d) = V c main_v2 (ix3 h (row (grid0.coords t) r) d) := by
  obtain ⟨e0, e1, e2, -⟩ := blockIndex t
  have hr := row_point t r
  show V c main_v2 (((cfg0.win 0).blk t).view.emb (ix3 h r d)) = _
  refine congrArg _ (funext fun a => Fin.ext ?_)
  match a with
  | ⟨0, _⟩ => show win0_0.index t (0 : Fin 3) * 8 + 1 * h.val = h.val; omega
  | ⟨1, _⟩ => show win0_0.index t (1 : Fin 3) * 320 + 1 * r.val = (row (grid0.coords t) r).val; omega
  | ⟨2, _⟩ => show win0_0.index t (2 : Fin 3) * 64 + 1 * d.val = d.val; omega

/-- The key block at a point: the whole array. -/
theorem kblock_at (c : Dev nD) (t : Fin cfg0.N) (h : Fin 8) (n : Fin 3200) (d : Fin 64) :
    (iblk V c 1 t : Vec Ideal S8x3200x64 .f32) (ix3 h n d) = V c main_v2 (ix3 h n d) := by
  obtain ⟨-, -, -, e0, e1, e2, -⟩ := blockIndex t
  show V c main_v2 (((cfg0.win 1).blk t).view.emb (ix3 h n d)) = _
  refine congrArg _ (funext fun a => Fin.ext ?_)
  match a with
  | ⟨0, _⟩ => show win0_1.index t (0 : Fin 3) * 8 + 1 * h.val = h.val; omega
  | ⟨1, _⟩ => show win0_1.index t (1 : Fin 3) * 3200 + 1 * n.val = n.val; omega
  | ⟨2, _⟩ => show win0_1.index t (2 : Fin 3) * 64 + 1 * d.val = d.val; omega

/-- The passthrough block at a point: the point's rows of the 512 columns. -/
theorem pblock_at (c : Dev nD) (t : Fin cfg0.N) (r : Fin 320) (j : Fin 512) :
    (iblk V c 2 t : Vec Ideal S320x512 .f32) (ix2 r j) = V c main_v0 (ix2 (row (grid0.coords t) r) j) := by
  obtain ⟨-, -, -, -, -, -, e0, e1, -⟩ := blockIndex t
  have hr := row_point t r
  show V c main_v0 (((cfg0.win 2).blk t).view.emb (ix2 r j)) = _
  refine congrArg _ (funext fun a => Fin.ext ?_)
  match a with
  | ⟨0, _⟩ => show win0_2.index t (0 : Fin 2) * 320 + 1 * r.val = (row (grid0.coords t) r).val; omega
  | ⟨1, _⟩ => show win0_2.index t (1 : Fin 2) * 512 + 1 * j.val = j.val; omega

/-! ## The two results as functions of the array index -/

/-- The first result, index by index. -/
abbrev G3 : S3200x1024.Idx → EReal := fun j => Cert.Spec.xout X (j 0) (j 1)
/-- The second result, index by index. -/
abbrev G4 : S3200x3200.Idx → EReal := fun j => Cert.Spec.kSim X (j 0) (j 1)

section
variable (c : Dev nD)
variable (hV2 : ∀ (h : Fin 8) (n : Fin 3200) (d : Fin 64), V c main_v2 (ix3 h n d) = X h n d)
variable (hV0 : ∀ (n : Fin 3200) (h : Fin 8) (d : Fin 64), V c main_v0 (ix2 n (Cert.Spec.col h d)) = X h n d)
variable (hout3 : ∀ (i : grid0.Coords) (x0 : Vec Ideal S8x320x64 .f32) (x1 : Vec Ideal S8x3200x64 .f32) (x2 : Vec Ideal S320x512 .f32),
    (∀ h r d, x0 (ix3 h r d) = X h (row i r) d) → (∀ h n d, x1 (ix3 h n d) = X h n d)
    → (∀ r h d, x2 (ix2 r (Cert.Spec.col h d)) = X h (row i r) d)
    → ∀ (r : Fin 320) (j : Fin 1024), out3 (F := Ideal) i x0 x1 x2 (ix2 r j) = Cert.Spec.xout X (row i r) j)
variable (hout4 : ∀ (i : grid0.Coords) (x0 : Vec Ideal S8x320x64 .f32) (x1 : Vec Ideal S8x3200x64 .f32),
    (∀ h r d, x0 (ix3 h r d) = X h (row i r) d) → (∀ h n d, x1 (ix3 h n d) = X h n d)
    → ∀ (r : Fin 320) (m : Fin 3200), out4 (F := Ideal) i x0 x1 (ix2 r m) = Cert.Spec.kSim X (row i r) m)

/-! ## The first result -/

include hV2 hV0 hout3 in
/-- What point t writes back of the first result is block t of the specification. -/
theorem flushed3_eq (t : Fin cfg0.N) :
    (dats V q 0 c).flushed 3 t = ((cfg0.win 3).blk t).view.read (Elt Ideal) (G3 X) := by
  show (cfg0.win 3).cut (grid0.coords t) ((dats V q 0 c).after 3 t) = _
  rw [after0_3]
  funext y
  obtain ⟨r, j, rfl⟩ : ∃ (r : Fin 320) (j : Fin 1024), y = ix2 r j := ⟨y 0, y 1, eq_ix2 (n0 := 320) (n1 := 1024) y⟩
  show out3 (grid0.coords t) (iblk V c 0 t) (iblk V c 1 t) (iblk V c 2 t) (ix2 r j)
    = G3 X (((cfg0.win 3).blk t).view.emb (ix2 r j))
  rw [hout3 (grid0.coords t) (iblk V c 0 t) (iblk V c 1 t) (iblk V c 2 t)
    (fun h r d => by rw [qblock_at, hV2]) (fun h n d => by rw [kblock_at, hV2])
    (fun r h d => by rw [pblock_at, hV0]) r j]
  obtain ⟨-, -, -, -, -, -, -, -, e0, e1, -⟩ := blockIndex t
  have hr := row_point t r
  have e : ((cfg0.win 3).blk t).view.emb (ix2 r j) = ix2 (row (grid0.coords t) r) j := by
    funext a; apply Fin.ext
    match a with
    | ⟨0, _⟩ => show win0_3.index t (0 : Fin 2) * 320 + 1 * r.val = (row (grid0.coords t) r).val; omega
    | ⟨1, _⟩ => show win0_3.index t (1 : Fin 2) * 1024 + 1 * j.val = j.val; omega
  rw [e]

/-- An index of the first result is in point t's block iff each coordinate is in the block's range on its axis. -/
theorem mem_blk3 (t : Fin cfg0.N) (i : S3200x1024.Idx) :
    i ∈ ((cfg0.win 3).blk t).view.set ↔ ∀ a : Fin 2, win0_3.index t a * S320x1024.size a ≤ (i a).val ∧ (i a).val < win0_3.index t a * S320x1024.size a + S320x1024.size a := by
  show i ∈ ((View.whole main_v3_0).slice (win0_3.rect t)).set ↔ _
  rw [View.set_slice_whole, Rect.mem_set_unit]
  exact Iff.rfl

/-- Every index of the first result is in the block of the point its row falls in. -/
theorem covered3 (i : S3200x1024.Idx) :
    ∃ t : Fin cfg0.N, (cfg0.win 3).flush t = true ∧ i ∈ ((cfg0.win 3).blk t).view.set := by
  have hi0 : (i 0).val < 3200 := (i 0).isLt
  have hi1 : (i 1).val < 1024 := (i 1).isLt
  have hN : cfg0.N = 10 := N_0
  refine ⟨⟨(i 0).val / 320, by omega⟩, flush0_3 _, ?_⟩
  obtain ⟨-, -, -, -, -, -, -, -, e0, e1, -⟩ := blockIndex ⟨(i 0).val / 320, by omega⟩
  rw [mem_blk3]
  intro a
  match a with
  | ⟨0, _⟩ =>
    show win0_3.index _ (0 : Fin 2) * 320 ≤ (i 0).val ∧ (i 0).val < win0_3.index _ (0 : Fin 2) * 320 + 320
    rw [e0]; show (i 0).val / 320 * 320 ≤ (i 0).val ∧ (i 0).val < (i 0).val / 320 * 320 + 320; omega
  | ⟨1, _⟩ =>
    show win0_3.index _ (1 : Fin 2) * 1024 ≤ (i 1).val ∧ (i 1).val < win0_3.index _ (1 : Fin 2) * 1024 + 1024
    rw [e1]; omega

include hV2 hV0 hout3 in
/-- The first result after the run on core c is the specification's, index by index. -/
theorem final3 : (dats V q 0 c).arrAt 3 cfg0.N = fun j : S3200x1024.Idx => Cert.Spec.xout X (j 0) (j 1) :=
  (dats V q 0 c).arrAt_eq_of_cover 3 (G3 X) (fun t _ => flushed3_eq V q X c hV2 hV0 hout3 t) covered3

/-! ## The second result -/

include hV2 hout4 in
/-- What point t writes back of the second result is block t of the specification. -/
theorem flushed4_eq (t : Fin cfg0.N) :
    (dats V q 0 c).flushed 4 t = ((cfg0.win 4).blk t).view.read (Elt Ideal) (G4 X) := by
  show (cfg0.win 4).cut (grid0.coords t) ((dats V q 0 c).after 4 t) = _
  rw [after0_4]
  funext y
  obtain ⟨r, m, rfl⟩ : ∃ (r : Fin 320) (m : Fin 3200), y = ix2 r m := ⟨y 0, y 1, eq_ix2 (n0 := 320) (n1 := 3200) y⟩
  show out4 (grid0.coords t) (iblk V c 0 t) (iblk V c 1 t) (ix2 r m)
    = G4 X (((cfg0.win 4).blk t).view.emb (ix2 r m))
  rw [hout4 (grid0.coords t) (iblk V c 0 t) (iblk V c 1 t)
    (fun h r d => by rw [qblock_at, hV2]) (fun h n d => by rw [kblock_at, hV2]) r m]
  obtain ⟨-, -, -, -, -, -, -, -, -, -, e0, e1, -⟩ := blockIndex t
  have hr := row_point t r
  have e : ((cfg0.win 4).blk t).view.emb (ix2 r m) = ix2 (row (grid0.coords t) r) m := by
    funext a; apply Fin.ext
    match a with
    | ⟨0, _⟩ => show win0_4.index t (0 : Fin 2) * 320 + 1 * r.val = (row (grid0.coords t) r).val; omega
    | ⟨1, _⟩ => show win0_4.index t (1 : Fin 2) * 3200 + 1 * m.val = m.val; omega
  rw [e]

/-- An index of the second result is in point t's block iff each coordinate is in the block's range on its axis. -/
theorem mem_blk4 (t : Fin cfg0.N) (i : S3200x3200.Idx) :
    i ∈ ((cfg0.win 4).blk t).view.set ↔ ∀ a : Fin 2, win0_4.index t a * S320x3200.size a ≤ (i a).val ∧ (i a).val < win0_4.index t a * S320x3200.size a + S320x3200.size a := by
  show i ∈ ((View.whole main_v3_1).slice (win0_4.rect t)).set ↔ _
  rw [View.set_slice_whole, Rect.mem_set_unit]
  exact Iff.rfl

/-- Every index of the second result is in the block of the point its row falls in. -/
theorem covered4 (i : S3200x3200.Idx) :
    ∃ t : Fin cfg0.N, (cfg0.win 4).flush t = true ∧ i ∈ ((cfg0.win 4).blk t).view.set := by
  have hi0 : (i 0).val < 3200 := (i 0).isLt
  have hi1 : (i 1).val < 3200 := (i 1).isLt
  have hN : cfg0.N = 10 := N_0
  refine ⟨⟨(i 0).val / 320, by omega⟩, flush0_4 _, ?_⟩
  obtain ⟨-, -, -, -, -, -, -, -, -, -, e0, e1, -⟩ := blockIndex ⟨(i 0).val / 320, by omega⟩
  rw [mem_blk4]
  intro a
  match a with
  | ⟨0, _⟩ =>
    show win0_4.index _ (0 : Fin 2) * 320 ≤ (i 0).val ∧ (i 0).val < win0_4.index _ (0 : Fin 2) * 320 + 320
    rw [e0]; show (i 0).val / 320 * 320 ≤ (i 0).val ∧ (i 0).val < (i 0).val / 320 * 320 + 320; omega
  | ⟨1, _⟩ =>
    show win0_4.index _ (1 : Fin 2) * 3200 ≤ (i 1).val ∧ (i 1).val < win0_4.index _ (1 : Fin 2) * 3200 + 3200
    rw [e1]; omega

include hV2 hout4 in
/-- The second result after the run on core c is the specification's, index by index. -/
theorem final4 : (dats V q 0 c).arrAt 4 cfg0.N = fun j : S3200x3200.Idx => Cert.Spec.kSim X (j 0) (j 1) :=
  (dats V q 0 c).arrAt_eq_of_cover 4 (G4 X) (fun t _ => flushed4_eq V q X c hV2 hout4 t) covered4

end

end Cert.KernelIdeal.Hand

end
-- ==== Proof.KPrefix.lean ====
import proofs.«174083_j4664334483724_2_alg».proof.Proof.Gen.KernelIdeal
import proofs.«174083_j4664334483724_2_alg».proof.Proof.Spec
import Idealize.ShloMosaic.Lib.Pipeline.Value
import Idealize.ShloMosaic.Lib.ValueIdx

/-! The three layout changes before the region, read at an index. The [1, 3200, 512] input is flattened to
[3200, 512], its 512 columns are split into 8 heads of 64 lanes, and the heads are moved to the front: every one of
the three arrays holds the same numbers, and element (h, n, d) of the last is element (0, n, 64·h + d) of the input. -/

set_option maxRecDepth 16384

noncomputable section

namespace Cert.KernelIdeal.Hand

open Cert.KernelIdeal Cert.KernelIdeal.Gen
open Idealize.ShloMosaic Idealize.ShloMosaic.ValueIdx

variable (a1 : S1x3200x512.Idx → EReal)

/-- The input flattened to rows of 512 columns. -/
def flat : S3200x512.Idx → EReal := shapeCast S3200x512 a1 shapeCasts_S1x3200x512_S3200x512
/-- The columns split into 8 heads of 64 lanes. -/
def split : S3200x8x64.Idx → EReal := shapeCast S3200x8x64 (flat a1) shapeCasts_S3200x512_S3200x8x64
/-- The heads moved to the front. -/
def headsFirst : S8x3200x64.Idx → EReal :=
  transpose S8x3200x64 [1, 0, 2] (split a1) transposes_S3200x8x64_S8x3200x64_1_0_2

/-- Row n, column j of the flattened input is the input at (0, n, j). -/
theorem flat_apply (n : Fin 3200) (j : Fin 512) : flat a1 (ix2 n j) = a1 (ix3 (0 : Fin 1) n j) := by
  unfold flat
  refine shapeCast_apply a1 _ (ix2 n j) (ix3 (0 : Fin 1) n j) ?_
  rw [Shape.rowMajor_val_three, Shape.rowMajor_val_two]
  show ((0 : Fin 1).val * 3200 + n.val) * 512 + j.val = n.val * 512 + j.val
  have : (0 : Fin 1).val = 0 := rfl
  omega

/-- Row n, head h, lane d of the split input is the flattened input at column 64·h + d. -/
theorem split_apply (n : Fin 3200) (h : Fin 8) (d : Fin 64) :
    split a1 (ix3 n h d) = flat a1 (ix2 n (Cert.Spec.col h d)) := by
  unfold split
  refine shapeCast_apply (flat a1) _ (ix3 n h d) (ix2 n (Cert.Spec.col h d)) ?_
  rw [Shape.rowMajor_val_three, Shape.rowMajor_val_two]
  show n.val * 512 + (Cert.Spec.col h d).val = (n.val * 8 + h.val) * 64 + d.val
  have : (Cert.Spec.col h d).val = 64 * h.val + d.val := rfl
  omega

/-- Head h, row n, lane d of the heads-first array is row n, head h, lane d of the split one. -/
theorem headsFirst_apply' (h : Fin 8) (n : Fin 3200) (d : Fin 64) :
    headsFirst a1 (ix3 h n d) = split a1 (ix3 n h d) := by
  unfold headsFirst
  refine transpose_apply _ (split a1) _ (ix3 h n d) (ix3 n h d) fun b => ?_
  match b with
  | ⟨0, _⟩ => rfl
  | ⟨1, _⟩ => rfl
  | ⟨2, _⟩ => rfl

/-- The flattened input read head-major. -/
theorem flat_heads (n : Fin 3200) (h : Fin 8) (d : Fin 64) :
    flat a1 (ix2 n (Cert.Spec.col h d)) = Cert.Spec.heads a1 h n d := by
  rw [flat_apply]; rfl

/-- The heads-first array is the input read head-major. -/
theorem headsFirst_apply (h : Fin 8) (n : Fin 3200) (d : Fin 64) :
    headsFirst a1 (ix3 h n d) = Cert.Spec.heads a1 h n d := by
  rw [headsFirst_apply', split_apply, flat_heads]

end Cert.KernelIdeal.Hand

end
-- ==== Proof.KPrefixV.lean ====
import proofs.«174083_j4664334483724_2_alg».proof.Proof.KPrefix
import proofs.«174083_j4664334483724_2_alg».proof.Proof.KLaunchTail

/-! The two arrays the region reads, as it finds them: the flattened input and the heads-first array are the second
argument read head-major. -/

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-- The flattened input as the region finds it. -/
theorem V_v0_eq (c : Dev nD) :
    (V m c main_v0 : S3200x512.Idx → EReal) = flat (m ((c : Thread nD τ).loc main_arg1)) := by
  show StableHlo.after hostOps0 (fun b => m (c, b)) (Proc.devRef .tc main_v0) = _
  after_results
  rfl

/-- The heads-first array as the region finds it. -/
theorem V_v2_eq (c : Dev nD) :
    (V m c main_v2 : S8x3200x64.Idx → EReal) = headsFirst (m ((c : Thread nD τ).loc main_arg1)) := by
  show StableHlo.after hostOps0 (fun b => m (c, b)) (Proc.devRef .tc main_v2) = _
  after_results
  rfl

/-- Head h, row n, lane d of the heads-first array is the second argument read head-major. -/
theorem V_v2_apply (c : Dev nD) (h : Fin 8) (n : Fin 3200) (d : Fin 64) :
    V m c main_v2 (ix3 h n d) = Cert.Spec.heads (m ((c : Thread nD τ).loc main_arg1)) h n d := by
  rw [V_v2_eq]; exact headsFirst_apply _ h n d

/-- Row n, column 64·h + d of the flattened input is the second argument read head-major. -/
theorem V_v0_apply (c : Dev nD) (n : Fin 3200) (h : Fin 8) (d : Fin 64) :
    V m c main_v0 (ix2 n (Cert.Spec.col h d)) = Cert.Spec.heads (m ((c : Thread nD τ).loc main_arg1)) h n d := by
  rw [V_v0_eq]; exact flat_heads _ n h d

end Cert.KernelIdeal.Hand

end
-- ==== Proof.MaskWord.lean ====
/-
  Signed 32-bit integer arithmetic on small non-negative words.

  For natural numbers below 2^31 the two's-complement word of the number is non-negative, so the signed quotient,
  remainder and comparisons of two such words are the natural-number ones.
-/
import Mathlib

namespace Cert.MaskWord

theorem toNat_ofNat_small (a : Nat) (ha : a < 2 ^ 31) : (BitVec.ofNat 32 a).toNat = a := by
  rw [BitVec.toNat_ofNat]; exact Nat.mod_eq_of_lt (by omega)

theorem msb_ofNat_small (a : Nat) (ha : a < 2 ^ 31) : (BitVec.ofNat 32 a).msb = false := by
  rw [BitVec.msb_eq_decide, toNat_ofNat_small a ha]; simp; omega

theorem toInt_ofNat_small (a : Nat) (ha : a < 2 ^ 31) : (BitVec.ofNat 32 a).toInt = (a : Int) := by
  rw [BitVec.toInt_eq_toNat_of_msb (msb_ofNat_small a ha), toNat_ofNat_small a ha]

/-- Signed "less than" of two small words. -/
theorem slt_small (a b : Nat) (ha : a < 2 ^ 31) (hb : b < 2 ^ 31) :
    (BitVec.ofNat 32 a).slt (BitVec.ofNat 32 b) = decide (a < b) := by
  rw [BitVec.slt_eq_decide, toInt_ofNat_small a ha, toInt_ofNat_small b hb]; simp

/-- Signed "at most" of two small words. -/
theorem sle_small (a b : Nat) (ha : a < 2 ^ 31) (hb : b < 2 ^ 31) :
    (BitVec.ofNat 32 a).sle (BitVec.ofNat 32 b) = decide (a ≤ b) := by
  rw [BitVec.sle_eq_decide, toInt_ofNat_small a ha, toInt_ofNat_small b hb]; simp

/-- Equality of two small words. -/
theorem beq_small (a b : Nat) (ha : a < 2 ^ 31) (hb : b < 2 ^ 31) :
    (BitVec.ofNat 32 a == BitVec.ofNat 32 b) = decide (a = b) := by
  by_cases h : a = b
  · subst h; simp
  · have : BitVec.ofNat 32 a ≠ BitVec.ofNat 32 b := fun e => h (by
      have := congrArg BitVec.toNat e; rwa [toNat_ofNat_small a ha, toNat_ofNat_small b hb] at this)
    simp [this, h]

/-- The signed quotient of a small word by ten. -/
theorem sdiv_ten (a : Nat) (ha : a < 2 ^ 31) : (BitVec.ofNat 32 a).sdiv 10#32 = BitVec.ofNat 32 (a / 10) := by
  apply BitVec.eq_of_toNat_eq
  rw [BitVec.sdiv_eq, msb_ofNat_small a ha]
  have h10 : (10#32 : BitVec 32).msb = false := by decide
  rw [h10]
  simp only [BitVec.udiv_eq, BitVec.toNat_udiv, toNat_ofNat_small a ha]
  rw [toNat_ofNat_small (a / 10) (by omega)]
  rfl

/-- The signed remainder of a small word by ten. -/
theorem srem_ten (a : Nat) (ha : a < 2 ^ 31) : (BitVec.ofNat 32 a).srem 10#32 = BitVec.ofNat 32 (a % 10) := by
  apply BitVec.eq_of_toNat_eq
  rw [BitVec.srem_eq, msb_ofNat_small a ha]
  have h10 : (10#32 : BitVec 32).msb = false := by decide
  rw [h10]
  simp only [BitVec.umod_eq, BitVec.toNat_umod, toNat_ofNat_small a ha]
  rw [toNat_ofNat_small (a % 10) (by omega)]
  rfl

/-- Sum and product of small words. -/
theorem add_small (a b : Nat) : BitVec.ofNat 32 a + BitVec.ofNat 32 b = BitVec.ofNat 32 (a + b) := by
  rw [BitVec.ofNat_add]

theorem mul_small (a b : Nat) : BitVec.ofNat 32 a * BitVec.ofNat 32 b = BitVec.ofNat 32 (a * b) := by
  rw [BitVec.ofNat_mul]

end Cert.MaskWord
-- ==== Proof.KMask.lean ====
/-
  The tiled program's 0/1 mask, entry by entry.

  Row word x = 320·i + r and column word y = m are small non-negative 32-bit integers. The printed quotient by ten
  is the signed quotient followed by the usual correction "subtract one when the signs differ and the remainder is
  not zero"; for a non-negative dividend and the divisor ten the signs never differ, so it is the natural quotient
  x / 10. The entry kept is then  ¬(10·(x/10) ≤ y < 10·(x/10) + 9) ∨ y = x, converted to a number.
-/
import proofs.«174083_j4664334483724_2_alg».proof.Proof.Gen.KernelIdeal.Skeleton
import proofs.«174083_j4664334483724_2_alg».proof.Proof.Spec
import proofs.«174083_j4664334483724_2_alg».proof.Proof.MaskWord
import proofs.«174083_j4664334483724_2_alg».proof.Proof.KRow
import Idealize.ShloMosaic.Lib.ValueIdx

noncomputable section

namespace Cert.KernelIdeal.HandValue

open Cert.KernelIdeal Cert.KernelIdeal.Gen Idealize.ShloMosaic Idealize.ShloMosaic.ValueIdx Cert.MaskWord

/-- The printed sign-corrected quotient by ten, on one word. -/
def quo (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 10#32 0#32))
          (Scalar.extui (Scalar.cmpi CmpIPredicate.slt 10#32 0#32))))
      (IntOp.cmpi CmpIPredicate.ne (IntOp.remsi ArithUnit.vector x 10#32) 0#32))
    (IntOp.subi (IntOp.divsi ArithUnit.vector x 10#32) 1#32)
    (IntOp.divsi ArithUnit.vector x 10#32)

/-- The printed keep bit of row word x and column word y. -/
def keepW (x y : BitVec 32) : BitVec 1 :=
  IntOp.ori
    (IntOp.xori
      (IntOp.andi (IntOp.cmpi CmpIPredicate.sge y (IntOp.muli (quo x) 10#32))
        (IntOp.cmpi CmpIPredicate.slt y (IntOp.addi (IntOp.muli (quo x) 10#32) 9#32)))
      1#1)
    (IntOp.cmpi CmpIPredicate.eq y x)

theorem not_corner (x : BitVec 32) : ¬ IntOp.SDivCorner x 10#32 := by
  unfold IntOp.SDivCorner
  rintro (h | ⟨-, h⟩) <;> exact absurd h (by decide)

theorem divsi_small (R : Nat) (hR : R < 2 ^ 31) :
    IntOp.divsi ArithUnit.vector (BitVec.ofNat 32 R) 10#32 = BitVec.ofNat 32 (R / 10) := by
  unfold IntOp.divsi; rw [if_neg (not_corner _), sdiv_ten R hR]

theorem remsi_small (R : Nat) (hR : R < 2 ^ 31) :
    IntOp.remsi ArithUnit.vector (BitVec.ofNat 32 R) 10#32 = BitVec.ofNat 32 (R % 10) := by
  unfold IntOp.remsi; rw [if_neg (not_corner _), srem_ten R hR]

/-- For a small non-negative word the corrected quotient is the natural quotient. -/
theorem quo_small (R : Nat) (hR : R < 2 ^ 31) : quo (BitVec.ofNat 32 R) = BitVec.ofNat 32 (R / 10) := by
  unfold quo
  rw [divsi_small R hR, remsi_small R hR]
  have hsgt : IntOp.cmpi CmpIPredicate.sgt (BitVec.ofNat 32 R) 0#32 = BitVec.ofBool (decide (0 < R)) := by
    show BitVec.ofBool ((BitVec.ofNat 32 0).slt (BitVec.ofNat 32 R)) = _
    rw [slt_small 0 R (by norm_num) hR]
  have hslt : IntOp.cmpi CmpIPredicate.slt (BitVec.ofNat 32 R) 0#32 = BitVec.ofBool false := by
    show BitVec.ofBool ((BitVec.ofNat 32 R).slt (BitVec.ofNat 32 0)) = _
    rw [slt_small R 0 hR (by norm_num)]; simp
  rw [hsgt, hslt]
  rcases Nat.eq_zero_or_pos R with h0 | hpos
  · subst h0; decide
  · have hd : decide (0 < R) = true := decide_eq_true hpos
    rw [hd]
    have hz : IntOp.cmpi CmpIPredicate.ne
        (IntOp.subi (BitVec.setWidth 32 (BitVec.ofBool true)) (BitVec.setWidth 32 (BitVec.ofBool false)))
        (Scalar.subi (Scalar.extui (Scalar.cmpi CmpIPredicate.sgt 10#32 0#32))
          (Scalar.extui (Scalar.cmpi CmpIPredicate.slt 10#32 0#32))) = 0#1 := by decide
    rw [hz]
    have ha : ∀ b : BitVec 1, IntOp.andi 0#1 b = 0#1 := by decide
    rw [ha]
    unfold Scalar.select
    rw [if_neg (by decide)]

/-- The keep bit of small words is the specification's keep condition. -/
theorem keepW_small (R C : Nat) (hR : R < 3200) (hC : C < 3200) :
    keepW (BitVec.ofNat 32 R) (BitVec.ofNat 32 C)
      = BitVec.ofBool (decide (¬ ((R / 10) * 10 ≤ C ∧ C < (R / 10) * 10 + 9) ∨ C = R)) := by
  unfold keepW
  rw [quo_small R (by omega)]
  have hmul : IntOp.muli (BitVec.ofNat 32 (R / 10)) 10#32 = BitVec.ofNat 32 ((R / 10) * 10) := by
    show BitVec.ofNat 32 (R / 10) * BitVec.ofNat 32 10 = _; rw [mul_small]
  rw [hmul]
  have hadd : IntOp.addi (BitVec.ofNat 32 ((R / 10) * 10)) 9#32 = BitVec.ofNat 32 ((R / 10) * 10 + 9) := by
    show BitVec.ofNat 32 ((R / 10) * 10) + BitVec.ofNat 32 9 = _; rw [add_small]
  rw [hadd]
  have hsge : IntOp.cmpi CmpIPredicate.sge (BitVec.ofNat 32 C) (BitVec.ofNat 32 ((R / 10) * 10))
      = BitVec.ofBool (decide ((R / 10) * 10 ≤ C)) := by
    show BitVec.ofBool ((BitVec.ofNat 32 ((R / 10) * 10)).sle (BitVec.ofNat 32 C)) = _
    rw [sle_small _ _ (by omega) (by omega)]
  have hslt : IntOp.cmpi CmpIPredicate.slt (BitVec.ofNat 32 C) (BitVec.ofNat 32 ((R / 10) * 10 + 9))
      = BitVec.ofBool (decide (C < (R / 10) * 10 + 9)) := by
    show BitVec.ofBool ((BitVec.ofNat 32 C).slt (BitVec.ofNat 32 ((R / 10) * 10 + 9))) = _
    rw [slt_small _ _ (by omega) (by omega)]
  have heq : IntOp.cmpi CmpIPredicate.eq (BitVec.ofNat 32 C) (BitVec.ofNat 32 R) = BitVec.ofBool (decide (C = R)) := by
    show BitVec.ofBool (BitVec.ofNat 32 C == BitVec.ofNat 32 R) = _
    rw [beq_small _ _ (by omega) (by omega)]
  rw [hsge, hslt, heq]
  have hdec : decide (¬ ((R / 10) * 10 ≤ C ∧ C < (R / 10) * 10 + 9) ∨ C = R)
      = (!(decide ((R / 10) * 10 ≤ C) && decide (C < (R / 10) * 10 + 9)) || decide (C = R)) := by
    by_cases h1 : (R / 10) * 10 ≤ C <;> by_cases h2 : C < (R / 10) * 10 + 9 <;> by_cases h3 : C = R <;>
      simp [h1, h2, h3]
  rw [hdec]
  generalize decide ((R / 10) * 10 ≤ C) = b1
  generalize decide (C < (R / 10) * 10 + 9) = b2
  generalize decide (C = R) = b3
  revert b1 b2 b3
  decide

/-- The mask payload at row r of the block at point i and column m is the specification's mask. -/
theorem pay2_apply (i : grid0.Coords) (r : Fin 320) (m : Fin 3200) :
    k0_pay2 (F := Ideal) i (ix2 r m) = Cert.Spec.mask (row i r) m := by
  have hi : (i 0).val < 10 := (i 0).isLt
  have hr := r.isLt
  have hm := m.isLt
  unfold k0_pay2
  simp only [sitofp, extui, ori, xori, andi, cmpi, addi, muli, subi, select, divsi, remsi, broadcast, iota, constantI,
    List.foldl_cons, List.foldl_nil]
  have hR : IntOp.addi (Scalar.muli (BitVec.ofNat 32 (i 0).val) 320#32)
      (BitVec.ofNat 32 (0 * (![320, 3200] : Fin 2 → Nat) 0 + (ix2 r m 0).val)) = BitVec.ofNat 32 (320 * (i 0).val + r.val) := by
    show BitVec.ofNat 32 (i 0).val * BitVec.ofNat 32 320 + BitVec.ofNat 32 (0 * 320 + r.val) = _
    rw [mul_small, add_small]; congr 1; omega
  have hC : BitVec.ofNat 32 (0 * (![320, 3200] : Fin 2 → Nat) 1 + (ix2 r m 1).val) = BitVec.ofNat 32 m.val := by
    show BitVec.ofNat 32 (0 * 3200 + m.val) = _; congr 1; omega
  rw [hR, hC]
  show FloatOps.sitofp (F := Ideal) FTy.f32
      (BitVec.setWidth 32 (keepW (BitVec.ofNat 32 (320 * (i 0).val + r.val)) (BitVec.ofNat 32 m.val))) = _
  rw [keepW_small _ _ (by omega) hm]
  unfold Cert.Spec.mask
  by_cases hk : Cert.Spec.keep (row i r) m
  · have hk' : ¬ ((320 * (i 0).val + r.val) / 10 * 10 ≤ m.val ∧ m.val < (320 * (i 0).val + r.val) / 10 * 10 + 9)
        ∨ m.val = 320 * (i 0).val + r.val := hk
    rw [if_pos hk, decide_eq_true hk']
    show (((BitVec.setWidth 32 (BitVec.ofBool true)).toInt : ℝ) : EReal) = 1
    have : (BitVec.setWidth 32 (BitVec.ofBool true)).toInt = 1 := by decide
    rw [this]; simp
  · have hk' : ¬ (¬ ((320 * (i 0).val + r.val) / 10 * 10 ≤ m.val ∧ m.val < (320 * (i 0).val + r.val) / 10 * 10 + 9)
        ∨ m.val = 320 * (i 0).val + r.val) := hk
    rw [if_neg hk, decide_eq_false hk']
    show (((BitVec.setWidth 32 (BitVec.ofBool false)).toInt : ℝ) : EReal) = 0
    have : (BitVec.setWidth 32 (BitVec.ofBool false)).toInt = 0 := by decide
    rw [this]; simp

end Cert.KernelIdeal.HandValue

end
-- ==== Proof.KValOps.lean ====
import proofs.«174083_j4664334483724_2_alg».proof.Proof.Gen.KernelIdeal.Skeleton
import proofs.«174083_j4664334483724_2_alg».proof.Proof.Spec
import Idealize.ShloMosaic.PureOps.Ideal.Laws
import Idealize.ShloMosaic.Lib.ValueIdx
import Idealize.ShloMosaic.Lib.ValueLayout
import Idealize.ShloMosaic.Lib.Pipeline.Value

/-! The operations the attention body is made of, each read at one index on the extended reals: the keepdims
column forms of a shape cast and of a broadcast, a sum along the lanes of a row, the two matrix products (rows times
transposed rows; weights times rows), and the comparison that turns a threshold into a 0/1 number. -/

noncomputable section

open scoped BigOperators

namespace Cert.KernelIdeal.HandValue

open Cert.KernelIdeal Cert.KernelIdeal.Gen
open Idealize.ShloMosaic Idealize.ShloMosaic.ValueIdx

/-! ## Keepdims column forms -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the lanes to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A sum along the lanes of each row -/

/-- The lane sum of an [a, b] array at row r is the sum over the b lanes. -/
theorem rowsum_apply {a b : ℕ} (src : FVec Ideal ⟨2, ![a, b]⟩ .f32) (h : Shape.Reduces ⟨2, ![a, b]⟩ [1] ⟨1, ![a]⟩)
    (r : Fin a) :
    multiReduction .add [1] ⟨1, ![a]⟩ src 0x00000000#32 h (.inl rfl) rfl (ix1 r) = ∑ k : Fin b, src (ix2 r k) := by
  refine (Ideal.multiReduction_add_single src 0x00000000#32 h (.inl rfl) rfl (ix1 r)).trans ?_
  refine Finset.sum_congr rfl fun k _ => congrArg src (funext fun c => Fin.ext ?_)
  match c with
  | ⟨0, _⟩ => rfl
  | ⟨1, _⟩ => rfl

/-! ## The two matrix products -/

/-- Rows times a transposed array, onto a zero accumulator: at (r, m) the sum over the 64 lanes. -/
theorem matmul_qk_apply (A : FVec Ideal S320x64 .f32) (B : FVec Ideal S64x3200 .f32) (r : Fin 320) (m : Fin 3200) :
    matmul dot_S320x64_S64x3200_S320x3200_1_0_0_1_n_n none A B (constant S320x3200 .f32 0x00000000#32) (ix2 r m)
      = ∑ d : Fin 64, A (ix2 r d) * B (ix2 d m) := by
  refine (Ideal.matmul_constant_zero_apply dot_S320x64_S64x3200_S320x3200_1_0_0_1_n_n none A B (ix2 r m)).trans ?_
  rw [← Equiv.sum_comp (contrEquiv1 dot_S320x64_S64x3200_S320x3200_1_0_0_1_n_n 64 rfl rfl).symm]
  refine Finset.sum_congr rfl fun d _ => ?_
  have hl : dot_S320x64_S64x3200_S320x3200_1_0_0_1_n_n.lhsIdx (ix2 r m)
      ((contrEquiv1 dot_S320x64_S64x3200_S320x3200_1_0_0_1_n_n 64 rfl rfl).symm d) = ix2 r d := by
    funext a; apply Fin.ext
    match a with
    | ⟨0, _⟩ => simp [DotDims.lhsIdx, dot_S320x64_S64x3200_S320x3200_1_0_0_1_n_n]; rfl
    | ⟨1, _⟩ =>
      exact (DotDims.lhsIdx_val_of_single dot_S320x64_S64x3200_S320x3200_1_0_0_1_n_n (cl := (1 : Fin 2)) rfl _ _).trans (contrEquiv1_symm_val dot_S320x64_S64x3200_S320x3200_1_0_0_1_n_n 64 rfl rfl d)
  have hr : dot_S320x64_S64x3200_S320x3200_1_0_0_1_n_n.rhsIdx (ix2 r m)
      ((contrEquiv1 dot_S320x64_S64x3200_S320x3200_1_0_0_1_n_n 64 rfl rfl).symm d) = ix2 d m := by
    funext a; apply Fin.ext
    match a with
    | ⟨0, _⟩ =>
      exact (DotDims.rhsIdx_val_of_single dot_S320x64_S64x3200_S320x3200_1_0_0_1_n_n (cr := (0 : Fin 2)) rfl _ _).trans (contrEquiv1_symm_val dot_S320x64_S64x3200_S320x3200_1_0_0_1_n_n 64 rfl rfl d)
    | ⟨1, _⟩ => simp [DotDims.rhsIdx, dot_S320x64_S64x3200_S320x3200_1_0_0_1_n_n]; rfl
  rw [hl, hr]

/-- Weights times rows, onto a zero accumulator: at (r, d) the sum over the 3200 rows. -/
theorem matmul_av_apply {φ₁ φ₂ : FTy} (A : FVec Ideal S320x3200 φ₁) (B : FVec Ideal S3200x64 φ₂) (r : Fin 320) (d : Fin 64) :
    matmul dot_S320x3200_S3200x64_S320x64_1_0_0_1_n_n none A B (constant S320x64 .f32 0x00000000#32) (ix2 r d)
      = ∑ m : Fin 3200, A (ix2 r m) * B (ix2 m d) := by
  refine (Ideal.matmul_constant_zero_apply dot_S320x3200_S3200x64_S320x64_1_0_0_1_n_n none A B (ix2 r d)).trans ?_
  rw [← Equiv.sum_comp (contrEquiv1 dot_S320x3200_S3200x64_S320x64_1_0_0_1_n_n 3200 rfl rfl).symm]
  refine Finset.sum_congr rfl fun m _ => ?_
  have hl : dot_S320x3200_S3200x64_S320x64_1_0_0_1_n_n.lhsIdx (ix2 r d)
      ((contrEquiv1 dot_S320x3200_S3200x64_S320x64_1_0_0_1_n_n 3200 rfl rfl).symm m) = ix2 r m := by
    funext a; apply Fin.ext
    match a with
    | ⟨0, _⟩ => simp [DotDims.lhsIdx, dot_S320x3200_S3200x64_S320x64_1_0_0_1_n_n]; rfl
    | ⟨1, _⟩ =>
      exact (DotDims.lhsIdx_val_of_single dot_S320x3200_S3200x64_S320x64_1_0_0_1_n_n (cl := (1 : Fin 2)) rfl _ _).trans (contrEquiv1_symm_val dot_S320x3200_S3200x64_S320x64_1_0_0_1_n_n 3200 rfl rfl m)
  have hr : dot_S320x3200_S3200x64_S320x64_1_0_0_1_n_n.rhsIdx (ix2 r d)
      ((contrEquiv1 dot_S320x3200_S3200x64_S320x64_1_0_0_1_n_n 3200 rfl rfl).symm m) = ix2 m d := by
    funext a; apply Fin.ext
    match a with
    | ⟨0, _⟩ =>
      exact (DotDims.rhsIdx_val_of_single dot_S320x3200_S3200x64_S320x64_1_0_0_1_n_n (cr := (0 : Fin 2)) rfl _ _).trans (contrEquiv1_symm_val dot_S320x3200_S3200x64_S320x64_1_0_0_1_n_n 3200 rfl rfl m)
    | ⟨1, _⟩ => simp [DotDims.rhsIdx, dot_S320x3200_S3200x64_S320x64_1_0_0_1_n_n]; rfl
  rw [hl, hr]

/-! ## Pointwise operations the library does not name -/

theorem sqrt_apply {s : Shape} (v : FVec Ideal s .f32) (j : s.Idx) : sqrt v j = Ideal.sqrt (v j) := rfl
theorem exp_apply {s : Shape} (v : FVec Ideal s .f32) (j : s.Idx) : exp v j = Ideal.exp (v j) := rfl

/-- A comparison "greater than" widened to a word and read as a number: 1 where it holds, 0 elsewhere. -/
theorem ogt_number_apply {s : Shape} (a b : FVec Ideal s .f32) (h : 1 < 32) (j : s.Idx) :
    (sitofp .f32 (extui 32 (cmpf .ogt a b) h) : FVec Ideal s .f32) j = if b j < a j then 1 else 0 := by
  show (((BitVec.setWidth 32 (Ideal.cmp .ogt (a j) (b j))).toInt : ℝ) : EReal) = _
  unfold Ideal.cmp
  by_cases hlt : b j < a j
  · rw [if_pos hlt]; simp [hlt]
  · rw [if_neg hlt]; simp [hlt]

end Cert.KernelIdeal.HandValue

end
-- ==== Proof.KValHead.lean ====
import proofs.«174083_j4664334483724_2_alg».proof.Proof.KValOps
import proofs.«174083_j4664334483724_2_alg».proof.Proof.KBody
import proofs.«174083_j4664334483724_2_alg».proof.Proof.KRow

/-! The similarity tile of one head, read index by index: every row of the query block and of the key array is
divided by its length plus ε, and the tile at (r, m) is the sum over the 64 lanes of the products of the two
scaled rows. The body spells the eight heads slightly differently (the norm of one head is finished in one
payload and used in the next), so the chain is first read link by link over arbitrary operands and then each
payload is one composition of the links. -/

noncomputable section

open scoped BigOperators

namespace Cert.KernelIdeal.HandValue

open Cert.KernelIdeal Cert.KernelIdeal.Gen Cert.KernelIdeal.Hand
open Idealize.ShloMosaic Idealize.ShloMosaic.ValueIdx

/-! ## The chain over arbitrary operands -/

/-- Length of row r plus ε. -/
def nrmRow {a : ℕ} (q : FVec Ideal ⟨2, ![a, 64]⟩ .f32) (r : Fin a) : EReal :=
  Ideal.sqrt (∑ d : Fin 64, q (ix2 r d) * q (ix2 r d)) + Cert.Spec.eps
/-- Row r divided by its length plus ε. -/
def unitRow {a : ℕ} (q : FVec Ideal ⟨2, ![a, 64]⟩ .f32) (r : Fin a) (d : Fin 64) : EReal :=
  Ideal.div (q (ix2 r d)) (nrmRow q r)
/-- The similarity of scaled row r of q and scaled row m of k. -/
def tile (q : FVec Ideal S320x64 .f32) (k : FVec Ideal S3200x64 .f32) (r : Fin 320) (m : Fin 3200) : EReal :=
  ∑ d : Fin 64, unitRow q r d * unitRow k m d

/-- The squares summed along the lanes. -/
theorem sumsq_apply {a : ℕ} (q : FVec Ideal ⟨2, ![a, 64]⟩ .f32) (h : Shape.Reduces ⟨2, ![a, 64]⟩ [1] ⟨1, ![a]⟩) (r : Fin a) :
    multiReduction .add [1] ⟨1, ![a]⟩ (mulf q q) 0x00000000#32 h (.inl rfl) rfl (ix1 r)
      = ∑ d : Fin 64, q (ix2 r d) * q (ix2 r d) :=
  rowsum_apply (mulf q q) h r

/-- The sum of squares viewed as a column. -/
theorem col_of_sumsq {a : ℕ} (q : FVec Ideal ⟨2, ![a, 64]⟩ .f32) (s : FVec Ideal ⟨1, ![a]⟩ .f32)
    (hs : ∀ r, s (ix1 r) = ∑ d : Fin 64, q (ix2 r d) * q (ix2 r d))
    (h : (⟨1, ![a]⟩ : Shape).ShapeCasts ⟨2, ![a, 1]⟩) (r : Fin a) (u : Fin 1) :
    shapeCast ⟨2, ![a, 1]⟩ s h (ix2 r u) = ∑ d : Fin 64, q (ix2 r d) * q (ix2 r d) :=
  (shapeCast_a_a1_apply s h r u).trans (hs r)

/-- Root of the column plus ε is the row's length plus ε. -/
theorem nrm_of_col {a : ℕ} (q : FVec Ideal ⟨2, ![a, 64]⟩ .f32) (c : FVec Ideal ⟨2, ![a, 1]⟩ .f32)
    (hc : ∀ r u, c (ix2 r u) = ∑ d : Fin 64, q (ix2 r d) * q (ix2 r d)) (r : Fin a) (u : Fin 1) :
    addf (sqrt c) (broadcast ⟨2, ![a, 1]⟩ (Scalar.ofBits (F := Ideal) .f32 0x322BCC77#32)) (ix2 r u) = nrmRow q r := by
  show Ideal.sqrt (c (ix2 r u)) + _ = _
  rw [hc]; rfl

/-- The rows divided by the broadcast column of lengths. -/
theorem unit_of_nrm {a : ℕ} (q : FVec Ideal ⟨2, ![a, 64]⟩ .f32) (n : FVec Ideal ⟨2, ![a, 1]⟩ .f32)
    (hn : ∀ r u, n (ix2 r u) = nrmRow q r) (h : (⟨2, ![a, 1]⟩ : Shape).Broadcasts ⟨2, ![a, 64]⟩) (r : Fin a) (d : Fin 64) :
    divf q (broadcastTo ⟨2, ![a, 64]⟩ n h) (ix2 r d) = unitRow q r d := by
  show Ideal.div (q (ix2 r d)) (broadcastTo ⟨2, ![a, 64]⟩ n h (ix2 r d)) = _
  rw [broadcastTo_a1_ab_apply, hn]; rfl

/-- The product of the scaled rows with the transposed scaled rows is the tile. -/
theorem tile_of_units (q : FVec Ideal S320x64 .f32) (k : FVec Ideal S3200x64 .f32)
    (A : FVec Ideal S320x64 .f32) (Kn : FVec Ideal S3200x64 .f32)
    (hA : ∀ r d, A (ix2 r d) = unitRow q r d) (hK : ∀ m d, Kn (ix2 m d) = unitRow k m d) (r : Fin 320) (m : Fin 3200) :
    matmul dot_S320x64_S64x3200_S320x3200_1_0_0_1_n_n none A
        (transpose S64x3200 [1, 0] Kn transposes_S3200x64_p1_0_S64x3200) (constant S320x3200 .f32 0x00000000#32) (ix2 r m)
      = tile q k r m := by
  refine (matmul_qk_apply A _ r m).trans (Finset.sum_congr rfl fun d _ => ?_)
  rw [transpose_ix2_apply, hA, hK]

/-- The whole chain from the two operands. -/
theorem tile_of_operands (q : FVec Ideal S320x64 .f32) (k : FVec Ideal S3200x64 .f32) (r : Fin 320) (m : Fin 3200) :
    matmul dot_S320x64_S64x3200_S320x3200_1_0_0_1_n_n none
        (divf q (broadcastTo S320x64
          (addf (sqrt (shapeCast S320x1 (multiReduction .add [1] S320 (mulf q q) 0x00000000#32 reduces_S320x64_S320 (.inl rfl) rfl) shapeCasts_S320_S320x1))
            (broadcast S320x1 (Scalar.ofBits (F := Ideal) .f32 0x322BCC77#32))) broadcasts_S320x1_S320x64))
        (transpose S64x3200 [1, 0]
          (divf k (broadcastTo S3200x64
            (addf (sqrt (shapeCast S3200x1 (multiReduction .add [1] S3200 (mulf k k) 0x00000000#32 reduces_S3200x64_S3200 (.inl rfl) rfl) shapeCasts_S3200_S3200x1))
              (broadcast S3200x1 (Scalar.ofBits (F := Ideal) .f32 0x322BCC77#32))) broadcasts_S3200x1_S3200x64))
          transposes_S3200x64_p1_0_S64x3200)
        (constant S320x3200 .f32 0x00000000#32) (ix2 r m)
      = tile q k r m :=
  tile_of_units q k _ _
    (fun r d => unit_of_nrm q _ (fun r u => nrm_of_col q _ (fun r u => col_of_sumsq q _ (fun r => sumsq_apply q _ r) _ r u) r u) _ r d)
    (fun m d => unit_of_nrm k _ (fun r u => nrm_of_col k _ (fun r u => col_of_sumsq k _ (fun r => sumsq_apply k _ r) _ r u) r u) _ m d)
    r m

/-- A [1, a, 64] block viewed as [a, 64]. -/
def sq (v : Vec Ideal S1x320x64 .f32) : FVec Ideal S320x64 .f32 := shapeCast S320x64 v shapeCasts_S1x320x64_S320x64
def sk (v : Vec Ideal S1x3200x64 .f32) : FVec Ideal S3200x64 .f32 := shapeCast S3200x64 v shapeCasts_S1x3200x64_S3200x64

/-! ## The eight spellings -/

theorem pay6_apply (v43 : FVec Ideal S320x64 .f32) (v44 : Vec Ideal S1x3200x64 .f32) (r : Fin 320) (m : Fin 3200) :
    k0_pay6 v43 v44 (ix2 r m) = tile v43 (sk v44) r m := by
  unfold k0_pay6 k0_pay5
  exact tile_of_operands v43 (sk v44) r m

theorem pay16_apply (v98 : Vec Ideal S1x320x64 .f32) (v100 : Vec Ideal S1x3200x64 .f32) (r : Fin 320) (m : Fin 3200) :
    k0_pay16 v98 v100 (ix2 r m) = tile (sq v98) (sk v100) r m := by
  unfold k0_pay16 k0_pay15
  exact tile_of_operands (sq v98) (sk v100) r m

theorem pay20_apply (v126 : Vec Ideal S1x320x64 .f32) (v128 : Vec Ideal S1x3200x64 .f32) (r : Fin 320) (m : Fin 3200) :
    k0_pay20 v126 v128 (ix2 r m) = tile (sq v126) (sk v128) r m := by
  unfold k0_pay20 k0_pay19
  exact tile_of_operands (sq v126) (sk v128) r m

theorem pay35_apply (v210 : Vec Ideal S1x320x64 .f32) (v212 : Vec Ideal S1x3200x64 .f32) (r : Fin 320) (m : Fin 3200) :
    k0_pay35 v210 v212 (ix2 r m) = tile (sq v210) (sk v212) r m := by
  unfold k0_pay35 k0_pay34
  exact tile_of_operands (sq v210) (sk v212) r m

theorem pay39_apply (v238 : Vec Ideal S1x320x64 .f32) (v240 : Vec Ideal S1x3200x64 .f32) (r : Fin 320) (m : Fin 3200) :
    k0_pay39 v238 v240 (ix2 r m) = tile (sq v238) (sk v240) r m := by
  unfold k0_pay39 k0_pay38
  exact tile_of_operands (sq v238) (sk v240) r m

theorem pay11_apply (v70 : Vec Ideal S1x320x64 .f32) (r : Fin 320) (u : Fin 1) :
    k0_pay11 v70 (ix2 r u) = nrmRow (sq v70) r := by
  unfold k0_pay11 k0_pay9
  exact nrm_of_col (sq v70) _ (fun r u => col_of_sumsq (sq v70) _ (fun r => sumsq_apply (sq v70) _ r) _ r u) r u

theorem pay12_apply (v72 : Vec Ideal S1x3200x64 .f32) (m : Fin 3200) (u : Fin 1) :
    k0_pay12 v72 (ix2 m u) = ∑ d : Fin 64, sk v72 (ix2 m d) * sk v72 (ix2 m d) := by
  unfold k0_pay12 k0_pay10
  exact col_of_sumsq (sk v72) _ (fun r => sumsq_apply (sk v72) _ r) _ m u

theorem pay13_apply (v71 : FVec Ideal S320x64 .f32) (v73 : FVec Ideal S3200x64 .f32) (v79 : FVec Ideal S320x1 .f32)
    (v82 : FVec Ideal S3200x1 .f32) (h79 : ∀ r u, v79 (ix2 r u) = nrmRow v71 r)
    (h82 : ∀ m u, v82 (ix2 m u) = ∑ d : Fin 64, v73 (ix2 m d) * v73 (ix2 m d)) (r : Fin 320) (m : Fin 3200) :
    k0_pay13 v71 v73 v79 v82 (ix2 r m) = tile v71 v73 r m := by
  unfold k0_pay13
  exact tile_of_units v71 v73 _ _ (fun r d => unit_of_nrm v71 v79 h79 _ r d)
    (fun m d => unit_of_nrm v73 _ (fun r u => nrm_of_col v73 v82 h82 r u) _ m d) r m

theorem pay25_apply (v154 : Vec Ideal S1x320x64 .f32) (r : Fin 320) :
    k0_pay25 v154 (ix1 r) = ∑ d : Fin 64, sq v154 (ix2 r d) * sq v154 (ix2 r d) := by
  unfold k0_pay25 k0_pay23
  exact sumsq_apply (sq v154) _ r

theorem pay26_apply (v155 : FVec Ideal S320x64 .f32) (v157 : FVec Ideal S3200x64 .f32) (v159 : FVec Ideal S320 .f32)
    (h159 : ∀ r, v159 (ix1 r) = ∑ d : Fin 64, v155 (ix2 r d) * v155 (ix2 r d)) (r : Fin 320) (m : Fin 3200) :
    k0_pay26 v155 v157 v159 (ix2 r m) = tile v155 v157 r m := by
  unfold k0_pay26
  exact tile_of_units v155 v157 _ _
    (fun r d => unit_of_nrm v155 _ (fun r u => nrm_of_col v155 _ (fun r u => col_of_sumsq v155 v159 h159 _ r u) r u) _ r d)
    (fun m d => unit_of_nrm v157 _ (fun r u => nrm_of_col v157 _ (fun r u => col_of_sumsq v157 _ (fun r => sumsq_apply v157 _ r) _ r u) r u) _ m d)
    r m

theorem pay30_apply (v182 : Vec Ideal S1x320x64 .f32) (r : Fin 320) (d : Fin 64) :
    k0_pay30 v182 (ix2 r d) = unitRow (sq v182) r d := by
  unfold k0_pay30
  exact unit_of_nrm (sq v182) _ (fun r u => nrm_of_col (sq v182) _ (fun r u => col_of_sumsq (sq v182) _ (fun r => sumsq_apply (sq v182) _ r) _ r u) r u) _ r d

theorem pay31_apply (v184 : Vec Ideal S1x3200x64 .f32) (m : Fin 3200) (d : Fin 64) :
    k0_pay31 v184 (ix2 m d) = unitRow (sk v184) m d := by
  unfold k0_pay31 k0_pay29
  exact unit_of_nrm (sk v184) _ (fun r u => nrm_of_col (sk v184) _ (fun r u => col_of_sumsq (sk v184) _ (fun r => sumsq_apply (sk v184) _ r) _ r u) r u) _ m d

theorem pay32_apply (v199 : FVec Ideal S320x64 .f32) (v201 : FVec Ideal S3200x64 .f32)
    (q : FVec Ideal S320x64 .f32) (k : FVec Ideal S3200x64 .f32)
    (h199 : ∀ r d, v199 (ix2 r d) = unitRow q r d) (h201 : ∀ m d, v201 (ix2 m d) = unitRow k m d) (r : Fin 320) (m : Fin 3200) :
    k0_pay32 v199 v201 (ix2 r m) = tile q k r m := by
  unfold k0_pay32
  exact tile_of_units q k v199 v201 h199 h201 r m

/-! ## The blocks read where the input says -/

/-- Head h of the query block viewed as [320, 64] reads the block at (h, r, d). -/
theorem sq_ld_apply (x0 : Vec Ideal S8x320x64 .f32) (off : Fin 3 → ℕ) (inb : ∀ a, off a + S1x320x64.size a ≤ S8x320x64.size a)
    (h : Fin 8) (e0 : off 0 = h.val) (e1 : off 1 = 0) (e2 : off 2 = 0) (r : Fin 320) (d : Fin 64) :
    sq (View.ld x0 (Rect.unit (s := S8x320x64) off S1x320x64.size inb)) (ix2 r d) = x0 (ix3 h r d) := by
  unfold sq
  refine (shapeCast_1ab_ab_apply _ _ r d).trans ?_
  show x0 ((Rect.unit (s := S8x320x64) off S1x320x64.size inb).idx (ix3 (0 : Fin 1) r d)) = _
  refine congrArg x0 (funext fun a => Fin.ext ?_)
  match a with
  | ⟨0, _⟩ => show off 0 + 1 * 0 = h.val; omega
  | ⟨1, _⟩ => show off 1 + 1 * r.val = r.val; omega
  | ⟨2, _⟩ => show off 2 + 1 * d.val = d.val; omega

/-- Head h of the key array viewed as [3200, 64] reads the array at (h, m, d). -/
theorem sk_ld_apply (x1 : Vec Ideal S8x3200x64 .f32) (off : Fin 3 → ℕ) (inb : ∀ a, off a + S1x3200x64.size a ≤ S8x3200x64.size a)
    (h : Fin 8) (e0 : off 0 = h.val) (e1 : off 1 = 0) (e2 : off 2 = 0) (m : Fin 3200) (d : Fin 64) :
    sk (View.ld x1 (Rect.unit (s := S8x3200x64) off S1x3200x64.size inb)) (ix2 m d) = x1 (ix3 h m d) := by
  unfold sk
  refine (shapeCast_1ab_ab_apply _ _ m d).trans ?_
  show x1 ((Rect.unit (s := S8x3200x64) off S1x3200x64.size inb).idx (ix3 (0 : Fin 1) m d)) = _
  refine congrArg x1 (funext fun a => Fin.ext ?_)
  match a with
  | ⟨0, _⟩ => show off 0 + 1 * 0 = h.val; omega
  | ⟨1, _⟩ => show off 1 + 1 * m.val = m.val; omega
  | ⟨2, _⟩ => show off 2 + 1 * d.val = d.val; omega

/-- A tile of blocks that read the input's head h is the specification's similarity. -/
theorem tile_eq_raw (X : Cert.Spec.Heads) (h : Fin 8) (i : grid0.Coords) (q : FVec Ideal S320x64 .f32) (k : FVec Ideal S3200x64 .f32)
    (hq : ∀ r d, q (ix2 r d) = X h (row i r) d) (hk : ∀ m d, k (ix2 m d) = X h m d) (r : Fin 320) (m : Fin 3200) :
    tile q k r m = Cert.Spec.raw X h (row i r) m := by
  unfold tile unitRow nrmRow Cert.Spec.raw Cert.Spec.unit Cert.Spec.nrm
  simp only [hq, hk]

end Cert.KernelIdeal.HandValue

end
-- ==== Proof.KValTile.lean ====
import proofs.«174083_j4664334483724_2_alg».proof.Proof.KValHead

/-! The similarity tile of each of the eight heads, at the body's own operands, is the specification's cosine
similarity of row 320·i + r and row m of that head. -/

noncomputable section

open scoped BigOperators

namespace Cert.KernelIdeal.HandValue

open Cert.KernelIdeal Cert.KernelIdeal.Gen Cert.KernelIdeal.Hand
open Idealize.ShloMosaic Idealize.ShloMosaic.ValueIdx

variable (X : Cert.Spec.Heads) (i : grid0.Coords) (x0 : Vec Ideal S8x320x64 .f32) (x1 : Vec Ideal S8x3200x64 .f32)
  (h0 : ∀ (h : Fin 8) (r : Fin 320) (d : Fin 64), x0 (ix3 h r d) = X h (row i r) d)
  (h1 : ∀ (h : Fin 8) (n : Fin 3200) (d : Fin 64), x1 (ix3 h n d) = X h n d)

include h0 h1

/-- Head h's query block and key array, viewed as matrices, read the input's head h. -/
theorem q0_apply (r : Fin 320) (d : Fin 64) : sq (View.ld x0 rq0) (ix2 r d) = X 0 (row i r) d :=
  (sq_ld_apply x0 ![0, 0, 0] inb_S8x320x64_S1x320x64_0_0_0 0 rfl rfl rfl r d).trans (h0 0 r d)
theorem k0_apply (m : Fin 3200) (d : Fin 64) : sk (View.ld x1 rk0) (ix2 m d) = X 0 m d :=
  (sk_ld_apply x1 ![0, 0, 0] inb_S8x3200x64_S1x3200x64_0_0_0 0 rfl rfl rfl m d).trans (h1 0 m d)
theorem q1_apply (r : Fin 320) (d : Fin 64) : sq (View.ld x0 rq1) (ix2 r d) = X 1 (row i r) d :=
  (sq_ld_apply x0 ![1, 0, 0] inb_S8x320x64_S1x320x64_1_0_0 1 rfl rfl rfl r d).trans (h0 1 r d)
theorem k1_apply (m : Fin 3200) (d : Fin 64) : sk (View.ld x1 rk1) (ix2 m d) = X 1 m d :=
  (sk_ld_apply x1 ![1, 0, 0] inb_S8x3200x64_S1x3200x64_1_0_0 1 rfl rfl rfl m d).trans (h1 1 m d)
theorem q2_apply (r : Fin 320) (d : Fin 64) : sq (View.ld x0 rq2) (ix2 r d) = X 2 (row i r) d :=
  (sq_ld_apply x0 ![2, 0, 0] inb_S8x320x64_S1x320x64_2_0_0 2 rfl rfl rfl r d).trans (h0 2 r d)
theorem k2_apply (m : Fin 3200) (d : Fin 64) : sk (View.ld x1 rk2) (ix2 m d) = X 2 m d :=
  (sk_ld_apply x1 ![2, 0, 0] inb_S8x3200x64_S1x3200x64_2_0_0 2 rfl rfl rfl m d).trans (h1 2 m d)
theorem q3_apply (r : Fin 320) (d : Fin 64) : sq (View.ld x0 rq3) (ix2 r d) = X 3 (row i r) d :=
  (sq_ld_apply x0 ![3, 0, 0] inb_S8x320x64_S1x320x64_3_0_0 3 rfl rfl rfl r d).trans (h0 3 r d)
theorem k3_apply (m : Fin 3200) (d : Fin 64) : sk (View.ld x1 rk3) (ix2 m d) = X 3 m d :=
  (sk_ld_apply x1 ![3, 0, 0] inb_S8x3200x64_S1x3200x64_3_0_0 3 rfl rfl rfl m d).trans (h1 3 m d)
theorem q4_apply (r : Fin 320) (d : Fin 64) : sq (View.ld x0 rq4) (ix2 r d) = X 4 (row i r) d :=
  (sq_ld_apply x0 ![4, 0, 0] inb_S8x320x64_S1x320x64_4_0_0 4 rfl rfl rfl r d).trans (h0 4 r d)
theorem k4_apply (m : Fin 3200) (d : Fin 64) : sk (View.ld x1 rk4) (ix2 m d) = X 4 m d :=
  (sk_ld_apply x1 ![4, 0, 0] inb_S8x3200x64_S1x3200x64_4_0_0 4 rfl rfl rfl m d).trans (h1 4 m d)
theorem q5_apply (r : Fin 320) (d : Fin 64) : sq (View.ld x0 rq5) (ix2 r d) = X 5 (row i r) d :=
  (sq_ld_apply x0 ![5, 0, 0] inb_S8x320x64_S1x320x64_5_0_0 5 rfl rfl rfl r d).trans (h0 5 r d)
theorem k5_apply (m : Fin 3200) (d : Fin 64) : sk (View.ld x1 rk5) (ix2 m d) = X 5 m d :=
  (sk_ld_apply x1 ![5, 0, 0] inb_S8x3200x64_S1x3200x64_5_0_0 5 rfl rfl rfl m d).trans (h1 5 m d)
theorem q6_apply (r : Fin 320) (d : Fin 64) : sq (View.ld x0 rq6) (ix2 r d) = X 6 (row i r) d :=
  (sq_ld_apply x0 ![6, 0, 0] inb_S8x320x64_S1x320x64_6_0_0 6 rfl rfl rfl r d).trans (h0 6 r d)
theorem k6_apply (m : Fin 3200) (d : Fin 64) : sk (View.ld x1 rk6) (ix2 m d) = X 6 m d :=
  (sk_ld_apply x1 ![6, 0, 0] inb_S8x3200x64_S1x3200x64_6_0_0 6 rfl rfl rfl m d).trans (h1 6 m d)
theorem q7_apply (r : Fin 320) (d : Fin 64) : sq (View.ld x0 rq7) (ix2 r d) = X 7 (row i r) d :=
  (sq_ld_apply x0 ![7, 0, 0] inb_S8x320x64_S1x320x64_7_0_0 7 rfl rfl rfl r d).trans (h0 7 r d)
theorem k7_apply (m : Fin 3200) (d : Fin 64) : sk (View.ld x1 rk7) (ix2 m d) = X 7 m d :=
  (sk_ld_apply x1 ![7, 0, 0] inb_S8x3200x64_S1x3200x64_7_0_0 7 rfl rfl rfl m d).trans (h1 7 m d)

theorem head_tile0 (r : Fin 320) (m : Fin 3200) :
    k0_pay6 (F := Ideal) (v43 x0) (View.ld x1 rk0) (ix2 r m) = Cert.Spec.raw X 0 (row i r) m :=
  (pay6_apply (v43 x0) (View.ld x1 rk0) r m).trans
    (tile_eq_raw X 0 i _ _ (fun r d => q0_apply X i x0 x1 h0 h1 r d) (fun m d => k0_apply X i x0 x1 h0 h1 m d) r m)

theorem head_tile1 (r : Fin 320) (m : Fin 3200) :
    k0_pay13 (F := Ideal) (v71 x0) (v73 x1) (v79 x0) (v82 x1) (ix2 r m) = Cert.Spec.raw X 1 (row i r) m :=
  (pay13_apply (v71 x0) (v73 x1) (v79 x0) (v82 x1) (fun r u => pay11_apply (View.ld x0 rq1) r u) (fun m u => pay12_apply (View.ld x1 rk1) m u) r m).trans
    (tile_eq_raw X 1 i _ _ (fun r d => q1_apply X i x0 x1 h0 h1 r d) (fun m d => k1_apply X i x0 x1 h0 h1 m d) r m)

theorem head_tile2 (r : Fin 320) (m : Fin 3200) :
    k0_pay16 (F := Ideal) (View.ld x0 rq2) (View.ld x1 rk2) (ix2 r m) = Cert.Spec.raw X 2 (row i r) m :=
  (pay16_apply (View.ld x0 rq2) (View.ld x1 rk2) r m).trans
    (tile_eq_raw X 2 i _ _ (fun r d => q2_apply X i x0 x1 h0 h1 r d) (fun m d => k2_apply X i x0 x1 h0 h1 m d) r m)

theorem head_tile3 (r : Fin 320) (m : Fin 3200) :
    k0_pay20 (F := Ideal) (View.ld x0 rq3) (View.ld x1 rk3) (ix2 r m) = Cert.Spec.raw X 3 (row i r) m :=
  (pay20_apply (View.ld x0 rq3) (View.ld x1 rk3) r m).trans
    (tile_eq_raw X 3 i _ _ (fun r d => q3_apply X i x0 x1 h0 h1 r d) (fun m d => k3_apply X i x0 x1 h0 h1 m d) r m)

theorem head_tile4 (r : Fin 320) (m : Fin 3200) :
    k0_pay26 (F := Ideal) (v155 x0) (v157 x1) (v159 x0) (ix2 r m) = Cert.Spec.raw X 4 (row i r) m :=
  (pay26_apply (v155 x0) (v157 x1) (v159 x0) (fun r => pay25_apply (View.ld x0 rq4) r) r m).trans
    (tile_eq_raw X 4 i _ _ (fun r d => q4_apply X i x0 x1 h0 h1 r d) (fun m d => k4_apply X i x0 x1 h0 h1 m d) r m)

theorem head_tile5 (r : Fin 320) (m : Fin 3200) :
    k0_pay32 (F := Ideal) (v199 x0) (v201 x1) (ix2 r m) = Cert.Spec.raw X 5 (row i r) m :=
  (pay32_apply (v199 x0) (v201 x1) (sq (View.ld x0 rq5)) (sk (View.ld x1 rk5)) (fun r d => pay30_apply (View.ld x0 rq5) r d) (fun m d => pay31_apply (View.ld x1 rk5) m d) r m).trans
    (tile_eq_raw X 5 i _ _ (fun r d => q5_apply X i x0 x1 h0 h1 r d) (fun m d => k5_apply X i x0 x1 h0 h1 m d) r m)

theorem head_tile6 (r : Fin 320) (m : Fin 3200) :
    k0_pay35 (F := Ideal) (View.ld x0 rq6) (View.ld x1 rk6) (ix2 r m) = Cert.Spec.raw X 6 (row i r) m :=
  (pay35_apply (View.ld x0 rq6) (View.ld x1 rk6) r m).trans
    (tile_eq_raw X 6 i _ _ (fun r d => q6_apply X i x0 x1 h0 h1 r d) (fun m d => k6_apply X i x0 x1 h0 h1 m d) r m)

theorem head_tile7 (r : Fin 320) (m : Fin 3200) :
    k0_pay39 (F := Ideal) (View.ld x0 rq7) (View.ld x1 rk7) (ix2 r m) = Cert.Spec.raw X 7 (row i r) m :=
  (pay39_apply (View.ld x0 rq7) (View.ld x1 rk7) r m).trans
    (tile_eq_raw X 7 i _ _ (fun r d => q7_apply X i x0 x1 h0 h1 r d) (fun m d => k7_apply X i x0 x1 h0 h1 m d) r m)

end Cert.KernelIdeal.HandValue

end
-- ==== Proof.KValCtx.lean ====
import proofs.«174083_j4664334483724_2_alg».proof.Proof.KValTile

/-! The eight heads' output slices of the first output block: the masked similarity tile, narrowed to bf16 (the
identity on the extended reals), times the head's rows is the specification's context; the passthrough columns are
the third input block itself; and the specification's column split, by arithmetic on the column. -/

noncomputable section

open scoped BigOperators

namespace Cert.KernelIdeal.HandValue

open Cert.KernelIdeal Cert.KernelIdeal.Gen Cert.KernelIdeal.Hand
open Idealize.ShloMosaic Idealize.ShloMosaic.ValueIdx

/-- Masked tile times rows, read at (r, d). -/
theorem av_apply (T M : FVec Ideal S320x3200 .f32) (V : FVec Ideal S3200x64 .f32) (r : Fin 320) (d : Fin 64) :
    matmul dot_S320x3200_S3200x64_S320x64_1_0_0_1_n_n none (truncf .bf16 (mulf T M) bitsLt_bf16_f32)
        (truncf .bf16 V bitsLt_bf16_f32) (constant S320x64 .f32 0x00000000#32) (ix2 r d)
      = ∑ m : Fin 3200, (T (ix2 r m) * M (ix2 r m)) * V (ix2 m d) :=
  matmul_av_apply (truncf .bf16 (mulf T M) bitsLt_bf16_f32) (truncf .bf16 V bitsLt_bf16_f32) r d

/-- With the tile, the mask and the rows read from the input, it is the specification's context. -/
theorem ctx_of (X : Cert.Spec.Heads) (h : Fin 8) (i : grid0.Coords) (T M : FVec Ideal S320x3200 .f32) (V : FVec Ideal S3200x64 .f32)
    (hT : ∀ r m, T (ix2 r m) = Cert.Spec.raw X h (row i r) m) (hM : ∀ r m, M (ix2 r m) = Cert.Spec.mask (row i r) m)
    (hV : ∀ m d, V (ix2 m d) = X h m d) (r : Fin 320) (d : Fin 64) :
    matmul dot_S320x3200_S3200x64_S320x64_1_0_0_1_n_n none (truncf .bf16 (mulf T M) bitsLt_bf16_f32)
        (truncf .bf16 V bitsLt_bf16_f32) (constant S320x64 .f32 0x00000000#32) (ix2 r d)
      = Cert.Spec.ctx X h (row i r) d := by
  refine (av_apply T M V r d).trans ?_
  unfold Cert.Spec.ctx Cert.Spec.att
  simp only [hT, hM, hV]

/-- The passthrough slice is the third input block. -/
theorem op_apply (x2 : Vec Ideal S320x512 .f32) (y : S320x512.Idx) : op x2 y = x2 y := by
  unfold op k0_pay42
  rw [shapeCast_self, View.ld_unit_zero (by funext a; fin_cases a <;> rfl)]

/-! ## The specification's column split -/

theorem xout_head (X : Cert.Spec.Heads) (n : Fin 3200) (h : Fin 8) (d : Fin 64) (j : Fin 1024)
    (hj : j.val = 64 * h.val + d.val) : Cert.Spec.xout X n j = Cert.Spec.ctx X h n d := by
  have hlt : j.val < 512 := by have := h.isLt; have := d.isLt; omega
  unfold Cert.Spec.xout
  rw [dif_pos hlt]
  exact congrArg₂ (fun a b => Cert.Spec.ctx X a n b)
    (Fin.ext (by have := h.isLt; have := d.isLt; show j.val / 64 = h.val; omega))
    (Fin.ext (by have := h.isLt; have := d.isLt; show j.val % 64 = d.val; omega))

theorem xout_pass (X : Cert.Spec.Heads) (n : Fin 3200) (h : Fin 8) (d : Fin 64) (j : Fin 1024)
    (hj : j.val = 512 + (64 * h.val + d.val)) : Cert.Spec.xout X n j = X h n d := by
  have hge : ¬ j.val < 512 := by omega
  unfold Cert.Spec.xout
  rw [dif_neg hge]
  exact congrArg₂ (fun a b => X a n b)
    (Fin.ext (by have := h.isLt; have := d.isLt; show (j.val - 512) / 64 = h.val; omega))
    (Fin.ext (by have := h.isLt; have := d.isLt; show (j.val - 512) % 64 = d.val; omega))

variable (X : Cert.Spec.Heads) (i : grid0.Coords) (x0 : Vec Ideal S8x320x64 .f32) (x1 : Vec Ideal S8x3200x64 .f32)
  (hmask : ∀ (r : Fin 320) (m : Fin 3200), k0_pay2 (F := Ideal) i (ix2 r m) = Cert.Spec.mask (row i r) m)
  (h0 : ∀ (h : Fin 8) (r : Fin 320) (d : Fin 64), x0 (ix3 h r d) = X h (row i r) d)
  (h1 : ∀ (h : Fin 8) (n : Fin 3200) (d : Fin 64), x1 (ix3 h n d) = X h n d)

include hmask h0 h1

/-! ## The eight slices -/

theorem o0_apply (r : Fin 320) (d : Fin 64) : o0 (F := Ideal) i x0 x1 (ix2 r d) = Cert.Spec.ctx X 0 (row i r) d := by
  unfold o0 k0_pay8
  exact ctx_of X 0 i _ _ _ (fun r m => head_tile0 X i x0 x1 h0 h1 r m) (fun r m => hmask r m) (fun m d => k0_apply X i x0 x1 h0 h1 m d) r d

theorem o1_apply (r : Fin 320) (d : Fin 64) : o1 (F := Ideal) i x0 x1 (ix2 r d) = Cert.Spec.ctx X 1 (row i r) d := by
  unfold o1 k0_pay14
  exact ctx_of X 1 i _ _ _ (fun r m => head_tile1 X i x0 x1 h0 h1 r m) (fun r m => hmask r m) (fun m d => k1_apply X i x0 x1 h0 h1 m d) r d

theorem o2_apply (r : Fin 320) (d : Fin 64) : o2 (F := Ideal) i x0 x1 (ix2 r d) = Cert.Spec.ctx X 2 (row i r) d := by
  unfold o2 k0_pay18
  exact ctx_of X 2 i _ _ _ (fun r m => head_tile2 X i x0 x1 h0 h1 r m) (fun r m => hmask r m) (fun m d => k2_apply X i x0 x1 h0 h1 m d) r d

theorem o3_apply (r : Fin 320) (d : Fin 64) : o3 (F := Ideal) i x0 x1 (ix2 r d) = Cert.Spec.ctx X 3 (row i r) d := by
  unfold o3 k0_pay22
  exact ctx_of X 3 i _ _ _ (fun r m => head_tile3 X i x0 x1 h0 h1 r m) (fun r m => hmask r m) (fun m d => k3_apply X i x0 x1 h0 h1 m d) r d

theorem o4_apply (r : Fin 320) (d : Fin 64) : o4 (F := Ideal) i x0 x1 (ix2 r d) = Cert.Spec.ctx X 4 (row i r) d := by
  unfold o4 k0_pay28
  exact ctx_of X 4 i _ _ _ (fun r m => head_tile4 X i x0 x1 h0 h1 r m) (fun r m => hmask r m) (fun m d => k4_apply X i x0 x1 h0 h1 m d) r d

theorem o5_apply (r : Fin 320) (d : Fin 64) : o5 (F := Ideal) i x0 x1 (ix2 r d) = Cert.Spec.ctx X 5 (row i r) d := by
  unfold o5 k0_pay33
  exact ctx_of X 5 i _ _ _ (fun r m => head_tile5 X i x0 x1 h0 h1 r m) (fun r m => hmask r m) (fun m d => k5_apply X i x0 x1 h0 h1 m d) r d

theorem o6_apply (r : Fin 320) (d : Fin 64) : o6 (F := Ideal) i x0 x1 (ix2 r d) = Cert.Spec.ctx X 6 (row i r) d := by
  unfold o6 k0_pay37
  exact ctx_of X 6 i _ _ _ (fun r m => head_tile6 X i x0 x1 h0 h1 r m) (fun r m => hmask r m) (fun m d => k6_apply X i x0 x1 h0 h1 m d) r d

theorem o7_apply (r : Fin 320) (d : Fin 64) : o7 (F := Ideal) i x0 x1 (ix2 r d) = Cert.Spec.ctx X 7 (row i r) d := by
  unfold o7 k0_pay41
  exact ctx_of X 7 i _ _ _ (fun r m => head_tile7 X i x0 x1 h0 h1 r m) (fun r m => hmask r m) (fun m d => k7_apply X i x0 x1 h0 h1 m d) r d

end Cert.KernelIdeal.HandValue

end
-- ==== Proof.KOut3Pieces.lean ====
import proofs.«174083_j4664334483724_2_alg».proof.Proof.KBody
import Idealize.ShloMosaic.Lib.ValueIdx

/-! The first output block read at an index: its nine stores lie side by side along the columns, so a column below
512 reads the slice of the head it falls in (64 columns per head) and a column from 512 on reads the passthrough. -/

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-- A column outside the columns `c1` to `c1 + w1 - 1` is outside the rectangle of all rows of those columns. -/
theorem notMem_cols (c1 w1 : ℕ) (inb : ∀ a, (![0, c1] : Fin 2 → ℕ) a + (![320, w1] : Fin 2 → ℕ) a ≤ S320x1024.size a)
    (r : Fin 320) (j : Fin 1024) (h : j.val < c1 ∨ c1 + w1 ≤ j.val) :
    (ix2 r j : S320x1024.Idx) ∉ (Rect.unit (s := S320x1024) ![0, c1] ![320, w1] inb).set := by
  rw [Rect.mem_set_unit]
  intro hm
  have h1 : c1 ≤ j.val ∧ j.val < c1 + w1 := hm 1
  omega

/-- Column `c1 + d` of row r is the rectangle's element (r, d). -/
theorem cols_emb (c1 w1 : ℕ) (inb : ∀ a, (![0, c1] : Fin 2 → ℕ) a + (![320, w1] : Fin 2 → ℕ) a ≤ S320x1024.size a)
    (r : Fin 320) (d : Fin w1) (j : Fin 1024) (hj : j.val = c1 + d.val) :
    (ix2 r j : S320x1024.Idx) = (Rect.unit (s := S320x1024) ![0, c1] ![320, w1] inb).emb (ix2 r d) := by
  funext a; apply Fin.ext
  match a with
  | ⟨0, _⟩ => show r.val = 0 + 1 * r.val; omega
  | ⟨1, _⟩ => show j.val = c1 + 1 * d.val; omega

variable (i : grid0.Coords) (x0 : Vec F S8x320x64 .f32) (x1 : Vec F S8x3200x64 .f32) (x2 : Vec F S320x512 .f32)

/-- Columns 512 to 1023 read the passthrough. -/
theorem out3_pass (r : Fin 320) (d : Fin 512) (j : Fin 1024) (hj : j.val = 512 + d.val) :
    out3 i x0 x1 x2 (ix2 r j) = op x2 (ix2 r d) := by
  unfold out3 pieces3
  rw [cols_emb 512 512 _ r d j hj]
  exact View.canon_cons_emb rop _ _ (ix2 r d)

/-- Columns 448 to 511 read head 7's slice. -/
theorem out3_head7 (r : Fin 320) (d : Fin 64) (j : Fin 1024) (hj : j.val = 448 + d.val) :
    out3 i x0 x1 x2 (ix2 r j) = o7 i x0 x1 (ix2 r d) := by
  have hd := d.isLt
  unfold out3 pieces3
  have hn0 : (ix2 r j : S320x1024.Idx) ∉ rop.set := notMem_cols 512 512 _ r j (Or.inl (by omega))
  rw [View.canon_cons_of_not_mem (⟨rop, op x2⟩ : View.Piece (Elt F) S320x1024 .f32) _ hn0]
  rw [cols_emb 448 64 _ r d j hj]
  exact View.canon_cons_emb ro7 _ _ (ix2 r d)

/-- Columns 384 to 447 read head 6's slice. -/
theorem out3_head6 (r : Fin 320) (d : Fin 64) (j : Fin 1024) (hj : j.val = 384 + d.val) :
    out3 i x0 x1 x2 (ix2 r j) = o6 i x0 x1 (ix2 r d) := by
  have hd := d.isLt
  unfold out3 pieces3
  have hn0 : (ix2 r j : S320x1024.Idx) ∉ rop.set := notMem_cols 512 512 _ r j (Or.inl (by omega))
  rw [View.canon_cons_of_not_mem (⟨rop, op x2⟩ : View.Piece (Elt F) S320x1024 .f32) _ hn0]
  have hn1 : (ix2 r j : S320x1024.Idx) ∉ ro7.set := notMem_cols 448 64 _ r j (Or.inl (by omega))
  rw [View.canon_cons_of_not_mem (⟨ro7, o7 i x0 x1⟩ : View.Piece (Elt F) S320x1024 .f32) _ hn1]
  rw [cols_emb 384 64 _ r d j hj]
  exact View.canon_cons_emb ro6 _ _ (ix2 r d)

/-- Columns 320 to 383 read head 5's slice. -/
theorem out3_head5 (r : Fin 320) (d : Fin 64) (j : Fin 1024) (hj : j.val = 320 + d.val) :
    out3 i x0 x1 x2 (ix2 r j) = o5 i x0 x1 (ix2 r d) := by
  have hd := d.isLt
  unfold out3 pieces3
  have hn0 : (ix2 r j : S320x1024.Idx) ∉ rop.set := notMem_cols 512 512 _ r j (Or.inl (by omega))
  rw [View.canon_cons_of_not_mem (⟨rop, op x2⟩ : View.Piece (Elt F) S320x1024 .f32) _ hn0]
  have hn1 : (ix2 r j : S320x1024.Idx) ∉ ro7.set := notMem_cols 448 64 _ r j (Or.inl (by omega))
  rw [View.canon_cons_of_not_mem (⟨ro7, o7 i x0 x1⟩ : View.Piece (Elt F) S320x1024 .f32) _ hn1]
  have hn2 : (ix2 r j : S320x1024.Idx) ∉ ro6.set := notMem_cols 384 64 _ r j (Or.inl (by omega))
  rw [View.canon_cons_of_not_mem (⟨ro6, o6 i x0 x1⟩ : View.Piece (Elt F) S320x1024 .f32) _ hn2]
  rw [cols_emb 320 64 _ r d j hj]
  exact View.canon_cons_emb ro5 _ _ (ix2 r d)

/-- Columns 256 to 319 read head 4's slice. -/
theorem out3_head4 (r : Fin 320) (d : Fin 64) (j : Fin 1024) (hj : j.val = 256 + d.val) :
    out3 i x0 x1 x2 (ix2 r j) = o4 i x0 x1 (ix2 r d) := by
  have hd := d.isLt
  unfold out3 pieces3
  have hn0 : (ix2 r j : S320x1024.Idx) ∉ rop.set := notMem_cols 512 512 _ r j (Or.inl (by omega))
  rw [View.canon_cons_of_not_mem (⟨rop, op x2⟩ : View.Piece (Elt F) S320x1024 .f32) _ hn0]
  have hn1 : (ix2 r j : S320x1024.Idx) ∉ ro7.set := notMem_cols 448 64 _ r j (Or.inl (by omega))
  rw [View.canon_cons_of_not_mem (⟨ro7, o7 i x0 x1⟩ : View.Piece (Elt F) S320x1024 .f32) _ hn1]
  have hn2 : (ix2 r j : S320x1024.Idx) ∉ ro6.set := notMem_cols 384 64 _ r j (Or.inl (by omega))
  rw [View.canon_cons_of_not_mem (⟨ro6, o6 i x0 x1⟩ : View.Piece (Elt F) S320x1024 .f32) _ hn2]
  have hn3 : (ix2 r j : S320x1024.Idx) ∉ ro5.set := notMem_cols 320 64 _ r j (Or.inl (by omega))
  rw [View.canon_cons_of_not_mem (⟨ro5, o5 i x0 x1⟩ : View.Piece (Elt F) S320x1024 .f32) _ hn3]
  rw [cols_emb 256 64 _ r d j hj]
  exact View.canon_cons_emb ro4 _ _ (ix2 r d)

/-- Columns 192 to 255 read head 3's slice. -/
theorem out3_head3 (r : Fin 320) (d : Fin 64) (j : Fin 1024) (hj : j.val = 192 + d.val) :
    out3 i x0 x1 x2 (ix2 r j) = o3 i x0 x1 (ix2 r d) := by
  have hd := d.isLt
  unfold out3 pieces3
  have hn0 : (ix2 r j : S320x1024.Idx) ∉ rop.set := notMem_cols 512 512 _ r j (Or.inl (by omega))
  rw [View.canon_cons_of_not_mem (⟨rop, op x2⟩ : View.Piece (Elt F) S320x1024 .f32) _ hn0]
  have hn1 : (ix2 r j : S320x1024.Idx) ∉ ro7.set := notMem_cols 448 64 _ r j (Or.inl (by omega))
  rw [View.canon_cons_of_not_mem (⟨ro7, o7 i x0 x1⟩ : View.Piece (Elt F) S320x1024 .f32) _ hn1]
  have hn2 : (ix2 r j : S320x1024.Idx) ∉ ro6.set := notMem_cols 384 64 _ r j (Or.inl (by omega))
  rw [View.canon_cons_of_not_mem (⟨ro6, o6 i x0 x1⟩ : View.Piece (Elt F) S320x1024 .f32) _ hn2]
  have hn3 : (ix2 r j : S320x1024.Idx) ∉ ro5.set := notMem_cols 320 64 _ r j (Or.inl (by omega))
  rw [View.canon_cons_of_not_mem (⟨ro5, o5 i x0 x1⟩ : View.Piece (Elt F) S320x1024 .f32) _ hn3]
  have hn4 : (ix2 r j : S320x1024.Idx) ∉ ro4.set := notMem_cols 256 64 _ r j (Or.inl (by omega))
  rw [View.canon_cons_of_not_mem (⟨ro4, o4 i x0 x1⟩ : View.Piece (Elt F) S320x1024 .f32) _ hn4]
  rw [cols_emb 192 64 _ r d j hj]
  exact View.canon_cons_emb ro3 _ _ (ix2 r d)

/-- Columns 128 to 191 read head 2's slice. -/
theorem out3_head2 (r : Fin 320) (d : Fin 64) (j : Fin 1024) (hj : j.val = 128 + d.val) :
    out3 i x0 x1 x2 (ix2 r j) = o2 i x0 x1 (ix2 r d) := by
  have hd := d.isLt
  unfold out3 pieces3
  have hn0 : (ix2 r j : S320x1024.Idx) ∉ rop.set := notMem_cols 512 512 _ r j (Or.inl (by omega))
  rw [View.canon_cons_of_not_mem (⟨rop, op x2⟩ : View.Piece (Elt F) S320x1024 .f32) _ hn0]
  have hn1 : (ix2 r j : S320x1024.Idx) ∉ ro7.set := notMem_cols 448 64 _ r j (Or.inl (by omega))
  rw [View.canon_cons_of_not_mem (⟨ro7, o7 i x0 x1⟩ : View.Piece (Elt F) S320x1024 .f32) _ hn1]
  have hn2 : (ix2 r j : S320x1024.Idx) ∉ ro6.set := notMem_cols 384 64 _ r j (Or.inl (by omega))
  rw [View.canon_cons_of_not_mem (⟨ro6, o6 i x0 x1⟩ : View.Piece (Elt F) S320x1024 .f32) _ hn2]
  have hn3 : (ix2 r j : S320x1024.Idx) ∉ ro5.set := notMem_cols 320 64 _ r j (Or.inl (by omega))
  rw [View.canon_cons_of_not_mem (⟨ro5, o5 i x0 x1⟩ : View.Piece (Elt F) S320x1024 .f32) _ hn3]
  have hn4 : (ix2 r j : S320x1024.Idx) ∉ ro4.set := notMem_cols 256 64 _ r j (Or.inl (by omega))
  rw [View.canon_cons_of_not_mem (⟨ro4, o4 i x0 x1⟩ : View.Piece (Elt F) S320x1024 .f32) _ hn4]
  have hn5 : (ix2 r j : S320x1024.Idx) ∉ ro3.set := notMem_cols 192 64 _ r j (Or.inl (by omega))
  rw [View.canon_cons_of_not_mem (⟨ro3, o3 i x0 x1⟩ : View.Piece (Elt F) S320x1024 .f32) _ hn5]
  rw [cols_emb 128 64 _ r d j hj]
  exact View.canon_cons_emb ro2 _ _ (ix2 r d)

/-- Columns 64 to 127 read head 1's slice. -/
theorem out3_head1 (r : Fin 320) (d : Fin 64) (j : Fin 1024) (hj : j.val = 64 + d.val) :
    out3 i x0 x1 x2 (ix2 r j) = o1 i x0 x1 (ix2 r d) := by
  have hd := d.isLt
  unfold out3 pieces3
  have hn0 : (ix2 r j : S320x1024.Idx) ∉ rop.set := notMem_cols 512 512 _ r j (Or.inl (by omega))
  rw [View.canon_cons_of_not_mem (⟨rop, op x2⟩ : View.Piece (Elt F) S320x1024 .f32) _ hn0]
  have hn1 : (ix2 r j : S320x1024.Idx) ∉ ro7.set := notMem_cols 448 64 _ r j (Or.inl (by omega))
  rw [View.canon_cons_of_not_mem (⟨ro7, o7 i x0 x1⟩ : View.Piece (Elt F) S320x1024 .f32) _ hn1]
  have hn2 : (ix2 r j : S320x1024.Idx) ∉ ro6.set := notMem_cols 384 64 _ r j (Or.inl (by omega))
  rw [View.canon_cons_of_not_mem (⟨ro6, o6 i x0 x1⟩ : View.Piece (Elt F) S320x1024 .f32) _ hn2]
  have hn3 : (ix2 r j : S320x1024.Idx) ∉ ro5.set := notMem_cols 320 64 _ r j (Or.inl (by omega))
  rw [View.canon_cons_of_not_mem (⟨ro5, o5 i x0 x1⟩ : View.Piece (Elt F) S320x1024 .f32) _ hn3]
  have hn4 : (ix2 r j : S320x1024.Idx) ∉ ro4.set := notMem_cols 256 64 _ r j (Or.inl (by omega))
  rw [View.canon_cons_of_not_mem (⟨ro4, o4 i x0 x1⟩ : View.Piece (Elt F) S320x1024 .f32) _ hn4]
  have hn5 : (ix2 r j : S320x1024.Idx) ∉ ro3.set := notMem_cols 192 64 _ r j (Or.inl (by omega))
  rw [View.canon_cons_of_not_mem (⟨ro3, o3 i x0 x1⟩ : View.Piece (Elt F) S320x1024 .f32) _ hn5]
  have hn6 : (ix2 r j : S320x1024.Idx) ∉ ro2.set := notMem_cols 128 64 _ r j (Or.inl (by omega))
  rw [View.canon_cons_of_not_mem (⟨ro2, o2 i x0 x1⟩ : View.Piece (Elt F) S320x1024 .f32) _ hn6]
  rw [cols_emb 64 64 _ r d j hj]
  exact View.canon_cons_emb ro1 _ _ (ix2 r d)

/-- Columns 0 to 63 read head 0's slice. -/
theorem out3_head0 (r : Fin 320) (d : Fin 64) (j : Fin 1024) (hj : j.val = 0 + d.val) :
    out3 i x0 x1 x2 (ix2 r j) = o0 i x0 x1 (ix2 r d) := by
  have hd := d.isLt
  unfold out3 pieces3
  have hn0 : (ix2 r j : S320x1024.Idx) ∉ rop.set := notMem_cols 512 512 _ r j (Or.inl (by omega))
  rw [View.canon_cons_of_not_mem (⟨rop, op x2⟩ : View.Piece (Elt F) S320x1024 .f32) _ hn0]
  have hn1 : (ix2 r j : S320x1024.Idx) ∉ ro7.set := notMem_cols 448 64 _ r j (Or.inl (by omega))
  rw [View.canon_cons_of_not_mem (⟨ro7, o7 i x0 x1⟩ : View.Piece (Elt F) S320x1024 .f32) _ hn1]
  have hn2 : (ix2 r j : S320x1024.Idx) ∉ ro6.set := notMem_cols 384 64 _ r j (Or.inl (by omega))
  rw [View.canon_cons_of_not_mem (⟨ro6, o6 i x0 x1⟩ : View.Piece (Elt F) S320x1024 .f32) _ hn2]
  have hn3 : (ix2 r j : S320x1024.Idx) ∉ ro5.set := notMem_cols 320 64 _ r j (Or.inl (by omega))
  rw [View.canon_cons_of_not_mem (⟨ro5, o5 i x0 x1⟩ : View.Piece (Elt F) S320x1024 .f32) _ hn3]
  have hn4 : (ix2 r j : S320x1024.Idx) ∉ ro4.set := notMem_cols 256 64 _ r j (Or.inl (by omega))
  rw [View.canon_cons_of_not_mem (⟨ro4, o4 i x0 x1⟩ : View.Piece (Elt F) S320x1024 .f32) _ hn4]
  have hn5 : (ix2 r j : S320x1024.Idx) ∉ ro3.set := notMem_cols 192 64 _ r j (Or.inl (by omega))
  rw [View.canon_cons_of_not_mem (⟨ro3, o3 i x0 x1⟩ : View.Piece (Elt F) S320x1024 .f32) _ hn5]
  have hn6 : (ix2 r j : S320x1024.Idx) ∉ ro2.set := notMem_cols 128 64 _ r j (Or.inl (by omega))
  rw [View.canon_cons_of_not_mem (⟨ro2, o2 i x0 x1⟩ : View.Piece (Elt F) S320x1024 .f32) _ hn6]
  have hn7 : (ix2 r j : S320x1024.Idx) ∉ ro1.set := notMem_cols 64 64 _ r j (Or.inl (by omega))
  rw [View.canon_cons_of_not_mem (⟨ro1, o1 i x0 x1⟩ : View.Piece (Elt F) S320x1024 .f32) _ hn7]
  rw [cols_emb 0 64 _ r d j hj]
  exact View.canon_cons_emb ro0 _ _ (ix2 r d)

/-- Head h's slice of the first output block. -/
def oHead (h : Fin 8) : FVec F S320x64 .f32 :=
  match h with
  | ⟨0, _⟩ => o0 i x0 x1 | ⟨1, _⟩ => o1 i x0 x1 | ⟨2, _⟩ => o2 i x0 x1 | ⟨3, _⟩ => o3 i x0 x1
  | ⟨4, _⟩ => o4 i x0 x1 | ⟨5, _⟩ => o5 i x0 x1 | ⟨6, _⟩ => o6 i x0 x1 | ⟨7, _⟩ => o7 i x0 x1

/-- Column `64 * h + d` reads lane d of head h's slice. -/
theorem out3_head (r : Fin 320) (h : Fin 8) (d : Fin 64) (j : Fin 1024) (hj : j.val = 64 * h.val + d.val) :
    out3 i x0 x1 x2 (ix2 r j) = oHead i x0 x1 h (ix2 r d) := by
  match h with
  | ⟨0, _⟩ => exact out3_head0 i x0 x1 x2 r d j (by have e : j.val = 64 * 0 + d.val := hj; omega)
  | ⟨1, _⟩ => exact out3_head1 i x0 x1 x2 r d j (by have e : j.val = 64 * 1 + d.val := hj; omega)
  | ⟨2, _⟩ => exact out3_head2 i x0 x1 x2 r d j (by have e : j.val = 64 * 2 + d.val := hj; omega)
  | ⟨3, _⟩ => exact out3_head3 i x0 x1 x2 r d j (by have e : j.val = 64 * 3 + d.val := hj; omega)
  | ⟨4, _⟩ => exact out3_head4 i x0 x1 x2 r d j (by have e : j.val = 64 * 4 + d.val := hj; omega)
  | ⟨5, _⟩ => exact out3_head5 i x0 x1 x2 r d j (by have e : j.val = 64 * 5 + d.val := hj; omega)
  | ⟨6, _⟩ => exact out3_head6 i x0 x1 x2 r d j (by have e : j.val = 64 * 6 + d.val := hj; omega)
  | ⟨7, _⟩ => exact out3_head7 i x0 x1 x2 r d j (by have e : j.val = 64 * 7 + d.val := hj; omega)

end Cert.KernelIdeal.Hand

end
-- ==== Proof.KValOut3.lean ====
import proofs.«174083_j4664334483724_2_alg».proof.Proof.KValCtx
import proofs.«174083_j4664334483724_2_alg».proof.Proof.KOut3Pieces

/-! The first output block, index by index: a column below 512 lies in one head's slice and reads that head's
context; a column from 512 on reads the third input block, which holds the input row itself. -/

noncomputable section

open scoped BigOperators

namespace Cert.KernelIdeal.HandValue

open Cert.KernelIdeal Cert.KernelIdeal.Gen Cert.KernelIdeal.Hand
open Idealize.ShloMosaic Idealize.ShloMosaic.ValueIdx

variable (X : Cert.Spec.Heads) (i : grid0.Coords) (x0 : Vec Ideal S8x320x64 .f32) (x1 : Vec Ideal S8x3200x64 .f32)
  (x2 : Vec Ideal S320x512 .f32)
  (hmask : ∀ (r : Fin 320) (m : Fin 3200), k0_pay2 (F := Ideal) i (ix2 r m) = Cert.Spec.mask (row i r) m)
  (h0 : ∀ (h : Fin 8) (r : Fin 320) (d : Fin 64), x0 (ix3 h r d) = X h (row i r) d)
  (h1 : ∀ (h : Fin 8) (n : Fin 3200) (d : Fin 64), x1 (ix3 h n d) = X h n d)
  (h2 : ∀ (r : Fin 320) (h : Fin 8) (d : Fin 64), x2 (ix2 r (Cert.Spec.col h d)) = X h (row i r) d)

section
include hmask h0 h1

/-- Head h's slice is head h's context. -/
theorem oHead_apply (h : Fin 8) (r : Fin 320) (d : Fin 64) :
    oHead (F := Ideal) i x0 x1 h (ix2 r d) = Cert.Spec.ctx X h (row i r) d := by
  match h with
  | ⟨0, _⟩ => exact o0_apply X i x0 x1 hmask h0 h1 r d
  | ⟨1, _⟩ => exact o1_apply X i x0 x1 hmask h0 h1 r d
  | ⟨2, _⟩ => exact o2_apply X i x0 x1 hmask h0 h1 r d
  | ⟨3, _⟩ => exact o3_apply X i x0 x1 hmask h0 h1 r d
  | ⟨4, _⟩ => exact o4_apply X i x0 x1 hmask h0 h1 r d
  | ⟨5, _⟩ => exact o5_apply X i x0 x1 hmask h0 h1 r d
  | ⟨6, _⟩ => exact o6_apply X i x0 x1 hmask h0 h1 r d
  | ⟨7, _⟩ => exact o7_apply X i x0 x1 hmask h0 h1 r d
  | ⟨n + 8, hn⟩ => exact absurd hn (by omega)

end

include hmask h0 h1 h2

/-- The first output block is the specification's first result on the block's rows. -/
theorem out3_apply (r : Fin 320) (j : Fin 1024) :
    out3 (F := Ideal) i x0 x1 x2 (ix2 r j) = Cert.Spec.xout X (row i r) j := by
  by_cases hj : j.val < 512
  · have hh : j.val / 64 < 8 := by omega
    have hd : j.val % 64 < 64 := Nat.mod_lt _ (by norm_num)
    have e : j.val = 64 * (⟨j.val / 64, hh⟩ : Fin 8).val + (⟨j.val % 64, hd⟩ : Fin 64).val := by
      show j.val = 64 * (j.val / 64) + j.val % 64; omega
    rw [out3_head i x0 x1 x2 r ⟨j.val / 64, hh⟩ ⟨j.val % 64, hd⟩ j e,
      xout_head X (row i r) ⟨j.val / 64, hh⟩ ⟨j.val % 64, hd⟩ j e]
    exact oHead_apply X i x0 x1 hmask h0 h1 _ r _
  · have hjlt := j.isLt
    have hc : j.val - 512 < 512 := by omega
    have hh : (j.val - 512) / 64 < 8 := by omega
    have hd : (j.val - 512) % 64 < 64 := Nat.mod_lt _ (by norm_num)
    have e : j.val = 512 + (64 * (⟨(j.val - 512) / 64, hh⟩ : Fin 8).val + (⟨(j.val - 512) % 64, hd⟩ : Fin 64).val) := by
      show j.val = 512 + (64 * ((j.val - 512) / 64) + (j.val - 512) % 64); omega
    have ec : (⟨j.val - 512, hc⟩ : Fin 512) = Cert.Spec.col ⟨(j.val - 512) / 64, hh⟩ ⟨(j.val - 512) % 64, hd⟩ :=
      Fin.ext (by show j.val - 512 = 64 * ((j.val - 512) / 64) + (j.val - 512) % 64; omega)
    rw [out3_pass i x0 x1 x2 r ⟨j.val - 512, hc⟩ j (by show j.val = 512 + (j.val - 512); omega), op_apply,
      xout_pass X (row i r) ⟨(j.val - 512) / 64, hh⟩ ⟨(j.val - 512) % 64, hd⟩ j e, ec]
    exact h2 r _ _

end Cert.KernelIdeal.HandValue

end
-- ==== Proof.KValOut4.lean ====
import proofs.«174083_j4664334483724_2_alg».proof.Proof.KValTile

/-! The second output block, index by index: the running sum of the eight heads' similarity tiles is the
specification's head sum; scaled by 1/8 and compared with 3/4 it is the selector; masked, scaled and exponentiated
it is the weight; and the stored quotient is selector times weight over the row's sum of those plus ε times the
row's sum of weights. -/

noncomputable section

open scoped BigOperators

namespace Cert.KernelIdeal.HandValue

open Cert.KernelIdeal Cert.KernelIdeal.Gen Cert.KernelIdeal.Hand
open Idealize.ShloMosaic Idealize.ShloMosaic.ValueIdx

/-- A lane sum of a [320, 3200] array kept as a column. -/
theorem colsum_apply (v : FVec Ideal S320x3200 .f32) (r : Fin 320) (u : Fin 1) :
    shapeCast S320x1 (multiReduction .add [1] S320 v 0x00000000#32 reduces_S320x3200_S320 (.inl rfl) rfl) shapeCasts_S320_S320x1 (ix2 r u)
      = ∑ m' : Fin 3200, v (ix2 r m') :=
  (shapeCast_a_a1_apply _ _ r u).trans (rowsum_apply v _ r)

/-- The stored quotient over arbitrary selector A and weight B. -/
theorem pay1_apply (A B : FVec Ideal S320x3200 .f32) (r : Fin 320) (m : Fin 3200) :
    k0_pay1 A B (ix2 r m)
      = Ideal.div (A (ix2 r m) * B (ix2 r m))
          ((∑ m' : Fin 3200, A (ix2 r m') * B (ix2 r m')) + (∑ m' : Fin 3200, B (ix2 r m')) * Cert.Spec.eps) := by
  have key : ∀ u : Fin 1,
      (addf (shapeCast S320x1 (multiReduction .add [1] S320 (mulf A B) 0x00000000#32 reduces_S320x3200_S320 (.inl rfl) rfl) shapeCasts_S320_S320x1)
        (mulf (shapeCast S320x1 (multiReduction .add [1] S320 B 0x00000000#32 reduces_S320x3200_S320 (.inl rfl) rfl) shapeCasts_S320_S320x1)
          (broadcast S320x1 (Scalar.ofBits (F := Ideal) .f32 0x322BCC77#32)))) (ix2 r u)
        = (∑ m' : Fin 3200, A (ix2 r m') * B (ix2 r m')) + (∑ m' : Fin 3200, B (ix2 r m')) * Cert.Spec.eps := by
    intro u
    show shapeCast S320x1 _ shapeCasts_S320_S320x1 (ix2 r u) + shapeCast S320x1 _ shapeCasts_S320_S320x1 (ix2 r u) * Cert.Spec.eps = _
    rw [colsum_apply, colsum_apply]; rfl
  unfold k0_pay1
  show Ideal.div (A (ix2 r m) * B (ix2 r m)) (broadcastTo S320x3200 _ broadcasts_S320x1_S320x3200 (ix2 r m)) = _
  rw [broadcastTo_a1_ab_apply, key]

variable (X : Cert.Spec.Heads) (i : grid0.Coords) (x0 : Vec Ideal S8x320x64 .f32) (x1 : Vec Ideal S8x3200x64 .f32)
  (hmask : ∀ (r : Fin 320) (m : Fin 3200), k0_pay2 (F := Ideal) i (ix2 r m) = Cert.Spec.mask (row i r) m)
  (h0 : ∀ (h : Fin 8) (r : Fin 320) (d : Fin 64), x0 (ix3 h r d) = X h (row i r) d)
  (h1 : ∀ (h : Fin 8) (n : Fin 3200) (d : Fin 64), x1 (ix3 h n d) = X h n d)

section
include h0 h1

/-! ## The running sum of the tiles -/

theorem v64_apply (r : Fin 320) (m : Fin 3200) : v64 x0 x1 (ix2 r m) = Cert.Spec.raw X 0 (row i r) m := by
  show Ideal.ofBits .f32 0x00000000#32 + k0_pay6 (F := Ideal) (v43 x0) (View.ld x1 rk0) (ix2 r m) = _
  rw [Ideal.ofBits_zero_f32, zero_add, head_tile0 X i x0 x1 h0 h1]

theorem v120_apply (r : Fin 320) (m : Fin 3200) :
    v120 x0 x1 (ix2 r m) = Cert.Spec.raw X 0 (row i r) m + Cert.Spec.raw X 1 (row i r) m + Cert.Spec.raw X 2 (row i r) m := by
  show v64 x0 x1 (ix2 r m) + k0_pay13 (F := Ideal) (v71 x0) (v73 x1) (v79 x0) (v82 x1) (ix2 r m)
      + k0_pay16 (F := Ideal) (View.ld x0 rq2) (View.ld x1 rk2) (ix2 r m) = _
  rw [v64_apply X i x0 x1 h0 h1, head_tile1 X i x0 x1 h0 h1, head_tile2 X i x0 x1 h0 h1]

theorem v148_apply (r : Fin 320) (m : Fin 3200) :
    v148 x0 x1 (ix2 r m) = Cert.Spec.raw X 0 (row i r) m + Cert.Spec.raw X 1 (row i r) m + Cert.Spec.raw X 2 (row i r) m
      + Cert.Spec.raw X 3 (row i r) m := by
  show v120 x0 x1 (ix2 r m) + k0_pay20 (F := Ideal) (View.ld x0 rq3) (View.ld x1 rk3) (ix2 r m) = _
  rw [v120_apply X i x0 x1 h0 h1, head_tile3 X i x0 x1 h0 h1]

theorem v176_apply (r : Fin 320) (m : Fin 3200) :
    v176 x0 x1 (ix2 r m) = Cert.Spec.raw X 0 (row i r) m + Cert.Spec.raw X 1 (row i r) m + Cert.Spec.raw X 2 (row i r) m
      + Cert.Spec.raw X 3 (row i r) m + Cert.Spec.raw X 4 (row i r) m := by
  show v148 x0 x1 (ix2 r m) + k0_pay26 (F := Ideal) (v155 x0) (v157 x1) (v159 x0) (ix2 r m) = _
  rw [v148_apply X i x0 x1 h0 h1, head_tile4 X i x0 x1 h0 h1]

theorem v232_apply (r : Fin 320) (m : Fin 3200) :
    v232 x0 x1 (ix2 r m) = Cert.Spec.raw X 0 (row i r) m + Cert.Spec.raw X 1 (row i r) m + Cert.Spec.raw X 2 (row i r) m
      + Cert.Spec.raw X 3 (row i r) m + Cert.Spec.raw X 4 (row i r) m + Cert.Spec.raw X 5 (row i r) m
      + Cert.Spec.raw X 6 (row i r) m := by
  show v176 x0 x1 (ix2 r m) + k0_pay32 (F := Ideal) (v199 x0) (v201 x1) (ix2 r m)
      + k0_pay35 (F := Ideal) (View.ld x0 rq6) (View.ld x1 rk6) (ix2 r m) = _
  rw [v176_apply X i x0 x1 h0 h1, head_tile5 X i x0 x1 h0 h1, head_tile6 X i x0 x1 h0 h1]

/-- The eight tiles summed are the specification's head sum. -/
theorem sum8_apply (r : Fin 320) (m : Fin 3200) :
    k0_pay40 (F := Ideal) (v232 x0 x1) (View.ld x0 rq7) (View.ld x1 rk7) (ix2 r m) = Cert.Spec.rawsum X (row i r) m := by
  show v232 x0 x1 (ix2 r m) + k0_pay39 (F := Ideal) (View.ld x0 rq7) (View.ld x1 rk7) (ix2 r m) = _
  rw [v232_apply X i x0 x1 h0 h1, head_tile7 X i x0 x1 h0 h1]
  unfold Cert.Spec.rawsum
  rw [Fin.sum_univ_eight]

/-! ## Selector, weight, quotient -/

theorem v274_apply (r : Fin 320) (m : Fin 3200) : v274 x0 x1 (ix2 r m) = Cert.Spec.kSel X (row i r) m := by
  unfold v274 k0_pay43
  refine (ogt_number_apply _ _ _ (ix2 r m)).trans ?_
  show (if Cert.Spec.thresh < k0_pay40 (F := Ideal) (v232 x0 x1) (View.ld x0 rq7) (View.ld x1 rk7) (ix2 r m) * Cert.Spec.eighth
      then (1 : EReal) else 0) = _
  rw [sum8_apply X i x0 x1 h0 h1]; rfl

end

section
include hmask h0 h1

theorem v278_apply (r : Fin 320) (m : Fin 3200) : v278 i x0 x1 (ix2 r m) = Cert.Spec.kExp X (row i r) m := by
  show Ideal.exp ((k0_pay40 (F := Ideal) (v232 x0 x1) (View.ld x0 rq7) (View.ld x1 rk7) (ix2 r m)
      * k0_pay2 (F := Ideal) i (ix2 r m)) * Cert.Spec.eighth) = _
  rw [sum8_apply X i x0 x1 h0 h1, hmask]; rfl

/-- The second output block is the specification's thresholded, row-normalised weights. -/
theorem out4_apply (r : Fin 320) (m : Fin 3200) : out4 (F := Ideal) i x0 x1 (ix2 r m) = Cert.Spec.kSim X (row i r) m := by
  rw [out4_eq]
  unfold w4
  rw [pay1_apply]
  simp only [v274_apply X i x0 x1 h0 h1, v278_apply X i x0 x1 hmask h0 h1]
  rfl

end

end Cert.KernelIdeal.HandValue

end
-- ==== Proof.KValue.lean ====
/-
  What the tiled program's two result arrays hold at the end of its run, as whole-array functions of the input.

  Every block of either output that a grid point writes back is the restriction of one function of the whole
  index (the specification's first result, and its second result in the tiled program's spelling) to that
  block's rows; the ten blocks cover the 3200 rows; so the arrays end at those functions. The first array is then
  reshaped from [3200, 1024] to [1, 3200, 1024], which moves no entry.
-/
import proofs.«174083_j4664334483724_2_alg».proof.Proof.KFrame
import proofs.«174083_j4664334483724_2_alg».proof.Proof.KFinal
import proofs.«174083_j4664334483724_2_alg».proof.Proof.KPrefixV
import proofs.«174083_j4664334483724_2_alg».proof.Proof.KMask
import proofs.«174083_j4664334483724_2_alg».proof.Proof.KValOut3
import proofs.«174083_j4664334483724_2_alg».proof.Proof.KValOut4

noncomputable section

namespace Cert.KernelIdeal.Hand

open Cert.KernelIdeal Cert.KernelIdeal.Gen Cert.KernelIdeal.HandValue
open Idealize.ShloMosaic Idealize.ShloMosaic.TcCoe Idealize.ShloMosaic.ValueIdx Idealize.SL Idealize.SL.RA Idealize.SL.Sem

/-- Reshaping [3200, 1024] to [1, 3200, 1024] moves no entry. -/
theorem res0_apply (c : Dev nD) (G : S3200x1024.Idx → EReal) (a : Fin 1) (n : Fin 3200) (k : Fin 1024) :
    res0 (F := Ideal) c G (ix3 a n k) = G (ix2 n k) := by
  unfold res0
  refine shapeCast_apply _ _ _ (ix2 n k) ?_
  rw [Shape.rowMajor_val_two, Shape.rowMajor_val_three]
  have ha : a.val = 0 := by have := a.isLt; omega
  show n.val * 1024 + k.val = (a.val * 3200 + n.val) * 1024 + k.val
  rw [ha]; omega

/-- The run of the tiled program at the extended reals, with both results as functions of the input. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = (fun j : S1x3200x1024.Idx => Cert.Spec.xout (Cert.Spec.heads (m ((c.tc : Thread nD τ).loc main_arg1))) (j 1) (j 2))
      ∧ r.2.mem ((c.tc : Thread nD τ).loc main_v3_1)
          = (fun j : S3200x3200.Idx => Cert.Spec.kSim (Cert.Spec.heads (m ((c.tc : Thread nD τ).loc main_arg1))) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r h c => ?_) (run_named (F := Ideal) m ρ)
  obtain ⟨h4, h31, hargs⟩ := h c
  have hV2 : ∀ (h : Fin 8) (n : Fin 3200) (d : Fin 64),
      V m c main_v2 (ix3 h n d) = Cert.Spec.heads (m ((c.tc : Thread nD τ).loc main_arg1)) h n d :=
    fun h n d => V_v2_apply m c h n d
  have hV0 : ∀ (n : Fin 3200) (h : Fin 8) (d : Fin 64),
      V m c main_v0 (ix2 n (Cert.Spec.col h d)) = Cert.Spec.heads (m ((c.tc : Thread nD τ).loc main_arg1)) h n d :=
    fun n h d => V_v0_apply m c n h d
  refine ⟨?_, ?_, hargs⟩
  · rw [h4, final3 (V m) qsh (Cert.Spec.heads (m ((c.tc : Thread nD τ).loc main_arg1))) c hV2 hV0
      (fun i x0 x1 x2 h0 h1 h2 r j => out3_apply _ i x0 x1 x2 (pay2_apply i) h0 h1 h2 r j)]
    funext j
    obtain ⟨a, n, k, rfl⟩ : ∃ (a : Fin 1) (n : Fin 3200) (k : Fin 1024), j = ix3 a n k := ⟨j 0, j 1, j 2, eq_ix3 j⟩
    exact res0_apply c _ a n k
  · rw [h31, final4 (V m) qsh (Cert.Spec.heads (m ((c.tc : Thread nD τ).loc main_arg1))) c hV2
      (fun i x0 x1 h0 h1 r mm => out4_apply _ i x0 x1 (pay2_apply i) h0 h1 r mm)]

end Cert.KernelIdeal.Hand

end
-- ==== Proof.RefRunOps0.lean ====
/- The operations of window 0 of the entry function, in order, as a list; that the window is the list run in order;
   that every operation touches TensorCore buffers only, allocates nothing, and writes a buffer of the listed ones. -/
import proofs.«174083_j4664334483724_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first window of the reference program's entry function as a list: its statements 1 … 60, with the bodies of the five
    module-local functions it calls (two rectifiers, three row norms) written out at the call sites over each call's own buffers. -/
abbrev ops0 : List (HloOp τ sig (Elt F)) :=
  [ StableHlo.binary main_arg0 main_arg2 main_v0 ((fun l r => Host.dotGeneral dot_S1x3200x512_S512x1024_S1x3200x1024_2_0_01_1_n_n none l r) : (⟨S1x3200x512, .f32⟩ : BufTy).Contents (Elt F) → (⟨S512x1024, .f32⟩ : BufTy).Contents (Elt F) → (⟨S1x3200x1024, .f32⟩ : BufTy).Contents (Elt F)),
    StableHlo.unary main_arg3 main_v1 (broadcastInDim S1x1x1024 ![2] bcast_S1024_S1x1x1024_2 : (⟨S1024, .f32⟩ : BufTy).Contents (Elt F) → (⟨S1x1x1024, .f32⟩ : BufTy).Contents (Elt F)),
    StableHlo.unary main_v1 main_v2 (broadcastInDim S1x3200x1024 ![0, 1, 2] bcast_S1x1x1024_S1x3200x1024_0_1_2 : (⟨S1x1x1024, .f32⟩ : BufTy).Contents (Elt F) → (⟨S1x3200x1024, .f32⟩ : BufTy).Contents (Elt F)),
    StableHlo.binary main_v0 main_v2 main_v3 (addf : (⟨S1x3200x1024, .f32⟩ : BufTy).Contents (Elt F) → (⟨S1x3200x1024, .f32⟩ : BufTy).Contents (Elt F) → (⟨S1x3200x1024, .f32⟩ : BufTy).Contents (Elt F)),
    StableHlo.TRef.nullary main_call0.cst (constant S_ .f32 0x00000000#32),
    StableHlo.TRef.unary main_call0.cst main_call0.v0 (broadcastInDim S1x3200x1024 ![] bcast_S_S1x3200x1024),
    StableHlo.TRef.binary (.of main_v3) main_call0.v0 main_call0.v1 maximumf,
    StableHlo.binary main_v4 main_arg4 main_v5 ((fun l r => Host.dotGeneral dot_S1x3200x1024_S1024x2048_S1x3200x2048_2_0_01_1_n_n none l r) : (⟨S1x3200x1024, .f32⟩ : BufTy).Contents (Elt F) → (⟨S1024x2048, .f32⟩ : BufTy).Contents (Elt F) → (⟨S1x3200x2048, .f32⟩ : BufTy).Contents (Elt F)),
    StableHlo.unary main_arg5 main_v6 (broadcastInDim S1x1x2048 ![2] bcast_S2048_S1x1x2048_2 : (⟨S2048, .f32⟩ : BufTy).Contents (Elt F) → (⟨S1x1x2048, .f32⟩ : BufTy).Contents (Elt F)),
    StableHlo.unary main_v6 main_v7 (broadcastInDim S1x3200x2048 ![0, 1, 2] bcast_S1x1x2048_S1x3200x2048_0_1_2 : (⟨S1x1x2048, .f32⟩ : BufTy).Contents (Elt F) → (⟨S1x3200x2048, .f32⟩ : BufTy).Contents (Elt F)),
    StableHlo.binary main_v5 main_v7 main_v8 (addf : (⟨S1x3200x2048, .f32⟩ : BufTy).Contents (Elt F) → (⟨S1x3200x2048, .f32⟩ : BufTy).Contents (Elt F) → (⟨S1x3200x2048, .f32⟩ : BufTy).Contents (Elt F)),
    StableHlo.TRef.nullary main_call1.cst (constant S_ .f32 0x00000000#32),
    StableHlo.TRef.unary main_call1.cst main_call1.v0 (broadcastInDim S1x3200x2048 ![] bcast_S_S1x3200x2048),
    StableHlo.TRef.binary (.of main_v8) main_call1.v0 main_call1.v1 maximumf,
    StableHlo.binary main_v9 main_arg6 main_v10 ((fun l r => Host.dotGeneral dot_S1x3200x2048_S2048x1024_S1x3200x1024_2_0_01_1_n_n none l r) : (⟨S1x3200x2048, .f32⟩ : BufTy).Contents (Elt F) → (⟨S2048x1024, .f32⟩ : BufTy).Contents (Elt F) → (⟨S1x3200x1024, .f32⟩ : BufTy).Contents (Elt F)),
    StableHlo.unary main_arg7 main_v11 (broadcastInDim S1x1x1024 ![2] bcast_S1024_S1x1x1024_2 : (⟨S1024, .f32⟩ : BufTy).Contents (Elt F) → (⟨S1x1x1024, .f32⟩ : BufTy).Contents (Elt F)),
    StableHlo.unary main_v11 main_v12 (broadcastInDim S1x3200x1024 ![0, 1, 2] bcast_S1x1x1024_S1x3200x1024_0_1_2 : (⟨S1x1x1024, .f32⟩ : BufTy).Contents (Elt F) → (⟨S1x3200x1024, .f32⟩ : BufTy).Contents (Elt F)),
    StableHlo.binary main_v10 main_v12 main_v13 (addf : (⟨S1x3200x1024, .f32⟩ : BufTy).Contents (Elt F) → (⟨S1x3200x1024, .f32⟩ : BufTy).Contents (Elt F) → (⟨S1x3200x1024, .f32⟩ : BufTy).Contents (Elt F)),
    StableHlo.reshape main_v13 main_v14 rfl shapeCasts_S1x3200x1024_S1x3200x2x8x64,
    StableHlo.unary main_v14 main_v15 ((transpose S2x1x8x3200x64 [2, 0, 3, 1, 4] · transposes_S1x3200x2x8x64_S2x1x8x3200x64_2_0_3_1_4) : (⟨S1x3200x2x8x64, .f32⟩ : BufTy).Contents (Elt F) → (⟨S2x1x8x3200x64, .f32⟩ : BufTy).Contents (Elt F)),
    StableHlo.unary main_v15 main_v16 ((extractStridedSlice S1x1x8x3200x64 ![0, 0, 0, 0, 0] · slices_S2x1x8x3200x64_S1x1x8x3200x64_0_0_0_0_0) : (⟨S2x1x8x3200x64, .f32⟩ : BufTy).Contents (Elt F) → (⟨S1x1x8x3200x64, .f32⟩ : BufTy).Contents (Elt F)),
    StableHlo.reshape main_v16 main_v17 rfl shapeCasts_S1x1x8x3200x64_S1x8x3200x64,
    StableHlo.unary main_v15 main_v18 ((extractStridedSlice S1x1x8x3200x64 ![1, 0, 0, 0, 0] · slices_S2x1x8x3200x64_S1x1x8x3200x64_1_0_0_0_0) : (⟨S2x1x8x3200x64, .f32⟩ : BufTy).Contents (Elt F) → (⟨S1x1x8x3200x64, .f32⟩ : BufTy).Contents (Elt F)),
    StableHlo.reshape main_v18 main_v19 rfl shapeCasts_S1x1x8x3200x64_S1x8x3200x64,
    StableHlo.reshape main_arg1 main_v20 rfl shapeCasts_S1x3200x512_S1x3200x8x64,
    StableHlo.unary main_v20 main_v21 ((transpose S1x8x3200x64 [0, 2, 1, 3] · transposes_S1x3200x8x64_S1x8x3200x64_0_2_1_3) : (⟨S1x3200x8x64, .f32⟩ : BufTy).Contents (Elt F) → (⟨S1x8x3200x64, .f32⟩ : BufTy).Contents (Elt F)),
    StableHlo.TRef.binary (.of main_v17) (.of main_v17) main_call2.v0 mulf,
    StableHlo.TRef.nullary main_call2.cst (constant S_ .f32 0x00000000#32),
    StableHlo.TRef.binary main_call2.v0 main_call2.cst main_call2.v1 (fun x v => Host.reduceAdd x v reducesTo_S1x8x3200x64_S1x8x3200_d3 h_S_),
    StableHlo.TRef.unary main_call2.v1 main_call2.v2 (broadcastInDim S1x8x3200x1 ![0, 1, 2] bcast_S1x8x3200_S1x8x3200x1_0_1_2),
    StableHlo.TRef.unary main_call2.v2 main_call2.v3 Host.sqrt,
    StableHlo.nullary main_cst (constant S_ .f32 0x322BCC77#32),
    StableHlo.unary main_cst main_v23 (broadcastInDim S1x8x3200x1 ![] bcast_S_S1x8x3200x1 : (⟨S_, .f32⟩ : BufTy).Contents (Elt F) → (⟨S1x8x3200x1, .f32⟩ : BufTy).Contents (Elt F)),
    StableHlo.binary main_v22 main_v23 main_v24 (addf : (⟨S1x8x3200x1, .f32⟩ : BufTy).Contents (Elt F) → (⟨S1x8x3200x1, .f32⟩ : BufTy).Contents (Elt F) → (⟨S1x8x3200x1, .f32⟩ : BufTy).Contents (Elt F)),
    StableHlo.unary main_v24 main_v25 (broadcastInDim S1x8x3200x64 ![0, 1, 2, 3] bcast_S1x8x3200x1_S1x8x3200x64_0_1_2_3 : (⟨S1x8x3200x1, .f32⟩ : BufTy).Contents (Elt F) → (⟨S1x8x3200x64, .f32⟩ : BufTy).Contents (Elt F)),
    StableHlo.binary main_v17 main_v25 main_v26 (Host.divf : (⟨S1x8x3200x64, .f32⟩ : BufTy).Contents (Elt F) → (⟨S1x8x3200x64, .f32⟩ : BufTy).Contents (Elt F) → (⟨S1x8x3200x64, .f32⟩ : BufTy).Contents (Elt F)),
    StableHlo.TRef.binary (.of main_v19) (.of main_v19) main_call3.v0 mulf,
    StableHlo.TRef.nullary main_call3.cst (constant S_ .f32 0x00000000#32),
    StableHlo.TRef.binary main_call3.v0 main_call3.cst main_call3.v1 (fun x v => Host.reduceAdd x v reducesTo_S1x8x3200x64_S1x8x3200_d3 h_S_),
    StableHlo.TRef.unary main_call3.v1 main_call3.v2 (broadcastInDim S1x8x3200x1 ![0, 1, 2] bcast_S1x8x3200_S1x8x3200x1_0_1_2),
    StableHlo.TRef.unary main_call3.v2 main_call3.v3 Host.sqrt,
    StableHlo.nullary main_cst_0 (constant S_ .f32 0x322BCC77#32),
    StableHlo.unary main_cst_0 main_v28 (broadcastInDim S1x8x3200x1 ![] bcast_S_S1x8x3200x1 : (⟨S_, .f32⟩ : BufTy).Contents (Elt F) → (⟨S1x8x3200x1, .f32⟩ : BufTy).Contents (Elt F)),
    StableHlo.binary main_v27 main_v28 main_v29 (addf : (⟨S1x8x3200x1, .f32⟩ : BufTy).Contents (Elt F) → (⟨S1x8x3200x1, .f32⟩ : BufTy).Contents (Elt F) → (⟨S1x8x3200x1, .f32⟩ : BufTy).Contents (Elt F)),
    StableHlo.unary main_v29 main_v30 (broadcastInDim S1x8x3200x64 ![0, 1, 2, 3] bcast_S1x8x3200x1_S1x8x3200x64_0_1_2_3 : (⟨S1x8x3200x1, .f32⟩ : BufTy).Contents (Elt F) → (⟨S1x8x3200x64, .f32⟩ : BufTy).Contents (Elt F)),
    StableHlo.binary main_v19 main_v30 main_v31 (Host.divf : (⟨S1x8x3200x64, .f32⟩ : BufTy).Contents (Elt F) → (⟨S1x8x3200x64, .f32⟩ : BufTy).Contents (Elt F) → (⟨S1x8x3200x64, .f32⟩ : BufTy).Contents (Elt F)),
    StableHlo.TRef.binary (.of main_v21) (.of main_v21) main_call4.v0 mulf,
    StableHlo.TRef.nullary main_call4.cst (constant S_ .f32 0x00000000#32),
    StableHlo.TRef.binary main_call4.v0 main_call4.cst main_call4.v1 (fun x v => Host.reduceAdd x v reducesTo_S1x8x3200x64_S1x8x3200_d3 h_S_),
    StableHlo.TRef.unary main_call4.v1 main_call4.v2 (broadcastInDim S1x8x3200x1 ![0, 1, 2] bcast_S1x8x3200_S1x8x3200x1_0_1_2),
    StableHlo.TRef.unary main_call4.v2 main_call4.v3 Host.sqrt,
    StableHlo.nullary main_cst_1 (constant S_ .f32 0x322BCC77#32),
    StableHlo.unary main_cst_1 main_v33 (broadcastInDim S1x8x3200x1 ![] bcast_S_S1x8x3200x1 : (⟨S_, .f32⟩ : BufTy).Contents (Elt F) → (⟨S1x8x3200x1, .f32⟩ : BufTy).Contents (Elt F)),
    StableHlo.binary main_v32 main_v33 main_v34 (addf : (⟨S1x8x3200x1, .f32⟩ : BufTy).Contents (Elt F) → (⟨S1x8x3200x1, .f32⟩ : BufTy).Contents (Elt F) → (⟨S1x8x3200x1, .f32⟩ : BufTy).Contents (Elt F)),
    StableHlo.unary main_v34 main_v35 (broadcastInDim S1x8x3200x64 ![0, 1, 2, 3] bcast_S1x8x3200x1_S1x8x3200x64_0_1_2_3 : (⟨S1x8x3200x1, .f32⟩ : BufTy).Contents (Elt F) → (⟨S1x8x3200x64, .f32⟩ : BufTy).Contents (Elt F)),
    StableHlo.binary main_v21 main_v35 main_v36 (Host.divf : (⟨S1x8x3200x64, .f32⟩ : BufTy).Contents (Elt F) → (⟨S1x8x3200x64, .f32⟩ : BufTy).Contents (Elt F) → (⟨S1x8x3200x64, .f32⟩ : BufTy).Contents (Elt F)),
    StableHlo.binary main_v36 main_v36 main_v37 ((fun l r => Host.dotGeneral dot_S1x8x3200x64_S1x8x3200x64_S1x8x3200x3200_3_3_2_2_01_01 none l r) : (⟨S1x8x3200x64, .f32⟩ : BufTy).Contents (Elt F) → (⟨S1x8x3200x64, .f32⟩ : BufTy).Contents (Elt F) → (⟨S1x8x3200x3200, .f32⟩ : BufTy).Contents (Elt F)),
    StableHlo.binary main_v26 main_v31 main_v38 ((fun l r => Host.dotGeneral dot_S1x8x3200x64_S1x8x3200x64_S1x8x3200x3200_3_3_2_2_01_01 none l r) : (⟨S1x8x3200x64, .f32⟩ : BufTy).Contents (Elt F) → (⟨S1x8x3200x64, .f32⟩ : BufTy).Contents (Elt F) → (⟨S1x8x3200x3200, .f32⟩ : BufTy).Contents (Elt F)),
    StableHlo.nullary main_cst_2 (constant S_ .f32 0x41C80000#32),
    StableHlo.unary main_cst_2 main_v39 (broadcastInDim S1x8x3200x3200 ![] bcast_S_S1x8x3200x3200 : (⟨S_, .f32⟩ : BufTy).Contents (Elt F) → (⟨S1x8x3200x3200, .f32⟩ : BufTy).Contents (Elt F)),
    StableHlo.binary main_v38 main_v39 main_v40 (mulf : (⟨S1x8x3200x3200, .f32⟩ : BufTy).Contents (Elt F) → (⟨S1x8x3200x3200, .f32⟩ : BufTy).Contents (Elt F) → (⟨S1x8x3200x3200, .f32⟩ : BufTy).Contents (Elt F)),
    StableHlo.nullary main_cst_3 (constant S_ .f32 0xFF800000#32),
    StableHlo.binary main_v40 main_cst_3 main_v41 ((fun x v => Host.reduce FloatOps.maximumf x v reducesTo_S1x8x3200x3200_S1x8x3200_d3 h_S_) : (⟨S1x8x3200x3200, .f32⟩ : BufTy).Contents (Elt F) → (⟨S_, .f32⟩ : BufTy).Contents (Elt F) → (⟨S1x8x3200, .f32⟩ : BufTy).Contents (Elt F)),
    StableHlo.nullary main_cst_4 (constant S_ .f32 0xFF800000#32),
    StableHlo.unary main_cst_4 main_v42 (broadcastInDim S1x8x3200 ![] bcast_S_S1x8x3200 : (⟨S_, .f32⟩ : BufTy).Contents (Elt F) → (⟨S1x8x3200, .f32⟩ : BufTy).Contents (Elt F)),
    StableHlo.binary main_v42 main_v41 main_v43 (maximumf : (⟨S1x8x3200, .f32⟩ : BufTy).Contents (Elt F) → (⟨S1x8x3200, .f32⟩ : BufTy).Contents (Elt F) → (⟨S1x8x3200, .f32⟩ : BufTy).Contents (Elt F)),
    StableHlo.unary main_v43 main_v44 (broadcastInDim S1x8x3200x1 ![0, 1, 2] bcast_S1x8x3200_S1x8x3200x1_0_1_2 : (⟨S1x8x3200, .f32⟩ : BufTy).Contents (Elt F) → (⟨S1x8x3200x1, .f32⟩ : BufTy).Contents (Elt F)),
    StableHlo.unary main_v44 main_v45 (broadcastInDim S1x8x3200x3200 ![0, 1, 2, 3] bcast_S1x8x3200x1_S1x8x3200x3200_0_1_2_3 : (⟨S1x8x3200x1, .f32⟩ : BufTy).Contents (Elt F) → (⟨S1x8x3200x3200, .f32⟩ : BufTy).Contents (Elt F)),
    StableHlo.binary main_v40 main_v45 main_v46 (subf : (⟨S1x8x3200x3200, .f32⟩ : BufTy).Contents (Elt F) → (⟨S1x8x3200x3200, .f32⟩ : BufTy).Contents (Elt F) → (⟨S1x8x3200x3200, .f32⟩ : BufTy).Contents (Elt F)),
    StableHlo.unary main_v46 main_v47 (Host.exp : (⟨S1x8x3200x3200, .f32⟩ : BufTy).Contents (Elt F) → (⟨S1x8x3200x3200, .f32⟩ : BufTy).Contents (Elt F)),
    StableHlo.nullary main_cst_5 (constant S_ .f32 0x00000000#32),
    StableHlo.binary main_v47 main_cst_5 main_v48 ((fun x v => Host.reduceAdd x v reducesTo_S1x8x3200x3200_S1x8x3200_d3 h_S_) : (⟨S1x8x3200x3200, .f32⟩ : BufTy).Contents (Elt F) → (⟨S_, .f32⟩ : BufTy).Contents (Elt F) → (⟨S1x8x3200, .f32⟩ : BufTy).Contents (Elt F)),
    StableHlo.unary main_v48 main_v49 (broadcastInDim S1x8x3200x1 ![0, 1, 2] bcast_S1x8x3200_S1x8x3200x1_0_1_2 : (⟨S1x8x3200, .f32⟩ : BufTy).Contents (Elt F) → (⟨S1x8x3200x1, .f32⟩ : BufTy).Contents (Elt F)),
    StableHlo.unary main_v49 main_v50 (broadcastInDim S1x8x3200x3200 ![0, 1, 2, 3] bcast_S1x8x3200x1_S1x8x3200x3200_0_1_2_3 : (⟨S1x8x3200x1, .f32⟩ : BufTy).Contents (Elt F) → (⟨S1x8x3200x3200, .f32⟩ : BufTy).Contents (Elt F)),
    StableHlo.binary main_v47 main_v50 main_v51 (Host.divf : (⟨S1x8x3200x3200, .f32⟩ : BufTy).Contents (Elt F) → (⟨S1x8x3200x3200, .f32⟩ : BufTy).Contents (Elt F) → (⟨S1x8x3200x3200, .f32⟩ : BufTy).Contents (Elt F)),
    StableHlo.nullary main_v52 (iotaInDim S3200 32 0) ]

set_option maxRecDepth 8192 in
/-- The window is that straight line: the called functions unfold at their calls and the call records at their fields,
    after which both sides are the same chain of host steps. -/
theorem main_part0_eq (c : Dev nD) : main_part0 (F := F) c = seq ops0 := rfl

set_option maxRecDepth 8192 in
/-- Every operation of the window touches TensorCore buffers only. -/
theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    reshape_bufs_sub .., unary_bufs_sub .., unary_bufs_sub .., reshape_bufs_sub .., unary_bufs_sub .., reshape_bufs_sub ..,
    reshape_bufs_sub .., unary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., binary_bufs_sub .., nullary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., nullary_bufs_sub ..⟩

set_option maxRecDepth 8192 in
/-- No operation of the window allocates: each determines the buffers it writes. -/
theorem ops0_fresh : ∀ op ∈ (ops0 : List (HloOp τ sig (Elt F))), op.fresh = ∅ := by
  intro _ h; (repeat (cases h with | head => rfl | tail _ h => ?_)); exact nomatch h

/-- The buffers the window's operations write, in order. -/
abbrev ops0_W : List (Ref sig .tc) :=
  [main_v0, main_v1, main_v2, main_v3, main_call0_cst, main_call0_v0, main_v4, main_v5,
    main_v6, main_v7, main_v8, main_call1_cst, main_call1_v0, main_v9, main_v10, main_v11,
    main_v12, main_v13, main_v14, main_v15, main_v16, main_v17, main_v18, main_v19,
    main_v20, main_v21, main_call2_v0, main_call2_cst, main_call2_v1, main_call2_v2, main_v22, main_cst,
    main_v23, main_v24, main_v25, main_v26, main_call3_v0, main_call3_cst, main_call3_v1, main_call3_v2,
    main_v27, main_cst_0, main_v28, main_v29, main_v30, main_v31, main_call4_v0, main_call4_cst,
    main_call4_v1, main_call4_v2, main_v32, main_cst_1, main_v33, main_v34, main_v35, main_v36,
    main_v37, main_v38, main_cst_2, main_v39, main_v40, main_cst_3, main_v41, main_cst_4,
    main_v42, main_v43, main_v44, main_v45, main_v46, main_v47, main_cst_5, main_v48,
    main_v49, main_v50, main_v51, main_v52]

set_option maxRecDepth 8192 in
/-- Each operation of the window writes a buffer of that list. -/
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.ReferenceIdeal.HandRun

end
-- ==== Proof.RefRunOps1.lean ====
/- The operations of window 1 of the entry function, in order, as a list; that the window is the list run in order;
   that every operation touches TensorCore buffers only, allocates nothing, and writes a buffer of the listed ones. -/
import proofs.«174083_j4664334483724_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that computes main_v86, named: it packs its operands into a list of pairs of a shape and an
    array of that shape, where no rewriting reaches them; applied by name they are plain arguments. -/
def fn_main_v86 : (⟨S1x3200x512, .f32⟩ : BufTy).Contents (Elt F) → (⟨S1x3200x512, .f32⟩ : BufTy).Contents (Elt F) → (⟨S1x3200x1024, .f32⟩ : BufTy).Contents (Elt F) :=
  fun a b => concatenate S1x3200x1024 2 [⟨S1x3200x512, a⟩, ⟨S1x3200x512, b⟩] concatenates_S1x3200x512_S1x3200x512_S1x3200x1024_d2

/-- The second window (statements 61 … 120) as a list; the floor division it calls, and the selection that calls in turn,
    are written out at the call site over that call's buffers. -/
abbrev ops1 : List (HloOp τ sig (Elt F)) :=
  [ StableHlo.nullary main_v53 (iotaInDim S3200 32 0),
    StableHlo.nullary main_c (constantI S_ 32 10#32),
    StableHlo.TRef.unary (.of main_c) main_call5.v0 id,
    StableHlo.TRef.unary main_call5.v0 main_call5.v1 (broadcastInDim S3200 ![] bcast_S_S3200),
    StableHlo.TRef.binary (.of main_v52) main_call5.v1 main_call5.v2 Host.divsi,
    StableHlo.TRef.unary (.of main_v52) main_call5.v3 signi,
    StableHlo.TRef.unary main_call5.v0 main_call5.v4 signi,
    StableHlo.TRef.unary main_call5.v4 main_call5.v5 (broadcastInDim S3200 ![] bcast_S_S3200),
    StableHlo.TRef.binary main_call5.v3 main_call5.v5 main_call5.v6 (cmpi .ne),
    StableHlo.TRef.unary main_call5.v0 main_call5.v7 (broadcastInDim S3200 ![] bcast_S_S3200),
    StableHlo.TRef.binary (.of main_v52) main_call5.v7 main_call5.v8 Host.remsi,
    StableHlo.TRef.nullary main_call5.c (constantI S_ 32 0#32),
    StableHlo.TRef.unary main_call5.c main_call5.v9 (broadcastInDim S3200 ![] bcast_S_S3200),
    StableHlo.TRef.binary main_call5.v8 main_call5.v9 main_call5.v10 (cmpi .ne),
    StableHlo.TRef.binary main_call5.v6 main_call5.v10 main_call5.v11 andi,
    StableHlo.TRef.nullary main_call5.c_0 (constantI S_ 32 1#32),
    StableHlo.TRef.unary main_call5.c_0 main_call5.v12 (broadcastInDim S3200 ![] bcast_S_S3200),
    StableHlo.TRef.binary main_call5.v2 main_call5.v12 main_call5.v13 subi,
    StableHlo.TRef.ternary main_call5.v11 main_call5.v13 main_call5.v2 main_call5.call0.v0 select,
    StableHlo.nullary main_c_6 (constantI S_ 32 10#32),
    StableHlo.unary main_c_6 main_v55 (broadcastInDim S3200 ![] bcast_S_S3200 : (⟨S_, .i32⟩ : BufTy).Contents (Elt F) → (⟨S3200, .i32⟩ : BufTy).Contents (Elt F)),
    StableHlo.binary main_v54 main_v55 main_v56 (muli : (⟨S3200, .i32⟩ : BufTy).Contents (Elt F) → (⟨S3200, .i32⟩ : BufTy).Contents (Elt F) → (⟨S3200, .i32⟩ : BufTy).Contents (Elt F)),
    StableHlo.unary main_v53 main_v57 (broadcastInDim S1x3200 ![1] bcast_S3200_S1x3200_1 : (⟨S3200, .i32⟩ : BufTy).Contents (Elt F) → (⟨S1x3200, .i32⟩ : BufTy).Contents (Elt F)),
    StableHlo.unary main_v56 main_v58 (broadcastInDim S3200x1 ![0] bcast_S3200_S3200x1_0 : (⟨S3200, .i32⟩ : BufTy).Contents (Elt F) → (⟨S3200x1, .i32⟩ : BufTy).Contents (Elt F)),
    StableHlo.unary main_v57 main_v59 (broadcastInDim S3200x3200 ![0, 1] bcast_S1x3200_S3200x3200_0_1 : (⟨S1x3200, .i32⟩ : BufTy).Contents (Elt F) → (⟨S3200x3200, .i32⟩ : BufTy).Contents (Elt F)),
    StableHlo.unary main_v58 main_v60 (broadcastInDim S3200x3200 ![0, 1] bcast_S3200x1_S3200x3200_0_1 : (⟨S3200x1, .i32⟩ : BufTy).Contents (Elt F) → (⟨S3200x3200, .i32⟩ : BufTy).Contents (Elt F)),
    StableHlo.binary main_v59 main_v60 main_v61 (cmpi .sge : (⟨S3200x3200, .i32⟩ : BufTy).Contents (Elt F) → (⟨S3200x3200, .i32⟩ : BufTy).Contents (Elt F) → (⟨S3200x3200, .i1⟩ : BufTy).Contents (Elt F)),
    StableHlo.unary main_v53 main_v62 (broadcastInDim S1x3200 ![1] bcast_S3200_S1x3200_1 : (⟨S3200, .i32⟩ : BufTy).Contents (Elt F) → (⟨S1x3200, .i32⟩ : BufTy).Contents (Elt F)),
    StableHlo.unary main_v56 main_v63 (broadcastInDim S3200x1 ![0] bcast_S3200_S3200x1_0 : (⟨S3200, .i32⟩ : BufTy).Contents (Elt F) → (⟨S3200x1, .i32⟩ : BufTy).Contents (Elt F)),
    StableHlo.nullary main_c_7 (constantI S_ 32 9#32),
    StableHlo.unary main_c_7 main_v64 (broadcastInDim S3200x1 ![] bcast_S_S3200x1 : (⟨S_, .i32⟩ : BufTy).Contents (Elt F) → (⟨S3200x1, .i32⟩ : BufTy).Contents (Elt F)),
    StableHlo.binary main_v63 main_v64 main_v65 (addi : (⟨S3200x1, .i32⟩ : BufTy).Contents (Elt F) → (⟨S3200x1, .i32⟩ : BufTy).Contents (Elt F) → (⟨S3200x1, .i32⟩ : BufTy).Contents (Elt F)),
    StableHlo.unary main_v62 main_v66 (broadcastInDim S3200x3200 ![0, 1] bcast_S1x3200_S3200x3200_0_1 : (⟨S1x3200, .i32⟩ : BufTy).Contents (Elt F) → (⟨S3200x3200, .i32⟩ : BufTy).Contents (Elt F)),
    StableHlo.unary main_v65 main_v67 (broadcastInDim S3200x3200 ![0, 1] bcast_S3200x1_S3200x3200_0_1 : (⟨S3200x1, .i32⟩ : BufTy).Contents (Elt F) → (⟨S3200x3200, .i32⟩ : BufTy).Contents (Elt F)),
    StableHlo.binary main_v66 main_v67 main_v68 (cmpi .slt : (⟨S3200x3200, .i32⟩ : BufTy).Contents (Elt F) → (⟨S3200x3200, .i32⟩ : BufTy).Contents (Elt F) → (⟨S3200x3200, .i1⟩ : BufTy).Contents (Elt F)),
    StableHlo.binary main_v61 main_v68 main_v69 (andi : (⟨S3200x3200, .i1⟩ : BufTy).Contents (Elt F) → (⟨S3200x3200, .i1⟩ : BufTy).Contents (Elt F) → (⟨S3200x3200, .i1⟩ : BufTy).Contents (Elt F)),
    StableHlo.unary main_v69 main_v70 (noti : (⟨S3200x3200, .i1⟩ : BufTy).Contents (Elt F) → (⟨S3200x3200, .i1⟩ : BufTy).Contents (Elt F)),
    StableHlo.unary main_v53 main_v71 (broadcastInDim S1x3200 ![1] bcast_S3200_S1x3200_1 : (⟨S3200, .i32⟩ : BufTy).Contents (Elt F) → (⟨S1x3200, .i32⟩ : BufTy).Contents (Elt F)),
    StableHlo.unary main_v52 main_v72 (broadcastInDim S3200x1 ![0] bcast_S3200_S3200x1_0 : (⟨S3200, .i32⟩ : BufTy).Contents (Elt F) → (⟨S3200x1, .i32⟩ : BufTy).Contents (Elt F)),
    StableHlo.unary main_v71 main_v73 (broadcastInDim S3200x3200 ![0, 1] bcast_S1x3200_S3200x3200_0_1 : (⟨S1x3200, .i32⟩ : BufTy).Contents (Elt F) → (⟨S3200x3200, .i32⟩ : BufTy).Contents (Elt F)),
    StableHlo.unary main_v72 main_v74 (broadcastInDim S3200x3200 ![0, 1] bcast_S3200x1_S3200x3200_0_1 : (⟨S3200x1, .i32⟩ : BufTy).Contents (Elt F) → (⟨S3200x3200, .i32⟩ : BufTy).Contents (Elt F)),
    StableHlo.binary main_v73 main_v74 main_v75 (cmpi .eq : (⟨S3200x3200, .i32⟩ : BufTy).Contents (Elt F) → (⟨S3200x3200, .i32⟩ : BufTy).Contents (Elt F) → (⟨S3200x3200, .i1⟩ : BufTy).Contents (Elt F)),
    StableHlo.binary main_v70 main_v75 main_v76 (ori : (⟨S3200x3200, .i1⟩ : BufTy).Contents (Elt F) → (⟨S3200x3200, .i1⟩ : BufTy).Contents (Elt F) → (⟨S3200x3200, .i1⟩ : BufTy).Contents (Elt F)),
    StableHlo.unary main_v76 main_v77 (uitofp .f32 : (⟨S3200x3200, .i1⟩ : BufTy).Contents (Elt F) → (⟨S3200x3200, .f32⟩ : BufTy).Contents (Elt F)),
    StableHlo.unary main_v77 main_v78 (broadcastInDim S1x1x3200x3200 ![2, 3] bcast_S3200x3200_S1x1x3200x3200_2_3 : (⟨S3200x3200, .f32⟩ : BufTy).Contents (Elt F) → (⟨S1x1x3200x3200, .f32⟩ : BufTy).Contents (Elt F)),
    StableHlo.unary main_v78 main_v79 (broadcastInDim S1x8x3200x3200 ![0, 1, 2, 3] bcast_S1x1x3200x3200_S1x8x3200x3200_0_1_2_3 : (⟨S1x1x3200x3200, .f32⟩ : BufTy).Contents (Elt F) → (⟨S1x8x3200x3200, .f32⟩ : BufTy).Contents (Elt F)),
    StableHlo.binary main_v37 main_v79 main_v80 (mulf : (⟨S1x8x3200x3200, .f32⟩ : BufTy).Contents (Elt F) → (⟨S1x8x3200x3200, .f32⟩ : BufTy).Contents (Elt F) → (⟨S1x8x3200x3200, .f32⟩ : BufTy).Contents (Elt F)),
    StableHlo.binary main_v80 main_v21 main_v81 ((fun l r => Host.dotGeneral dot_S1x8x3200x3200_S1x8x3200x64_S1x8x3200x64_3_2_2_3_01_01 none l r) : (⟨S1x8x3200x3200, .f32⟩ : BufTy).Contents (Elt F) → (⟨S1x8x3200x64, .f32⟩ : BufTy).Contents (Elt F) → (⟨S1x8x3200x64, .f32⟩ : BufTy).Contents (Elt F)),
    StableHlo.unary main_v81 main_v82 ((transpose S1x3200x8x64 [0, 2, 1, 3] · transposes_S1x8x3200x64_S1x3200x8x64_0_2_1_3) : (⟨S1x8x3200x64, .f32⟩ : BufTy).Contents (Elt F) → (⟨S1x3200x8x64, .f32⟩ : BufTy).Contents (Elt F)),
    StableHlo.reshape main_v82 main_v83 rfl shapeCasts_S1x3200x8x64_S1x3200x512,
    StableHlo.unary main_v21 main_v84 ((transpose S1x3200x8x64 [0, 2, 1, 3] · transposes_S1x8x3200x64_S1x3200x8x64_0_2_1_3) : (⟨S1x8x3200x64, .f32⟩ : BufTy).Contents (Elt F) → (⟨S1x3200x8x64, .f32⟩ : BufTy).Contents (Elt F)),
    StableHlo.reshape main_v84 main_v85 rfl shapeCasts_S1x3200x8x64_S1x3200x512,
    StableHlo.binary main_v83 main_v85 main_v86 (fn_main_v86 (F := F)),
    StableHlo.nullary main_cst_8 (constant S_ .f32 0x00000000#32),
    StableHlo.binary main_v37 main_cst_8 main_v87 ((fun x v => Host.reduceAdd x v reducesTo_S1x8x3200x3200_S1x3200x3200_d1 h_S_) : (⟨S1x8x3200x3200, .f32⟩ : BufTy).Contents (Elt F) → (⟨S_, .f32⟩ : BufTy).Contents (Elt F) → (⟨S1x3200x3200, .f32⟩ : BufTy).Contents (Elt F)),
    StableHlo.reshape main_v87 main_v88 rfl shapeCasts_S1x3200x3200_S3200x3200,
    StableHlo.nullary main_cst_9 (constant S_ .f32 0x41000000#32),
    StableHlo.unary main_cst_9 main_v89 (broadcastInDim S3200x3200 ![] bcast_S_S3200x3200 : (⟨S_, .f32⟩ : BufTy).Contents (Elt F) → (⟨S3200x3200, .f32⟩ : BufTy).Contents (Elt F)),
    StableHlo.binary main_v88 main_v89 main_v90 (Host.divf : (⟨S3200x3200, .f32⟩ : BufTy).Contents (Elt F) → (⟨S3200x3200, .f32⟩ : BufTy).Contents (Elt F) → (⟨S3200x3200, .f32⟩ : BufTy).Contents (Elt F)),
    StableHlo.nullary main_cst_10 (constant S_ .f32 0x3F400000#32),
    StableHlo.unary main_cst_10 main_v91 (broadcastInDim S3200x3200 ![] bcast_S_S3200x3200 : (⟨S_, .f32⟩ : BufTy).Contents (Elt F) → (⟨S3200x3200, .f32⟩ : BufTy).Contents (Elt F)),
    StableHlo.binary main_v90 main_v91 main_v92 (cmpf .ogt : (⟨S3200x3200, .f32⟩ : BufTy).Contents (Elt F) → (⟨S3200x3200, .f32⟩ : BufTy).Contents (Elt F) → (⟨S3200x3200, .i1⟩ : BufTy).Contents (Elt F)),
    StableHlo.unary main_v92 main_v93 (uitofp .f32 : (⟨S3200x3200, .i1⟩ : BufTy).Contents (Elt F) → (⟨S3200x3200, .f32⟩ : BufTy).Contents (Elt F)),
    StableHlo.nullary main_cst_11 (constant S_ .f32 0x00000000#32),
    StableHlo.binary main_v80 main_cst_11 main_v94 ((fun x v => Host.reduceAdd x v reducesTo_S1x8x3200x3200_S1x3200x3200_d1 h_S_) : (⟨S1x8x3200x3200, .f32⟩ : BufTy).Contents (Elt F) → (⟨S_, .f32⟩ : BufTy).Contents (Elt F) → (⟨S1x3200x3200, .f32⟩ : BufTy).Contents (Elt F)),
    StableHlo.reshape main_v94 main_v95 rfl shapeCasts_S1x3200x3200_S3200x3200,
    StableHlo.nullary main_cst_12 (constant S_ .f32 0x41000000#32),
    StableHlo.unary main_cst_12 main_v96 (broadcastInDim S3200x3200 ![] bcast_S_S3200x3200 : (⟨S_, .f32⟩ : BufTy).Contents (Elt F) → (⟨S3200x3200, .f32⟩ : BufTy).Contents (Elt F)),
    StableHlo.binary main_v95 main_v96 main_v97 (Host.divf : (⟨S3200x3200, .f32⟩ : BufTy).Contents (Elt F) → (⟨S3200x3200, .f32⟩ : BufTy).Contents (Elt F) → (⟨S3200x3200, .f32⟩ : BufTy).Contents (Elt F)),
    StableHlo.nullary main_cst_13 (constant S_ .f32 0xFF800000#32),
    StableHlo.binary main_v97 main_cst_13 main_v98 ((fun x v => Host.reduce FloatOps.maximumf x v reducesTo_S3200x3200_S3200_d1 h_S_) : (⟨S3200x3200, .f32⟩ : BufTy).Contents (Elt F) → (⟨S_, .f32⟩ : BufTy).Contents (Elt F) → (⟨S3200, .f32⟩ : BufTy).Contents (Elt F)),
    StableHlo.nullary main_cst_14 (constant S_ .f32 0xFF800000#32),
    StableHlo.unary main_cst_14 main_v99 (broadcastInDim S3200 ![] bcast_S_S3200 : (⟨S_, .f32⟩ : BufTy).Contents (Elt F) → (⟨S3200, .f32⟩ : BufTy).Contents (Elt F)),
    StableHlo.binary main_v99 main_v98 main_v100 (maximumf : (⟨S3200, .f32⟩ : BufTy).Contents (Elt F) → (⟨S3200, .f32⟩ : BufTy).Contents (Elt F) → (⟨S3200, .f32⟩ : BufTy).Contents (Elt F)),
    StableHlo.unary main_v100 main_v101 (broadcastInDim S3200x1 ![0] bcast_S3200_S3200x1_0 : (⟨S3200, .f32⟩ : BufTy).Contents (Elt F) → (⟨S3200x1, .f32⟩ : BufTy).Contents (Elt F)),
    StableHlo.unary main_v101 main_v102 (broadcastInDim S3200x3200 ![0, 1] bcast_S3200x1_S3200x3200_0_1 : (⟨S3200x1, .f32⟩ : BufTy).Contents (Elt F) → (⟨S3200x3200, .f32⟩ : BufTy).Contents (Elt F)) ]

set_option maxRecDepth 8192 in
/-- The window is that straight line: the called functions unfold at their calls and the call records at their fields,
    after which both sides are the same chain of host steps. -/
theorem main_part1_eq (c : Dev nD) : main_part1 (F := F) c = seq ops1 := rfl

set_option maxRecDepth 8192 in
/-- Every operation of the window touches TensorCore buffers only. -/
theorem ops1_sub : (ops1 : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., binary_bufs_sub .., unary_bufs_sub .., unary_bufs_sub ..,
    unary_bufs_sub .., unary_bufs_sub .., binary_bufs_sub .., unary_bufs_sub .., unary_bufs_sub .., nullary_bufs_sub ..,
    unary_bufs_sub .., binary_bufs_sub .., unary_bufs_sub .., unary_bufs_sub .., binary_bufs_sub .., binary_bufs_sub ..,
    unary_bufs_sub .., unary_bufs_sub .., unary_bufs_sub .., unary_bufs_sub .., unary_bufs_sub .., binary_bufs_sub ..,
    binary_bufs_sub .., unary_bufs_sub .., unary_bufs_sub .., unary_bufs_sub .., binary_bufs_sub .., binary_bufs_sub ..,
    unary_bufs_sub .., reshape_bufs_sub .., unary_bufs_sub .., reshape_bufs_sub .., binary_bufs_sub .., nullary_bufs_sub ..,
    binary_bufs_sub .., reshape_bufs_sub .., nullary_bufs_sub .., unary_bufs_sub .., binary_bufs_sub .., nullary_bufs_sub ..,
    unary_bufs_sub .., binary_bufs_sub .., unary_bufs_sub .., nullary_bufs_sub .., binary_bufs_sub .., reshape_bufs_sub ..,
    nullary_bufs_sub .., unary_bufs_sub .., binary_bufs_sub .., nullary_bufs_sub .., binary_bufs_sub .., nullary_bufs_sub ..,
    unary_bufs_sub .., binary_bufs_sub .., unary_bufs_sub .., unary_bufs_sub ..⟩

set_option maxRecDepth 8192 in
/-- No operation of the window allocates: each determines the buffers it writes. -/
theorem ops1_fresh : ∀ op ∈ (ops1 : List (HloOp τ sig (Elt F))), op.fresh = ∅ := by
  intro _ h; (repeat (cases h with | head => rfl | tail _ h => ?_)); exact nomatch h

/-- The buffers the window's operations write, in order. -/
abbrev ops1_W : List (Ref sig .tc) :=
  [main_v53, main_c, main_call5_v0, main_call5_v1, main_call5_v2, main_call5_v3, main_call5_v4, main_call5_v5,
    main_call5_v6, main_call5_v7, main_call5_v8, main_call5_c, main_call5_v9, main_call5_v10, main_call5_v11, main_call5_c_0,
    main_call5_v12, main_call5_v13, main_v54, main_c_6, main_v55, main_v56, main_v57, main_v58,
    main_v59, main_v60, main_v61, main_v62, main_v63, main_c_7, main_v64, main_v65,
    main_v66, main_v67, main_v68, main_v69, main_v70, main_v71, main_v72, main_v73,
    main_v74, main_v75, main_v76, main_v77, main_v78, main_v79, main_v80, main_v81,
    main_v82, main_v83, main_v84, main_v85, main_v86, main_cst_8, main_v87, main_v88,
    main_cst_9, main_v89, main_v90, main_cst_10, main_v91, main_v92, main_v93, main_cst_11,
    main_v94, main_v95, main_cst_12, main_v96, main_v97, main_cst_13, main_v98, main_cst_14,
    main_v99, main_v100, main_v101, main_v102]

set_option maxRecDepth 8192 in
/-- Each operation of the window writes a buffer of that list. -/
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.HandRun

end
-- ==== Proof.RefRunOps2.lean ====
/- The operations of window 2 of the entry function, in order, as a list; that the window is the list run in order;
   that every operation touches TensorCore buffers only, allocates nothing, and writes a buffer of the listed ones. -/
import proofs.«174083_j4664334483724_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The third window (statements 121 … 137) as a list; the entry function's return is no operation. -/
abbrev ops2 : List (HloOp τ sig (Elt F)) :=
  [ StableHlo.binary main_v97 main_v102 main_v103 (subf : (⟨S3200x3200, .f32⟩ : BufTy).Contents (Elt F) → (⟨S3200x3200, .f32⟩ : BufTy).Contents (Elt F) → (⟨S3200x3200, .f32⟩ : BufTy).Contents (Elt F)),
    StableHlo.unary main_v103 main_v104 (Host.exp : (⟨S3200x3200, .f32⟩ : BufTy).Contents (Elt F) → (⟨S3200x3200, .f32⟩ : BufTy).Contents (Elt F)),
    StableHlo.nullary main_cst_15 (constant S_ .f32 0x00000000#32),
    StableHlo.binary main_v104 main_cst_15 main_v105 ((fun x v => Host.reduceAdd x v reducesTo_S3200x3200_S3200_d1 h_S_) : (⟨S3200x3200, .f32⟩ : BufTy).Contents (Elt F) → (⟨S_, .f32⟩ : BufTy).Contents (Elt F) → (⟨S3200, .f32⟩ : BufTy).Contents (Elt F)),
    StableHlo.unary main_v105 main_v106 (broadcastInDim S3200x1 ![0] bcast_S3200_S3200x1_0 : (⟨S3200, .f32⟩ : BufTy).Contents (Elt F) → (⟨S3200x1, .f32⟩ : BufTy).Contents (Elt F)),
    StableHlo.unary main_v106 main_v107 (broadcastInDim S3200x3200 ![0, 1] bcast_S3200x1_S3200x3200_0_1 : (⟨S3200x1, .f32⟩ : BufTy).Contents (Elt F) → (⟨S3200x3200, .f32⟩ : BufTy).Contents (Elt F)),
    StableHlo.binary main_v104 main_v107 main_v108 (Host.divf : (⟨S3200x3200, .f32⟩ : BufTy).Contents (Elt F) → (⟨S3200x3200, .f32⟩ : BufTy).Contents (Elt F) → (⟨S3200x3200, .f32⟩ : BufTy).Contents (Elt F)),
    StableHlo.binary main_v93 main_v108 main_v109 (mulf : (⟨S3200x3200, .f32⟩ : BufTy).Contents (Elt F) → (⟨S3200x3200, .f32⟩ : BufTy).Contents (Elt F) → (⟨S3200x3200, .f32⟩ : BufTy).Contents (Elt F)),
    StableHlo.binary main_v93 main_v108 main_v110 (mulf : (⟨S3200x3200, .f32⟩ : BufTy).Contents (Elt F) → (⟨S3200x3200, .f32⟩ : BufTy).Contents (Elt F) → (⟨S3200x3200, .f32⟩ : BufTy).Contents (Elt F)),
    StableHlo.nullary main_cst_16 (constant S_ .f32 0x00000000#32),
    StableHlo.binary main_v110 main_cst_16 main_v111 ((fun x v => Host.reduceAdd x v reducesTo_S3200x3200_S3200_d1 h_S_) : (⟨S3200x3200, .f32⟩ : BufTy).Contents (Elt F) → (⟨S_, .f32⟩ : BufTy).Contents (Elt F) → (⟨S3200, .f32⟩ : BufTy).Contents (Elt F)),
    StableHlo.unary main_v111 main_v112 (broadcastInDim S3200x1 ![0] bcast_S3200_S3200x1_0 : (⟨S3200, .f32⟩ : BufTy).Contents (Elt F) → (⟨S3200x1, .f32⟩ : BufTy).Contents (Elt F)),
    StableHlo.nullary main_cst_17 (constant S_ .f32 0x322BCC77#32),
    StableHlo.unary main_cst_17 main_v113 (broadcastInDim S3200x1 ![] bcast_S_S3200x1 : (⟨S_, .f32⟩ : BufTy).Contents (Elt F) → (⟨S3200x1, .f32⟩ : BufTy).Contents (Elt F)),
    StableHlo.binary main_v112 main_v113 main_v114 (addf : (⟨S3200x1, .f32⟩ : BufTy).Contents (Elt F) → (⟨S3200x1, .f32⟩ : BufTy).Contents (Elt F) → (⟨S3200x1, .f32⟩ : BufTy).Contents (Elt F)),
    StableHlo.unary main_v114 main_v115 (broadcastInDim S3200x3200 ![0, 1] bcast_S3200x1_S3200x3200_0_1 : (⟨S3200x1, .f32⟩ : BufTy).Contents (Elt F) → (⟨S3200x3200, .f32⟩ : BufTy).Contents (Elt F)),
    StableHlo.binary main_v109 main_v115 main_v116 (Host.divf : (⟨S3200x3200, .f32⟩ : BufTy).Contents (Elt F) → (⟨S3200x3200, .f32⟩ : BufTy).Contents (Elt F) → (⟨S3200x3200, .f32⟩ : BufTy).Contents (Elt F)) ]

set_option maxRecDepth 8192 in
/-- The window is that straight line: the called functions unfold at their calls and the call records at their fields,
    after which both sides are the same chain of host steps. -/
theorem main_part2_eq (c : Dev nD) : main_part2 (F := F) c = seq ops2 := rfl

set_option maxRecDepth 8192 in
/-- Every operation of the window touches TensorCore buffers only. -/
theorem ops2_sub : (ops2 : List (HloOp τ sig (Elt F))).Forall fun op => op.bufs ⊆ tcRefs τ sig :=
  ⟨binary_bufs_sub .., unary_bufs_sub .., nullary_bufs_sub .., binary_bufs_sub .., unary_bufs_sub .., unary_bufs_sub ..,
    binary_bufs_sub .., binary_bufs_sub .., binary_bufs_sub .., nullary_bufs_sub .., binary_bufs_sub .., unary_bufs_sub ..,
    nullary_bufs_sub .., unary_bufs_sub .., binary_bufs_sub .., unary_bufs_sub .., binary_bufs_sub ..⟩

set_option maxRecDepth 8192 in
/-- No operation of the window allocates: each determines the buffers it writes. -/
theorem ops2_fresh : ∀ op ∈ (ops2 : List (HloOp τ sig (Elt F))), op.fresh = ∅ := by
  intro _ h; (repeat (cases h with | head => rfl | tail _ h => ?_)); exact nomatch h

/-- The buffers the window's operations write, in order. -/
abbrev ops2_W : List (Ref sig .tc) :=
  [main_v103, main_v104, main_cst_15, main_v105, main_v106, main_v107, main_v108, main_v109,
    main_v110, main_cst_16, main_v111, main_v112, main_cst_17, main_v113, main_v114, main_v115,
    main_v116]

set_option maxRecDepth 8192 in
/-- Each operation of the window writes a buffer of that list. -/
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.HandRun

end
-- ==== Proof.RefRun.lean ====
import proofs.«174083_j4664334483724_2_alg».proof.Proof.Gen.ReferenceIdeal
import Idealize.ShloMosaic.Lib.StableHlo.Run
import proofs.«174083_j4664334483724_2_alg».proof.Proof.RefRunOps0
import proofs.«174083_j4664334483724_2_alg».proof.Proof.RefRunOps1
import proofs.«174083_j4664334483724_2_alg».proof.Proof.RefRunOps2
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The entry function's 169 operations in order: its three windows one after the other. -/
abbrev ops : List (HloOp τ sig (Elt F)) := ops0 ++ (ops1 ++ ops2)

/-- The entry function is that straight line: it runs its windows in order, each its own list, and lists run one after
    the other are their concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

theorem ops_fresh : ∀ op ∈ (ops : List (HloOp τ sig (Elt F))), op.fresh = ∅ := fun op h => by
  simp only [ops, List.mem_append] at h
  rcases h with h | h | h
  exacts [ops0_fresh op h, ops1_fresh op h, ops2_fresh op h]

/-- On every device, for any float values, from any memory with zero counters: every weakly fair execution of the entry
    function terminates, and every final state has each TensorCore buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over the whole list is the folds over the windows, composed. -/
theorem after_ops (V : Valuation τ sig (Elt F)) : after ops V = after ops2 (after ops1 (after ops0 V)) := by
  simp only [ops, after_append]

end Cert.ReferenceIdeal.HandRun

end
-- ==== Proof.RefRunTerms.lean ====
/- The reference program's live tensor values as pure terms of its second argument, one definition per value. -/
import proofs.«174083_j4664334483724_2_alg».proof.Proof.Gen.ReferenceIdeal

noncomputable section

namespace Cert.RefTerms

open Cert.ReferenceIdeal Cert.ReferenceIdeal.Gen Idealize.ShloMosaic Idealize.SL.Sem

variable {F : FTy → Type} [FloatOps F]

/-! The values of the reference program's live tensor values as pure terms of its second argument x (the only argument
the two results depend on): one definition per tensor value, each the function of the operation that computes it applied
to the definitions of the values it reads; the comment above each is the operation. A value that does not depend on x
(a constant, an index table, the block mask built from them) takes no argument. -/

-- %20 = stablehlo.reshape %arg1 : (tensor<1x3200x512xf32>) -> tensor<1x3200x8x64xf32>
def t_main_v20 (x : (⟨S1x3200x512, .f32⟩ : BufTy).Contents (Elt F)) : (⟨S1x3200x8x64, .f32⟩ : BufTy).Contents (Elt F) :=
  fun i => shapeCast S1x3200x8x64 x shapeCasts_S1x3200x512_S1x3200x8x64 i

-- %21 = stablehlo.transpose %20, dims = [0, 2, 1, 3] : (tensor<1x3200x8x64xf32>) -> tensor<1x8x3200x64xf32>
def t_main_v21 (x : (⟨S1x3200x512, .f32⟩ : BufTy).Contents (Elt F)) : (⟨S1x8x3200x64, .f32⟩ : BufTy).Contents (Elt F) :=
  ((transpose S1x8x3200x64 [0, 2, 1, 3] · transposes_S1x3200x8x64_S1x8x3200x64_0_2_1_3) : (⟨S1x3200x8x64, .f32⟩ : BufTy).Contents (Elt F) → (⟨S1x8x3200x64, .f32⟩ : BufTy).Contents (Elt F)) (t_main_v20 (F := F) x)

-- @norm's %0 = stablehlo.multiply %arg0, %arg0 : tensor<1x8x3200x64xf32>, in %32 = func.call @norm(…) (record main_call4)
def t_main_call4_v0 (x : (⟨S1x3200x512, .f32⟩ : BufTy).Contents (Elt F)) : (⟨S1x8x3200x64, .f32⟩ : BufTy).Contents (Elt F) :=
  mulf (t_main_v21 (F := F) x) (t_main_v21 (F := F) x)

-- @norm's %cst = stablehlo.constant dense<0.000000e+00> : tensor<f32>, in %32 = func.call @norm(…) (record main_call4)
def t_main_call4_cst : (⟨S_, .f32⟩ : BufTy).Contents (Elt F) :=
  (constant S_ .f32 0x00000000#32)

-- @norm's %1 = stablehlo.reduce(%0 init: %cst) applies stablehlo.add across dimensions = [3] : (tensor<1x8x3200x64xf32>, tensor<f32>) -> tensor<1x8x3200xf32> {, in %32 = func.call @norm(…) (record main_call4)
def t_main_call4_v1 (x : (⟨S1x3200x512, .f32⟩ : BufTy).Contents (Elt F)) : (⟨S1x8x3200, .f32⟩ : BufTy).Contents (Elt F) :=
  (fun x v => Host.reduceAdd x v reducesTo_S1x8x3200x64_S1x8x3200_d3 h_S_) (t_main_call4_v0 (F := F) x) (t_main_call4_cst (F := F))

-- @norm's %2 = stablehlo.broadcast_in_dim %1, dims = [0, 1, 2] : (tensor<1x8x3200xf32>) -> tensor<1x8x3200x1xf32>, in %32 = func.call @norm(…) (record main_call4)
def t_main_call4_v2 (x : (⟨S1x3200x512, .f32⟩ : BufTy).Contents (Elt F)) : (⟨S1x8x3200x1, .f32⟩ : BufTy).Contents (Elt F) :=
  (broadcastInDim S1x8x3200x1 ![0, 1, 2] bcast_S1x8x3200_S1x8x3200x1_0_1_2) (t_main_call4_v1 (F := F) x)

-- %32 = func.call @norm(…) (record main_call4) result 0: @norm's %3 = stablehlo.sqrt %2 : tensor<1x8x3200x1xf32>
def t_main_v32 (x : (⟨S1x3200x512, .f32⟩ : BufTy).Contents (Elt F)) : (⟨S1x8x3200x1, .f32⟩ : BufTy).Contents (Elt F) :=
  Host.sqrt (t_main_call4_v2 (F := F) x)

-- %cst_1 = stablehlo.constant dense<9.99999993E-9> : tensor<f32>
def t_main_cst_1 : (⟨S_, .f32⟩ : BufTy).Contents (Elt F) :=
  (constant S_ .f32 0x322BCC77#32)

-- %33 = stablehlo.broadcast_in_dim %cst_1, dims = [] : (tensor<f32>) -> tensor<1x8x3200x1xf32>
def t_main_v33 : (⟨S1x8x3200x1, .f32⟩ : BufTy).Contents (Elt F) :=
  (broadcastInDim S1x8x3200x1 ![] bcast_S_S1x8x3200x1 : (⟨S_, .f32⟩ : BufTy).Contents (Elt F) → (⟨S1x8x3200x1, .f32⟩ : BufTy).Contents (Elt F)) (t_main_cst_1 (F := F))

-- %34 = stablehlo.add %32, %33 : tensor<1x8x3200x1xf32>
def t_main_v34 (x : (⟨S1x3200x512, .f32⟩ : BufTy).Contents (Elt F)) : (⟨S1x8x3200x1, .f32⟩ : BufTy).Contents (Elt F) :=
  (addf : (⟨S1x8x3200x1, .f32⟩ : BufTy).Contents (Elt F) → (⟨S1x8x3200x1, .f32⟩ : BufTy).Contents (Elt F) → (⟨S1x8x3200x1, .f32⟩ : BufTy).Contents (Elt F)) (t_main_v32 (F := F) x) (t_main_v33 (F := F))

-- %35 = stablehlo.broadcast_in_dim %34, dims = [0, 1, 2, 3] : (tensor<1x8x3200x1xf32>) -> tensor<1x8x3200x64xf32>
def t_main_v35 (x : (⟨S1x3200x512, .f32⟩ : BufTy).Contents (Elt F)) : (⟨S1x8x3200x64, .f32⟩ : BufTy).Contents (Elt F) :=
  (broadcastInDim S1x8x3200x64 ![0, 1, 2, 3] bcast_S1x8x3200x1_S1x8x3200x64_0_1_2_3 : (⟨S1x8x3200x1, .f32⟩ : BufTy).Contents (Elt F) → (⟨S1x8x3200x64, .f32⟩ : BufTy).Contents (Elt F)) (t_main_v34 (F := F) x)

-- %36 = stablehlo.divide %21, %35 : tensor<1x8x3200x64xf32>
def t_main_v36 (x : (⟨S1x3200x512, .f32⟩ : BufTy).Contents (Elt F)) : (⟨S1x8x3200x64, .f32⟩ : BufTy).Contents (Elt F) :=
  (Host.divf : (⟨S1x8x3200x64, .f32⟩ : BufTy).Contents (Elt F) → (⟨S1x8x3200x64, .f32⟩ : BufTy).Contents (Elt F) → (⟨S1x8x3200x64, .f32⟩ : BufTy).Contents (Elt F)) (t_main_v21 (F := F) x) (t_main_v35 (F := F) x)

-- %37 = stablehlo.dot_general %36, %36, batching_dims = [0, 1] x [0, 1], contracting_dims = [3] x [3], precision = [DEFAULT, DEFAULT] : (tensor<1x8x3200x64xf32>, tensor<1x8x3200x64xf32>) -> tensor<1x8x3200x3200xf32>
def t_main_v37 (x : (⟨S1x3200x512, .f32⟩ : BufTy).Contents (Elt F)) : (⟨S1x8x3200x3200, .f32⟩ : BufTy).Contents (Elt F) :=
  ((fun l r => Host.dotGeneral dot_S1x8x3200x64_S1x8x3200x64_S1x8x3200x3200_3_3_2_2_01_01 none l r) : (⟨S1x8x3200x64, .f32⟩ : BufTy).Contents (Elt F) → (⟨S1x8x3200x64, .f32⟩ : BufTy).Contents (Elt F) → (⟨S1x8x3200x3200, .f32⟩ : BufTy).Contents (Elt F)) (t_main_v36 (F := F) x) (t_main_v36 (F := F) x)

-- %52 = stablehlo.iota dim = 0 : tensor<3200xi32>
def t_main_v52 : (⟨S3200, .i32⟩ : BufTy).Contents (Elt F) :=
  (iotaInDim S3200 32 0)

-- %53 = stablehlo.iota dim = 0 : tensor<3200xi32>
def t_main_v53 : (⟨S3200, .i32⟩ : BufTy).Contents (Elt F) :=
  (iotaInDim S3200 32 0)

-- %c = stablehlo.constant dense<10> : tensor<i32>
def t_main_c : (⟨S_, .i32⟩ : BufTy).Contents (Elt F) :=
  (constantI S_ 32 10#32)

-- @floor_divide's %0 = stablehlo.convert %arg1 : tensor<i32>, in %54 = func.call @floor_divide(…) (record main_call5)
def t_main_call5_v0 : (⟨S_, .i32⟩ : BufTy).Contents (Elt F) :=
  id (t_main_c (F := F))

-- @floor_divide's %1 = stablehlo.broadcast_in_dim %0, dims = [] : (tensor<i32>) -> tensor<3200xi32>, in %54 = func.call @floor_divide(…) (record main_call5)
def t_main_call5_v1 : (⟨S3200, .i32⟩ : BufTy).Contents (Elt F) :=
  (broadcastInDim S3200 ![] bcast_S_S3200) (t_main_call5_v0 (F := F))

-- @floor_divide's %2 = stablehlo.divide %arg0, %1 : tensor<3200xi32>, in %54 = func.call @floor_divide(…) (record main_call5)
def t_main_call5_v2 : (⟨S3200, .i32⟩ : BufTy).Contents (Elt F) :=
  Host.divsi (t_main_v52 (F := F)) (t_main_call5_v1 (F := F))

-- @floor_divide's %3 = stablehlo.sign %arg0 : tensor<3200xi32>, in %54 = func.call @floor_divide(…) (record main_call5)
def t_main_call5_v3 : (⟨S3200, .i32⟩ : BufTy).Contents (Elt F) :=
  signi (t_main_v52 (F := F))

-- @floor_divide's %4 = stablehlo.sign %0 : tensor<i32>, in %54 = func.call @floor_divide(…) (record main_call5)
def t_main_call5_v4 : (⟨S_, .i32⟩ : BufTy).Contents (Elt F) :=
  signi (t_main_call5_v0 (F := F))

-- @floor_divide's %5 = stablehlo.broadcast_in_dim %4, dims = [] : (tensor<i32>) -> tensor<3200xi32>, in %54 = func.call @floor_divide(…) (record main_call5)
def t_main_call5_v5 : (⟨S3200, .i32⟩ : BufTy).Contents (Elt F) :=
  (broadcastInDim S3200 ![] bcast_S_S3200) (t_main_call5_v4 (F := F))

-- @floor_divide's %6 = stablehlo.compare NE, %3, %5, SIGNED : (tensor<3200xi32>, tensor<3200xi32>) -> tensor<3200xi1>, in %54 = func.call @floor_divide(…) (record main_call5)
def t_main_call5_v6 : (⟨S3200, .i1⟩ : BufTy).Contents (Elt F) :=
  (cmpi .ne) (t_main_call5_v3 (F := F)) (t_main_call5_v5 (F := F))

-- @floor_divide's %7 = stablehlo.broadcast_in_dim %0, dims = [] : (tensor<i32>) -> tensor<3200xi32>, in %54 = func.call @floor_divide(…) (record main_call5)
def t_main_call5_v7 : (⟨S3200, .i32⟩ : BufTy).Contents (Elt F) :=
  (broadcastInDim S3200 ![] bcast_S_S3200) (t_main_call5_v0 (F := F))

-- @floor_divide's %8 = stablehlo.remainder %arg0, %7 : tensor<3200xi32>, in %54 = func.call @floor_divide(…) (record main_call5)
def t_main_call5_v8 : (⟨S3200, .i32⟩ : BufTy).Contents (Elt F) :=
  Host.remsi (t_main_v52 (F := F)) (t_main_call5_v7 (F := F))

-- @floor_divide's %c = stablehlo.constant dense<0> : tensor<i32>, in %54 = func.call @floor_divide(…) (record main_call5)
def t_main_call5_c : (⟨S_, .i32⟩ : BufTy).Contents (Elt F) :=
  (constantI S_ 32 0#32)

-- @floor_divide's %9 = stablehlo.broadcast_in_dim %c, dims = [] : (tensor<i32>) -> tensor<3200xi32>, in %54 = func.call @floor_divide(…) (record main_call5)
def t_main_call5_v9 : (⟨S3200, .i32⟩ : BufTy).Contents (Elt F) :=
  (broadcastInDim S3200 ![] bcast_S_S3200) (t_main_call5_c (F := F))

-- @floor_divide's %10 = stablehlo.compare NE, %8, %9, SIGNED : (tensor<3200xi32>, tensor<3200xi32>) -> tensor<3200xi1>, in %54 = func.call @floor_divide(…) (record main_call5)
def t_main_call5_v10 : (⟨S3200, .i1⟩ : BufTy).Contents (Elt F) :=
  (cmpi .ne) (t_main_call5_v8 (F := F)) (t_main_call5_v9 (F := F))

-- @floor_divide's %11 = stablehlo.and %6, %10 : tensor<3200xi1>, in %54 = func.call @floor_divide(…) (record main_call5)
def t_main_call5_v11 : (⟨S3200, .i1⟩ : BufTy).Contents (Elt F) :=
  andi (t_main_call5_v6 (F := F)) (t_main_call5_v10 (F := F))

-- @floor_divide's %c_0 = stablehlo.constant dense<1> : tensor<i32>, in %54 = func.call @floor_divide(…) (record main_call5)
def t_main_call5_c_0 : (⟨S_, .i32⟩ : BufTy).Contents (Elt F) :=
  (constantI S_ 32 1#32)

-- @floor_divide's %12 = stablehlo.broadcast_in_dim %c_0, dims = [] : (tensor<i32>) -> tensor<3200xi32>, in %54 = func.call @floor_divide(…) (record main_call5)
def t_main_call5_v12 : (⟨S3200, .i32⟩ : BufTy).Contents (Elt F) :=
  (broadcastInDim S3200 ![] bcast_S_S3200) (t_main_call5_c_0 (F := F))

-- @floor_divide's %13 = stablehlo.subtract %2, %12 : tensor<3200xi32>, in %54 = func.call @floor_divide(…) (record main_call5)
def t_main_call5_v13 : (⟨S3200, .i32⟩ : BufTy).Contents (Elt F) :=
  subi (t_main_call5_v2 (F := F)) (t_main_call5_v12 (F := F))

-- @floor_divide's %14 = func.call @_where(…) (record main_call5_call0) result 0: @_where's %0 = stablehlo.select %arg0, %arg1, %arg2 : tensor<3200xi1>, tensor<3200xi32>
def t_main_v54 : (⟨S3200, .i32⟩ : BufTy).Contents (Elt F) :=
  select (t_main_call5_v11 (F := F)) (t_main_call5_v13 (F := F)) (t_main_call5_v2 (F := F))

-- %c_6 = stablehlo.constant dense<10> : tensor<i32>
def t_main_c_6 : (⟨S_, .i32⟩ : BufTy).Contents (Elt F) :=
  (constantI S_ 32 10#32)

-- %55 = stablehlo.broadcast_in_dim %c_6, dims = [] : (tensor<i32>) -> tensor<3200xi32>
def t_main_v55 : (⟨S3200, .i32⟩ : BufTy).Contents (Elt F) :=
  (broadcastInDim S3200 ![] bcast_S_S3200 : (⟨S_, .i32⟩ : BufTy).Contents (Elt F) → (⟨S3200, .i32⟩ : BufTy).Contents (Elt F)) (t_main_c_6 (F := F))

-- %56 = stablehlo.multiply %54, %55 : tensor<3200xi32>
def t_main_v56 : (⟨S3200, .i32⟩ : BufTy).Contents (Elt F) :=
  (muli : (⟨S3200, .i32⟩ : BufTy).Contents (Elt F) → (⟨S3200, .i32⟩ : BufTy).Contents (Elt F) → (⟨S3200, .i32⟩ : BufTy).Contents (Elt F)) (t_main_v54 (F := F)) (t_main_v55 (F := F))

-- %57 = stablehlo.broadcast_in_dim %53, dims = [1] : (tensor<3200xi32>) -> tensor<1x3200xi32>
def t_main_v57 : (⟨S1x3200, .i32⟩ : BufTy).Contents (Elt F) :=
  (broadcastInDim S1x3200 ![1] bcast_S3200_S1x3200_1 : (⟨S3200, .i32⟩ : BufTy).Contents (Elt F) → (⟨S1x3200, .i32⟩ : BufTy).Contents (Elt F)) (t_main_v53 (F := F))

-- %58 = stablehlo.broadcast_in_dim %56, dims = [0] : (tensor<3200xi32>) -> tensor<3200x1xi32>
def t_main_v58 : (⟨S3200x1, .i32⟩ : BufTy).Contents (Elt F) :=
  (broadcastInDim S3200x1 ![0] bcast_S3200_S3200x1_0 : (⟨S3200, .i32⟩ : BufTy).Contents (Elt F) → (⟨S3200x1, .i32⟩ : BufTy).Contents (Elt F)) (t_main_v56 (F := F))

-- %59 = stablehlo.broadcast_in_dim %57, dims = [0, 1] : (tensor<1x3200xi32>) -> tensor<3200x3200xi32>
def t_main_v59 : (⟨S3200x3200, .i32⟩ : BufTy).Contents (Elt F) :=
  (broadcastInDim S3200x3200 ![0, 1] bcast_S1x3200_S3200x3200_0_1 : (⟨S1x3200, .i32⟩ : BufTy).Contents (Elt F) → (⟨S3200x3200, .i32⟩ : BufTy).Contents (Elt F)) (t_main_v57 (F := F))

-- %60 = stablehlo.broadcast_in_dim %58, dims = [0, 1] : (tensor<3200x1xi32>) -> tensor<3200x3200xi32>
def t_main_v60 : (⟨S3200x3200, .i32⟩ : BufTy).Contents (Elt F) :=
  (broadcastInDim S3200x3200 ![0, 1] bcast_S3200x1_S3200x3200_0_1 : (⟨S3200x1, .i32⟩ : BufTy).Contents (Elt F) → (⟨S3200x3200, .i32⟩ : BufTy).Contents (Elt F)) (t_main_v58 (F := F))

-- %61 = stablehlo.compare GE, %59, %60, SIGNED : (tensor<3200x3200xi32>, tensor<3200x3200xi32>) -> tensor<3200x3200xi1>
def t_main_v61 : (⟨S3200x3200, .i1⟩ : BufTy).Contents (Elt F) :=
  (cmpi .sge : (⟨S3200x3200, .i32⟩ : BufTy).Contents (Elt F) → (⟨S3200x3200, .i32⟩ : BufTy).Contents (Elt F) → (⟨S3200x3200, .i1⟩ : BufTy).Contents (Elt F)) (t_main_v59 (F := F)) (t_main_v60 (F := F))

-- %62 = stablehlo.broadcast_in_dim %53, dims = [1] : (tensor<3200xi32>) -> tensor<1x3200xi32>
def t_main_v62 : (⟨S1x3200, .i32⟩ : BufTy).Contents (Elt F) :=
  (broadcastInDim S1x3200 ![1] bcast_S3200_S1x3200_1 : (⟨S3200, .i32⟩ : BufTy).Contents (Elt F) → (⟨S1x3200, .i32⟩ : BufTy).Contents (Elt F)) (t_main_v53 (F := F))

-- %63 = stablehlo.broadcast_in_dim %56, dims = [0] : (tensor<3200xi32>) -> tensor<3200x1xi32>
def t_main_v63 : (⟨S3200x1, .i32⟩ : BufTy).Contents (Elt F) :=
  (broadcastInDim S3200x1 ![0] bcast_S3200_S3200x1_0 : (⟨S3200, .i32⟩ : BufTy).Contents (Elt F) → (⟨S3200x1, .i32⟩ : BufTy).Contents (Elt F)) (t_main_v56 (F := F))

-- %c_7 = stablehlo.constant dense<9> : tensor<i32>
def t_main_c_7 : (⟨S_, .i32⟩ : BufTy).Contents (Elt F) :=
  (constantI S_ 32 9#32)

-- %64 = stablehlo.broadcast_in_dim %c_7, dims = [] : (tensor<i32>) -> tensor<3200x1xi32>
def t_main_v64 : (⟨S3200x1, .i32⟩ : BufTy).Contents (Elt F) :=
  (broadcastInDim S3200x1 ![] bcast_S_S3200x1 : (⟨S_, .i32⟩ : BufTy).Contents (Elt F) → (⟨S3200x1, .i32⟩ : BufTy).Contents (Elt F)) (t_main_c_7 (F := F))

-- %65 = stablehlo.add %63, %64 : tensor<3200x1xi32>
def t_main_v65 : (⟨S3200x1, .i32⟩ : BufTy).Contents (Elt F) :=
  (addi : (⟨S3200x1, .i32⟩ : BufTy).Contents (Elt F) → (⟨S3200x1, .i32⟩ : BufTy).Contents (Elt F) → (⟨S3200x1, .i32⟩ : BufTy).Contents (Elt F)) (t_main_v63 (F := F)) (t_main_v64 (F := F))

-- %66 = stablehlo.broadcast_in_dim %62, dims = [0, 1] : (tensor<1x3200xi32>) -> tensor<3200x3200xi32>
def t_main_v66 : (⟨S3200x3200, .i32⟩ : BufTy).Contents (Elt F) :=
  (broadcastInDim S3200x3200 ![0, 1] bcast_S1x3200_S3200x3200_0_1 : (⟨S1x3200, .i32⟩ : BufTy).Contents (Elt F) → (⟨S3200x3200, .i32⟩ : BufTy).Contents (Elt F)) (t_main_v62 (F := F))

-- %67 = stablehlo.broadcast_in_dim %65, dims = [0, 1] : (tensor<3200x1xi32>) -> tensor<3200x3200xi32>
def t_main_v67 : (⟨S3200x3200, .i32⟩ : BufTy).Contents (Elt F) :=
  (broadcastInDim S3200x3200 ![0, 1] bcast_S3200x1_S3200x3200_0_1 : (⟨S3200x1, .i32⟩ : BufTy).Contents (Elt F) → (⟨S3200x3200, .i32⟩ : BufTy).Contents (Elt F)) (t_main_v65 (F := F))

-- %68 = stablehlo.compare LT, %66, %67, SIGNED : (tensor<3200x3200xi32>, tensor<3200x3200xi32>) -> tensor<3200x3200xi1>
def t_main_v68 : (⟨S3200x3200, .i1⟩ : BufTy).Contents (Elt F) :=
  (cmpi .slt : (⟨S3200x3200, .i32⟩ : BufTy).Contents (Elt F) → (⟨S3200x3200, .i32⟩ : BufTy).Contents (Elt F) → (⟨S3200x3200, .i1⟩ : BufTy).Contents (Elt F)) (t_main_v66 (F := F)) (t_main_v67 (F := F))

-- %69 = stablehlo.and %61, %68 : tensor<3200x3200xi1>
def t_main_v69 : (⟨S3200x3200, .i1⟩ : BufTy).Contents (Elt F) :=
  (andi : (⟨S3200x3200, .i1⟩ : BufTy).Contents (Elt F) → (⟨S3200x3200, .i1⟩ : BufTy).Contents (Elt F) → (⟨S3200x3200, .i1⟩ : BufTy).Contents (Elt F)) (t_main_v61 (F := F)) (t_main_v68 (F := F))

-- %70 = stablehlo.not %69 : tensor<3200x3200xi1>
def t_main_v70 : (⟨S3200x3200, .i1⟩ : BufTy).Contents (Elt F) :=
  (noti : (⟨S3200x3200, .i1⟩ : BufTy).Contents (Elt F) → (⟨S3200x3200, .i1⟩ : BufTy).Contents (Elt F)) (t_main_v69 (F := F))

-- %71 = stablehlo.broadcast_in_dim %53, dims = [1] : (tensor<3200xi32>) -> tensor<1x3200xi32>
def t_main_v71 : (⟨S1x3200, .i32⟩ : BufTy).Contents (Elt F) :=
  (broadcastInDim S1x3200 ![1] bcast_S3200_S1x3200_1 : (⟨S3200, .i32⟩ : BufTy).Contents (Elt F) → (⟨S1x3200, .i32⟩ : BufTy).Contents (Elt F)) (t_main_v53 (F := F))

-- %72 = stablehlo.broadcast_in_dim %52, dims = [0] : (tensor<3200xi32>) -> tensor<3200x1xi32>
def t_main_v72 : (⟨S3200x1, .i32⟩ : BufTy).Contents (Elt F) :=
  (broadcastInDim S3200x1 ![0] bcast_S3200_S3200x1_0 : (⟨S3200, .i32⟩ : BufTy).Contents (Elt F) → (⟨S3200x1, .i32⟩ : BufTy).Contents (Elt F)) (t_main_v52 (F := F))

-- %73 = stablehlo.broadcast_in_dim %71, dims = [0, 1] : (tensor<1x3200xi32>) -> tensor<3200x3200xi32>
def t_main_v73 : (⟨S3200x3200, .i32⟩ : BufTy).Contents (Elt F) :=
  (broadcastInDim S3200x3200 ![0, 1] bcast_S1x3200_S3200x3200_0_1 : (⟨S1x3200, .i32⟩ : BufTy).Contents (Elt F) → (⟨S3200x3200, .i32⟩ : BufTy).Contents (Elt F)) (t_main_v71 (F := F))

-- %74 = stablehlo.broadcast_in_dim %72, dims = [0, 1] : (tensor<3200x1xi32>) -> tensor<3200x3200xi32>
def t_main_v74 : (⟨S3200x3200, .i32⟩ : BufTy).Contents (Elt F) :=
  (broadcastInDim S3200x3200 ![0, 1] bcast_S3200x1_S3200x3200_0_1 : (⟨S3200x1, .i32⟩ : BufTy).Contents (Elt F) → (⟨S3200x3200, .i32⟩ : BufTy).Contents (Elt F)) (t_main_v72 (F := F))

-- %75 = stablehlo.compare EQ, %73, %74, SIGNED : (tensor<3200x3200xi32>, tensor<3200x3200xi32>) -> tensor<3200x3200xi1>
def t_main_v75 : (⟨S3200x3200, .i1⟩ : BufTy).Contents (Elt F) :=
  (cmpi .eq : (⟨S3200x3200, .i32⟩ : BufTy).Contents (Elt F) → (⟨S3200x3200, .i32⟩ : BufTy).Contents (Elt F) → (⟨S3200x3200, .i1⟩ : BufTy).Contents (Elt F)) (t_main_v73 (F := F)) (t_main_v74 (F := F))

-- %76 = stablehlo.or %70, %75 : tensor<3200x3200xi1>
def t_main_v76 : (⟨S3200x3200, .i1⟩ : BufTy).Contents (Elt F) :=
  (ori : (⟨S3200x3200, .i1⟩ : BufTy).Contents (Elt F) → (⟨S3200x3200, .i1⟩ : BufTy).Contents (Elt F) → (⟨S3200x3200, .i1⟩ : BufTy).Contents (Elt F)) (t_main_v70 (F := F)) (t_main_v75 (F := F))

-- %77 = stablehlo.convert %76 : (tensor<3200x3200xi1>) -> tensor<3200x3200xf32>
def t_main_v77 : (⟨S3200x3200, .f32⟩ : BufTy).Contents (Elt F) :=
  (uitofp .f32 : (⟨S3200x3200, .i1⟩ : BufTy).Contents (Elt F) → (⟨S3200x3200, .f32⟩ : BufTy).Contents (Elt F)) (t_main_v76 (F := F))

-- %78 = stablehlo.broadcast_in_dim %77, dims = [2, 3] : (tensor<3200x3200xf32>) -> tensor<1x1x3200x3200xf32>
def t_main_v78 : (⟨S1x1x3200x3200, .f32⟩ : BufTy).Contents (Elt F) :=
  (broadcastInDim S1x1x3200x3200 ![2, 3] bcast_S3200x3200_S1x1x3200x3200_2_3 : (⟨S3200x3200, .f32⟩ : BufTy).Contents (Elt F) → (⟨S1x1x3200x3200, .f32⟩ : BufTy).Contents (Elt F)) (t_main_v77 (F := F))

-- %79 = stablehlo.broadcast_in_dim %78, dims = [0, 1, 2, 3] : (tensor<1x1x3200x3200xf32>) -> tensor<1x8x3200x3200xf32>
def t_main_v79 : (⟨S1x8x3200x3200, .f32⟩ : BufTy).Contents (Elt F) :=
  (broadcastInDim S1x8x3200x3200 ![0, 1, 2, 3] bcast_S1x1x3200x3200_S1x8x3200x3200_0_1_2_3 : (⟨S1x1x3200x3200, .f32⟩ : BufTy).Contents (Elt F) → (⟨S1x8x3200x3200, .f32⟩ : BufTy).Contents (Elt F)) (t_main_v78 (F := F))

-- %80 = stablehlo.multiply %37, %79 : tensor<1x8x3200x3200xf32>
def t_main_v80 (x : (⟨S1x3200x512, .f32⟩ : BufTy).Contents (Elt F)) : (⟨S1x8x3200x3200, .f32⟩ : BufTy).Contents (Elt F) :=
  (mulf : (⟨S1x8x3200x3200, .f32⟩ : BufTy).Contents (Elt F) → (⟨S1x8x3200x3200, .f32⟩ : BufTy).Contents (Elt F) → (⟨S1x8x3200x3200, .f32⟩ : BufTy).Contents (Elt F)) (t_main_v37 (F := F) x) (t_main_v79 (F := F))

-- %81 = stablehlo.dot_general %80, %21, batching_dims = [0, 1] x [0, 1], contracting_dims = [3] x [2], precision = [DEFAULT, DEFAULT] : (tensor<1x8x3200x3200xf32>, tensor<1x8x3200x64xf32>) -> tensor<1x8x3200x64xf32>
def t_main_v81 (x : (⟨S1x3200x512, .f32⟩ : BufTy).Contents (Elt F)) : (⟨S1x8x3200x64, .f32⟩ : BufTy).Contents (Elt F) :=
  ((fun l r => Host.dotGeneral dot_S1x8x3200x3200_S1x8x3200x64_S1x8x3200x64_3_2_2_3_01_01 none l r) : (⟨S1x8x3200x3200, .f32⟩ : BufTy).Contents (Elt F) → (⟨S1x8x3200x64, .f32⟩ : BufTy).Contents (Elt F) → (⟨S1x8x3200x64, .f32⟩ : BufTy).Contents (Elt F)) (t_main_v80 (F := F) x) (t_main_v21 (F := F) x)

-- %82 = stablehlo.transpose %81, dims = [0, 2, 1, 3] : (tensor<1x8x3200x64xf32>) -> tensor<1x3200x8x64xf32>
def t_main_v82 (x : (⟨S1x3200x512, .f32⟩ : BufTy).Contents (Elt F)) : (⟨S1x3200x8x64, .f32⟩ : BufTy).Contents (Elt F) :=
  ((transpose S1x3200x8x64 [0, 2, 1, 3] · transposes_S1x8x3200x64_S1x3200x8x64_0_2_1_3) : (⟨S1x8x3200x64, .f32⟩ : BufTy).Contents (Elt F) → (⟨S1x3200x8x64, .f32⟩ : BufTy).Contents (Elt F)) (t_main_v81 (F := F) x)

-- %83 = stablehlo.reshape %82 : (tensor<1x3200x8x64xf32>) -> tensor<1x3200x512xf32>
def t_main_v83 (x : (⟨S1x3200x512, .f32⟩ : BufTy).Contents (Elt F)) : (⟨S1x3200x512, .f32⟩ : BufTy).Contents (Elt F) :=
  fun i => shapeCast S1x3200x512 (t_main_v82 (F := F) x) shapeCasts_S1x3200x8x64_S1x3200x512 i

-- %84 = stablehlo.transpose %21, dims = [0, 2, 1, 3] : (tensor<1x8x3200x64xf32>) -> tensor<1x3200x8x64xf32>
def t_main_v84 (x : (⟨S1x3200x512, .f32⟩ : BufTy).Contents (Elt F)) : (⟨S1x3200x8x64, .f32⟩ : BufTy).Contents (Elt F) :=
  ((transpose S1x3200x8x64 [0, 2, 1, 3] · transposes_S1x8x3200x64_S1x3200x8x64_0_2_1_3) : (⟨S1x8x3200x64, .f32⟩ : BufTy).Contents (Elt F) → (⟨S1x3200x8x64, .f32⟩ : BufTy).Contents (Elt F)) (t_main_v21 (F := F) x)

-- %85 = stablehlo.reshape %84 : (tensor<1x3200x8x64xf32>) -> tensor<1x3200x512xf32>
def t_main_v85 (x : (⟨S1x3200x512, .f32⟩ : BufTy).Contents (Elt F)) : (⟨S1x3200x512, .f32⟩ : BufTy).Contents (Elt F) :=
  fun i => shapeCast S1x3200x512 (t_main_v84 (F := F) x) shapeCasts_S1x3200x8x64_S1x3200x512 i

-- %86 = stablehlo.concatenate %83, %85, dim = 2 : (tensor<1x3200x512xf32>, tensor<1x3200x512xf32>) -> tensor<1x3200x1024xf32>
def t_main_v86 (x : (⟨S1x3200x512, .f32⟩ : BufTy).Contents (Elt F)) : (⟨S1x3200x1024, .f32⟩ : BufTy).Contents (Elt F) :=
  ((fun a b => concatenate S1x3200x1024 2 [⟨S1x3200x512, a⟩, ⟨S1x3200x512, b⟩] concatenates_S1x3200x512_S1x3200x512_S1x3200x1024_d2) : (⟨S1x3200x512, .f32⟩ : BufTy).Contents (Elt F) → (⟨S1x3200x512, .f32⟩ : BufTy).Contents (Elt F) → (⟨S1x3200x1024, .f32⟩ : BufTy).Contents (Elt F)) (t_main_v83 (F := F) x) (t_main_v85 (F := F) x)

-- %cst_8 = stablehlo.constant dense<0.000000e+00> : tensor<f32>
def t_main_cst_8 : (⟨S_, .f32⟩ : BufTy).Contents (Elt F) :=
  (constant S_ .f32 0x00000000#32)

-- %87 = stablehlo.reduce(%37 init: %cst_8) applies stablehlo.add across dimensions = [1] : (tensor<1x8x3200x3200xf32>, tensor<f32>) -> tensor<1x3200x3200xf32> {
def t_main_v87 (x : (⟨S1x3200x512, .f32⟩ : BufTy).Contents (Elt F)) : (⟨S1x3200x3200, .f32⟩ : BufTy).Contents (Elt F) :=
  ((fun x v => Host.reduceAdd x v reducesTo_S1x8x3200x3200_S1x3200x3200_d1 h_S_) : (⟨S1x8x3200x3200, .f32⟩ : BufTy).Contents (Elt F) → (⟨S_, .f32⟩ : BufTy).Contents (Elt F) → (⟨S1x3200x3200, .f32⟩ : BufTy).Contents (Elt F)) (t_main_v37 (F := F) x) (t_main_cst_8 (F := F))

-- %88 = stablehlo.reshape %87 : (tensor<1x3200x3200xf32>) -> tensor<3200x3200xf32>
def t_main_v88 (x : (⟨S1x3200x512, .f32⟩ : BufTy).Contents (Elt F)) : (⟨S3200x3200, .f32⟩ : BufTy).Contents (Elt F) :=
  fun i => shapeCast S3200x3200 (t_main_v87 (F := F) x) shapeCasts_S1x3200x3200_S3200x3200 i

-- %cst_9 = stablehlo.constant dense<8.000000e+00> : tensor<f32>
def t_main_cst_9 : (⟨S_, .f32⟩ : BufTy).Contents (Elt F) :=
  (constant S_ .f32 0x41000000#32)

-- %89 = stablehlo.broadcast_in_dim %cst_9, dims = [] : (tensor<f32>) -> tensor<3200x3200xf32>
def t_main_v89 : (⟨S3200x3200, .f32⟩ : BufTy).Contents (Elt F) :=
  (broadcastInDim S3200x3200 ![] bcast_S_S3200x3200 : (⟨S_, .f32⟩ : BufTy).Contents (Elt F) → (⟨S3200x3200, .f32⟩ : BufTy).Contents (Elt F)) (t_main_cst_9 (F := F))

-- %90 = stablehlo.divide %88, %89 : tensor<3200x3200xf32>
def t_main_v90 (x : (⟨S1x3200x512, .f32⟩ : BufTy).Contents (Elt F)) : (⟨S3200x3200, .f32⟩ : BufTy).Contents (Elt F) :=
  (Host.divf : (⟨S3200x3200, .f32⟩ : BufTy).Contents (Elt F) → (⟨S3200x3200, .f32⟩ : BufTy).Contents (Elt F) → (⟨S3200x3200, .f32⟩ : BufTy).Contents (Elt F)) (t_main_v88 (F := F) x) (t_main_v89 (F := F))

-- %cst_10 = stablehlo.constant dense<7.500000e-01> : tensor<f32>
def t_main_cst_10 : (⟨S_, .f32⟩ : BufTy).Contents (Elt F) :=
  (constant S_ .f32 0x3F400000#32)

-- %91 = stablehlo.broadcast_in_dim %cst_10, dims = [] : (tensor<f32>) -> tensor<3200x3200xf32>
def t_main_v91 : (⟨S3200x3200, .f32⟩ : BufTy).Contents (Elt F) :=
  (broadcastInDim S3200x3200 ![] bcast_S_S3200x3200 : (⟨S_, .f32⟩ : BufTy).Contents (Elt F) → (⟨S3200x3200, .f32⟩ : BufTy).Contents (Elt F)) (t_main_cst_10 (F := F))

-- %92 = stablehlo.compare GT, %90, %91, FLOAT : (tensor<3200x3200xf32>, tensor<3200x3200xf32>) -> tensor<3200x3200xi1>
def t_main_v92 (x : (⟨S1x3200x512, .f32⟩ : BufTy).Contents (Elt F)) : (⟨S3200x3200, .i1⟩ : BufTy).Contents (Elt F) :=
  (cmpf .ogt : (⟨S3200x3200, .f32⟩ : BufTy).Contents (Elt F) → (⟨S3200x3200, .f32⟩ : BufTy).Contents (Elt F) → (⟨S3200x3200, .i1⟩ : BufTy).Contents (Elt F)) (t_main_v90 (F := F) x) (t_main_v91 (F := F))

-- %93 = stablehlo.convert %92 : (tensor<3200x3200xi1>) -> tensor<3200x3200xf32>
def t_main_v93 (x : (⟨S1x3200x512, .f32⟩ : BufTy).Contents (Elt F)) : (⟨S3200x3200, .f32⟩ : BufTy).Contents (Elt F) :=
  (uitofp .f32 : (⟨S3200x3200, .i1⟩ : BufTy).Contents (Elt F) → (⟨S3200x3200, .f32⟩ : BufTy).Contents (Elt F)) (t_main_v92 (F := F) x)

-- %cst_11 = stablehlo.constant dense<0.000000e+00> : tensor<f32>
def t_main_cst_11 : (⟨S_, .f32⟩ : BufTy).Contents (Elt F) :=
  (constant S_ .f32 0x00000000#32)

-- %94 = stablehlo.reduce(%80 init: %cst_11) applies stablehlo.add across dimensions = [1] : (tensor<1x8x3200x3200xf32>, tensor<f32>) -> tensor<1x3200x3200xf32> {
def t_main_v94 (x : (⟨S1x3200x512, .f32⟩ : BufTy).Contents (Elt F)) : (⟨S1x3200x3200, .f32⟩ : BufTy).Contents (Elt F) :=
  ((fun x v => Host.reduceAdd x v reducesTo_S1x8x3200x3200_S1x3200x3200_d1 h_S_) : (⟨S1x8x3200x3200, .f32⟩ : BufTy).Contents (Elt F) → (⟨S_, .f32⟩ : BufTy).Contents (Elt F) → (⟨S1x3200x3200, .f32⟩ : BufTy).Contents (Elt F)) (t_main_v80 (F := F) x) (t_main_cst_11 (F := F))

-- %95 = stablehlo.reshape %94 : (tensor<1x3200x3200xf32>) -> tensor<3200x3200xf32>
def t_main_v95 (x : (⟨S1x3200x512, .f32⟩ : BufTy).Contents (Elt F)) : (⟨S3200x3200, .f32⟩ : BufTy).Contents (Elt F) :=
  fun i => shapeCast S3200x3200 (t_main_v94 (F := F) x) shapeCasts_S1x3200x3200_S3200x3200 i

-- %cst_12 = stablehlo.constant dense<8.000000e+00> : tensor<f32>
def t_main_cst_12 : (⟨S_, .f32⟩ : BufTy).Contents (Elt F) :=
  (constant S_ .f32 0x41000000#32)

-- %96 = stablehlo.broadcast_in_dim %cst_12, dims = [] : (tensor<f32>) -> tensor<3200x3200xf32>
def t_main_v96 : (⟨S3200x3200, .f32⟩ : BufTy).Contents (Elt F) :=
  (broadcastInDim S3200x3200 ![] bcast_S_S3200x3200 : (⟨S_, .f32⟩ : BufTy).Contents (Elt F) → (⟨S3200x3200, .f32⟩ : BufTy).Contents (Elt F)) (t_main_cst_12 (F := F))

-- %97 = stablehlo.divide %95, %96 : tensor<3200x3200xf32>
def t_main_v97 (x : (⟨S1x3200x512, .f32⟩ : BufTy).Contents (Elt F)) : (⟨S3200x3200, .f32⟩ : BufTy).Contents (Elt F) :=
  (Host.divf : (⟨S3200x3200, .f32⟩ : BufTy).Contents (Elt F) → (⟨S3200x3200, .f32⟩ : BufTy).Contents (Elt F) → (⟨S3200x3200, .f32⟩ : BufTy).Contents (Elt F)) (t_main_v95 (F := F) x) (t_main_v96 (F := F))

-- %cst_13 = stablehlo.constant dense<0xFF800000> : tensor<f32>
def t_main_cst_13 : (⟨S_, .f32⟩ : BufTy).Contents (Elt F) :=
  (constant S_ .f32 0xFF800000#32)

-- %98 = stablehlo.reduce(%97 init: %cst_13) applies stablehlo.maximum across dimensions = [1] : (tensor<3200x3200xf32>, tensor<f32>) -> tensor<3200xf32> {
def t_main_v98 (x : (⟨S1x3200x512, .f32⟩ : BufTy).Contents (Elt F)) : (⟨S3200, .f32⟩ : BufTy).Contents (Elt F) :=
  ((fun x v => Host.reduce FloatOps.maximumf x v reducesTo_S3200x3200_S3200_d1 h_S_) : (⟨S3200x3200, .f32⟩ : BufTy).Contents (Elt F) → (⟨S_, .f32⟩ : BufTy).Contents (Elt F) → (⟨S3200, .f32⟩ : BufTy).Contents (Elt F)) (t_main_v97 (F := F) x) (t_main_cst_13 (F := F))

-- %cst_14 = stablehlo.constant dense<0xFF800000> : tensor<f32>
def t_main_cst_14 : (⟨S_, .f32⟩ : BufTy).Contents (Elt F) :=
  (constant S_ .f32 0xFF800000#32)

-- %99 = stablehlo.broadcast_in_dim %cst_14, dims = [] : (tensor<f32>) -> tensor<3200xf32>
def t_main_v99 : (⟨S3200, .f32⟩ : BufTy).Contents (Elt F) :=
  (broadcastInDim S3200 ![] bcast_S_S3200 : (⟨S_, .f32⟩ : BufTy).Contents (Elt F) → (⟨S3200, .f32⟩ : BufTy).Contents (Elt F)) (t_main_cst_14 (F := F))

-- %100 = stablehlo.maximum %99, %98 : tensor<3200xf32>
def t_main_v100 (x : (⟨S1x3200x512, .f32⟩ : BufTy).Contents (Elt F)) : (⟨S3200, .f32⟩ : BufTy).Contents (Elt F) :=
  (maximumf : (⟨S3200, .f32⟩ : BufTy).Contents (Elt F) → (⟨S3200, .f32⟩ : BufTy).Contents (Elt F) → (⟨S3200, .f32⟩ : BufTy).Contents (Elt F)) (t_main_v99 (F := F)) (t_main_v98 (F := F) x)

-- %101 = stablehlo.broadcast_in_dim %100, dims = [0] : (tensor<3200xf32>) -> tensor<3200x1xf32>
def t_main_v101 (x : (⟨S1x3200x512, .f32⟩ : BufTy).Contents (Elt F)) : (⟨S3200x1, .f32⟩ : BufTy).Contents (Elt F) :=
  (broadcastInDim S3200x1 ![0] bcast_S3200_S3200x1_0 : (⟨S3200, .f32⟩ : BufTy).Contents (Elt F) → (⟨S3200x1, .f32⟩ : BufTy).Contents (Elt F)) (t_main_v100 (F := F) x)

-- %102 = stablehlo.broadcast_in_dim %101, dims = [0, 1] : (tensor<3200x1xf32>) -> tensor<3200x3200xf32>
def t_main_v102 (x : (⟨S1x3200x512, .f32⟩ : BufTy).Contents (Elt F)) : (⟨S3200x3200, .f32⟩ : BufTy).Contents (Elt F) :=
  (broadcastInDim S3200x3200 ![0, 1] bcast_S3200x1_S3200x3200_0_1 : (⟨S3200x1, .f32⟩ : BufTy).Contents (Elt F) → (⟨S3200x3200, .f32⟩ : BufTy).Contents (Elt F)) (t_main_v101 (F := F) x)

-- %103 = stablehlo.subtract %97, %102 : tensor<3200x3200xf32>
def t_main_v103 (x : (⟨S1x3200x512, .f32⟩ : BufTy).Contents (Elt F)) : (⟨S3200x3200, .f32⟩ : BufTy).Contents (Elt F) :=
  (subf : (⟨S3200x3200, .f32⟩ : BufTy).Contents (Elt F) → (⟨S3200x3200, .f32⟩ : BufTy).Contents (Elt F) → (⟨S3200x3200, .f32⟩ : BufTy).Contents (Elt F)) (t_main_v97 (F := F) x) (t_main_v102 (F := F) x)

-- %104 = stablehlo.exponential %103 : tensor<3200x3200xf32>
def t_main_v104 (x : (⟨S1x3200x512, .f32⟩ : BufTy).Contents (Elt F)) : (⟨S3200x3200, .f32⟩ : BufTy).Contents (Elt F) :=
  (Host.exp : (⟨S3200x3200, .f32⟩ : BufTy).Contents (Elt F) → (⟨S3200x3200, .f32⟩ : BufTy).Contents (Elt F)) (t_main_v103 (F := F) x)

-- %cst_15 = stablehlo.constant dense<0.000000e+00> : tensor<f32>
def t_main_cst_15 : (⟨S_, .f32⟩ : BufTy).Contents (Elt F) :=
  (constant S_ .f32 0x00000000#32)

-- %105 = stablehlo.reduce(%104 init: %cst_15) applies stablehlo.add across dimensions = [1] : (tensor<3200x3200xf32>, tensor<f32>) -> tensor<3200xf32> {
def t_main_v105 (x : (⟨S1x3200x512, .f32⟩ : BufTy).Contents (Elt F)) : (⟨S3200, .f32⟩ : BufTy).Contents (Elt F) :=
  ((fun x v => Host.reduceAdd x v reducesTo_S3200x3200_S3200_d1 h_S_) : (⟨S3200x3200, .f32⟩ : BufTy).Contents (Elt F) → (⟨S_, .f32⟩ : BufTy).Contents (Elt F) → (⟨S3200, .f32⟩ : BufTy).Contents (Elt F)) (t_main_v104 (F := F) x) (t_main_cst_15 (F := F))

-- %106 = stablehlo.broadcast_in_dim %105, dims = [0] : (tensor<3200xf32>) -> tensor<3200x1xf32>
def t_main_v106 (x : (⟨S1x3200x512, .f32⟩ : BufTy).Contents (Elt F)) : (⟨S3200x1, .f32⟩ : BufTy).Contents (Elt F) :=
  (broadcastInDim S3200x1 ![0] bcast_S3200_S3200x1_0 : (⟨S3200, .f32⟩ : BufTy).Contents (Elt F) → (⟨S3200x1, .f32⟩ : BufTy).Contents (Elt F)) (t_main_v105 (F := F) x)

-- %107 = stablehlo.broadcast_in_dim %106, dims = [0, 1] : (tensor<3200x1xf32>) -> tensor<3200x3200xf32>
def t_main_v107 (x : (⟨S1x3200x512, .f32⟩ : BufTy).Contents (Elt F)) : (⟨S3200x3200, .f32⟩ : BufTy).Contents (Elt F) :=
  (broadcastInDim S3200x3200 ![0, 1] bcast_S3200x1_S3200x3200_0_1 : (⟨S3200x1, .f32⟩ : BufTy).Contents (Elt F) → (⟨S3200x3200, .f32⟩ : BufTy).Contents (Elt F)) (t_main_v106 (F := F) x)

-- %108 = stablehlo.divide %104, %107 : tensor<3200x3200xf32>
def t_main_v108 (x : (⟨S1x3200x512, .f32⟩ : BufTy).Contents (Elt F)) : (⟨S3200x3200, .f32⟩ : BufTy).Contents (Elt F) :=
  (Host.divf : (⟨S3200x3200, .f32⟩ : BufTy).Contents (Elt F) → (⟨S3200x3200, .f32⟩ : BufTy).Contents (Elt F) → (⟨S3200x3200, .f32⟩ : BufTy).Contents (Elt F)) (t_main_v104 (F := F) x) (t_main_v107 (F := F) x)

-- %109 = stablehlo.multiply %93, %108 : tensor<3200x3200xf32>
def t_main_v109 (x : (⟨S1x3200x512, .f32⟩ : BufTy).Contents (Elt F)) : (⟨S3200x3200, .f32⟩ : BufTy).Contents (Elt F) :=
  (mulf : (⟨S3200x3200, .f32⟩ : BufTy).Contents (Elt F) → (⟨S3200x3200, .f32⟩ : BufTy).Contents (Elt F) → (⟨S3200x3200, .f32⟩ : BufTy).Contents (Elt F)) (t_main_v93 (F := F) x) (t_main_v108 (F := F) x)

-- %110 = stablehlo.multiply %93, %108 : tensor<3200x3200xf32>
def t_main_v110 (x : (⟨S1x3200x512, .f32⟩ : BufTy).Contents (Elt F)) : (⟨S3200x3200, .f32⟩ : BufTy).Contents (Elt F) :=
  (mulf : (⟨S3200x3200, .f32⟩ : BufTy).Contents (Elt F) → (⟨S3200x3200, .f32⟩ : BufTy).Contents (Elt F) → (⟨S3200x3200, .f32⟩ : BufTy).Contents (Elt F)) (t_main_v93 (F := F) x) (t_main_v108 (F := F) x)

-- %cst_16 = stablehlo.constant dense<0.000000e+00> : tensor<f32>
def t_main_cst_16 : (⟨S_, .f32⟩ : BufTy).Contents (Elt F) :=
  (constant S_ .f32 0x00000000#32)

-- %111 = stablehlo.reduce(%110 init: %cst_16) applies stablehlo.add across dimensions = [1] : (tensor<3200x3200xf32>, tensor<f32>) -> tensor<3200xf32> {
def t_main_v111 (x : (⟨S1x3200x512, .f32⟩ : BufTy).Contents (Elt F)) : (⟨S3200, .f32⟩ : BufTy).Contents (Elt F) :=
  ((fun x v => Host.reduceAdd x v reducesTo_S3200x3200_S3200_d1 h_S_) : (⟨S3200x3200, .f32⟩ : BufTy).Contents (Elt F) → (⟨S_, .f32⟩ : BufTy).Contents (Elt F) → (⟨S3200, .f32⟩ : BufTy).Contents (Elt F)) (t_main_v110 (F := F) x) (t_main_cst_16 (F := F))

-- %112 = stablehlo.broadcast_in_dim %111, dims = [0] : (tensor<3200xf32>) -> tensor<3200x1xf32>
def t_main_v112 (x : (⟨S1x3200x512, .f32⟩ : BufTy).Contents (Elt F)) : (⟨S3200x1, .f32⟩ : BufTy).Contents (Elt F) :=
  (broadcastInDim S3200x1 ![0] bcast_S3200_S3200x1_0 : (⟨S3200, .f32⟩ : BufTy).Contents (Elt F) → (⟨S3200x1, .f32⟩ : BufTy).Contents (Elt F)) (t_main_v111 (F := F) x)

-- %cst_17 = stablehlo.constant dense<9.99999993E-9> : tensor<f32>
def t_main_cst_17 : (⟨S_, .f32⟩ : BufTy).Contents (Elt F) :=
  (constant S_ .f32 0x322BCC77#32)

-- %113 = stablehlo.broadcast_in_dim %cst_17, dims = [] : (tensor<f32>) -> tensor<3200x1xf32>
def t_main_v113 : (⟨S3200x1, .f32⟩ : BufTy).Contents (Elt F) :=
  (broadcastInDim S3200x1 ![] bcast_S_S3200x1 : (⟨S_, .f32⟩ : BufTy).Contents (Elt F) → (⟨S3200x1, .f32⟩ : BufTy).Contents (Elt F)) (t_main_cst_17 (F := F))

-- %114 = stablehlo.add %112, %113 : tensor<3200x1xf32>
def t_main_v114 (x : (⟨S1x3200x512, .f32⟩ : BufTy).Contents (Elt F)) : (⟨S3200x1, .f32⟩ : BufTy).Contents (Elt F) :=
  (addf : (⟨S3200x1, .f32⟩ : BufTy).Contents (Elt F) → (⟨S3200x1, .f32⟩ : BufTy).Contents (Elt F) → (⟨S3200x1, .f32⟩ : BufTy).Contents (Elt F)) (t_main_v112 (F := F) x) (t_main_v113 (F := F))

-- %115 = stablehlo.broadcast_in_dim %114, dims = [0, 1] : (tensor<3200x1xf32>) -> tensor<3200x3200xf32>
def t_main_v115 (x : (⟨S1x3200x512, .f32⟩ : BufTy).Contents (Elt F)) : (⟨S3200x3200, .f32⟩ : BufTy).Contents (Elt F) :=
  (broadcastInDim S3200x3200 ![0, 1] bcast_S3200x1_S3200x3200_0_1 : (⟨S3200x1, .f32⟩ : BufTy).Contents (Elt F) → (⟨S3200x3200, .f32⟩ : BufTy).Contents (Elt F)) (t_main_v114 (F := F) x)

-- %116 = stablehlo.divide %109, %115 : tensor<3200x3200xf32>
def t_main_v116 (x : (⟨S1x3200x512, .f32⟩ : BufTy).Contents (Elt F)) : (⟨S3200x3200, .f32⟩ : BufTy).Contents (Elt F) :=
  (Host.divf : (⟨S3200x3200, .f32⟩ : BufTy).Contents (Elt F) → (⟨S3200x3200, .f32⟩ : BufTy).Contents (Elt F) → (⟨S3200x3200, .f32⟩ : BufTy).Contents (Elt F)) (t_main_v109 (F := F) x) (t_main_v115 (F := F) x)

/-- The first result: the masked product applied to the input's heads, beside those heads, as a term of the second argument. -/
def xout (x : (⟨S1x3200x512, .f32⟩ : BufTy).Contents (Elt F)) : (⟨S1x3200x1024, .f32⟩ : BufTy).Contents (Elt F) := t_main_v86 x

/-- The second result: the thresholded, row-normalized similarity, as a term of the second argument. -/
def sim (x : (⟨S1x3200x512, .f32⟩ : BufTy).Contents (Elt F)) : (⟨S3200x3200, .f32⟩ : BufTy).Contents (Elt F) := t_main_v116 x

end Cert.RefTerms

end
-- ==== Proof.RefRunVals.lean ====
import proofs.«174083_j4664334483724_2_alg».proof.Proof.Gen.ReferenceIdeal
import Idealize.ShloMosaic.Lib.StableHlo.Run
import proofs.«174083_j4664334483724_2_alg».proof.Proof.RefRun
import proofs.«174083_j4664334483724_2_alg».proof.Proof.RefRunTerms

noncomputable section

namespace Cert.ReferenceIdeal.HandRun

open Cert.RefTerms Cert.ReferenceIdeal Cert.ReferenceIdeal.Gen Idealize.ShloMosaic Idealize.ShloMosaic.TcCoe Idealize.SL.Sem Idealize.ShloMosaic.StableHlo

variable {F : FTy → Type} [FloatOps F]

/-! The run read back window by window: the contents after each window, named, and for each buffer a later window or a
result reads, that its contents then are the named term of the second argument's launch contents. Each lemma unfolds the
window's fold at the buffer: an operation that writes the buffer read gives its function of the contents before it, any
other leaves it; what is left is the term spelt out over the earlier windows' lemmas, equal to the named term by
unfolding the names. The operations whose results no result depends on (the two-layer perceptron and the attention over
its output) are passed over unread. -/

/-- The contents after the first window. -/
def val1 (V : Valuation τ sig (Elt F)) : Valuation τ sig (Elt F) := after ops0 V
/-- The contents after the second window. -/
def val2 (V : Valuation τ sig (Elt F)) : Valuation τ sig (Elt F) := after ops1 (val1 V)
/-- The contents after the third window: after the whole run. -/
def val3 (V : Valuation τ sig (Elt F)) : Valuation τ sig (Elt F) := after ops2 (val2 V)

theorem after_ops_eq (V : Valuation τ sig (Elt F)) : after ops V = val3 V := after_ops V

theorem val1_keep (V : Valuation τ sig (Elt F)) (r : Ref sig .tc) (h : r ∉ ops0_W) :
    val1 V (Proc.devRef .tc r) = V (Proc.devRef .tc r) := ops0_keep V r h
theorem val2_keep (V : Valuation τ sig (Elt F)) (r : Ref sig .tc) (h : r ∉ ops1_W) :
    val2 V (Proc.devRef .tc r) = val1 V (Proc.devRef .tc r) := ops1_keep (val1 V) r h
theorem val3_keep (V : Valuation τ sig (Elt F)) (r : Ref sig .tc) (h : r ∉ ops2_W) :
    val3 V (Proc.devRef .tc r) = val2 V (Proc.devRef .tc r) := ops2_keep (val2 V) r h

/-- No operation writes an argument: a buffer none of the three windows writes holds its launch contents at the end. -/
theorem after_ops_keep (V : Valuation τ sig (Elt F)) (r : Ref sig .tc) (h0 : r ∉ ops0_W) (h1 : r ∉ ops1_W) (h2 : r ∉ ops2_W) :
    after ops V (Proc.devRef .tc r) = V (Proc.devRef .tc r) := by
  rw [after_ops_eq, val3_keep V r h2, val2_keep V r h1, val1_keep V r h0]

theorem kept_arg0 (V : Valuation τ sig (Elt F)) : after ops V (main_arg0 : DevRef τ sig) = V (main_arg0 : DevRef τ sig) :=
  after_ops_keep V main_arg0 (by decide) (by decide) (by decide)
theorem kept_arg1 (V : Valuation τ sig (Elt F)) : after ops V (main_arg1 : DevRef τ sig) = V (main_arg1 : DevRef τ sig) :=
  after_ops_keep V main_arg1 (by decide) (by decide) (by decide)
theorem kept_arg2 (V : Valuation τ sig (Elt F)) : after ops V (main_arg2 : DevRef τ sig) = V (main_arg2 : DevRef τ sig) :=
  after_ops_keep V main_arg2 (by decide) (by decide) (by decide)
theorem kept_arg3 (V : Valuation τ sig (Elt F)) : after ops V (main_arg3 : DevRef τ sig) = V (main_arg3 : DevRef τ sig) :=
  after_ops_keep V main_arg3 (by decide) (by decide) (by decide)
theorem kept_arg4 (V : Valuation τ sig (Elt F)) : after ops V (main_arg4 : DevRef τ sig) = V (main_arg4 : DevRef τ sig) :=
  after_ops_keep V main_arg4 (by decide) (by decide) (by decide)
theorem kept_arg5 (V : Valuation τ sig (Elt F)) : after ops V (main_arg5 : DevRef τ sig) = V (main_arg5 : DevRef τ sig) :=
  after_ops_keep V main_arg5 (by decide) (by decide) (by decide)
theorem kept_arg6 (V : Valuation τ sig (Elt F)) : after ops V (main_arg6 : DevRef τ sig) = V (main_arg6 : DevRef τ sig) :=
  after_ops_keep V main_arg6 (by decide) (by decide) (by decide)
theorem kept_arg7 (V : Valuation τ sig (Elt F)) : after ops V (main_arg7 : DevRef τ sig) = V (main_arg7 : DevRef τ sig) :=
  after_ops_keep V main_arg7 (by decide) (by decide) (by decide)

/-! ### After the first window: the heads, their normalized Gram matrix, the row indices -/

set_option maxRecDepth 8192 in
set_option maxHeartbeats 4000000 in
attribute [local irreducible] Host.reduceAdd Host.reduce concatenate transpose shapeCast broadcastInDim in
/-- The input's heads: the second argument split into eight heads of sixty-four and the head axis moved out. -/
theorem val1_main_v21 (V : Valuation τ sig (Elt F)) : val1 V (no_index (Proc.devRef .tc main_v21)) = t_main_v21 (V (Proc.devRef .tc main_arg1)) := by
  unfold val1
  simp only [ops0]
  after_results_simp
  rfl

set_option maxRecDepth 8192 in
set_option maxHeartbeats 4000000 in
attribute [local irreducible] Host.reduceAdd Host.reduce concatenate transpose shapeCast broadcastInDim in
/-- The Gram matrix of the heads' rows, each row divided by its norm plus the small constant. -/
theorem val1_main_v37 (V : Valuation τ sig (Elt F)) : val1 V (no_index (Proc.devRef .tc main_v37)) = t_main_v37 (V (Proc.devRef .tc main_arg1)) := by
  unfold val1
  simp only [ops0]
  after_results_simp
  rfl

set_option maxRecDepth 8192 in
set_option maxHeartbeats 4000000 in
attribute [local irreducible] Host.reduceAdd Host.reduce concatenate transpose shapeCast broadcastInDim in
/-- The row indices. -/
theorem val1_main_v52 (V : Valuation τ sig (Elt F)) : val1 V (no_index (Proc.devRef .tc main_v52)) = t_main_v52 := by
  unfold val1
  simp only [ops0]
  after_results_simp
  rfl

/-! ### After the second window: the first result, and what the third window reads -/

set_option maxRecDepth 8192 in
set_option maxHeartbeats 4000000 in
attribute [local irreducible] Host.reduceAdd Host.reduce concatenate transpose shapeCast broadcastInDim in
/-- The first result. -/
theorem val2_main_v86 (V : Valuation τ sig (Elt F)) : val2 V (no_index (Proc.devRef .tc main_v86)) = t_main_v86 (V (Proc.devRef .tc main_arg1)) := by
  unfold val2
  simp only [ops1]
  after_results_simp
  simp only [val1_main_v21, val1_main_v37, val1_main_v52]
  rfl

set_option maxRecDepth 8192 in
set_option maxHeartbeats 4000000 in
attribute [local irreducible] Host.reduceAdd Host.reduce concatenate transpose shapeCast broadcastInDim in
/-- The threshold indicator of the mean Gram matrix over the heads. -/
theorem val2_main_v93 (V : Valuation τ sig (Elt F)) : val2 V (no_index (Proc.devRef .tc main_v93)) = t_main_v93 (V (Proc.devRef .tc main_arg1)) := by
  unfold val2
  simp only [ops1]
  after_results_simp
  simp only [val1_main_v21, val1_main_v37, val1_main_v52]
  rfl

set_option maxRecDepth 8192 in
set_option maxHeartbeats 4000000 in
attribute [local irreducible] Host.reduceAdd Host.reduce concatenate transpose shapeCast broadcastInDim in
/-- The mean over the heads of the masked Gram matrix. -/
theorem val2_main_v97 (V : Valuation τ sig (Elt F)) : val2 V (no_index (Proc.devRef .tc main_v97)) = t_main_v97 (V (Proc.devRef .tc main_arg1)) := by
  unfold val2
  simp only [ops1]
  after_results_simp
  simp only [val1_main_v21, val1_main_v37, val1_main_v52]
  rfl

set_option maxRecDepth 8192 in
set_option maxHeartbeats 4000000 in
attribute [local irreducible] Host.reduceAdd Host.reduce concatenate transpose shapeCast broadcastInDim in
/-- Its row maxima, broadcast along the rows. -/
theorem val2_main_v102 (V : Valuation τ sig (Elt F)) : val2 V (no_index (Proc.devRef .tc main_v102)) = t_main_v102 (V (Proc.devRef .tc main_arg1)) := by
  unfold val2
  simp only [ops1]
  after_results_simp
  simp only [val1_main_v21, val1_main_v37, val1_main_v52]
  rfl

/-! ### After the third window: the second result -/

set_option maxRecDepth 8192 in
set_option maxHeartbeats 4000000 in
attribute [local irreducible] Host.reduceAdd Host.reduce concatenate transpose shapeCast broadcastInDim in
/-- The second result. -/
theorem val3_main_v116 (V : Valuation τ sig (Elt F)) : val3 V (no_index (Proc.devRef .tc main_v116)) = t_main_v116 (V (Proc.devRef .tc main_arg1)) := by
  unfold val3
  simp only [ops2]
  after_results_simp
  simp only [val2_main_v93, val2_main_v97, val2_main_v102]
  rfl

/-- The first result is not written by the third window. -/
theorem val3_main_v86 (V : Valuation τ sig (Elt F)) : val3 V (no_index (Proc.devRef .tc main_v86)) = t_main_v86 (V (Proc.devRef .tc main_arg1)) :=
  (val3_keep V main_v86 (by decide)).trans (val2_main_v86 V)

/-! ### The results of the run -/

/-- After the run the first result's buffer holds the first result's term of the second argument's launch contents. -/
theorem res_v86 (V : Valuation τ sig (Elt F)) :
    after ops V (main_v86 : DevRef τ sig) = xout (V (main_arg1 : DevRef τ sig)) := by
  rw [after_ops_eq]; exact val3_main_v86 V

/-- After the run the second result's buffer holds the second result's term of the second argument's launch contents. -/
theorem res_v116 (V : Valuation τ sig (Elt F)) :
    after ops V (main_v116 : DevRef τ sig) = sim (V (main_arg1 : DevRef τ sig)) := by
  rw [after_ops_eq]; exact val3_main_v116 V

/-- On every device, for any float values, from any memory with zero counters: every weakly fair execution of the entry
    function terminates with each result at its term of the second argument's launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = xout (m ((c.tc : Thread nD τ).loc main_arg1))
      ∧ r.2.mem ((c.tc : Thread nD τ).loc main_v116) = sim (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v86).trans (res_v86 _), (h c main_v116).trans (res_v116 _),
      (h c main_arg0).trans (kept_arg0 _), (h c main_arg1).trans (kept_arg1 _), (h c main_arg2).trans (kept_arg2 _), (h c main_arg3).trans (kept_arg3 _), (h c main_arg4).trans (kept_arg4 _), (h c main_arg5).trans (kept_arg5 _), (h c main_arg6).trans (kept_arg6 _), (h c main_arg7).trans (kept_arg7 _)⟩)
    (run_after m ρ)

end Cert.ReferenceIdeal.HandRun

end
-- ==== Proof.RefOpsLayout.lean ====
/-
  The array program's layout operations read at an index: the split of the 512 columns into 8 heads
  of 64 lanes and back, the exchange of the row and head axes, a leading unit axis dropped, the
  rank-raising repetitions, and the two halves of the concatenated result.  Each lemma names the one
  entry of the operand that the result's entry at explicit coordinates is.
-/
import proofs.«174083_j4664334483724_2_alg».proof.ReferenceIdeal
import Idealize.ShloMosaic.Lib.ValueLayout
import Idealize.ShloMosaic.Lib.IdealHost

open scoped BigOperators

noncomputable section

namespace Cert.RefOps

open Cert.ReferenceIdeal Idealize.ShloMosaic Idealize.ShloMosaic.ValueIdx

variable {α : Type}

/-! ## Reshapes -/

/-- The 512 columns split into 8 heads of 64 lanes: entry (n, h, d) is column 64·h + d of row n. -/
theorem split_apply (a : S1x3200x512.Idx → α) (h : S1x3200x512.ShapeCasts S1x3200x8x64)
    (n : Fin 3200) (hd : Fin 8) (d : Fin 64) :
    shapeCast S1x3200x8x64 a h (ix4 (0 : Fin 1) n hd d)
      = a (ix3 (0 : Fin 1) n ⟨64 * hd.val + d.val, by have := hd.isLt; have := d.isLt; omega⟩) := by
  refine shapeCast_apply a h _ _ ?_
  rw [Shape.rowMajor_val_three, Shape.rowMajor_val_four]
  show ((0 * 3200 + n.val) * 512 + (64 * hd.val + d.val)) = (((0 * 3200 + n.val) * 8 + hd.val) * 64 + d.val)
  omega

/-- The 8 heads of 64 lanes merged back into 512 columns: column j of row n is lane j mod 64 of head j / 64. -/
theorem merge_apply (y : S1x3200x8x64.Idx → α) (h : S1x3200x8x64.ShapeCasts S1x3200x512)
    (n : Fin 3200) (j : Fin 512) :
    shapeCast S1x3200x512 y h (ix3 (0 : Fin 1) n j)
      = y (ix4 (0 : Fin 1) n ⟨j.val / 64, by have := j.isLt; omega⟩ ⟨j.val % 64, Nat.mod_lt _ (by norm_num)⟩) := by
  refine shapeCast_apply y h _ _ ?_
  rw [Shape.rowMajor_val_three, Shape.rowMajor_val_four]
  show (((0 * 3200 + n.val) * 8 + j.val / 64) * 64 + j.val % 64) = ((0 * 3200 + n.val) * 512 + j.val)
  omega

/-- A leading unit axis dropped from [1, 3200, 3200]. -/
theorem squeeze_apply (y : S1x3200x3200.Idx → α) (h : S1x3200x3200.ShapeCasts S3200x3200) (n m : Fin 3200) :
    shapeCast S3200x3200 y h (ix2 n m) = y (ix3 (0 : Fin 1) n m) := by
  refine shapeCast_apply y h _ _ ?_
  rw [Shape.rowMajor_val_three, Shape.rowMajor_val_two]
  show ((0 * 3200 + n.val) * 3200 + m.val) = (n.val * 3200 + m.val)
  omega

/-! ## Transposes -/

/-- Rows and heads exchanged, [1, 3200, 8, 64] to [1, 8, 3200, 64]. -/
theorem toHeads_apply (y : S1x3200x8x64.Idx → α) (h : S1x3200x8x64.Transposes [0, 2, 1, 3] S1x8x3200x64)
    (hd : Fin 8) (n : Fin 3200) (d : Fin 64) :
    transpose S1x8x3200x64 [0, 2, 1, 3] y h (ix4 (0 : Fin 1) hd n d) = y (ix4 (0 : Fin 1) n hd d) := by
  refine transpose_apply _ y h _ _ fun b => ?_
  fin_cases b <;> rfl

/-- Heads and rows exchanged back, [1, 8, 3200, 64] to [1, 3200, 8, 64]. -/
theorem toRows_apply (y : S1x8x3200x64.Idx → α) (h : S1x8x3200x64.Transposes [0, 2, 1, 3] S1x3200x8x64)
    (n : Fin 3200) (hd : Fin 8) (d : Fin 64) :
    transpose S1x3200x8x64 [0, 2, 1, 3] y h (ix4 (0 : Fin 1) n hd d) = y (ix4 (0 : Fin 1) hd n d) := by
  refine transpose_apply _ y h _ _ fun b => ?_
  fin_cases b <;> rfl

/-! ## Repetitions -/

/-- A scalar repeated over any shape. -/
theorem bcast0_apply {T : Shape} (h : S_.BroadcastsInDim T ![]) (x : S_.Idx → α) (j : T.Idx) :
    broadcastInDim T ![] h x j = x ix0 := broadcastInDim_scalar_apply h x j

/-- [1, 8, 3200] given a trailing unit axis. -/
theorem bcast_keep_apply (h : S1x8x3200.BroadcastsInDim S1x8x3200x1 ![0, 1, 2]) (x : S1x8x3200.Idx → α)
    (hd : Fin 8) (n : Fin 3200) :
    broadcastInDim S1x8x3200x1 ![0, 1, 2] h x (ix4 (0 : Fin 1) hd n (0 : Fin 1)) = x (ix3 (0 : Fin 1) hd n) := by
  refine broadcastInDim_apply _ h x _ _ fun a => ?_
  fin_cases a <;> rfl

/-- [1, 8, 3200, 1] repeated along the 64 lanes. -/
theorem bcast_lanes_apply (h : S1x8x3200x1.BroadcastsInDim S1x8x3200x64 ![0, 1, 2, 3]) (x : S1x8x3200x1.Idx → α)
    (hd : Fin 8) (n : Fin 3200) (d : Fin 64) :
    broadcastInDim S1x8x3200x64 ![0, 1, 2, 3] h x (ix4 (0 : Fin 1) hd n d) = x (ix4 (0 : Fin 1) hd n (0 : Fin 1)) := by
  refine broadcastInDim_apply _ h x _ _ fun a => ?_
  fin_cases a <;> rfl

/-- A vector of 3200 as one row. -/
theorem bcast_row_apply (h : S3200.BroadcastsInDim S1x3200 ![1]) (x : S3200.Idx → α) (m : Fin 3200) :
    broadcastInDim S1x3200 ![1] h x (ix2 (0 : Fin 1) m) = x (ix1 m) := by
  refine broadcastInDim_apply _ h x _ _ fun a => ?_
  fin_cases a; rfl

/-- A vector of 3200 as one column. -/
theorem bcast_col_apply (h : S3200.BroadcastsInDim S3200x1 ![0]) (x : S3200.Idx → α) (n : Fin 3200) :
    broadcastInDim S3200x1 ![0] h x (ix2 n (0 : Fin 1)) = x (ix1 n) := by
  refine broadcastInDim_apply _ h x _ _ fun a => ?_
  fin_cases a; rfl

/-- One row repeated over 3200 rows. -/
theorem bcast_rows_apply (h : S1x3200.BroadcastsInDim S3200x3200 ![0, 1]) (x : S1x3200.Idx → α) (n m : Fin 3200) :
    broadcastInDim S3200x3200 ![0, 1] h x (ix2 n m) = x (ix2 (0 : Fin 1) m) := by
  refine broadcastInDim_apply _ h x _ _ fun a => ?_
  fin_cases a <;> rfl

/-- One column repeated over 3200 columns. -/
theorem bcast_cols_apply (h : S3200x1.BroadcastsInDim S3200x3200 ![0, 1]) (x : S3200x1.Idx → α) (n m : Fin 3200) :
    broadcastInDim S3200x3200 ![0, 1] h x (ix2 n m) = x (ix2 n (0 : Fin 1)) := by
  refine broadcastInDim_apply _ h x _ _ fun a => ?_
  fin_cases a <;> rfl

/-- [3200, 3200] given two leading unit axes. -/
theorem bcast_lead_apply (h : S3200x3200.BroadcastsInDim S1x1x3200x3200 ![2, 3]) (x : S3200x3200.Idx → α)
    (n m : Fin 3200) :
    broadcastInDim S1x1x3200x3200 ![2, 3] h x (ix4 (0 : Fin 1) (0 : Fin 1) n m) = x (ix2 n m) := by
  refine broadcastInDim_apply _ h x _ _ fun a => ?_
  fin_cases a <;> rfl

/-- [1, 1, 3200, 3200] repeated over the 8 heads. -/
theorem bcast_heads_apply (h : S1x1x3200x3200.BroadcastsInDim S1x8x3200x3200 ![0, 1, 2, 3])
    (x : S1x1x3200x3200.Idx → α) (hd : Fin 8) (n m : Fin 3200) :
    broadcastInDim S1x8x3200x3200 ![0, 1, 2, 3] h x (ix4 (0 : Fin 1) hd n m)
      = x (ix4 (0 : Fin 1) (0 : Fin 1) n m) := by
  refine broadcastInDim_apply _ h x _ _ fun a => ?_
  fin_cases a <;> rfl

/-! ## The concatenation along the columns -/

/-- Columns below 512 of the concatenation are the first piece's. -/
theorem concat_left_apply (x₁ x₂ : S1x3200x512.Idx → α)
    (h : Shape.Concatenates [S1x3200x512, S1x3200x512] S1x3200x1024 2) (n : Fin 3200) (j : Fin 1024) (hj : j.val < 512) :
    concatenate S1x3200x1024 2 [⟨S1x3200x512, x₁⟩, ⟨S1x3200x512, x₂⟩] h (ix3 (0 : Fin 1) n j)
      = x₁ (ix3 (0 : Fin 1) n ⟨j.val, hj⟩) := by
  refine concatenate_pair_apply_left 2 x₁ x₂ h _ rfl _ fun b => ?_
  fin_cases b <;> rfl

/-- Columns from 512 on are the second piece's, 512 less. -/
theorem concat_right_apply (x₁ x₂ : S1x3200x512.Idx → α)
    (h : Shape.Concatenates [S1x3200x512, S1x3200x512] S1x3200x1024 2) (n : Fin 3200) (j : Fin 1024) (hj : ¬ j.val < 512) :
    concatenate S1x3200x1024 2 [⟨S1x3200x512, x₁⟩, ⟨S1x3200x512, x₂⟩] h (ix3 (0 : Fin 1) n j)
      = x₂ (ix3 (0 : Fin 1) n ⟨j.val - 512, by have := j.isLt; omega⟩) := by
  refine concatenate_pair_apply_right 2 x₁ x₂ h _ rfl rfl _ (fun b hb => ?_) ?_
  · fin_cases b
    · rfl
    · rfl
    · exact absurd rfl hb
  · show (j.val - 512) + 512 = j.val
    omega

end Cert.RefOps

end
-- ==== Proof.RefOpsSum.lean ====
/-
  The array program's sums read at an index, on the extended reals: the two batched matrix
  products (over the 64 lanes; over the 3200 rows), the sum of squares over the lanes, the sum
  over the 8 heads, and the row sums of a square array.  Each is the initial value plus a finite
  sum over the contracted or reduced coordinate, at explicit coordinates.
-/
import proofs.«174083_j4664334483724_2_alg».proof.ReferenceIdeal
import Idealize.ShloMosaic.Lib.ValueLayout
import Idealize.ShloMosaic.Lib.IdealHost

open scoped BigOperators

noncomputable section

namespace Cert.RefOps

open Cert.ReferenceIdeal Idealize.ShloMosaic Idealize.ShloMosaic.ValueIdx

/-! ## The batched products -/

section Dot
variable [Facts₀]

/-- Rows against rows within a head: entry (h, n, m) is the sum over the lanes of the products of rows n and m. -/
theorem dot_rows_apply (A B : FVec Ideal S1x8x3200x64 .f32) (hd : Fin 8) (n m : Fin 3200) :
    Host.dotGeneral dot_S1x8x3200x64_S1x8x3200x64_S1x8x3200x3200_3_3_2_2_01_01 none A B (ix4 (0 : Fin 1) hd n m)
      = ∑ d : Fin 64, A (ix4 (0 : Fin 1) hd n d) * B (ix4 (0 : Fin 1) hd m d) := by
  show FloatOps.dotGeneral _ none _ A B (ix4 (0 : Fin 1) hd n m) = _
  rw [Ideal.dotGeneral_apply,
    ← Equiv.sum_comp (contrEquiv1 dot_S1x8x3200x64_S1x8x3200x64_S1x8x3200x3200_3_3_2_2_01_01 64 rfl rfl).symm]
  refine Finset.sum_congr rfl fun c _ => ?_
  have c3 := contrEquiv1_symm_val dot_S1x8x3200x64_S1x8x3200x64_S1x8x3200x3200_3_3_2_2_01_01 64 rfl rfl c
  have l3 : dot_S1x8x3200x64_S1x8x3200x64_S1x8x3200x3200_3_3_2_2_01_01.lhsIdx (ix4 (0 : Fin 1) hd n m)
      ((contrEquiv1 _ 64 rfl rfl).symm c) = ix4 (0 : Fin 1) hd n c := by
    funext ax; apply Fin.ext
    match ax with
    | ⟨0, _⟩ => simp [DotDims.lhsIdx, dot_S1x8x3200x64_S1x8x3200x64_S1x8x3200x3200_3_3_2_2_01_01]
    | ⟨1, _⟩ => simp [DotDims.lhsIdx, dot_S1x8x3200x64_S1x8x3200x64_S1x8x3200x3200_3_3_2_2_01_01]; rfl
    | ⟨2, _⟩ => simp [DotDims.lhsIdx, dot_S1x8x3200x64_S1x8x3200x64_S1x8x3200x3200_3_3_2_2_01_01]; rfl
    | ⟨3, _⟩ => simp [DotDims.lhsIdx, dot_S1x8x3200x64_S1x8x3200x64_S1x8x3200x3200_3_3_2_2_01_01]; exact c3
  have r3 : dot_S1x8x3200x64_S1x8x3200x64_S1x8x3200x3200_3_3_2_2_01_01.rhsIdx (ix4 (0 : Fin 1) hd n m)
      ((contrEquiv1 _ 64 rfl rfl).symm c) = ix4 (0 : Fin 1) hd m c := by
    funext ax; apply Fin.ext
    match ax with
    | ⟨0, _⟩ => simp [DotDims.rhsIdx, dot_S1x8x3200x64_S1x8x3200x64_S1x8x3200x3200_3_3_2_2_01_01]
    | ⟨1, _⟩ => simp [DotDims.rhsIdx, dot_S1x8x3200x64_S1x8x3200x64_S1x8x3200x3200_3_3_2_2_01_01]; rfl
    | ⟨2, _⟩ => simp [DotDims.rhsIdx, dot_S1x8x3200x64_S1x8x3200x64_S1x8x3200x3200_3_3_2_2_01_01]; rfl
    | ⟨3, _⟩ => simp [DotDims.rhsIdx, dot_S1x8x3200x64_S1x8x3200x64_S1x8x3200x3200_3_3_2_2_01_01]; exact c3
  rw [l3, r3]

/-- A square array against the rows within a head: entry (h, n, d) is the sum over the rows m of
    the square's (n, m) times lane d of row m. -/
theorem dot_ctx_apply (A : FVec Ideal S1x8x3200x3200 .f32) (B : FVec Ideal S1x8x3200x64 .f32)
    (hd : Fin 8) (n : Fin 3200) (d : Fin 64) :
    Host.dotGeneral dot_S1x8x3200x3200_S1x8x3200x64_S1x8x3200x64_3_2_2_3_01_01 none A B (ix4 (0 : Fin 1) hd n d)
      = ∑ m : Fin 3200, A (ix4 (0 : Fin 1) hd n m) * B (ix4 (0 : Fin 1) hd m d) := by
  show FloatOps.dotGeneral _ none _ A B (ix4 (0 : Fin 1) hd n d) = _
  rw [Ideal.dotGeneral_apply,
    ← Equiv.sum_comp (contrEquiv1 dot_S1x8x3200x3200_S1x8x3200x64_S1x8x3200x64_3_2_2_3_01_01 3200 rfl rfl).symm]
  refine Finset.sum_congr rfl fun c _ => ?_
  have c3 := contrEquiv1_symm_val dot_S1x8x3200x3200_S1x8x3200x64_S1x8x3200x64_3_2_2_3_01_01 3200 rfl rfl c
  have l3 : dot_S1x8x3200x3200_S1x8x3200x64_S1x8x3200x64_3_2_2_3_01_01.lhsIdx (ix4 (0 : Fin 1) hd n d)
      ((contrEquiv1 _ 3200 rfl rfl).symm c) = ix4 (0 : Fin 1) hd n c := by
    funext ax; apply Fin.ext
    match ax with
    | ⟨0, _⟩ => simp [DotDims.lhsIdx, dot_S1x8x3200x3200_S1x8x3200x64_S1x8x3200x64_3_2_2_3_01_01]
    | ⟨1, _⟩ => simp [DotDims.lhsIdx, dot_S1x8x3200x3200_S1x8x3200x64_S1x8x3200x64_3_2_2_3_01_01]; rfl
    | ⟨2, _⟩ => simp [DotDims.lhsIdx, dot_S1x8x3200x3200_S1x8x3200x64_S1x8x3200x64_3_2_2_3_01_01]; rfl
    | ⟨3, _⟩ => simp [DotDims.lhsIdx, dot_S1x8x3200x3200_S1x8x3200x64_S1x8x3200x64_3_2_2_3_01_01]; exact c3
  have r3 : dot_S1x8x3200x3200_S1x8x3200x64_S1x8x3200x64_3_2_2_3_01_01.rhsIdx (ix4 (0 : Fin 1) hd n d)
      ((contrEquiv1 _ 3200 rfl rfl).symm c) = ix4 (0 : Fin 1) hd c d := by
    funext ax; apply Fin.ext
    match ax with
    | ⟨0, _⟩ => simp [DotDims.rhsIdx, dot_S1x8x3200x3200_S1x8x3200x64_S1x8x3200x64_3_2_2_3_01_01]
    | ⟨1, _⟩ => simp [DotDims.rhsIdx, dot_S1x8x3200x3200_S1x8x3200x64_S1x8x3200x64_3_2_2_3_01_01]; rfl
    | ⟨2, _⟩ => simp [DotDims.rhsIdx, dot_S1x8x3200x3200_S1x8x3200x64_S1x8x3200x64_3_2_2_3_01_01]; exact c3
    | ⟨3, _⟩ => simp [DotDims.rhsIdx, dot_S1x8x3200x3200_S1x8x3200x64_S1x8x3200x64_3_2_2_3_01_01]; rfl
  rw [l3, r3]

end Dot

/-! ## The sums over one axis -/

/-- The sum over the 64 lanes from an initial value. -/
theorem sum_lanes_apply (x : FVec Ideal S1x8x3200x64 .f32) (init : S_.Idx → Ideal .f32)
    (h' : S1x8x3200x64.ReducesTo [3] S1x8x3200) (hu : 0 < S_.numel) (hd : Fin 8) (n : Fin 3200) :
    Host.reduceAdd x init h' hu (ix3 (0 : Fin 1) hd n)
      = init (Shape.Idx.first hu) + ∑ d : Fin 64, x (ix4 (0 : Fin 1) hd n d) := by
  have h : S1x8x3200x64.Reduces [3] S1x8x3200 := by decide
  rw [hostReduceAdd_apply, Ideal.hostReduceAdd_single h' h]
  refine congrArg _ (Finset.sum_congr rfl fun k _ => congrArg x ?_)
  funext c; apply Fin.ext
  fin_cases c <;> rfl

/-- The sum over the 8 heads from an initial value. -/
theorem sum_heads_apply (x : FVec Ideal S1x8x3200x3200 .f32) (init : S_.Idx → Ideal .f32)
    (h' : S1x8x3200x3200.ReducesTo [1] S1x3200x3200) (hu : 0 < S_.numel) (n m : Fin 3200) :
    Host.reduceAdd x init h' hu (ix3 (0 : Fin 1) n m)
      = init (Shape.Idx.first hu) + ∑ hd : Fin 8, x (ix4 (0 : Fin 1) hd n m) := by
  have h : S1x8x3200x3200.Reduces [1] S1x3200x3200 := by decide
  rw [hostReduceAdd_apply, Ideal.hostReduceAdd_single h' h]
  refine congrArg _ (Finset.sum_congr rfl fun k _ => congrArg x ?_)
  funext c; apply Fin.ext
  fin_cases c <;> rfl

/-- The sum over the 3200 columns of a square array from an initial value. -/
theorem sum_cols_apply (x : FVec Ideal S3200x3200 .f32) (init : S_.Idx → Ideal .f32)
    (h' : S3200x3200.ReducesTo [1] S3200) (hu : 0 < S_.numel) (n : Fin 3200) :
    Host.reduceAdd x init h' hu (ix1 n)
      = init (Shape.Idx.first hu) + ∑ m : Fin 3200, x (ix2 n m) := by
  have h : S3200x3200.Reduces [1] S3200 := by decide
  rw [hostReduceAdd_apply, Ideal.hostReduceAdd_single h' h]
  refine congrArg _ (Finset.sum_congr rfl fun k _ => congrArg x ?_)
  funext c; apply Fin.ext
  fin_cases c <;> rfl

/-- The binary word of zero is the number zero. -/
theorem const_zero_first (hu : 0 < S_.numel) :
    (constant (F := Ideal) S_ .f32 0x00000000#32) (Shape.Idx.first hu) = 0 := by
  show Ideal.ofBits .f32 0x00000000#32 = 0
  exact Ideal.ofBits_zero_f32

end Cert.RefOps

end
-- ==== Proof.RefOpsMask.lean ====
/-
  The array program's block mask read at an index.  The mask is built from the indices 0 … 3199
  as 32-bit words: the floored quotient of the row index by ten (a truncated quotient, corrected
  by one where the signs differ and the division is inexact — never, for a nonnegative index),
  times ten, is the first column of the row's block; a column survives unless it is among the
  first nine of that block, or if it is the diagonal.  Every word involved is below 2³¹, so the
  signed comparisons are the comparisons of the natural numbers.
-/
import proofs.«174083_j4664334483724_2_alg».proof.Proof.RefRunTerms
import proofs.«174083_j4664334483724_2_alg».proof.Proof.RefOpsLayout
import proofs.«174083_j4664334483724_2_alg».proof.Proof.Spec
import Idealize.ShloMosaic.Lib.Affine

open scoped BigOperators

noncomputable section

namespace Cert.RefOps

open Cert.ReferenceIdeal Cert.RefTerms Idealize.ShloMosaic Idealize.ShloMosaic.ValueIdx

/-! ## Words below 2³¹ -/

/-- A natural number below 2³¹ as a word reads back as itself, signed. -/
theorem toInt_ofNat_small (n : Nat) (hn : n < 2 ^ 31) : (BitVec.ofNat 32 n).toInt = (n : Int) := by
  rw [BitVec.toInt_ofNat']
  exact Int.bmod_eq_of_le (by omega) (by omega)

/-- … and unsigned. -/
theorem toNat_ofNat_small (n : Nat) (hn : n < 2 ^ 31) : (BitVec.ofNat 32 n).toNat = n := by
  rw [BitVec.toNat_ofNat]; exact Nat.mod_eq_of_lt (by omega)

/-- Its top bit is clear. -/
theorem msb_ofNat_small (n : Nat) (hn : n < 2 ^ 31) : (BitVec.ofNat 32 n).msb = false := by
  rw [BitVec.msb_eq_false_iff_two_mul_lt, toNat_ofNat_small n hn]; omega

/-- Two such words are equal exactly when the numbers are. -/
theorem ofNat_small_inj (a b : Nat) (ha : a < 2 ^ 31) (hb : b < 2 ^ 31) :
    BitVec.ofNat 32 a = BitVec.ofNat 32 b ↔ a = b := by
  constructor
  · intro h
    have := congrArg BitVec.toNat h
    rwa [toNat_ofNat_small a ha, toNat_ofNat_small b hb] at this
  · rintro rfl; rfl

/-- The host's signed quotient of a small nonnegative word by ten is the quotient of the numbers. -/
theorem divsi_ten (n : Nat) (hn : n < 2 ^ 31) :
    IntOp.divsi .host (BitVec.ofNat 32 n) 10#32 = BitVec.ofNat 32 (n / 10) := by
  have hc : ¬ IntOp.SDivCorner (BitVec.ofNat 32 n) 10#32 := IntOp.not_corner_of_pos (by decide)
  rw [IntOp.divsi, if_neg hc, BitVec.sdiv_eq, msb_ofNat_small n hn, show (10#32 : BitVec 32).msb = false from by decide]
  dsimp only
  apply BitVec.eq_of_toNat_eq
  rw [BitVec.udiv_eq, BitVec.toNat_udiv, toNat_ofNat_small n hn, show (10#32 : BitVec 32).toNat = 10 from rfl,
    toNat_ofNat_small (n / 10) (by omega)]

/-- The host's signed remainder of zero by ten is zero. -/
theorem remsi_zero_ten : IntOp.remsi .host (0#32) 10#32 = 0#32 := by
  rw [IntOp.remsi_of_pos .host (by decide)]; decide

/-- The sign of a small nonnegative word: zero at zero, one elsewhere. -/
theorem signi_word_small (n : Nat) (hn : n < 2 ^ 31) :
    (if BitVec.ofNat 32 n = 0 then (0 : BitVec 32) else if (BitVec.ofNat 32 n).msb then -1 else 1)
      = if n = 0 then 0 else 1 := by
  rw [msb_ofNat_small n hn]
  have : (BitVec.ofNat 32 n = 0) ↔ n = 0 := by
    rw [show (0 : BitVec 32) = BitVec.ofNat 32 0 from rfl]; exact ofNat_small_inj n 0 hn (by norm_num)
  by_cases h0 : n = 0
  · rw [if_pos (this.2 h0), if_pos h0]
  · rw [if_neg (fun h => h0 (this.1 h)), if_neg h0]; rfl

/-! ## The chain, entry by entry -/

section Chain
variable {F : FTy → Type} [FloatOps F]

/-- The indices as words. -/
theorem v52_apply (n : Fin 3200) : t_main_v52 (F := F) (ix1 n) = BitVec.ofNat 32 n.val := rfl
theorem v53_apply (n : Fin 3200) : t_main_v53 (F := F) (ix1 n) = BitVec.ofNat 32 n.val := rfl

/-- The truncated quotient by ten. -/
theorem call5_v2_apply (n : Fin 3200) : t_main_call5_v2 (F := F) (ix1 n) = BitVec.ofNat 32 (n.val / 10) := by
  show IntOp.divsi .host (BitVec.ofNat 32 n.val) 10#32 = _
  exact divsi_ten n.val (by have := n.isLt; omega)

/-- The correction never applies: for a nonnegative index the signs differ only at zero, where the division is exact. -/
theorem call5_v11_apply (n : Fin 3200) : ¬ t_main_call5_v11 (F := F) (ix1 n) = 1#1 := by
  show ¬ IntOp.andi
      (IntOp.cmpi .ne (if BitVec.ofNat 32 n.val = 0 then (0 : BitVec 32) else if (BitVec.ofNat 32 n.val).msb then -1 else 1)
        (if (10#32 : BitVec 32) = 0 then (0 : BitVec 32) else if (10#32 : BitVec 32).msb then -1 else 1))
      (IntOp.cmpi .ne (IntOp.remsi .host (BitVec.ofNat 32 n.val) 10#32) 0#32) = 1#1
  rw [IntOp.andi_eq_one, IntOp.cmpi_ne, IntOp.cmpi_ne, signi_word_small n.val (by have := n.isLt; omega)]
  rintro ⟨h1, h2⟩
  by_cases h0 : n.val = 0
  · rw [h0] at h2; exact h2 remsi_zero_ten
  · rw [if_neg h0] at h1; exact h1 (by decide)

/-- The floored quotient by ten. -/
theorem v54_apply (n : Fin 3200) : t_main_v54 (F := F) (ix1 n) = BitVec.ofNat 32 (n.val / 10) := by
  show Scalar.select (t_main_call5_v11 (F := F) (ix1 n)) (t_main_call5_v13 (F := F) (ix1 n)) (t_main_call5_v2 (F := F) (ix1 n)) = _
  exact (if_neg (call5_v11_apply n)).trans (call5_v2_apply n)

/-- The first column of the row's block of ten. -/
theorem v56_apply (n : Fin 3200) : t_main_v56 (F := F) (ix1 n) = BitVec.ofNat 32 (n.val / 10 * 10) := by
  show IntOp.muli (t_main_v54 (F := F) (ix1 n)) 10#32 = _
  rw [v54_apply, IntOp.muli, show (10#32 : BitVec 32) = BitVec.ofNat 32 10 from rfl, ← BitVec.ofNat_mul]

end Chain

/-! ## The comparisons -/

/-- A column survives in a row exactly when the word the program computes for the pair is one. -/
theorem keep_word (n m : Fin 3200) :
    IntOp.ori
      (~~~ (IntOp.andi (IntOp.cmpi .sge (BitVec.ofNat 32 m.val) (BitVec.ofNat 32 (n.val / 10 * 10)))
        (IntOp.cmpi .slt (BitVec.ofNat 32 m.val) (IntOp.addi (BitVec.ofNat 32 (n.val / 10 * 10)) 9#32))))
      (IntOp.cmpi .eq (BitVec.ofNat 32 m.val) (BitVec.ofNat 32 n.val)) = 1#1 ↔ Cert.Spec.keep n m := by
  have hn := n.isLt; have hm := m.isLt
  have e9 : IntOp.addi (BitVec.ofNat 32 (n.val / 10 * 10)) 9#32 = BitVec.ofNat 32 (n.val / 10 * 10 + 9) := by
    rw [IntOp.addi, show (9#32 : BitVec 32) = BitVec.ofNat 32 9 from rfl, ← BitVec.ofNat_add]
  rw [e9, IntOp.ori_eq_one, IntOp.not_eq_one, IntOp.andi_eq_one, IntOp.cmpi_sge, IntOp.cmpi_slt, IntOp.cmpi_eq,
    toInt_ofNat_small m.val (by omega), toInt_ofNat_small (n.val / 10 * 10) (by omega),
    toInt_ofNat_small (n.val / 10 * 10 + 9) (by omega), ofNat_small_inj m.val n.val (by omega) (by omega)]
  unfold Cert.Spec.keep
  constructor
  · rintro (h | h)
    · left; intro ⟨h1, h2⟩; exact h ⟨by omega, by omega⟩
    · right; exact h
  · rintro (h | h)
    · left; intro ⟨h1, h2⟩; exact h ⟨by omega, by omega⟩
    · right; exact h

section Mask
variable {F : FTy → Type} [FloatOps F]

/-- The survival word of the pair (row n, column m). -/
theorem v76_apply (n m : Fin 3200) : t_main_v76 (F := F) (ix2 n m) = 1#1 ↔ Cert.Spec.keep n m := by
  have e59 : t_main_v59 (F := F) (ix2 n m) = BitVec.ofNat 32 m.val := by
    show broadcastInDim S3200x3200 ![0, 1] _ (broadcastInDim S1x3200 ![1] _ (t_main_v53 (F := F))) (ix2 n m) = _
    rw [bcast_rows_apply, bcast_row_apply]; rfl
  have e66 : t_main_v66 (F := F) (ix2 n m) = BitVec.ofNat 32 m.val := by
    show broadcastInDim S3200x3200 ![0, 1] _ (broadcastInDim S1x3200 ![1] _ (t_main_v53 (F := F))) (ix2 n m) = _
    rw [bcast_rows_apply, bcast_row_apply]; rfl
  have e73 : t_main_v73 (F := F) (ix2 n m) = BitVec.ofNat 32 m.val := by
    show broadcastInDim S3200x3200 ![0, 1] _ (broadcastInDim S1x3200 ![1] _ (t_main_v53 (F := F))) (ix2 n m) = _
    rw [bcast_rows_apply, bcast_row_apply]; rfl
  have e60 : t_main_v60 (F := F) (ix2 n m) = BitVec.ofNat 32 (n.val / 10 * 10) := by
    show broadcastInDim S3200x3200 ![0, 1] _ (broadcastInDim S3200x1 ![0] _ (t_main_v56 (F := F))) (ix2 n m) = _
    rw [bcast_cols_apply, bcast_col_apply, v56_apply]
  have e67 : t_main_v67 (F := F) (ix2 n m) = IntOp.addi (BitVec.ofNat 32 (n.val / 10 * 10)) 9#32 := by
    show broadcastInDim S3200x3200 ![0, 1] _ (t_main_v65 (F := F)) (ix2 n m) = _
    rw [bcast_cols_apply]
    show IntOp.addi (broadcastInDim S3200x1 ![0] _ (t_main_v56 (F := F)) (ix2 n (0 : Fin 1))) _ = _
    rw [bcast_col_apply, v56_apply]; rfl
  have e74 : t_main_v74 (F := F) (ix2 n m) = BitVec.ofNat 32 n.val := by
    show broadcastInDim S3200x3200 ![0, 1] _ (broadcastInDim S3200x1 ![0] _ (t_main_v52 (F := F))) (ix2 n m) = _
    rw [bcast_cols_apply, bcast_col_apply]; rfl
  have e : t_main_v76 (F := F) (ix2 n m)
      = IntOp.ori (~~~ (IntOp.andi (IntOp.cmpi .sge (t_main_v59 (F := F) (ix2 n m)) (t_main_v60 (F := F) (ix2 n m)))
          (IntOp.cmpi .slt (t_main_v66 (F := F) (ix2 n m)) (t_main_v67 (F := F) (ix2 n m)))))
        (IntOp.cmpi .eq (t_main_v73 (F := F) (ix2 n m)) (t_main_v74 (F := F) (ix2 n m))) := rfl
  rw [e, e59, e60, e66, e67, e73, e74]
  exact keep_word n m

/-- The mask on the square, as a number. -/
theorem v77_apply (n m : Fin 3200) : t_main_v77 (F := Ideal) (ix2 n m) = Cert.Spec.mask n m := by
  show (((t_main_v76 (F := Ideal) (ix2 n m)).toNat : ℝ) : EReal) = _
  unfold Cert.Spec.mask
  by_cases hk : Cert.Spec.keep n m
  · rw [if_pos hk, (v76_apply n m).2 hk]; norm_num
  · rw [if_neg hk, eq_zero_of_ne_one (fun h => hk ((v76_apply n m).1 h))]; norm_num

/-- The mask repeated over the heads. -/
theorem v79_apply (hd : Fin 8) (n m : Fin 3200) : t_main_v79 (F := Ideal) (ix4 (0 : Fin 1) hd n m) = Cert.Spec.mask n m := by
  show broadcastInDim S1x8x3200x3200 ![0, 1, 2, 3] _ (broadcastInDim S1x1x3200x3200 ![2, 3] _ (t_main_v77 (F := Ideal)))
    (ix4 (0 : Fin 1) hd n m) = _
  rw [bcast_heads_apply, bcast_lead_apply, v77_apply]

end Mask

end Cert.RefOps

end
-- ==== Proof.RefValueA.lean ====
/-
  The array program's first result, read index by index against the specification.

  Stage by stage: the input read head-major; the length of every row plus ε; the row scaled by it;
  the similarity of two rows of a head; the masked similarity; the masked similarities applied to
  the rows; and the two halves of the concatenated result.
-/
import proofs.«174083_j4664334483724_2_alg».proof.Proof.RefRunTerms
import proofs.«174083_j4664334483724_2_alg».proof.Proof.RefOpsLayout
import proofs.«174083_j4664334483724_2_alg».proof.Proof.RefOpsSum
import proofs.«174083_j4664334483724_2_alg».proof.Proof.RefOpsMask
import proofs.«174083_j4664334483724_2_alg».proof.Proof.Spec

open scoped BigOperators

noncomputable section

namespace Cert.RefValue

open Cert.ReferenceIdeal Cert.RefTerms Cert.RefOps Idealize.ShloMosaic Idealize.ShloMosaic.ValueIdx

variable (a1 : FVec Ideal S1x3200x512 .f32)

/-- The input head-major. -/
theorem v21_apply (hd : Fin 8) (n : Fin 3200) (d : Fin 64) :
    t_main_v21 (F := Ideal) a1 (ix4 (0 : Fin 1) hd n d) = Cert.Spec.heads a1 hd n d := by
  show transpose S1x8x3200x64 [0, 2, 1, 3] (t_main_v20 (F := Ideal) a1) _ (ix4 (0 : Fin 1) hd n d) = _
  rw [toHeads_apply]
  show shapeCast S1x3200x8x64 a1 _ (ix4 (0 : Fin 1) n hd d) = _
  rw [split_apply]
  rfl

/-- The length of row n of head h. -/
theorem v32_apply (hd : Fin 8) (n : Fin 3200) :
    t_main_v32 (F := Ideal) a1 (ix4 (0 : Fin 1) hd n (0 : Fin 1))
      = Ideal.sqrt (∑ d, Cert.Spec.heads a1 hd n d * Cert.Spec.heads a1 hd n d) := by
  show Ideal.sqrt (broadcastInDim S1x8x3200x1 ![0, 1, 2] _ (t_main_call4_v1 (F := Ideal) a1)
    (ix4 (0 : Fin 1) hd n (0 : Fin 1))) = _
  rw [bcast_keep_apply]
  show Ideal.sqrt (Host.reduceAdd (t_main_call4_v0 (F := Ideal) a1) (constant (F := Ideal) S_ .f32 0x00000000#32) _ _
    (ix3 (0 : Fin 1) hd n)) = _
  rw [sum_lanes_apply, const_zero_first, zero_add]
  refine congrArg Ideal.sqrt (Finset.sum_congr rfl fun d _ => ?_)
  show t_main_v21 (F := Ideal) a1 (ix4 (0 : Fin 1) hd n d) * t_main_v21 (F := Ideal) a1 (ix4 (0 : Fin 1) hd n d) = _
  rw [v21_apply]

/-- The length plus ε. -/
theorem v34_apply (hd : Fin 8) (n : Fin 3200) :
    t_main_v34 (F := Ideal) a1 (ix4 (0 : Fin 1) hd n (0 : Fin 1)) = Cert.Spec.nrm (Cert.Spec.heads a1) hd n := by
  show t_main_v32 (F := Ideal) a1 (ix4 (0 : Fin 1) hd n (0 : Fin 1))
    + t_main_v33 (F := Ideal) (ix4 (0 : Fin 1) hd n (0 : Fin 1)) = _
  rw [v32_apply]
  rfl

/-- The row scaled by its length. -/
theorem v36_apply (hd : Fin 8) (n : Fin 3200) (d : Fin 64) :
    t_main_v36 (F := Ideal) a1 (ix4 (0 : Fin 1) hd n d) = Cert.Spec.unit (Cert.Spec.heads a1) hd n d := by
  show Ideal.div (t_main_v21 (F := Ideal) a1 (ix4 (0 : Fin 1) hd n d))
    (broadcastInDim S1x8x3200x64 ![0, 1, 2, 3] _ (t_main_v34 (F := Ideal) a1) (ix4 (0 : Fin 1) hd n d)) = _
  rw [bcast_lanes_apply, v21_apply, v34_apply]
  rfl

/-- The similarity of rows n and m of head h. -/
theorem v37_apply (hd : Fin 8) (n m : Fin 3200) :
    t_main_v37 (F := Ideal) a1 (ix4 (0 : Fin 1) hd n m) = Cert.Spec.raw (Cert.Spec.heads a1) hd n m := by
  show Host.dotGeneral (F := Ideal) dot_S1x8x3200x64_S1x8x3200x64_S1x8x3200x3200_3_3_2_2_01_01 none
    (t_main_v36 (F := Ideal) a1 : FVec Ideal S1x8x3200x64 .f32) (t_main_v36 (F := Ideal) a1 : FVec Ideal S1x8x3200x64 .f32)
    (ix4 (0 : Fin 1) hd n m) = _
  rw [dot_rows_apply]
  unfold Cert.Spec.raw
  refine Finset.sum_congr rfl fun d _ => ?_
  rw [v36_apply, v36_apply]

/-- The masked similarity. -/
theorem v80_apply (hd : Fin 8) (n m : Fin 3200) :
    t_main_v80 (F := Ideal) a1 (ix4 (0 : Fin 1) hd n m) = Cert.Spec.att (Cert.Spec.heads a1) hd n m := by
  show t_main_v37 (F := Ideal) a1 (ix4 (0 : Fin 1) hd n m) * t_main_v79 (F := Ideal) (ix4 (0 : Fin 1) hd n m) = _
  rw [v37_apply, v79_apply]
  rfl

/-- The masked similarities applied to the rows. -/
theorem v81_apply (hd : Fin 8) (n : Fin 3200) (d : Fin 64) :
    t_main_v81 (F := Ideal) a1 (ix4 (0 : Fin 1) hd n d) = Cert.Spec.ctx (Cert.Spec.heads a1) hd n d := by
  show Host.dotGeneral (F := Ideal) dot_S1x8x3200x3200_S1x8x3200x64_S1x8x3200x64_3_2_2_3_01_01 none
    (t_main_v80 (F := Ideal) a1 : FVec Ideal S1x8x3200x3200 .f32) (t_main_v21 (F := Ideal) a1 : FVec Ideal S1x8x3200x64 .f32)
    (ix4 (0 : Fin 1) hd n d) = _
  rw [dot_ctx_apply]
  unfold Cert.Spec.ctx
  refine Finset.sum_congr rfl fun m _ => ?_
  rw [v80_apply, v21_apply]

/-- The contexts back in the input's layout. -/
theorem v83_apply (n : Fin 3200) (j : Fin 512) :
    t_main_v83 (F := Ideal) a1 (ix3 (0 : Fin 1) n j)
      = Cert.Spec.ctx (Cert.Spec.heads a1) ⟨j.val / 64, by have := j.isLt; omega⟩ n ⟨j.val % 64, Nat.mod_lt _ (by norm_num)⟩ := by
  show shapeCast S1x3200x512 (t_main_v82 (F := Ideal) a1) _ (ix3 (0 : Fin 1) n j) = _
  rw [merge_apply]
  show transpose S1x3200x8x64 [0, 2, 1, 3] (t_main_v81 (F := Ideal) a1) _ _ = _
  rw [toRows_apply, v81_apply]

/-- The input through the head-major layout and back. -/
theorem v85_apply (n : Fin 3200) (j : Fin 512) :
    t_main_v85 (F := Ideal) a1 (ix3 (0 : Fin 1) n j)
      = Cert.Spec.heads a1 ⟨j.val / 64, by have := j.isLt; omega⟩ n ⟨j.val % 64, Nat.mod_lt _ (by norm_num)⟩ := by
  show shapeCast S1x3200x512 (t_main_v84 (F := Ideal) a1) _ (ix3 (0 : Fin 1) n j) = _
  rw [merge_apply]
  show transpose S1x3200x8x64 [0, 2, 1, 3] (t_main_v21 (F := Ideal) a1) _ _ = _
  rw [toRows_apply, v21_apply]

/-- The first result, index by index. -/
theorem xout_eq (n : Fin 3200) (j : Fin 1024) :
    Cert.RefTerms.xout (F := Ideal) a1 (ix3 (0 : Fin 1) n j) = Cert.Spec.xout (Cert.Spec.heads a1) n j := by
  show concatenate S1x3200x1024 2 [⟨S1x3200x512, t_main_v83 (F := Ideal) a1⟩, ⟨S1x3200x512, t_main_v85 (F := Ideal) a1⟩]
    Cert.ReferenceIdeal.Gen.concatenates_S1x3200x512_S1x3200x512_S1x3200x1024_d2 (ix3 (0 : Fin 1) n j) = _
  unfold Cert.Spec.xout
  by_cases hj : j.val < 512
  · rw [dif_pos hj, concat_left_apply _ _ _ n j hj, v83_apply]
  · rw [dif_neg hj, concat_right_apply _ _ _ n j hj, v85_apply]

end Cert.RefValue

end
-- ==== Proof.RefValueB1.lean ====
/-
  The array program's second result, first half: the similarities summed over the heads and their
  mean; the thresholded mean as a number; the masked similarities' mean over the heads (the logits).
  Only 0 + s = s and the reading of every operation at an index are used.
-/
import proofs.«174083_j4664334483724_2_alg».proof.Proof.RefValueA

open scoped BigOperators

noncomputable section

namespace Cert.RefValue

open Cert.ReferenceIdeal Cert.RefTerms Cert.RefOps Idealize.ShloMosaic Idealize.ShloMosaic.ValueIdx

variable (a1 : FVec Ideal S1x3200x512 .f32)

/-- A strict comparison's bit as a number. -/
theorem ogt_word (a b : EReal) : (((Ideal.cmp .ogt a b).toNat : ℝ) : EReal) = if b < a then 1 else 0 := by
  by_cases h : b < a
  · rw [if_pos h]
    show (((BitVec.ofBool (decide (b < a))).toNat : ℝ) : EReal) = 1
    rw [decide_eq_true h]; simp
  · rw [if_neg h]
    show (((BitVec.ofBool (decide (b < a))).toNat : ℝ) : EReal) = 0
    rw [decide_eq_false h]; simp

/-- The similarities summed over the heads. -/
theorem v88_apply (n m : Fin 3200) :
    t_main_v88 (F := Ideal) a1 (ix2 n m) = Cert.Spec.rawsum (Cert.Spec.heads a1) n m := by
  show shapeCast S3200x3200 (t_main_v87 (F := Ideal) a1) _ (ix2 n m) = _
  rw [squeeze_apply]
  show Host.reduceAdd (F := Ideal) (t_main_v37 (F := Ideal) a1 : FVec Ideal S1x8x3200x3200 .f32) (constant (F := Ideal) S_ .f32 0x00000000#32) _ _ (ix3 (0 : Fin 1) n m) = _
  rw [sum_heads_apply, const_zero_first, zero_add]
  unfold Cert.Spec.rawsum
  refine Finset.sum_congr rfl fun hd _ => ?_
  rw [v37_apply]

/-- Their mean. -/
theorem v90_apply (n m : Fin 3200) :
    t_main_v90 (F := Ideal) a1 (ix2 n m) = Cert.Spec.rMean (Cert.Spec.heads a1) n m := by
  show Ideal.div (t_main_v88 (F := Ideal) a1 (ix2 n m)) (t_main_v89 (F := Ideal) (ix2 n m)) = _
  rw [v88_apply]
  rfl

/-- The mean exceeds the threshold, as a number. -/
theorem v93_apply (n m : Fin 3200) :
    t_main_v93 (F := Ideal) a1 (ix2 n m) = Cert.Spec.rSel (Cert.Spec.heads a1) n m := by
  show (((Ideal.cmp .ogt (t_main_v90 (F := Ideal) a1 (ix2 n m)) (t_main_v91 (F := Ideal) (ix2 n m))).toNat : ℝ) : EReal) = _
  rw [ogt_word, v90_apply]
  rfl

/-- The masked similarities summed over the heads, then their mean: the logits. -/
theorem v97_apply (n m : Fin 3200) :
    t_main_v97 (F := Ideal) a1 (ix2 n m) = Cert.Spec.rLogit (Cert.Spec.heads a1) n m := by
  show Ideal.div (shapeCast S3200x3200 (t_main_v94 (F := Ideal) a1) _ (ix2 n m)) (t_main_v96 (F := Ideal) (ix2 n m)) = _
  rw [squeeze_apply]
  show Ideal.div (Host.reduceAdd (F := Ideal) (t_main_v80 (F := Ideal) a1 : FVec Ideal S1x8x3200x3200 .f32) (constant (F := Ideal) S_ .f32 0x00000000#32) _ _
    (ix3 (0 : Fin 1) n m)) _ = _
  rw [sum_heads_apply, const_zero_first, zero_add]
  unfold Cert.Spec.rLogit
  have e : (∑ hd : Fin 8, t_main_v80 (F := Ideal) a1 (ix4 (0 : Fin 1) hd n m))
      = ∑ hd : Fin 8, Cert.Spec.att (Cert.Spec.heads a1) hd n m :=
    Finset.sum_congr rfl fun hd _ => v80_apply a1 hd n m
  rw [e]
  rfl

end Cert.RefValue

end
-- ==== Proof.RefOpsMax.lean ====
/-
  The array program's row maximum read at an index, on the extended reals: the reduction of a
  square array along its columns with a maximum body, started from the binary word of -∞, is
  the supremum of the row's entries.
-/
import proofs.«174083_j4664334483724_2_alg».proof.ReferenceIdeal
import Idealize.ShloMosaic.Lib.ValueLayout
import Idealize.ShloMosaic.Lib.IdealHost

open scoped BigOperators

noncomputable section

namespace Cert.RefOps

open Cert.ReferenceIdeal Idealize.ShloMosaic Idealize.ShloMosaic.ValueIdx

/-- A fold of the maximum from the bottom element is the supremum. -/
theorem fold_max_bot_eq_sup {k : Nat} (f : Fin k → EReal) :
    (Finset.univ : Finset (Fin k)).fold max ⊥ f = Finset.univ.sup f := by
  unfold Finset.sup
  first
    | rfl
    | (congr 1; funext a b; exact (sup_eq_max (a := a) (b := b)).symm)

/-- The binary word of -∞ is the bottom extended real. -/
theorem ofBits_neg_inf : Ideal.ofBits .f32 0xFF800000#32 = (⊥ : EReal) := by
  simp [Ideal.ofBits, Ideal.ieee]

/-- The maximum over the 3200 columns from -∞ is the supremum of the row. -/
theorem max_cols_apply (x : FVec Ideal S3200x3200 .f32)
    (h' : S3200x3200.ReducesTo [1] S3200) (hu : 0 < S_.numel) (n : Fin 3200) :
    Host.reduce FloatOps.maximumf x (constant (F := Ideal) S_ .f32 0xFF800000#32) h' hu (ix1 n)
      = Finset.univ.sup (fun m : Fin 3200 => x (ix2 n m)) := by
  have h : S3200x3200.Reduces [1] S3200 := by decide
  rw [Host.reduce_eq_fold_single FloatOps.maximumf x _ h' h hu]
  have hf : (x ∘ h.lift (ix1 n)) = fun m : Fin 3200 => x (ix2 n m) :=
    funext fun k => congrArg x (by funext c; apply Fin.ext; fin_cases c <;> rfl)
  rw [hf]
  show Finset.fold max (Ideal.ofBits .f32 0xFF800000#32) (fun m : Fin 3200 => x (ix2 n m)) Finset.univ = _
  rw [ofBits_neg_inf]
  exact fold_max_bot_eq_sup _

/-- The maximum of -∞ and a number is the number. -/
theorem max_neg_inf_left (y : EReal) : max (Ideal.ofBits .f32 0xFF800000#32) y = y := by
  rw [ofBits_neg_inf]; exact max_bot_left y

end Cert.RefOps

end
-- ==== Proof.RefValueB2.lean ====
/-
  The array program's row maximum of the logits against the specification's supremum: the
  maximum of -∞ and the reduction from -∞ along the columns is the supremum of the row.
-/
import proofs.«174083_j4664334483724_2_alg».proof.Proof.RefValueB1
import proofs.«174083_j4664334483724_2_alg».proof.Proof.RefOpsMax

open scoped BigOperators

noncomputable section

namespace Cert.RefValue

open Cert.ReferenceIdeal Cert.RefTerms Cert.RefOps Idealize.ShloMosaic Idealize.ShloMosaic.ValueIdx

variable (a1 : FVec Ideal S1x3200x512 .f32)

/-- The row's largest logit. -/
theorem v100_apply (n : Fin 3200) :
    t_main_v100 (F := Ideal) a1 (ix1 n) = Cert.Spec.rMax (Cert.Spec.heads a1) n := by
  have e : t_main_v100 (F := Ideal) a1
      = maximumf (F := Ideal) (s := S3200) (φ := .f32) (t_main_v99 (F := Ideal)) (t_main_v98 (F := Ideal) a1) := rfl
  have e99 : t_main_v99 (F := Ideal) (ix1 n) = Ideal.ofBits .f32 0xFF800000#32 := rfl
  have e98 : t_main_v98 (F := Ideal) a1 (ix1 n)
      = Finset.univ.sup (fun m : Fin 3200 => t_main_v97 (F := Ideal) a1 (ix2 n m)) :=
    max_cols_apply (t_main_v97 (F := Ideal) a1) _ _ n
  rw [e, maximumf_apply, e99, max_neg_inf_left, e98]
  unfold Cert.Spec.rMax
  exact congrArg (Finset.univ.sup) (funext fun m => v97_apply a1 n m)

end Cert.RefValue

end
-- ==== Proof.RefValueB3.lean ====
/-
  The array program's second result, second half: the exponentials of the shifted logits, their
  row sums and the soft-max; the selected soft-max, its row sums, and the final quotient.
-/
import proofs.«174083_j4664334483724_2_alg».proof.Proof.RefValueB2

open scoped BigOperators

noncomputable section

namespace Cert.RefValue

open Cert.ReferenceIdeal Cert.RefTerms Cert.RefOps Idealize.ShloMosaic Idealize.ShloMosaic.ValueIdx

variable (a1 : FVec Ideal S1x3200x512 .f32)

/-- The exponential of the shifted logit. -/
theorem v104_apply (n m : Fin 3200) :
    t_main_v104 (F := Ideal) a1 (ix2 n m) = Cert.Spec.rExp (Cert.Spec.heads a1) n m := by
  show Ideal.exp (t_main_v97 (F := Ideal) a1 (ix2 n m)
    - broadcastInDim S3200x3200 ![0, 1] _ (t_main_v101 (F := Ideal) a1) (ix2 n m)) = _
  rw [bcast_cols_apply]
  show Ideal.exp (_ - broadcastInDim S3200x1 ![0] _ (t_main_v100 (F := Ideal) a1) (ix2 n (0 : Fin 1))) = _
  rw [bcast_col_apply, v97_apply, v100_apply]
  rfl

/-- The row sums of the exponentials. -/
theorem v105_apply (n : Fin 3200) :
    t_main_v105 (F := Ideal) a1 (ix1 n) = ∑ m', Cert.Spec.rExp (Cert.Spec.heads a1) n m' := by
  show Host.reduceAdd (F := Ideal) (t_main_v104 (F := Ideal) a1 : FVec Ideal S3200x3200 .f32) (constant (F := Ideal) S_ .f32 0x00000000#32) _ _ (ix1 n) = _
  rw [sum_cols_apply, const_zero_first, zero_add]
  exact Finset.sum_congr rfl fun m _ => v104_apply a1 n m

/-- The soft-max. -/
theorem v108_apply (n m : Fin 3200) :
    t_main_v108 (F := Ideal) a1 (ix2 n m) = Cert.Spec.rSoft (Cert.Spec.heads a1) n m := by
  show Ideal.div (t_main_v104 (F := Ideal) a1 (ix2 n m))
    (broadcastInDim S3200x3200 ![0, 1] _ (t_main_v106 (F := Ideal) a1) (ix2 n m)) = _
  rw [bcast_cols_apply]
  show Ideal.div _ (broadcastInDim S3200x1 ![0] _ (t_main_v105 (F := Ideal) a1) (ix2 n (0 : Fin 1))) = _
  rw [bcast_col_apply, v104_apply, v105_apply]
  rfl

/-- The selected soft-max. -/
theorem v109_apply (n m : Fin 3200) :
    t_main_v109 (F := Ideal) a1 (ix2 n m) = Cert.Spec.rNum (Cert.Spec.heads a1) n m := by
  show t_main_v93 (F := Ideal) a1 (ix2 n m) * t_main_v108 (F := Ideal) a1 (ix2 n m) = _
  rw [v93_apply, v108_apply]
  rfl

/-- The same value, computed a second time by the program. -/
theorem v110_apply (n m : Fin 3200) :
    t_main_v110 (F := Ideal) a1 (ix2 n m) = Cert.Spec.rNum (Cert.Spec.heads a1) n m := by
  show t_main_v93 (F := Ideal) a1 (ix2 n m) * t_main_v108 (F := Ideal) a1 (ix2 n m) = _
  rw [v93_apply, v108_apply]
  rfl

/-- Its row sums. -/
theorem v111_apply (n : Fin 3200) :
    t_main_v111 (F := Ideal) a1 (ix1 n) = ∑ m', Cert.Spec.rNum (Cert.Spec.heads a1) n m' := by
  show Host.reduceAdd (F := Ideal) (t_main_v110 (F := Ideal) a1 : FVec Ideal S3200x3200 .f32) (constant (F := Ideal) S_ .f32 0x00000000#32) _ _ (ix1 n) = _
  rw [sum_cols_apply, const_zero_first, zero_add]
  exact Finset.sum_congr rfl fun m _ => v110_apply a1 n m

/-- The second result, index by index. -/
theorem sim_eq (n m : Fin 3200) :
    Cert.RefTerms.sim (F := Ideal) a1 (ix2 n m) = Cert.Spec.rSim (Cert.Spec.heads a1) n m := by
  show Ideal.div (t_main_v109 (F := Ideal) a1 (ix2 n m))
    (broadcastInDim S3200x3200 ![0, 1] _ (t_main_v114 (F := Ideal) a1) (ix2 n m)) = _
  rw [bcast_cols_apply]
  show Ideal.div _ (broadcastInDim S3200x1 ![0] _ (t_main_v111 (F := Ideal) a1) (ix2 n (0 : Fin 1))
    + t_main_v113 (F := Ideal) (ix2 n (0 : Fin 1))) = _
  rw [bcast_col_apply, v109_apply, v111_apply]
  rfl

end Cert.RefValue

end
-- ==== Proof.AlgReal.lean ====
/-
  The law that joins the two spellings of a thresholded, renormalised soft-max, over the reals.

  For a finite non-empty row of logits a, non-negative selectors s, a positive ε and ANY shift M,
      s_i e^{a_i} / (Σ_j s_j e^{a_j} + (Σ_j e^{a_j}) ε)
    = (s_i p_i) / (Σ_j s_j p_j + ε),      p_j = e^{a_j − M} / Σ_k e^{a_k − M}.
  Writing e^{a_j} = e^M e^{a_j − M}, the factor e^M > 0 cancels on the left, and multiplying numerator and
  denominator on the right by Z = Σ_k e^{a_k − M} > 0 gives the same quotient s_i e^{a_i − M} / (N + Z ε),
  N = Σ_j s_j e^{a_j − M} ≥ 0, whose denominator is positive.
-/
import Mathlib

open scoped BigOperators

namespace Cert.AlgReal

theorem row_real {ι : Type*} [Fintype ι] [Nonempty ι] (a s : ι → ℝ) (ε M : ℝ) (hε : 0 < ε) (hs : ∀ i, 0 ≤ s i) (i : ι) :
    s i * Real.exp (a i) / (∑ j, s j * Real.exp (a j) + (∑ j, Real.exp (a j)) * ε)
      = (s i * (Real.exp (a i - M) / ∑ j, Real.exp (a j - M)))
          / (∑ j, s j * (Real.exp (a j - M) / ∑ k, Real.exp (a k - M)) + ε) := by
  have hZ : 0 < ∑ j, Real.exp (a j - M) := Finset.sum_pos (fun j _ => Real.exp_pos _) Finset.univ_nonempty
  have hc : 0 < Real.exp M := Real.exp_pos M
  have he : ∀ j, Real.exp (a j) = Real.exp M * Real.exp (a j - M) := fun j => by
    rw [← Real.exp_add]; congr 1; ring
  have hN0 : 0 ≤ ∑ j, s j * Real.exp (a j - M) :=
    Finset.sum_nonneg fun j _ => mul_nonneg (hs j) (Real.exp_pos _).le
  have h1 : ∑ j, s j * Real.exp (a j) = Real.exp M * ∑ j, s j * Real.exp (a j - M) := by
    rw [Finset.mul_sum]; exact Finset.sum_congr rfl fun j _ => by rw [he j]; ring
  have h2 : ∑ j, Real.exp (a j) = Real.exp M * ∑ j, Real.exp (a j - M) := by
    rw [Finset.mul_sum]; exact Finset.sum_congr rfl fun j _ => he j
  have h3 : ∑ j, s j * (Real.exp (a j - M) / ∑ k, Real.exp (a k - M))
      = (∑ j, s j * Real.exp (a j - M)) / ∑ k, Real.exp (a k - M) := by
    rw [Finset.sum_div]; exact Finset.sum_congr rfl fun j _ => by ring
  rw [h1, h2, h3, he i]
  generalize (∑ j, s j * Real.exp (a j - M)) = N at hN0 ⊢
  generalize (∑ j, Real.exp (a j - M)) = Z at hZ ⊢
  have hD : 0 < N + Z * ε := by positivity
  have hZ' : Z ≠ 0 := hZ.ne'
  have hc' : Real.exp M ≠ 0 := hc.ne'
  have hD' : N + Z * ε ≠ 0 := hD.ne'
  have hD2 : Real.exp M * N + Real.exp M * Z * ε ≠ 0 := by
    have : Real.exp M * N + Real.exp M * Z * ε = Real.exp M * (N + Z * ε) := by ring
    rw [this]; exact mul_ne_zero hc' hD'
  have hD3 : N / Z + ε ≠ 0 := by
    have : N / Z + ε = (N + Z * ε) / Z := by field_simp
    rw [this]; exact div_ne_zero hD' hZ'
  rw [div_eq_div_iff hD2 hD3]
  field_simp

end Cert.AlgReal
-- ==== Proof.LibRealClosure.lean ====
/-
  Extended reals that are reals, and the operations that keep them so.

  `IsReal x` says that the extended real `x` is the coercion of a real.  Sums, products, differences, finite sums,
  maxima, the exponential and a quotient by a nonzero real all stay inside the reals; so does a scaled dot product of
  two real vectors.
-/
import Idealize.ShloMosaic.PureOps.Ideal

noncomputable section

open scoped BigOperators

namespace RealClosure

open Idealize.ShloMosaic

/-- An extended real that is the coercion of a real. -/
def IsReal (x : EReal) : Prop := ∃ r : ℝ, x = (r : EReal)

/-- The coercion of a real is a real. -/
theorem IsReal.coe (r : ℝ) : IsReal (r : EReal) := ⟨r, rfl⟩

/-- Zero is a real. -/
theorem IsReal.zero : IsReal 0 := ⟨0, rfl⟩

/-- One is a real. -/
theorem IsReal.one : IsReal 1 := ⟨1, rfl⟩

/-- A real is not `⊤`. -/
theorem IsReal.ne_top {x : EReal} (hx : IsReal x) : x ≠ ⊤ := by
  obtain ⟨r, rfl⟩ := hx; exact EReal.coe_ne_top r

/-- A real is not `⊥`. -/
theorem IsReal.ne_bot {x : EReal} (hx : IsReal x) : x ≠ ⊥ := by
  obtain ⟨r, rfl⟩ := hx; exact EReal.coe_ne_bot r

/-- An extended real that is neither `⊤` nor `⊥` is a real. -/
theorem isReal_of_ne {x : EReal} (ht : x ≠ ⊤) (hb : x ≠ ⊥) : IsReal x := ⟨x.toReal, (EReal.coe_toReal ht hb).symm⟩

/-- Being a real is being neither `⊤` nor `⊥`. -/
theorem isReal_iff {x : EReal} : IsReal x ↔ x ≠ ⊤ ∧ x ≠ ⊥ :=
  ⟨fun h => ⟨h.ne_top, h.ne_bot⟩, fun h => isReal_of_ne h.1 h.2⟩

/-- A real is the coercion of its real part. -/
theorem IsReal.coe_toReal {x : EReal} (hx : IsReal x) : ((x.toReal : ℝ) : EReal) = x :=
  EReal.coe_toReal hx.ne_top hx.ne_bot

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a t ha ih =>
    rw [Finset.sum_insert ha]
    exact (h a (Finset.mem_insert_self a t)).add (ih fun i hi => h i (Finset.mem_insert_of_mem hi))

/-- A sum of reals over a whole finite type is a real. -/
theorem IsReal.sum_univ {ι : Type*} [Fintype ι] (f : ι → EReal) (h : ∀ i, IsReal (f i)) : IsReal (∑ i, f i) :=
  IsReal.sum _ f fun i _ => h i

/-- The larger of two reals is a real. -/
theorem IsReal.max {x y : EReal} (hx : IsReal x) (hy : IsReal y) : IsReal (max x y) := by
  rcases max_choice x y with h | h <;> rw [h] <;> assumption

/-- The smaller of two reals is a real. -/
theorem IsReal.min {x y : EReal} (hx : IsReal x) (hy : IsReal y) : IsReal (min x y) := by
  rcases min_choice x y with h | h <;> rw [h] <;> assumption

/-- The exponential of a real is a positive real. -/
theorem IsReal.exp_pos_real {x : EReal} (hx : IsReal x) : ∃ r : ℝ, 0 < r ∧ Ideal.exp x = (r : EReal) := by
  obtain ⟨a, rfl⟩ := hx; exact ⟨Real.exp a, Real.exp_pos a, Ideal.exp_coe a⟩

/-- The exponential of a real is a real. -/
theorem IsReal.exp {x : EReal} (hx : IsReal x) : IsReal (Ideal.exp x) := by
  obtain ⟨r, _, h⟩ := hx.exp_pos_real; exact ⟨r, h⟩

/-- The exponential of a real is positive. -/
theorem IsReal.exp_pos {x : EReal} (hx : IsReal x) : 0 < Ideal.exp x := by
  obtain ⟨r, hr, h⟩ := hx.exp_pos_real; rw [h]; exact_mod_cast hr

/-- The exponential of a real is not zero. -/
theorem IsReal.exp_ne_zero {x : EReal} (hx : IsReal x) : Ideal.exp x ≠ 0 := hx.exp_pos.ne'

/-- The quotient of a real by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a * (1 / b), by rw [Ideal.div_coe hb, ← EReal.coe_mul]⟩

/-- A scaled dot product of two real vectors is a real. -/
theorem IsReal.score {D : ℕ} (q k : Fin D → EReal) (c : EReal) (hq : ∀ d, IsReal (q d)) (hk : ∀ d, IsReal (k d))
    (hc : IsReal c) : IsReal ((∑ d, q d * k d) * c) :=
  (IsReal.sum_univ _ fun d => (hq d).mul (hk d)).mul hc

/-- The same with the scale folded into the first vector. -/
theorem IsReal.score_pre {D : ℕ} (q k : Fin D → EReal) (c : EReal) (hq : ∀ d, IsReal (q d)) (hk : ∀ d, IsReal (k d))
    (hc : IsReal c) : IsReal (∑ d, (q d * c) * k d) :=
  IsReal.sum_univ _ fun d => ((hq d).mul hc).mul (hk d)

end RealClosure

end
-- ==== Proof.AlgRow.lean ====
/-
  The soft-max law on the extended reals, for a row whose logits are real.

  Every quantity in either spelling is then the coercion of a real: exponentials of reals are positive reals,
  finite sums and products of reals are reals, and a quotient by a nonzero real is the real quotient. Pushing the
  coercion outwards turns both sides into coercions of the two sides of the law over the reals.
-/
import proofs.«174083_j4664334483724_2_alg».proof.Proof.AlgReal
import proofs.«174083_j4664334483724_2_alg».proof.Proof.LibRealClosure

noncomputable section

open scoped BigOperators

namespace Cert.AlgRow

open Idealize.ShloMosaic RealClosure

/-- The coercion of a finite real sum is the sum of the coercions. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A quotient of two reals with a nonzero denominator is the real quotient. -/
theorem div_coe_coe (x y : ℝ) (hy : y ≠ 0) : Ideal.div (x : EReal) (y : EReal) = ((x / y : ℝ) : EReal) := by
  rw [Ideal.div_coe hy, ← EReal.coe_mul]
  congr 1
  rw [mul_one_div]

/-- The two spellings of the thresholded, renormalised soft-max of one row agree when the logits are real, the
    selectors are 0 or 1, ε is a positive real and the shift is any real. -/
theorem row_law {ι : Type*} [Fintype ι] [Nonempty ι] (A S : ι → EReal) (ε Mx : EReal)
    (hA : ∀ i, IsReal (A i)) (hS : ∀ i, S i = 0 ∨ S i = 1) (hε : ∃ e : ℝ, 0 < e ∧ ε = (e : EReal)) (hM : IsReal Mx)
    (i : ι) :
    Ideal.div (S i * Ideal.exp (A i)) ((∑ j, S j * Ideal.exp (A j)) + (∑ j, Ideal.exp (A j)) * ε)
      = Ideal.div (S i * Ideal.div (Ideal.exp (A i - Mx)) (∑ j, Ideal.exp (A j - Mx)))
          ((∑ j, S j * Ideal.div (Ideal.exp (A j - Mx)) (∑ k, Ideal.exp (A k - Mx))) + ε) := by
  choose a ha using hA
  obtain ⟨e, he0, rfl⟩ := hε
  obtain ⟨M, rfl⟩ := hM
  have hs : ∀ j, ∃ s : ℝ, 0 ≤ s ∧ S j = (s : EReal) := fun j => by
    rcases hS j with h | h
    · exact ⟨0, le_rfl, by rw [h, EReal.coe_zero]⟩
    · exact ⟨1, zero_le_one, by rw [h, EReal.coe_one]⟩
  choose s hs0 hs using hs
  obtain rfl : A = fun j => (a j : EReal) := funext ha
  obtain rfl : S = fun j => (s j : EReal) := funext hs
  have hZpos : 0 < ∑ j, Real.exp (a j - M) := Finset.sum_pos (fun j _ => Real.exp_pos _) Finset.univ_nonempty
  have hZ : (∑ j, Real.exp (a j - M)) ≠ 0 := hZpos.ne'
  have hD1 : (∑ j, s j * Real.exp (a j)) + (∑ j, Real.exp (a j)) * e ≠ 0 := by
    have h1 : 0 ≤ ∑ j, s j * Real.exp (a j) := Finset.sum_nonneg fun j _ => mul_nonneg (hs0 j) (Real.exp_pos _).le
    have h2 : 0 < ∑ j, Real.exp (a j) := Finset.sum_pos (fun j _ => Real.exp_pos _) Finset.univ_nonempty
    have : 0 < (∑ j, s j * Real.exp (a j)) + (∑ j, Real.exp (a j)) * e := by positivity
    exact this.ne'
  have hD2 : (∑ j, s j * (Real.exp (a j - M) / ∑ k, Real.exp (a k - M))) + e ≠ 0 := by
    have h1 : 0 ≤ ∑ j, s j * (Real.exp (a j - M) / ∑ k, Real.exp (a k - M)) :=
      Finset.sum_nonneg fun j _ => mul_nonneg (hs0 j) (div_nonneg (Real.exp_pos _).le hZpos.le)
    have : 0 < (∑ j, s j * (Real.exp (a j - M) / ∑ k, Real.exp (a k - M))) + e := by positivity
    exact this.ne'
  simp only [Ideal.exp_coe, ← EReal.coe_sub, ← EReal.coe_mul, ← coe_sum, ← EReal.coe_add, div_coe_coe _ _ hZ]
  rw [div_coe_coe _ _ hD1, div_coe_coe _ _ hD2, Cert.AlgReal.row_real a s e M he0 hs0 i]

end Cert.AlgRow

end
-- ==== Proof.AlgSpec.lean ====
/-
  The two spellings of the second result agree when every entry of the input is a real number.

  With real entries every row length is a non-negative real, so length + ε is a positive real and the scaled rows,
  the similarities and their sums over the heads are reals. Then
    * (Σ_h raw_h) · mask = Σ_h (raw_h · mask) is distributivity over the reals, and a quotient by 8 is the product
      with 1/8, so the two programs' logits and head means are the same reals and their selectors coincide;
    * the row maximum of finitely many reals is a real;
  and the row law for a thresholded, renormalised soft-max (shift by any real) finishes.
-/
import proofs.«174083_j4664334483724_2_alg».proof.Proof.Spec
import proofs.«174083_j4664334483724_2_alg».proof.Proof.AlgRow

noncomputable section

open scoped BigOperators

namespace Cert.AlgSpec

open Idealize.ShloMosaic RealClosure Cert.Spec Cert.AlgRow

/-- ε is a positive real. -/
theorem eps_pos : ∃ e : ℝ, 0 < e ∧ eps = (e : EReal) := by
  refine ⟨_, ?_, by unfold eps; simp [Ideal.ofBits, Ideal.ieee, -EReal.coe_mul]; rfl⟩
  norm_num

/-- The word 8.0 is the real 8. -/
theorem eight_eq : eight = ((8 : ℝ) : EReal) := by
  unfold eight; simp [Ideal.ofBits, Ideal.ieee, -EReal.coe_mul]; norm_num

/-- The word 0.125 is the real 1/8. -/
theorem eighth_eq : eighth = ((1 / 8 : ℝ) : EReal) := by
  unfold eighth; simp [Ideal.ofBits, Ideal.ieee, -EReal.coe_mul]; norm_num

/-- Dividing by the word 8.0 is multiplying by the word 0.125. -/
theorem div_eight (y : EReal) : Ideal.div y eight = y * eighth := by
  rw [eight_eq, eighth_eq, Ideal.div_coe (by norm_num : (8 : ℝ) ≠ 0)]

/-- The mask is 0 or 1. -/
theorem mask_cases (n m : Fin 3200) : mask n m = 0 ∨ mask n m = 1 := by
  unfold mask; split <;> simp

theorem mask_real (n m : Fin 3200) : IsReal (mask n m) := by
  rcases mask_cases n m with h | h <;> rw [h]
  · exact IsReal.zero
  · exact IsReal.one

section RealInput

variable (x : Heads) (hx : ∀ h n d, IsReal (x h n d))
include hx

/-- A row's length plus ε is a positive real. -/
theorem nrm_pos (h : Fin 8) (n : Fin 3200) : ∃ r : ℝ, 0 < r ∧ nrm x h n = (r : EReal) := by
  choose a ha using hx
  obtain ⟨e, he, hee⟩ := eps_pos
  refine ⟨Real.sqrt (∑ d, a h n d * a h n d) + e, by positivity, ?_⟩
  unfold nrm
  have hs : (∑ d, x h n d * x h n d) = ((∑ d, a h n d * a h n d : ℝ) : EReal) := by
    rw [coe_sum]; exact Finset.sum_congr rfl fun d _ => by rw [ha, ← EReal.coe_mul]
  have h0 : ¬ (∑ d, a h n d * a h n d) < 0 := not_lt.mpr (Finset.sum_nonneg fun d _ => mul_self_nonneg _)
  rw [hs, Ideal.sqrt_coe, if_neg h0, hee, ← EReal.coe_add]

theorem unit_real (h : Fin 8) (n : Fin 3200) (d : Fin 64) : IsReal (unit x h n d) := by
  obtain ⟨r, hr, hn⟩ := nrm_pos x hx h n
  unfold unit
  refine (hx h n d).div ⟨r, hn⟩ ?_
  rw [hn]; exact_mod_cast hr.ne'

theorem raw_real (h : Fin 8) (n m : Fin 3200) : IsReal (raw x h n m) :=
  IsReal.sum_univ _ fun d => (unit_real x hx h n d).mul (unit_real x hx h m d)

theorem rawsum_real (n m : Fin 3200) : IsReal (rawsum x n m) :=
  IsReal.sum_univ _ fun h => raw_real x hx h n m

/-- The masked similarities summed over the heads are the summed similarities, masked. -/
theorem sum_att (n m : Fin 3200) : (∑ h, att x h n m) = rawsum x n m * mask n m := by
  have hr := fun h => raw_real x hx h n m
  choose a ha using hr
  obtain ⟨μ, hμ⟩ := mask_real n m
  unfold rawsum att
  simp only [ha, hμ, ← EReal.coe_mul, ← coe_sum]
  rw [Finset.sum_mul]

/-- The two programs' logits are the same extended real. -/
theorem logit_eq (n m : Fin 3200) : rLogit x n m = kLogit x n m := by
  unfold rLogit kLogit
  rw [div_eight, sum_att x hx]

/-- The two programs' head means are the same extended real. -/
theorem mean_eq (n m : Fin 3200) : rMean x n m = kMean x n m := by
  unfold rMean kMean
  rw [div_eight]

theorem sel_eq (n m : Fin 3200) : rSel x n m = kSel x n m := by
  unfold rSel kSel
  rw [mean_eq x hx]

theorem klogit_real (n m : Fin 3200) : IsReal (kLogit x n m) := by
  unfold kLogit
  exact ((rawsum_real x hx n m).mul (mask_real n m)).mul ⟨1 / 8, eighth_eq⟩

theorem ksel_cases (n m : Fin 3200) : kSel x n m = 0 ∨ kSel x n m = 1 := by
  unfold kSel; split <;> simp

/-- The largest of the 3200 real logits of a row is a real. -/
theorem rmax_real (n : Fin 3200) : IsReal (rMax x n) := by
  unfold rMax
  obtain ⟨m, -, hm⟩ := Finset.exists_mem_eq_sup (Finset.univ : Finset (Fin 3200)) ⟨⟨0, by norm_num⟩, Finset.mem_univ _⟩
    (fun m => rLogit x n m)
  rw [hm, logit_eq x hx]
  exact klogit_real x hx n m

/-- For real entries the tiled program's second result is the array program's. -/
theorem kSim_eq_rSim (n m : Fin 3200) : kSim x n m = rSim x n m := by
  have : Nonempty (Fin 3200) := ⟨⟨0, by norm_num⟩⟩
  have h := row_law (fun m => kLogit x n m) (fun m => kSel x n m) eps (rMax x n)
    (fun m => klogit_real x hx n m) (fun m => ksel_cases x hx n m) eps_pos (rmax_real x hx n) m
  unfold kSim kDen kNum kExp
  unfold rSim rNum rSoft rExp
  simp only [logit_eq x hx, sel_eq x hx]
  exact h

end RealInput

end Cert.AlgSpec

end
-- ==== Proof.LibFiniteReal.lean ====
/-
  An array of extended reals every entry of which has absolute value below +∞ is an array of real numbers.

  A "finite inputs" precondition is printed, per float array, as: the absolute value entry by entry, compared (ordered
  less-than) against the broadcast word of +∞, and the comparison bits joined by `and` over all axes starting from 1.
  `real_of_abs_lt_inf` is the fact at one entry: an extended real `x` with `max x (-x) < ⊤` is neither `⊤` nor `⊥`, hence
  a real number.  `all_real` is the fact for one array of ANY shape: if that conjunction is 1, every entry is a real
  number (the entry is read at a symbolic index; nothing is evaluated over the index set).  Imports only the library.
-/
import Idealize.ShloMosaic.Lib.ValueIdx
import Idealize.ShloMosaic.Lib.ReduceAll
import Idealize.ShloMosaic.PureOps.Ideal.Laws

noncomputable section

namespace FiniteReal

open Idealize.ShloMosaic

/-- The rank-0 shape has exactly one index (a function out of the empty set of axes). -/
instance subsingleton_scalar_idx : Subsingleton (⟨0, ![]⟩ : Shape).Idx := ⟨fun _ _ => funext fun d => d.elim0⟩

/-- The word `0x7F800000` denotes `+∞` at f32. -/
theorem ofBits_inf : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- THE ELEMENT FACT: an extended real `x` with `|x| < +∞` (the comparison the predicate makes at one entry) is a
    real number: `x = ⊥` gives `|x| = max ⊥ ⊤ = ⊤`, `x = ⊤` gives `|x| = ⊤`, neither below `⊤`. -/
theorem real_of_abs_lt_inf (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  rw [ofBool_eq_one] at hx
  have hlt : max x (-x) < ⊤ := of_decide_eq_true hx
  rw [max_lt_iff] at hlt
  induction x using EReal.rec with
  | bot => exact absurd hlt.2 (by simp)
  | coe r => exact ⟨r, rfl⟩
  | top => exact absurd hlt.1 (by simp)

/-- ONE ARRAY: if the conjunction over all entries of `|a j| < +∞` (a reduction by `and` over all axes, from 1, of
    the entrywise comparison against the broadcast `+∞`) is 1, every entry of `a` is a real number. Generic in the
    array's shape: the entry is read at a symbolic index. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (a : FVec Ideal s .f32)
    (i : (⟨0, ![]⟩ : Shape).Idx)
    (e : Host.reduce IntOp.andi
        (cmpf .olt (Host.absf a)
          (broadcastInDim s ![] hb (constant (F := Ideal) (⟨0, ![]⟩ : Shape) .f32 0x7F800000#32)))
        (constantI (⟨0, ![]⟩ : Shape) 1 1#1) hr hu i = 1#1) :
    ∀ j, ∃ r : ℝ, a j = (r : EReal) := fun j =>
  real_of_abs_lt_inf (a j) (Host.reduce_andi_all _ _ hr hu i e j)

end FiniteReal

end
-- ==== Proof.Finite.lean ====
/-
  From the precondition to real entries.

  The precondition is the conjunction, over the eight float inputs in order, of "every entry has absolute value
  below +∞", the conjuncts joined left to right by `and`. If the whole is 1, each conjunct is 1; the second one is
  the statement for the one input the results depend on, so every entry of that input is a real number, and so is
  every entry of its head-major reading.
-/
import proofs.«174083_j4664334483724_2_alg».proof.Pre_finite_inputs
import proofs.«174083_j4664334483724_2_alg».proof.Proof.LibFiniteReal
import proofs.«174083_j4664334483724_2_alg».proof.Proof.LibRealClosure
import proofs.«174083_j4664334483724_2_alg».proof.Proof.Spec

noncomputable section

namespace Cert.Finite

open Idealize.ShloMosaic Cert.Pre_finite_inputs

variable [Cert.Pre_finite_inputs.Facts]
open Cert.Pre_finite_inputs.Facts

/-- Under the precondition every entry of the second input is a real number. -/
theorem arg1_real (a0 a1 : FVec Ideal S1x3200x512 .f32) (a2 : FVec Ideal S512x1024 .f32) (a3 : FVec Ideal S1024 .f32)
    (a4 : FVec Ideal S1024x2048 .f32) (a5 : FVec Ideal S2048 .f32) (a6 : FVec Ideal S2048x1024 .f32)
    (a7 : FVec Ideal S1024 .f32)
    (h : fn (F := Ideal) a0 a1 a2 a3 a4 a5 a6 a7 = fun _ => 1#1) : ∀ j, ∃ r : ℝ, a1 j = (r : EReal) := by
  have h0 := congrFun h ValueIdx.ix0
  dsimp only [fn, fn_part1, fn_part2] at h0
  have e38 := IntOp.andi_eq_one.1 h0
  have e33 := IntOp.andi_eq_one.1 e38.1
  have e28 := IntOp.andi_eq_one.1 e33.1
  have e23 := IntOp.andi_eq_one.1 e28.1
  have e18 := IntOp.andi_eq_one.1 e23.1
  have e13 := IntOp.andi_eq_one.1 e18.1
  have e8 := IntOp.andi_eq_one.1 e13.1
  exact FiniteReal.all_real bcast_S_S1x3200x512 reducesTo_S1x3200x512_S_d0_1_2 h_S_ a1 ValueIdx.ix0 e8.2

/-- Under the precondition every entry of the head-major reading of the second input is a real number. -/
theorem heads_real (a0 a1 : FVec Ideal S1x3200x512 .f32) (a2 : FVec Ideal S512x1024 .f32) (a3 : FVec Ideal S1024 .f32)
    (a4 : FVec Ideal S1024x2048 .f32) (a5 : FVec Ideal S2048 .f32) (a6 : FVec Ideal S2048x1024 .f32)
    (a7 : FVec Ideal S1024 .f32)
    (h : fn (F := Ideal) a0 a1 a2 a3 a4 a5 a6 a7 = fun _ => 1#1) (hd : Fin 8) (n : Fin 3200) (d : Fin 64) :
    RealClosure.IsReal (Cert.Spec.heads a1 hd n d) :=
  arg1_real a0 a1 a2 a3 a4 a5 a6 a7 h _

end Cert.Finite

end
-- ==== Proof.lean ====
/-
  The certificate: a tiled cosine-similarity attention program against its array-level reference.

  Both programs read one input v : [1, 3200, 512] (the other seven inputs feed only a branch of the reference whose
  result is never used). Head-major, x h n d = v[0, n, 64·h + d]. Each row of each head is scaled by
  1 / (its length + ε); raw h n m is the dot product of scaled rows n and m of head h; a fixed 0/1 mask removes from row
  n the first nine columns of its own block of ten, the diagonal excepted.
    * First result [1, 3200, 1024]: columns 64·h + d hold Σ_m raw h n m · mask n m · x h m d; columns 512 + j hold v itself.
      The tiled program computes it ten row-blocks at a time, head by head; the reference by two batched contractions,
      a transpose and a concatenation. Entry by entry they are the same sums: no algebra beyond re-association.
    * Second result [3200, 3200]: a thresholded soft-max of the head-averaged masked similarities, renormalised.
      The tiled program multiplies the head sum by the mask once and by 1/8, exponentiates without shifting, and divides
      s·e by Σ s·e + (Σ e)·ε. The reference masks each head, sums, divides by 8, shifts by the row maximum, normalises to
      p, and divides s·p by Σ s·p + ε. For REAL entries these agree: distributivity of the mask over the head sum,
      x / 8 = x · (1/8), cancellation of the common positive factor e^max, and multiplication of numerator and
      denominator by the positive normaliser. The precondition (every input entry finite) supplies the reals.
  The frames: each program's run is established with its results named (the reference's as a sequence of array
  operations; the tiled program's by launching its region, whose two input windows on one array share it by halves),
  and the inputs are read unchanged off the end state. The tiled program's idealisation rewrites nothing, so
  `preserves` is the true proposition.
-/
import proofs.«174083_j4664334483724_2_alg».proof.Defs
import proofs.«174083_j4664334483724_2_alg».proof.Proof.Gen.Kernel
import proofs.«174083_j4664334483724_2_alg».proof.Proof.Gen.KernelIdeal
import proofs.«174083_j4664334483724_2_alg».proof.Proof.Gen.ReferenceIdeal
import proofs.«174083_j4664334483724_2_alg».proof.Proof.Gen.Pre_finite_inputs
import proofs.«174083_j4664334483724_2_alg».proof.Proof.KFrameBits
import proofs.«174083_j4664334483724_2_alg».proof.Proof.KValue
import proofs.«174083_j4664334483724_2_alg».proof.Proof.RefRunVals
import proofs.«174083_j4664334483724_2_alg».proof.Proof.RefValueB3
import proofs.«174083_j4664334483724_2_alg».proof.Proof.AlgSpec
import proofs.«174083_j4664334483724_2_alg».proof.Proof.Finite
import Idealize.ShloMosaic.Adequacy
import Idealize.ShloMosaic.Init

noncomputable section

namespace Cert.Proof

open Idealize.ShloMosaic Idealize.SL.Sem Idealize.ShloMosaic.ValueIdx

/-- The reference's first result as one function of the whole index. -/
theorem ref_xout (a1 : FVec Ideal Cert.ReferenceIdeal.S1x3200x512 .f32) :
    Cert.RefTerms.xout (F := Ideal) a1
      = fun j : Cert.ReferenceIdeal.S1x3200x1024.Idx => Cert.Spec.xout (Cert.Spec.heads a1) (j 1) (j 2) := by
  funext j
  obtain ⟨a, n, k, rfl⟩ : ∃ (a : Fin 1) (n : Fin 3200) (k : Fin 1024), j = ix3 a n k := ⟨j 0, j 1, j 2, eq_ix3 j⟩
  obtain rfl : a = 0 := Subsingleton.elim _ _
  exact Cert.RefValue.xout_eq a1 n k

/-- The reference's second result as one function of the whole index, in the reference's own spelling. -/
theorem ref_sim (a1 : FVec Ideal Cert.ReferenceIdeal.S1x3200x512 .f32) :
    Cert.RefTerms.sim (F := Ideal) a1
      = fun j : Cert.ReferenceIdeal.S3200x3200.Idx => Cert.Spec.rSim (Cert.Spec.heads a1) (j 0) (j 1) := by
  funext j
  obtain ⟨n, k, rfl⟩ : ∃ (n : Fin 3200) (k : Fin 3200), j = ix2 n k := ⟨j 0, j 1, eq_ix2 j⟩
  exact Cert.RefValue.sim_eq a1 n k

theorem frame_k : Cert.frame_Kernel := fun m ρ _ => Cert.Kernel.Hand.run_frame (F := Bits) m ρ

theorem frame_ki : Cert.frame_KernelIdeal := fun m ρ _ => Cert.KernelIdeal.Hand.run_frame (F := Ideal) m ρ

theorem frame_ri : Cert.frame_ReferenceIdeal := fun m ρ _ =>
  (θ_run (Cert.ReferenceIdeal.defs (F := Ideal)) _ _).mono (fun _ h c => (h c).2.2)
    (Cert.ReferenceIdeal.HandRun.run (F := Ideal) m ρ)

theorem preserves : Cert.preserves_Kernel_KernelIdeal := trivial

/-- From memories that agree on the inputs, both programs end with the specification's two arrays of the input: the
    first results coincide entry by entry, the second by the soft-max law for real entries. -/
theorem algebraic : Cert.algebraic_KernelIdeal_ReferenceIdeal := by
  intro m ρ m' ρ' hpre hagree
  refine ⟨_, _, Cert.KernelIdeal.Hand.run_value m ρ, ?_⟩
  refine (θ_run (Cert.ReferenceIdeal.defs (F := Ideal)) _ _).mono (fun r h c => ?_)
    (Cert.ReferenceIdeal.HandRun.run (F := Ideal) m' ρ')
  obtain ⟨h86, h116, hargs⟩ := h c
  obtain ⟨-, ha1, -⟩ := hagree c
  refine ⟨?_, ?_, hargs⟩
  · rw [h86, ref_xout, ha1]
  · rw [h116, ref_sim, ha1]
    funext j
    exact (Cert.AlgSpec.kSim_eq_rSim _
      (fun h n d => Cert.Finite.heads_real _ _ _ _ _ _ _ _ (hpre c) h n d) (j 0) (j 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
